-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩
abbrev S8192 : Shape := ⟨1, ![8192]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  reducesTo_S8192x1024_S8192_d1 : S8192x1024.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_v14 : IVec S_ 1) (main_v15 : FVec F S8192x1024 .f32) (main_cst_5 : FVec F S_ .f32) : IVec S_ 1 :=
  let main_v16 : FVec F S8192 .f32 := (fun x v => Host.reduceAdd x v reducesTo_S8192x1024_S8192_d1 h_S_) main_v15 main_cst_5
  let main_cst_6 : FVec F S_ .f32 := constant S_ .f32 0x00000000#32
  let main_v17 : FVec F S8192 .f32 := broadcastInDim S8192 ![] bcast_S_S8192 main_cst_6
  let main_v18 : IVec S8192 1 := cmpf .ogt main_v16 main_v17
  let main_c_7 : IVec S_ 1 := constantI S_ 1 1#1
  let main_v19 : IVec S_ 1 := (fun x v => Host.reduce IntOp.andi x v reducesTo_S8192_S_d0 h_S_) main_v18 main_c_7
  let main_v20 : IVec S_ 1 := andi main_v14 main_v19
  main_v20

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := mulf main_arg0 main_arg0
  let main_cst_2 : FVec F S_ .f32 := constant S_ .f32 0x00000000#32
  let main_v10 : FVec F S8192 .f32 := (fun x v => Host.reduceAdd x v reducesTo_S8192x1024_S8192_d1 h_S_) main_v9 main_cst_2
  let main_cst_3 : FVec F S_ .f32 := constant S_ .f32 0x00000000#32
  let main_v11 : FVec F S8192 .f32 := broadcastInDim S8192 ![] bcast_S_S8192 main_cst_3
  let main_v12 : IVec S8192 1 := cmpf .ogt main_v10 main_v11
  let main_c_4 : IVec S_ 1 := constantI S_ 1 1#1
  let main_v13 : IVec S_ 1 := (fun x v => Host.reduce IntOp.andi x v reducesTo_S8192_S_d0 h_S_) main_v12 main_c_4
  let main_v14 : IVec S_ 1 := andi main_v8 main_v13
  let main_v15 : FVec F S8192x1024 .f32 := mulf main_arg1 main_arg1
  let main_cst_5 : FVec F S_ .f32 := constant S_ .f32 0x00000000#32
  fn_part1 (F := F) main_v14 main_v15 main_cst_5
-- ==== Kernel.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩
abbrev S1024x1 : Shape := ⟨2, ![1024, 1]⟩
abbrev S1024 : Shape := ⟨1, ![1024]⟩
abbrev S1x8192 : Shape := ⟨2, ![1, 8192]⟩
abbrev S512x1024 : Shape := ⟨2, ![512, 1024]⟩
abbrev S1x1024 : Shape := ⟨2, ![1, 1024]⟩

abbrev nBuf : Space → Nat
  | .hbm => 24
  | .vmem => 38
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .bf16⟩
  | .hbm, ⟨17, _⟩ => ⟨S8192x1024, .bf16⟩
  | .hbm, ⟨18, _⟩ => ⟨S8192x1, .f32⟩
  | .hbm, ⟨19, _⟩ => ⟨S8192x1, .f32⟩
  | .hbm, ⟨20, _⟩ => ⟨S1x8192, .f32⟩
  | .hbm, ⟨21, _⟩ => ⟨S1x8192, .f32⟩
  | .hbm, ⟨22, _⟩ => ⟨S8192x1024, .f32⟩
  | .hbm, ⟨23, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1x1024, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .bf16⟩
  | .local _ .vmem, ⟨28, _⟩ => ⟨S512x1024, .bf16⟩
  | .local _ .vmem, ⟨29, _⟩ => ⟨S1024x1024, .bf16⟩
  | .local _ .vmem, ⟨30, _⟩ => ⟨S1024x1024, .bf16⟩
  | .local _ .vmem, ⟨31, _⟩ => ⟨S1x1024, .f32⟩
  | .local _ .vmem, ⟨32, _⟩ => ⟨S1x1024, .f32⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | .local _ .vmem, ⟨36, _⟩ => ⟨S512x1024, .f32⟩
  | .local _ .vmem, ⟨37, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc1_scratch1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_stg4_0 : Ref sig .tc := ⟨.vmem, 35, rfl⟩
abbrev cc3_stg4_1 : Ref sig .tc := ⟨.vmem, 36, rfl⟩
abbrev cc3_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_16 : BitVec 32 := 0#32
  let v31 : BitVec 1 := Scalar.cmpi .ne v30 c0_i32_16
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_16 : BitVec 32 := 0#32
  let v31 : BitVec 1 := Scalar.cmpi .ne v30 c0_i32_16
  v31

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![16, 8], ![false, false]⟩

def k2_cond2 (i : grid2.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_13 : BitVec 32 := 0#32
  let v24 : BitVec 1 := Scalar.cmpi .ne v23 c0_i32_13
  v24

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![16, 8], ![false, false]⟩

def k3_cond2 (i : grid3.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_13 : BitVec 32 := 0#32
  let v24 : BitVec 1 := Scalar.cmpi .ne v23 c0_i32_13
  v24

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S8192x1_S1x8192 : S8192x1.ShapeCasts S1x8192
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S1024x1024_S1024x1024_S1024x1024_1_1_0_0_n_n_wf : DotDims.WF S1024x1024 S1024x1024 S1024x1024 [1] [1] [0] [0] [] []
  dot_S512x1024_S1024x1024_S512x1024_1_1_0_0_n_n_wf : DotDims.WF S512x1024 S1024x1024 S512x1024 [1] [1] [0] [0] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .bf16 = 32 ∨ (Rect.block (s := S8192x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S8192x1024.size a
  hwx2_1 : ∀ i : grid2.Coords, EltTy.bits .bf16 = 32 ∨ (Rect.block (s := S8192x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x8192.size a
  hwx2_2 : ∀ i : grid2.Coords, EltTy.bits .f32 = 32 ∨ (Rect.block (s := S1x8192) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x1024.size a ≤ S8192x1024.size a
  hwx2_4 : ∀ i : grid2.Coords, EltTy.bits .f32 = 32 ∨ (Rect.block (s := S8192x1024) S512x1024.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S8192x1024.size a
  hwx3_0 : ∀ i : grid3.Coords, EltTy.bits .bf16 = 32 ∨ (Rect.block (s := S8192x1024) S512x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S8192x1024.size a
  hwx3_1 : ∀ i : grid3.Coords, EltTy.bits .bf16 = 32 ∨ (Rect.block (s := S8192x1024) S1024x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x8192.size a
  hwx3_2 : ∀ i : grid3.Coords, EltTy.bits .f32 = 32 ∨ (Rect.block (s := S1x8192) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1024.size a ≤ S8192x1024.size a
  hwx3_3 : ∀ i : grid3.Coords, EltTy.bits .f32 = 32 ∨ (Rect.block (s := S8192x1024) S512x1024.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x1024.size a ≤ S8192x1024.size a
  hwx3_4 : ∀ i : grid3.Coords, EltTy.bits .f32 = 32 ∨ (Rect.block (s := S8192x1024) S512x1024.size (cc3_transform_4 i) (hinb3_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v12) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v13) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v12) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S512x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v18) S512x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v13) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S1x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v11) S512x1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v19) S512x1024.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩
abbrev S8192x8192 : Shape := ⟨2, ![8192, 8192]⟩
abbrev S1x8192 : Shape := ⟨2, ![1, 8192]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1024x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S1x8192, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192, .f32⟩
  | .hbm, ⟨46, _⟩ => ⟨S1x8192, .f32⟩
  | .hbm, ⟨47, _⟩ => ⟨S8192x8192, .f32⟩
  | .hbm, ⟨48, _⟩ => ⟨S8192x8192, .f32⟩
  | .hbm, ⟨49, _⟩ => ⟨S8192x1024, .f32⟩
  | .hbm, ⟨50, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  transposes_S8192x8192_S8192x8192_1_0 : S8192x8192.Transposes [1, 0] S8192x8192
  reducesTo_S8192x8192_S8192_d0 : S8192x8192.ReducesTo [0] S8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.Lse0Runs.lean ====
import proofs.«154747_j1580547971631_2_alg».proof.Proof.Gen.KernelIdeal.Launch
import proofs.«154747_j1580547971631_2_alg».proof.Proof.Gen.KernelIdeal.Skeleton
import proofs.«154747_j1580547971631_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Lse0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! # The row log-sum-exp kernel (first of the four regions), run case by case

The body visits the tiles of one block of rows left to right. It keeps two columns between tiles: the running row
maximum and the running row sum of exponentials taken relative to that maximum. At a row block's first tile both are
reset (to `-∞` and `0`); at every tile the tile's scores are folded in; at the last tile the row's log-sum-exp,
maximum plus logarithm of the sum, is written to the output block. Three cases meet the grid: a first tile, a middle
tile and a last tile (the grid has eight tiles per row block, so no tile is both first and last). -/

/-- A row block's first tile: the running maximum and running sum are reset before the tile is folded in. -/
abbrev first0 (i : grid0.Coords) : Prop := (Scalar.cmpi .ne (Scalar.extui (Scalar.cmpi .eq (BitVec.ofNat 32 (i 1).val) 0#32)) 0#32) = 1#1
/-- A row block's last tile: the rows' log-sum-exp is written to the output block. -/
abbrev last0 (i : grid0.Coords) : Prop := k0_cond2 i = 1#1

/-- The first tile is the one with tile coordinate `0`: the points `≡ 0 (mod 8)`. -/
theorem hfirst0 : ∀ t : Fin cfg0.N, first0 (grid0.coords t) ↔ t.val % 8 = 0 :=
  (by decide +kernel : ∀ t : Fin grid0.N, first0 (grid0.coords t) ↔ t.val % 8 = 0)
/-- The last tile is the one with tile coordinate `7`: the points `≡ 7 (mod 8)`. -/
theorem hlast0 : ∀ t : Fin cfg0.N, last0 (grid0.coords t) ↔ t.val % 8 = 7 :=
  (by decide +kernel : ∀ t : Fin grid0.N, last0 (grid0.coords t) ↔ t.val % 8 = 7)

set_option maxHeartbeats 1000000 in
/-- A FIRST tile. Whatever the two running columns held, the body resets them and folds the tile in; the output block
    is not touched. The witnesses are what its stores wrote into the two columns. -/
noncomputable def runFirst (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (hf : first0 i) (hl : ¬last0 i)
    (x2 x3 : Vec F S1024x1024 .bf16) :
    Σ' (L5 : List (View.Piece (Elt F) S1024x1 .f32)), { L6 : List (View.Piece (Elt F) S1024x1 .f32) //
      ∀ (o4 : Vec F S1024x1 .f32) (E : Set ℕ) (K : PUnit → sProp 𝕄),
        iprop(owns (c : Thread nD τ) arg2 fullShare x2 ∗ owns (c : Thread nD τ) arg3 fullShare x3 ∗ owns (c : Thread nD τ) arg4 fullShare o4
            ∗ (∃ d, owns (c : Thread nD τ) arg5 fullShare d) ∗ (∃ d, owns (c : Thread nD τ) arg6 fullShare d)
            ∗ (iprop(owns (c : Thread nD τ) arg2 fullShare x2 ∗ owns (c : Thread nD τ) arg3 fullShare x3 ∗ owns (c : Thread nD τ) arg4 fullShare o4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc0__lse_kernel i arg2 harg2 arg3 harg3 arg4 harg4 arg5 harg5 arg6 harg6) K } := by
  refine ⟨?_, ?_, fun o4 E K => ?run⟩
  case run =>
    simp only [cc0__lse_kernel_eq_skeleton]; unfold cc0__lse_kernel_skel
    unfold owns
    iintro ⟨⟨%f2, %hf2, H2⟩, ⟨%f3, %hf3, H3⟩, ⟨%f4, %hf4, H4⟩, ⟨%d5, %f5, -, H5⟩, ⟨%d6, %f6, -, H6⟩, Hk⟩
    obtain rfl := harg2.eq_unread hf2; obtain rfl := harg3.eq_unread hf3; obtain rfl := harg4.eq_unread hf4
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    iexists _; iexact H6

set_option maxHeartbeats 1000000 in
/-- A MIDDLE tile. From the running maximum `s5` and running sum `s6` the previous tile left, the body folds the tile
    in; the output block is not touched. -/
noncomputable def runMid (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (hf : ¬first0 i) (hl : ¬last0 i)
    (x2 x3 : Vec F S1024x1024 .bf16) (s5 s6 : Vec F S1024x1 .f32) :
    Σ' (L5 : List (View.Piece (Elt F) S1024x1 .f32)), { L6 : List (View.Piece (Elt F) S1024x1 .f32) //
      ∀ (o4 : Vec F S1024x1 .f32) (E : Set ℕ) (K : PUnit → sProp 𝕄),
        iprop(owns (c : Thread nD τ) arg2 fullShare x2 ∗ owns (c : Thread nD τ) arg3 fullShare x3 ∗ owns (c : Thread nD τ) arg4 fullShare o4
            ∗ owns (c : Thread nD τ) arg5 fullShare s5 ∗ owns (c : Thread nD τ) arg6 fullShare s6
            ∗ (iprop(owns (c : Thread nD τ) arg2 fullShare x2 ∗ owns (c : Thread nD τ) arg3 fullShare x3 ∗ owns (c : Thread nD τ) arg4 fullShare o4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc0__lse_kernel i arg2 harg2 arg3 harg3 arg4 harg4 arg5 harg5 arg6 harg6) K } := by
  refine ⟨?_, ?_, fun o4 E K => ?run⟩
  case run =>
    simp only [cc0__lse_kernel_eq_skeleton]; unfold cc0__lse_kernel_skel
    unfold owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    iexists _; iexact H6

set_option maxHeartbeats 1000000 in
/-- A LAST tile. From the running maximum `s5` and running sum `s6` the previous tile left, the body folds the tile in
    and then writes maximum plus logarithm of the sum over the whole output block, whatever it held. -/
noncomputable def runLast (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (hf : ¬first0 i) (hl : last0 i)
    (x2 x3 : Vec F S1024x1024 .bf16) (s5 s6 : Vec F S1024x1 .f32) :
    Σ' (L4 : List (View.Piece (Elt F) S1024x1 .f32)) (L5 : List (View.Piece (Elt F) S1024x1 .f32)), { L6 : List (View.Piece (Elt F) S1024x1 .f32) //
      ∀ (E : Set ℕ) (K : PUnit → sProp 𝕄),
        iprop(owns (c : Thread nD τ) arg2 fullShare x2 ∗ owns (c : Thread nD τ) arg3 fullShare x3 ∗ (∃ d, owns (c : Thread nD τ) arg4 fullShare d)
            ∗ owns (c : Thread nD τ) arg5 fullShare s5 ∗ owns (c : Thread nD τ) arg6 fullShare s6
            ∗ (iprop(owns (c : Thread nD τ) arg2 fullShare x2 ∗ owns (c : Thread nD τ) arg3 fullShare x3
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc0__lse_kernel i arg2 harg2 arg3 harg3 arg4 harg4 arg5 harg5 arg6 harg6) K } := by
  refine ⟨?_, ?_, ?_, fun E K => ?run⟩
  case run =>
    simp only [cc0__lse_kernel_eq_skeleton]; unfold cc0__lse_kernel_skel
    unfold owns
    iintro ⟨⟨%f2, %hf2, H2⟩, ⟨%f3, %hf3, H3⟩, ⟨%d4, %f4, -, H4⟩, ⟨%f5, %hf5, H5⟩, ⟨%f6, %hf6, H6⟩, Hk⟩
    obtain rfl := harg2.eq_unread hf2; obtain rfl := harg3.eq_unread hf3
    obtain rfl := harg5.eq_unread hf5; obtain rfl := harg6.eq_unread hf6
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; iexact H4
    isplitl [H5]
    · iexists _; iexact H5
    iexists _; iexact H6

end Cert.KernelIdeal.Lse0

end
-- ==== Proof.Lse0Data.lean ====
import proofs.«154747_j1580547971631_2_alg».proof.Proof.Gen.KernelIdeal.Launch
import proofs.«154747_j1580547971631_2_alg».proof.Proof.Gen.KernelIdeal.Skeleton
import proofs.«154747_j1580547971631_2_alg».proof.Proof.Gen.KernelIdeal.Points
import proofs.«154747_j1580547971631_2_alg».proof.Proof.Lse0Runs
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Lse0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The row log-sum-exp region: what it holds point by point, and its body obligation

The region's arrays are taken from ANY valuation `V` of the unscoped buffers (what the items before it left). At
point `t` the two input windows hold their blocks of the arrays; the two running columns and, at a row block's last
tile, the output block hold what the case of that tile's run wrote, the running columns of a non-first tile starting
from what the tile before left. -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window holds its block at every tile, fetched there or not: between fetches its index does not move. -/
theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The column-block window holds its block at every tile. -/
theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The memrefs the body is called with -/

abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
/-- The running row maximum and the running row sum: whole scoped buffers of the call's own. -/
abbrev scM5 : Memref sig .tc .vmem S1024x1 .f32 := Memref.whole cc0_scratch0
abbrev scM6 : Memref sig .tc .vmem S1024x1 .f32 := Memref.whole cc0_scratch1
/-- Views through which a column's contents are stated (which buffer is read through does not matter once the writes cover it). -/
abbrev VO : View sig .tc .vmem S1024x1 .f32 := (Memref.whole cc0_stg2_0 : Memref sig .tc .vmem S1024x1 .f32).view
abbrev VS5 : View sig .tc .vmem S1024x1 .f32 := scM5.view
abbrev VS6 : View sig .tc .vmem S1024x1 .f32 := scM6.view

/-- A column's contents once a list of writes has covered it: the writes read back over anything. -/
def rdO (L : List (View.Piece (Elt F) S1024x1 .f32)) : Vec F S1024x1 .f32 := VO.read (Elt F) (VO.writes (Elt F) VO.junk L)
def rd5 (L : List (View.Piece (Elt F) S1024x1 .f32)) : Vec F S1024x1 .f32 := VS5.read (Elt F) (VS5.writes (Elt F) VS5.junk L)
def rd6 (L : List (View.Piece (Elt F) S1024x1 .f32)) : Vec F S1024x1 .f32 := VS6.read (Elt F) (VS6.writes (Elt F) VS6.junk L)

/-! ## The three cases at a point of the grid -/

/-- The run of a first tile at point `t`, on the point's memrefs and blocks. -/
def firstAt (c : Dev nD) (t : Fin cfg0.N) (hf : t.val % 8 = 0) (hl : ¬t.val % 8 = 7) :=
  runFirst (F := F) (Ix := Unit) (U := UR sig nD τ) (Lvl := ℕ) c (grid0.coords t) (ms0 t) (hs0 t) (ms1 t) (hs1 t) (ms2 t) (hs2 t) scM5 (Memref.isWhole_whole _) scM6 (Memref.isWhole_whole _)
    ((hfirst0 t).mpr hf) (fun h => hl ((hlast0 t).mp h)) (iblk V c 0 t) (iblk V c 1 t)
/-- The run of a middle tile at point `t` from the running columns `s5`, `s6`. -/
def midAt (c : Dev nD) (t : Fin cfg0.N) (hf : ¬t.val % 8 = 0) (hl : ¬t.val % 8 = 7) (s5 s6 : Vec F S1024x1 .f32) :=
  runMid (F := F) (Ix := Unit) (U := UR sig nD τ) (Lvl := ℕ) c (grid0.coords t) (ms0 t) (hs0 t) (ms1 t) (hs1 t) (ms2 t) (hs2 t) scM5 (Memref.isWhole_whole _) scM6 (Memref.isWhole_whole _)
    (fun h => hf ((hfirst0 t).mp h)) (fun h => hl ((hlast0 t).mp h)) (iblk V c 0 t) (iblk V c 1 t) s5 s6
/-- The run of a last tile at point `t` from the running columns `s5`, `s6`. -/
def lastAt (c : Dev nD) (t : Fin cfg0.N) (hf : ¬t.val % 8 = 0) (hl : t.val % 8 = 7) (s5 s6 : Vec F S1024x1 .f32) :=
  runLast (F := F) (Ix := Unit) (U := UR sig nD τ) (Lvl := ℕ) c (grid0.coords t) (ms0 t) (hs0 t) (ms1 t) (hs1 t) (ms2 t) (hs2 t) scM5 (Memref.isWhole_whole _) scM6 (Memref.isWhole_whole _)
    (fun h => hf ((hfirst0 t).mp h)) ((hlast0 t).mpr hl) (iblk V c 0 t) (iblk V c 1 t) s5 s6

/-- Each case's writes to a running column, and the last tile's to the output block, cover it (one whole-column store last). -/
theorem cov5F (c : Dev nD) (t : Fin cfg0.N) (hf) (hl) (y : S1024x1.Idx) : ∃ pc ∈ (firstAt V c t hf hl).1, y ∈ pc.1.set :=
  View.cover_of_tiledL (firstAt V c t hf hl).1 S1024x1.size (by sl_kernel_rfl) y
theorem cov6F (c : Dev nD) (t : Fin cfg0.N) (hf) (hl) (y : S1024x1.Idx) : ∃ pc ∈ (firstAt V c t hf hl).2.1, y ∈ pc.1.set :=
  View.cover_of_tiledL (firstAt V c t hf hl).2.1 S1024x1.size (by sl_kernel_rfl) y
theorem cov5M (c : Dev nD) (t : Fin cfg0.N) (hf) (hl) (s5 s6) (y : S1024x1.Idx) : ∃ pc ∈ (midAt V c t hf hl s5 s6).1, y ∈ pc.1.set :=
  View.cover_of_tiledL (midAt V c t hf hl s5 s6).1 S1024x1.size (by sl_kernel_rfl) y
theorem cov6M (c : Dev nD) (t : Fin cfg0.N) (hf) (hl) (s5 s6) (y : S1024x1.Idx) : ∃ pc ∈ (midAt V c t hf hl s5 s6).2.1, y ∈ pc.1.set :=
  View.cover_of_tiledL (midAt V c t hf hl s5 s6).2.1 S1024x1.size (by sl_kernel_rfl) y
theorem cov4L (c : Dev nD) (t : Fin cfg0.N) (hf) (hl) (s5 s6) (y : S1024x1.Idx) : ∃ pc ∈ (lastAt V c t hf hl s5 s6).1, y ∈ pc.1.set :=
  View.cover_of_tiledL (lastAt V c t hf hl s5 s6).1 S1024x1.size (by sl_kernel_rfl) y
theorem cov5L (c : Dev nD) (t : Fin cfg0.N) (hf) (hl) (s5 s6) (y : S1024x1.Idx) : ∃ pc ∈ (lastAt V c t hf hl s5 s6).2.1, y ∈ pc.1.set :=
  View.cover_of_tiledL (lastAt V c t hf hl s5 s6).2.1 S1024x1.size (by sl_kernel_rfl) y
theorem cov6L (c : Dev nD) (t : Fin cfg0.N) (hf) (hl) (s5 s6) (y : S1024x1.Idx) : ∃ pc ∈ (lastAt V c t hf hl s5 s6).2.2.1, y ∈ pc.1.set :=
  View.cover_of_tiledL (lastAt V c t hf hl s5 s6).2.2.1 S1024x1.size (by sl_kernel_rfl) y

/-! ## What the output block and the running columns hold after each point -/

/-- After the body at position `n`: the output block's staging buffer (a placeholder nothing reads at a tile that does
    not write it), the running maximum, the running sum — the case the position selects, a non-first tile run from
    what position `n - 1` left in the two columns. -/
def outsAt (c : Dev nD) : (n : ℕ) → n < cfg0.N → Vec F S1024x1 .f32 × Vec F S1024x1 .f32 × Vec F S1024x1 .f32
  | 0, hn => (rdO [], rd5 (firstAt V c ⟨0, hn⟩ (Nat.zero_mod _) (by show ¬(0 : ℕ) % 8 = 7; decide)).1, rd6 (firstAt V c ⟨0, hn⟩ (Nat.zero_mod _) (by show ¬(0 : ℕ) % 8 = 7; decide)).2.1)
  | n + 1, hn =>
    if h0 : (n + 1) % 8 = 0 then
      if h7 : (n + 1) % 8 = 7 then False.elim (by omega)
      else (rdO [], rd5 (firstAt V c ⟨n + 1, hn⟩ h0 h7).1, rd6 (firstAt V c ⟨n + 1, hn⟩ h0 h7).2.1)
    else
      if h7 : (n + 1) % 8 = 7 then
        (rdO (lastAt V c ⟨n + 1, hn⟩ h0 h7 (outsAt c n (Nat.lt_of_succ_lt hn)).2.1 (outsAt c n (Nat.lt_of_succ_lt hn)).2.2).1,
         rd5 (lastAt V c ⟨n + 1, hn⟩ h0 h7 (outsAt c n (Nat.lt_of_succ_lt hn)).2.1 (outsAt c n (Nat.lt_of_succ_lt hn)).2.2).2.1,
         rd6 (lastAt V c ⟨n + 1, hn⟩ h0 h7 (outsAt c n (Nat.lt_of_succ_lt hn)).2.1 (outsAt c n (Nat.lt_of_succ_lt hn)).2.2).2.2.1)
      else
        (rdO [],
         rd5 (midAt V c ⟨n + 1, hn⟩ h0 h7 (outsAt c n (Nat.lt_of_succ_lt hn)).2.1 (outsAt c n (Nat.lt_of_succ_lt hn)).2.2).1,
         rd6 (midAt V c ⟨n + 1, hn⟩ h0 h7 (outsAt c n (Nat.lt_of_succ_lt hn)).2.1 (outsAt c n (Nat.lt_of_succ_lt hn)).2.2).2.1)

/-- What position `t - 1` left, for a position that is not the first. -/
abbrev prev (c : Dev nD) (t : Fin cfg0.N) := outsAt V c (t.val - 1) (Nat.lt_of_le_of_lt (Nat.sub_le _ _) t.isLt)

theorem outsAt_first (c : Dev nD) (t : Fin cfg0.N) (h0 : t.val % 8 = 0) (h7 : ¬t.val % 8 = 7) :
    outsAt V c t.val t.isLt = (rdO [], rd5 (firstAt V c t h0 h7).1, rd6 (firstAt V c t h0 h7).2.1) := by
  obtain ⟨n, hn⟩ := t
  cases n with
  | zero => exact rfl
  | succ n => exact (dif_pos h0).trans ((dif_neg h7).trans rfl)
theorem outsAt_mid (c : Dev nD) (t : Fin cfg0.N) (h0 : ¬t.val % 8 = 0) (h7 : ¬t.val % 8 = 7) :
    outsAt V c t.val t.isLt = (rdO [], rd5 (midAt V c t h0 h7 (prev V c t).2.1 (prev V c t).2.2).1, rd6 (midAt V c t h0 h7 (prev V c t).2.1 (prev V c t).2.2).2.1) := by
  obtain ⟨n, hn⟩ := t
  cases n with
  | zero => exact absurd (Nat.zero_mod _) h0
  | succ n => exact (dif_neg h0).trans ((dif_neg h7).trans rfl)
theorem outsAt_last (c : Dev nD) (t : Fin cfg0.N) (h0 : ¬t.val % 8 = 0) (h7 : t.val % 8 = 7) :
    outsAt V c t.val t.isLt = (rdO (lastAt V c t h0 h7 (prev V c t).2.1 (prev V c t).2.2).1, rd5 (lastAt V c t h0 h7 (prev V c t).2.1 (prev V c t).2.2).2.1, rd6 (lastAt V c t h0 h7 (prev V c t).2.1 (prev V c t).2.2).2.2.1) := by
  obtain ⟨n, hn⟩ := t
  cases n with
  | zero => exact absurd (Nat.zero_mod _) h0
  | succ n => exact (dif_neg h0).trans ((dif_pos h7).trans rfl)

/-! ## The invariant -/

/-- The call's scoped rest with its own two columns split off, each whole at some contents. -/
theorem rest_split (c : Dev nD) :
    (Pipeline.scopedRest (Ix := Unit) (Name := ℕ) (U := UR sig nD τ) (Lvl := ℕ) (Val := Elt F) spec0 c : sProp 𝕄)
      = iprop(iprop((∃ d, owns (c : Thread nD τ) scM5 fullShare d) ∗ (∃ d, owns (c : Thread nD τ) scM6 fullShare d))
          ∗ Pipeline.scopedRestBut (Ix := Unit) (Name := ℕ) (U := UR sig nD τ) (Lvl := ℕ) (Val := Elt F) spec0 c [cc0_scratch0, cc0_scratch1]) := by
  rw [scopedRest0_split]; simp only [scM5, scM6, owns_whole]; try rfl

/-- Before position `n`: at the region's start every scoped buffer the pipeline does not stage at anything; afterwards
    the two running columns at what the point before left, the other such buffers at anything. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(iprop(owns (c : Thread nD τ) scM5 fullShare (outsAt V c n hn).2.1 ∗ owns (c : Thread nD τ) scM6 fullShare (outsAt V c n hn).2.2)
      ∗ Pipeline.scopedRestBut (Ix := Unit) (Name := ℕ) (U := UR sig nD τ) (Lvl := ℕ) (Val := Elt F) spec0 c [cc0_scratch0, cc0_scratch1])
theorem PhiS_zero (c : Dev nD) (n : ℕ) (h : n ≤ cfg0.N) (hz : n = 0) :
    PhiS V c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS V c (n + 1) hn = iprop(iprop(owns (c : Thread nD τ) scM5 fullShare (outsAt V c n hn).2.1 ∗ owns (c : Thread nD τ) scM6 fullShare (outsAt V c n hn).2.2)
      ∗ Pipeline.scopedRestBut (Ix := Unit) (Name := ℕ) (U := UR sig nD τ) (Lvl := ℕ) (Val := Elt F) spec0 c [cc0_scratch0, cc0_scratch1]) := rfl
theorem PhiS_pos (c : Dev nD) (n : ℕ) (h : n ≤ cfg0.N) (hz : n ≠ 0) :
    PhiS V c n h = iprop(iprop(owns (c : Thread nD τ) scM5 fullShare (outsAt V c (n - 1) (by omega)).2.1 ∗ owns (c : Thread nD τ) scM6 fullShare (outsAt V c (n - 1) (by omega)).2.2)
      ∗ Pipeline.scopedRestBut (Ix := Unit) (Name := ℕ) (U := UR sig nD τ) (Lvl := ℕ) (Val := Elt F) spec0 c [cc0_scratch0, cc0_scratch1]) := by
  cases n with
  | zero => exact absurd rfl hz
  | succ n => rfl
/-- After any point the invariant gives the scoped rest back: the columns' named contents are forgotten. -/
theorem PhiS_out (c : Dev nD) (n : ℕ) (h : n ≤ cfg0.N) :
    PhiS V c n h ⊢ (Pipeline.scopedRest (Ix := Unit) (Name := ℕ) (U := UR sig nD τ) (Lvl := ℕ) (Val := Elt F) spec0 c : sProp 𝕄) := by
  by_cases hz : n = 0
  · rw [PhiS_zero V c n h hz]
  · rw [PhiS_pos V c n h hz, rest_split]
    iintro ⟨⟨H5, H6⟩, Hr⟩
    isplitl [H5 H6]
    · isplitl [H5]
      · iexists _; iexact H5
      iexists _; iexact H6
    iexact Hr

/-! ## The proof data -/

/-- The region's proof data on core `c`: the arrays as `V` has them; after the body each input's buffer at its block,
    the output's at `outsAt`'s first component; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by dsimp only [dat]
theorem Phi_castSucc (c : Dev nD) (t : Fin cfg0.N) : (dat V c).Φ t.castSucc = PhiS V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = (outsAt V c t.val t.isLt).1 := by dsimp only [dat]
theorem before0 (c : Dev nD) (t : Fin cfg0.N) (d) : (dat V c).before 0 t d = iblk V c 0 t :=
  before_in0 V (dat V c) (A_eq V c 0) (after0 V c) t d
theorem before1 (c : Dev nD) (t : Fin cfg0.N) (d) : (dat V c).before 1 t d = iblk V c 1 t :=
  before_in1 V (dat V c) (A_eq V c 1) (after1 V c) t d

/-! ## Where the output window is idle -/

theorem live0 : ∀ t : Fin cfg0.N, cfg0.idle 0 (grid0.coords t) = false := by decide +kernel
theorem live1 : ∀ t : Fin cfg0.N, cfg0.idle 1 (grid0.coords t) = false := by decide +kernel
theorem idle2 : ∀ t : Fin cfg0.N, ¬t.val % 8 = 7 → cfg0.idle 2 (grid0.coords t) = true := by decide +kernel
theorem noFlush2 : ∀ t : Fin cfg0.N, ¬t.val % 8 = 7 → (cfg0.win 2).flush t = false := by decide +kernel
theorem live2 : ∀ t : Fin cfg0.N, t.val % 8 = 7 → cfg0.idle 2 (grid0.coords t) = false := by decide +kernel

end Cert.KernelIdeal.Lse0

end
-- ==== Proof.Lse0Body.lean ====
import proofs.«154747_j1580547971631_2_alg».proof.Proof.Gen.KernelIdeal.Launch
import proofs.«154747_j1580547971631_2_alg».proof.Proof.Gen.KernelIdeal.Skeleton
import proofs.«154747_j1580547971631_2_alg».proof.Proof.Gen.KernelIdeal.Points
import proofs.«154747_j1580547971631_2_alg».proof.Proof.Lse0Data
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Lse0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The row log-sum-exp region: its body obligation

At every point the invariant hands the body the two running columns — at anything before the region's first point,
otherwise at what the point before left — and takes them back at what this point's case wrote; the inputs' buffers hold
their blocks; the output block's buffer is passed through untouched except at a row block's last tile, where the case
covers it. The core owes nothing throughout. -/

variable (V : (c : Dev nD) → (b : Ref sig .tc) → Buf (Elt F) ((c : Thread nD τ).loc b))

/-- What the body is called with at point `t`, the windows one by one. -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))
/-- What it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

theorem leaves0 (c : Dev nD) (t : Fin cfg0.N) :
    (dat V c).leavesExact 0 t = owns (c : Thread nD τ) (ms0 t) fullShare (iblk V c 0 t) := by
  unfold Dat.leavesExact; rw [live0 t, after0]
theorem leaves1 (c : Dev nD) (t : Fin cfg0.N) :
    (dat V c).leavesExact 1 t = owns (c : Thread nD τ) (ms1 t) fullShare (iblk V c 1 t) := by
  unfold Dat.leavesExact; rw [live1 t, after1]
theorem leaves2_idle (c : Dev nD) (t : Fin cfg0.N) (h7 : ¬t.val % 8 = 7) :
    (dat V c).leavesExact 2 t = iprop(∃ d, owns (c : Thread nD τ) (ms2 t) fullShare ((dat V c).before 2 t d)) :=
  Dat.leavesExact_idle (dat V c) 2 t (idle2 t h7) (noFlush2 t h7)
theorem leaves2_live (c : Dev nD) (t : Fin cfg0.N) (h7 : t.val % 8 = 7) :
    (dat V c).leavesExact 2 t = owns (c : Thread nD τ) (ms2 t) fullShare (outsAt V c t.val t.isLt).1 := by
  unfold Dat.leavesExact; rw [live2 t h7, after2]

set_option maxHeartbeats 4000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat V c).owesAt () t.succ = (dat V c).owesAt () t.castSucc from rfl]
  rw [show (dat V c).Φ t.succ = PhiS V c (t.val + 1) t.isLt from rfl, PhiS_succ, leaves0, leaves1, Phi_castSucc]
  have hN : t.val < 64 := lt_of_lt_of_eq t.isLt (show cfg0.N = 64 from N_0)
  by_cases h0 : t.val % 8 = 0
  · have h7 : ¬t.val % 8 = 7 := by omega
    rw [leaves2_idle V c t h7, outsAt_first V c t h0 h7]
    dsimp only [rd5, rd6, rdO]
    -- whatever the invariant holds of the two columns, the first tile takes them at anything
    have hΦ : PhiS V c t.val (Nat.le_of_lt t.isLt) ⊢ (iprop(iprop((∃ d, owns (c : Thread nD τ) scM5 fullShare d) ∗ (∃ d, owns (c : Thread nD τ) scM6 fullShare d))
          ∗ Pipeline.scopedRestBut (Ix := Unit) (Name := ℕ) (U := UR sig nD τ) (Lvl := ℕ) (Val := Elt F) spec0 c [cc0_scratch0, cc0_scratch1]) : sProp 𝕄) := by
      rw [← rest_split]; exact PhiS_out V c _ _
    iintro ⟨HΦ, Ho, ⟨%d0, H0⟩, ⟨%d1, H1⟩, ⟨%d2, H2⟩⟩
    ihave HΦ' := hΦ $$ HΦ
    icases HΦ' with ⟨⟨H5, H6⟩, Hr⟩
    iapply ((firstAt V c t h0 h7).2.2 _ Set.univ _)
    isplitl [H0]; · iexact H0
    isplitl [H1]; · iexact H1
    isplitl [H2]; · iexact H2
    isplitl [H5]; · iexact H5
    isplitl [H6]; · iexact H6
    iintro ⟨H0, H1, H2, ⟨%e5, H5⟩, ⟨%e6, H6⟩⟩
    isplitl [H5 H6 Hr]
    · isplitl [H5 H6]
      · isplitl [H5]
        · unfold owns; iexists _; isplitr
          swap; · iexact H5
          ipureintro; exact View.read_writes_of_cover _ _ _ _ _ (cov5F V c t h0 h7)
        · unfold owns; iexists _; isplitr
          swap; · iexact H6
          ipureintro; exact View.read_writes_of_cover _ _ _ _ _ (cov6F V c t h0 h7)
      iexact Hr
    isplitl [Ho]; · iexact Ho
    isplitl [H0]; · iexact H0
    isplitl [H1]; · iexact H1
    iexists _; iexact H2
  · have hz : t.val ≠ 0 := fun h => h0 (by rw [h])
    rw [PhiS_pos V c _ _ hz]
    by_cases h7 : t.val % 8 = 7
    · rw [leaves2_live V c t h7, outsAt_last V c t h0 h7]
      dsimp only [rd5, rd6, rdO]
      iintro ⟨⟨⟨H5, H6⟩, Hr⟩, Ho, ⟨%d0, H0⟩, ⟨%d1, H1⟩, ⟨%d2, H2⟩⟩
      iapply ((lastAt V c t h0 h7 _ _).2.2.2 Set.univ _)
      isplitl [H0]; · iexact H0
      isplitl [H1]; · iexact H1
      isplitl [H2]; · iexists _; iexact H2
      isplitl [H5]; · iexact H5
      isplitl [H6]; · iexact H6
      iintro ⟨H0, H1, ⟨%e4, H4⟩, ⟨%e5, H5⟩, ⟨%e6, H6⟩⟩
      isplitl [H5 H6 Hr]
      · isplitl [H5 H6]
        · isplitl [H5]
          · unfold owns; iexists _; isplitr
            swap; · iexact H5
            ipureintro; exact View.read_writes_of_cover _ _ _ _ _ (cov5L V c t h0 h7 _ _)
          · unfold owns; iexists _; isplitr
            swap; · iexact H6
            ipureintro; exact View.read_writes_of_cover _ _ _ _ _ (cov6L V c t h0 h7 _ _)
        iexact Hr
      isplitl [Ho]; · iexact Ho
      isplitl [H0]; · iexact H0
      isplitl [H1]; · iexact H1
      unfold owns; iexists _; isplitr
      swap; · iexact H4
      ipureintro; exact View.read_writes_of_cover _ _ _ _ _ (cov4L V c t h0 h7 _ _)
    · rw [leaves2_idle V c t h7, outsAt_mid V c t h0 h7]
      dsimp only [rd5, rd6, rdO]
      iintro ⟨⟨⟨H5, H6⟩, Hr⟩, Ho, ⟨%d0, H0⟩, ⟨%d1, H1⟩, ⟨%d2, H2⟩⟩
      iapply ((midAt V c t h0 h7 _ _).2.2 _ Set.univ _)
      isplitl [H0]; · iexact H0
      isplitl [H1]; · iexact H1
      isplitl [H2]; · iexact H2
      isplitl [H5]; · iexact H5
      isplitl [H6]; · iexact H6
      iintro ⟨H0, H1, H2, ⟨%e5, H5⟩, ⟨%e6, H6⟩⟩
      isplitl [H5 H6 Hr]
      · isplitl [H5 H6]
        · isplitl [H5]
          · unfold owns; iexists _; isplitr
            swap; · iexact H5
            ipureintro; exact View.read_writes_of_cover _ _ _ _ _ (cov5M V c t h0 h7 _ _)
          · unfold owns; iexists _; isplitr
            swap; · iexact H6
            ipureintro; exact View.read_writes_of_cover _ _ _ _ _ (cov6M V c t h0 h7 _ _)
        iexact Hr
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- The invariant before the first point is the call's scoped rest; after the last it gives it back. -/
theorem Phi_first (c : Dev nD) : (dat V c).Φ 0 = (Pipeline.scopedRest (Ix := Unit) (Name := ℕ) (U := UR sig nD τ) (Lvl := ℕ) (Val := Elt F) spec0 c : sProp 𝕄) := rfl
theorem Phi_last (c : Dev nD) : (dat V c).Φ (Fin.last cfg0.N) ⊢ (Pipeline.scopedRest (Ix := Unit) (Name := ℕ) (U := UR sig nD τ) (Lvl := ℕ) (Val := Elt F) spec0 c : sProp 𝕄) := by
  rw [show (dat V c).Φ (Fin.last cfg0.N) = PhiS V c (Fin.last cfg0.N).val (Nat.le_of_lt_succ (Fin.last cfg0.N).isLt) from rfl]
  exact PhiS_out V c _ _

end Cert.KernelIdeal.Lse0

end
-- ==== Proof.Lse1Runs.lean ====
import proofs.«154747_j1580547971631_2_alg».proof.Proof.Gen.KernelIdeal.Launch
import proofs.«154747_j1580547971631_2_alg».proof.Proof.Gen.KernelIdeal.Skeleton
import proofs.«154747_j1580547971631_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Lse1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! # The row log-sum-exp kernel (second of the four regions), run case by case

The body visits the tiles of one block of rows left to right. It keeps two columns between tiles: the running row
maximum and the running row sum of exponentials taken relative to that maximum. At a row block's first tile both are
reset (to `-∞` and `0`); at every tile the tile's scores are folded in; at the last tile the row's log-sum-exp,
maximum plus logarithm of the sum, is written to the output block. Three cases meet the grid: a first tile, a middle
tile and a last tile (the grid has eight tiles per row block, so no tile is both first and last). -/

/-- A row block's first tile: the running maximum and running sum are reset before the tile is folded in. -/
abbrev first1 (i : grid1.Coords) : Prop := (Scalar.cmpi .ne (Scalar.extui (Scalar.cmpi .eq (BitVec.ofNat 32 (i 1).val) 0#32)) 0#32) = 1#1
/-- A row block's last tile: the rows' log-sum-exp is written to the output block. -/
abbrev last1 (i : grid1.Coords) : Prop := k1_cond2 i = 1#1

/-- The first tile is the one with tile coordinate `0`: the points `≡ 0 (mod 8)`. -/
theorem hfirst1 : ∀ t : Fin cfg1.N, first1 (grid1.coords t) ↔ t.val % 8 = 0 :=
  (by decide +kernel : ∀ t : Fin grid1.N, first1 (grid1.coords t) ↔ t.val % 8 = 0)
/-- The last tile is the one with tile coordinate `7`: the points `≡ 7 (mod 8)`. -/
theorem hlast1 : ∀ t : Fin cfg1.N, last1 (grid1.coords t) ↔ t.val % 8 = 7 :=
  (by decide +kernel : ∀ t : Fin grid1.N, last1 (grid1.coords t) ↔ t.val % 8 = 7)

set_option maxHeartbeats 1000000 in
/-- A FIRST tile. Whatever the two running columns held, the body resets them and folds the tile in; the output block
    is not touched. The witnesses are what its stores wrote into the two columns. -/
noncomputable def runFirst (c : Dev nD) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (hf : first1 i) (hl : ¬last1 i)
    (x2 x3 : Vec F S1024x1024 .bf16) :
    Σ' (L5 : List (View.Piece (Elt F) S1024x1 .f32)), { L6 : List (View.Piece (Elt F) S1024x1 .f32) //
      ∀ (o4 : Vec F S1024x1 .f32) (E : Set ℕ) (K : PUnit → sProp 𝕄),
        iprop(owns (c : Thread nD τ) arg2 fullShare x2 ∗ owns (c : Thread nD τ) arg3 fullShare x3 ∗ owns (c : Thread nD τ) arg4 fullShare o4
            ∗ (∃ d, owns (c : Thread nD τ) arg5 fullShare d) ∗ (∃ d, owns (c : Thread nD τ) arg6 fullShare d)
            ∗ (iprop(owns (c : Thread nD τ) arg2 fullShare x2 ∗ owns (c : Thread nD τ) arg3 fullShare x3 ∗ owns (c : Thread nD τ) arg4 fullShare o4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc1__lse_kernel i arg2 harg2 arg3 harg3 arg4 harg4 arg5 harg5 arg6 harg6) K } := by
  refine ⟨?_, ?_, fun o4 E K => ?run⟩
  case run =>
    simp only [cc1__lse_kernel_eq_skeleton]; unfold cc1__lse_kernel_skel
    unfold owns
    iintro ⟨⟨%f2, %hf2, H2⟩, ⟨%f3, %hf3, H3⟩, ⟨%f4, %hf4, H4⟩, ⟨%d5, %f5, -, H5⟩, ⟨%d6, %f6, -, H6⟩, Hk⟩
    obtain rfl := harg2.eq_unread hf2; obtain rfl := harg3.eq_unread hf3; obtain rfl := harg4.eq_unread hf4
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    iexists _; iexact H6

set_option maxHeartbeats 1000000 in
/-- A MIDDLE tile. From the running maximum `s5` and running sum `s6` the previous tile left, the body folds the tile
    in; the output block is not touched. -/
noncomputable def runMid (c : Dev nD) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (hf : ¬first1 i) (hl : ¬last1 i)
    (x2 x3 : Vec F S1024x1024 .bf16) (s5 s6 : Vec F S1024x1 .f32) :
    Σ' (L5 : List (View.Piece (Elt F) S1024x1 .f32)), { L6 : List (View.Piece (Elt F) S1024x1 .f32) //
      ∀ (o4 : Vec F S1024x1 .f32) (E : Set ℕ) (K : PUnit → sProp 𝕄),
        iprop(owns (c : Thread nD τ) arg2 fullShare x2 ∗ owns (c : Thread nD τ) arg3 fullShare x3 ∗ owns (c : Thread nD τ) arg4 fullShare o4
            ∗ owns (c : Thread nD τ) arg5 fullShare s5 ∗ owns (c : Thread nD τ) arg6 fullShare s6
            ∗ (iprop(owns (c : Thread nD τ) arg2 fullShare x2 ∗ owns (c : Thread nD τ) arg3 fullShare x3 ∗ owns (c : Thread nD τ) arg4 fullShare o4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc1__lse_kernel i arg2 harg2 arg3 harg3 arg4 harg4 arg5 harg5 arg6 harg6) K } := by
  refine ⟨?_, ?_, fun o4 E K => ?run⟩
  case run =>
    simp only [cc1__lse_kernel_eq_skeleton]; unfold cc1__lse_kernel_skel
    unfold owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    iexists _; iexact H6

set_option maxHeartbeats 1000000 in
/-- A LAST tile. From the running maximum `s5` and running sum `s6` the previous tile left, the body folds the tile in
    and then writes maximum plus logarithm of the sum over the whole output block, whatever it held. -/
noncomputable def runLast (c : Dev nD) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (hf : ¬first1 i) (hl : last1 i)
    (x2 x3 : Vec F S1024x1024 .bf16) (s5 s6 : Vec F S1024x1 .f32) :
    Σ' (L4 : List (View.Piece (Elt F) S1024x1 .f32)) (L5 : List (View.Piece (Elt F) S1024x1 .f32)), { L6 : List (View.Piece (Elt F) S1024x1 .f32) //
      ∀ (E : Set ℕ) (K : PUnit → sProp 𝕄),
        iprop(owns (c : Thread nD τ) arg2 fullShare x2 ∗ owns (c : Thread nD τ) arg3 fullShare x3 ∗ (∃ d, owns (c : Thread nD τ) arg4 fullShare d)
            ∗ owns (c : Thread nD τ) arg5 fullShare s5 ∗ owns (c : Thread nD τ) arg6 fullShare s6
            ∗ (iprop(owns (c : Thread nD τ) arg2 fullShare x2 ∗ owns (c : Thread nD τ) arg3 fullShare x3
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc1__lse_kernel i arg2 harg2 arg3 harg3 arg4 harg4 arg5 harg5 arg6 harg6) K } := by
  refine ⟨?_, ?_, ?_, fun E K => ?run⟩
  case run =>
    simp only [cc1__lse_kernel_eq_skeleton]; unfold cc1__lse_kernel_skel
    unfold owns
    iintro ⟨⟨%f2, %hf2, H2⟩, ⟨%f3, %hf3, H3⟩, ⟨%d4, %f4, -, H4⟩, ⟨%f5, %hf5, H5⟩, ⟨%f6, %hf6, H6⟩, Hk⟩
    obtain rfl := harg2.eq_unread hf2; obtain rfl := harg3.eq_unread hf3
    obtain rfl := harg5.eq_unread hf5; obtain rfl := harg6.eq_unread hf6
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; iexact H4
    isplitl [H5]
    · iexists _; iexact H5
    iexists _; iexact H6

end Cert.KernelIdeal.Lse1

end
-- ==== Proof.Lse1Data.lean ====
import proofs.«154747_j1580547971631_2_alg».proof.Proof.Gen.KernelIdeal.Launch
import proofs.«154747_j1580547971631_2_alg».proof.Proof.Gen.KernelIdeal.Skeleton
import proofs.«154747_j1580547971631_2_alg».proof.Proof.Gen.KernelIdeal.Points
import proofs.«154747_j1580547971631_2_alg».proof.Proof.Lse1Runs
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Lse1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The row log-sum-exp region: what it holds point by point, and its body obligation

The region's arrays are taken from ANY valuation `V` of the unscoped buffers (what the items before it left). At
point `t` the two input windows hold their blocks of the arrays; the two running columns and, at a row block's last
tile, the output block hold what the case of that tile's run wrote, the running columns of a non-first tile starting
from what the tile before left. -/

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window holds its block at every tile, fetched there or not: between fetches its index does not move. -/
theorem before_in0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The column-block window holds its block at every tile. -/
theorem before_in1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The memrefs the body is called with -/

abbrev ms0 (t : Fin cfg1.N) : Memref sig .tc .vmem S1024x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1 .f32 := win1_2.stage (cfg1.slots t 2)
abbrev hs2 (t : Fin cfg1.N) : (ms2 t).IsWhole := hstage1_2 ((cfg1.slots t 2).cast nbuf1_2)
/-- The running row maximum and the running row sum: whole scoped buffers of the call's own. -/
abbrev scM5 : Memref sig .tc .vmem S1024x1 .f32 := Memref.whole cc1_scratch0
abbrev scM6 : Memref sig .tc .vmem S1024x1 .f32 := Memref.whole cc1_scratch1
/-- Views through which a column's contents are stated (which buffer is read through does not matter once the writes cover it). -/
abbrev VO : View sig .tc .vmem S1024x1 .f32 := (Memref.whole cc1_stg2_0 : Memref sig .tc .vmem S1024x1 .f32).view
abbrev VS5 : View sig .tc .vmem S1024x1 .f32 := scM5.view
abbrev VS6 : View sig .tc .vmem S1024x1 .f32 := scM6.view

/-- A column's contents once a list of writes has covered it: the writes read back over anything. -/
def rdO (L : List (View.Piece (Elt F) S1024x1 .f32)) : Vec F S1024x1 .f32 := VO.read (Elt F) (VO.writes (Elt F) VO.junk L)
def rd5 (L : List (View.Piece (Elt F) S1024x1 .f32)) : Vec F S1024x1 .f32 := VS5.read (Elt F) (VS5.writes (Elt F) VS5.junk L)
def rd6 (L : List (View.Piece (Elt F) S1024x1 .f32)) : Vec F S1024x1 .f32 := VS6.read (Elt F) (VS6.writes (Elt F) VS6.junk L)

/-! ## The three cases at a point of the grid -/

/-- The run of a first tile at point `t`, on the point's memrefs and blocks. -/
def firstAt (c : Dev nD) (t : Fin cfg1.N) (hf : t.val % 8 = 0) (hl : ¬t.val % 8 = 7) :=
  runFirst (F := F) (Ix := Unit) (U := UR sig nD τ) (Lvl := ℕ) c (grid1.coords t) (ms0 t) (hs0 t) (ms1 t) (hs1 t) (ms2 t) (hs2 t) scM5 (Memref.isWhole_whole _) scM6 (Memref.isWhole_whole _)
    ((hfirst1 t).mpr hf) (fun h => hl ((hlast1 t).mp h)) (iblk V c 0 t) (iblk V c 1 t)
/-- The run of a middle tile at point `t` from the running columns `s5`, `s6`. -/
def midAt (c : Dev nD) (t : Fin cfg1.N) (hf : ¬t.val % 8 = 0) (hl : ¬t.val % 8 = 7) (s5 s6 : Vec F S1024x1 .f32) :=
  runMid (F := F) (Ix := Unit) (U := UR sig nD τ) (Lvl := ℕ) c (grid1.coords t) (ms0 t) (hs0 t) (ms1 t) (hs1 t) (ms2 t) (hs2 t) scM5 (Memref.isWhole_whole _) scM6 (Memref.isWhole_whole _)
    (fun h => hf ((hfirst1 t).mp h)) (fun h => hl ((hlast1 t).mp h)) (iblk V c 0 t) (iblk V c 1 t) s5 s6
/-- The run of a last tile at point `t` from the running columns `s5`, `s6`. -/
def lastAt (c : Dev nD) (t : Fin cfg1.N) (hf : ¬t.val % 8 = 0) (hl : t.val % 8 = 7) (s5 s6 : Vec F S1024x1 .f32) :=
  runLast (F := F) (Ix := Unit) (U := UR sig nD τ) (Lvl := ℕ) c (grid1.coords t) (ms0 t) (hs0 t) (ms1 t) (hs1 t) (ms2 t) (hs2 t) scM5 (Memref.isWhole_whole _) scM6 (Memref.isWhole_whole _)
    (fun h => hf ((hfirst1 t).mp h)) ((hlast1 t).mpr hl) (iblk V c 0 t) (iblk V c 1 t) s5 s6

/-- Each case's writes to a running column, and the last tile's to the output block, cover it (one whole-column store last). -/
theorem cov5F (c : Dev nD) (t : Fin cfg1.N) (hf) (hl) (y : S1024x1.Idx) : ∃ pc ∈ (firstAt V c t hf hl).1, y ∈ pc.1.set :=
  View.cover_of_tiledL (firstAt V c t hf hl).1 S1024x1.size (by sl_kernel_rfl) y
theorem cov6F (c : Dev nD) (t : Fin cfg1.N) (hf) (hl) (y : S1024x1.Idx) : ∃ pc ∈ (firstAt V c t hf hl).2.1, y ∈ pc.1.set :=
  View.cover_of_tiledL (firstAt V c t hf hl).2.1 S1024x1.size (by sl_kernel_rfl) y
theorem cov5M (c : Dev nD) (t : Fin cfg1.N) (hf) (hl) (s5 s6) (y : S1024x1.Idx) : ∃ pc ∈ (midAt V c t hf hl s5 s6).1, y ∈ pc.1.set :=
  View.cover_of_tiledL (midAt V c t hf hl s5 s6).1 S1024x1.size (by sl_kernel_rfl) y
theorem cov6M (c : Dev nD) (t : Fin cfg1.N) (hf) (hl) (s5 s6) (y : S1024x1.Idx) : ∃ pc ∈ (midAt V c t hf hl s5 s6).2.1, y ∈ pc.1.set :=
  View.cover_of_tiledL (midAt V c t hf hl s5 s6).2.1 S1024x1.size (by sl_kernel_rfl) y
theorem cov4L (c : Dev nD) (t : Fin cfg1.N) (hf) (hl) (s5 s6) (y : S1024x1.Idx) : ∃ pc ∈ (lastAt V c t hf hl s5 s6).1, y ∈ pc.1.set :=
  View.cover_of_tiledL (lastAt V c t hf hl s5 s6).1 S1024x1.size (by sl_kernel_rfl) y
theorem cov5L (c : Dev nD) (t : Fin cfg1.N) (hf) (hl) (s5 s6) (y : S1024x1.Idx) : ∃ pc ∈ (lastAt V c t hf hl s5 s6).2.1, y ∈ pc.1.set :=
  View.cover_of_tiledL (lastAt V c t hf hl s5 s6).2.1 S1024x1.size (by sl_kernel_rfl) y
theorem cov6L (c : Dev nD) (t : Fin cfg1.N) (hf) (hl) (s5 s6) (y : S1024x1.Idx) : ∃ pc ∈ (lastAt V c t hf hl s5 s6).2.2.1, y ∈ pc.1.set :=
  View.cover_of_tiledL (lastAt V c t hf hl s5 s6).2.2.1 S1024x1.size (by sl_kernel_rfl) y

/-! ## What the output block and the running columns hold after each point -/

/-- After the body at position `n`: the output block's staging buffer (a placeholder nothing reads at a tile that does
    not write it), the running maximum, the running sum — the case the position selects, a non-first tile run from
    what position `n - 1` left in the two columns. -/
def outsAt (c : Dev nD) : (n : ℕ) → n < cfg1.N → Vec F S1024x1 .f32 × Vec F S1024x1 .f32 × Vec F S1024x1 .f32
  | 0, hn => (rdO [], rd5 (firstAt V c ⟨0, hn⟩ (Nat.zero_mod _) (by show ¬(0 : ℕ) % 8 = 7; decide)).1, rd6 (firstAt V c ⟨0, hn⟩ (Nat.zero_mod _) (by show ¬(0 : ℕ) % 8 = 7; decide)).2.1)
  | n + 1, hn =>
    if h0 : (n + 1) % 8 = 0 then
      if h7 : (n + 1) % 8 = 7 then False.elim (by omega)
      else (rdO [], rd5 (firstAt V c ⟨n + 1, hn⟩ h0 h7).1, rd6 (firstAt V c ⟨n + 1, hn⟩ h0 h7).2.1)
    else
      if h7 : (n + 1) % 8 = 7 then
        (rdO (lastAt V c ⟨n + 1, hn⟩ h0 h7 (outsAt c n (Nat.lt_of_succ_lt hn)).2.1 (outsAt c n (Nat.lt_of_succ_lt hn)).2.2).1,
         rd5 (lastAt V c ⟨n + 1, hn⟩ h0 h7 (outsAt c n (Nat.lt_of_succ_lt hn)).2.1 (outsAt c n (Nat.lt_of_succ_lt hn)).2.2).2.1,
         rd6 (lastAt V c ⟨n + 1, hn⟩ h0 h7 (outsAt c n (Nat.lt_of_succ_lt hn)).2.1 (outsAt c n (Nat.lt_of_succ_lt hn)).2.2).2.2.1)
      else
        (rdO [],
         rd5 (midAt V c ⟨n + 1, hn⟩ h0 h7 (outsAt c n (Nat.lt_of_succ_lt hn)).2.1 (outsAt c n (Nat.lt_of_succ_lt hn)).2.2).1,
         rd6 (midAt V c ⟨n + 1, hn⟩ h0 h7 (outsAt c n (Nat.lt_of_succ_lt hn)).2.1 (outsAt c n (Nat.lt_of_succ_lt hn)).2.2).2.1)

/-- What position `t - 1` left, for a position that is not the first. -/
abbrev prev (c : Dev nD) (t : Fin cfg1.N) := outsAt V c (t.val - 1) (Nat.lt_of_le_of_lt (Nat.sub_le _ _) t.isLt)

theorem outsAt_first (c : Dev nD) (t : Fin cfg1.N) (h0 : t.val % 8 = 0) (h7 : ¬t.val % 8 = 7) :
    outsAt V c t.val t.isLt = (rdO [], rd5 (firstAt V c t h0 h7).1, rd6 (firstAt V c t h0 h7).2.1) := by
  obtain ⟨n, hn⟩ := t
  cases n with
  | zero => exact rfl
  | succ n => exact (dif_pos h0).trans ((dif_neg h7).trans rfl)
theorem outsAt_mid (c : Dev nD) (t : Fin cfg1.N) (h0 : ¬t.val % 8 = 0) (h7 : ¬t.val % 8 = 7) :
    outsAt V c t.val t.isLt = (rdO [], rd5 (midAt V c t h0 h7 (prev V c t).2.1 (prev V c t).2.2).1, rd6 (midAt V c t h0 h7 (prev V c t).2.1 (prev V c t).2.2).2.1) := by
  obtain ⟨n, hn⟩ := t
  cases n with
  | zero => exact absurd (Nat.zero_mod _) h0
  | succ n => exact (dif_neg h0).trans ((dif_neg h7).trans rfl)
theorem outsAt_last (c : Dev nD) (t : Fin cfg1.N) (h0 : ¬t.val % 8 = 0) (h7 : t.val % 8 = 7) :
    outsAt V c t.val t.isLt = (rdO (lastAt V c t h0 h7 (prev V c t).2.1 (prev V c t).2.2).1, rd5 (lastAt V c t h0 h7 (prev V c t).2.1 (prev V c t).2.2).2.1, rd6 (lastAt V c t h0 h7 (prev V c t).2.1 (prev V c t).2.2).2.2.1) := by
  obtain ⟨n, hn⟩ := t
  cases n with
  | zero => exact absurd (Nat.zero_mod _) h0
  | succ n => exact (dif_neg h0).trans ((dif_pos h7).trans rfl)

/-! ## The invariant -/

/-- The call's scoped rest with its own two columns split off, each whole at some contents. -/
theorem rest_split (c : Dev nD) :
    (Pipeline.scopedRest (Ix := Unit) (Name := ℕ) (U := UR sig nD τ) (Lvl := ℕ) (Val := Elt F) spec1 c : sProp 𝕄)
      = iprop(iprop((∃ d, owns (c : Thread nD τ) scM5 fullShare d) ∗ (∃ d, owns (c : Thread nD τ) scM6 fullShare d))
          ∗ Pipeline.scopedRestBut (Ix := Unit) (Name := ℕ) (U := UR sig nD τ) (Lvl := ℕ) (Val := Elt F) spec1 c [cc1_scratch0, cc1_scratch1]) := by
  rw [scopedRest1_split]; simp only [scM5, scM6, owns_whole]; try rfl

/-- Before position `n`: at the region's start every scoped buffer the pipeline does not stage at anything; afterwards
    the two running columns at what the point before left, the other such buffers at anything. -/
def PhiS (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop(iprop(owns (c : Thread nD τ) scM5 fullShare (outsAt V c n hn).2.1 ∗ owns (c : Thread nD τ) scM6 fullShare (outsAt V c n hn).2.2)
      ∗ Pipeline.scopedRestBut (Ix := Unit) (Name := ℕ) (U := UR sig nD τ) (Lvl := ℕ) (Val := Elt F) spec1 c [cc1_scratch0, cc1_scratch1])
theorem PhiS_zero (c : Dev nD) (n : ℕ) (h : n ≤ cfg1.N) (hz : n = 0) :
    PhiS V c n h = Pipeline.scopedRest (Ix := Unit) (Name := ℕ) (U := UR sig nD τ) (Lvl := ℕ) (Val := Elt F) spec1 c := by
  subst hz; rfl
theorem PhiS_succ (c : Dev nD) (n : ℕ) (hn : n < cfg1.N) :
    PhiS V c (n + 1) hn = iprop(iprop(owns (c : Thread nD τ) scM5 fullShare (outsAt V c n hn).2.1 ∗ owns (c : Thread nD τ) scM6 fullShare (outsAt V c n hn).2.2)
      ∗ Pipeline.scopedRestBut (Ix := Unit) (Name := ℕ) (U := UR sig nD τ) (Lvl := ℕ) (Val := Elt F) spec1 c [cc1_scratch0, cc1_scratch1]) := rfl
theorem PhiS_pos (c : Dev nD) (n : ℕ) (h : n ≤ cfg1.N) (hz : n ≠ 0) :
    PhiS V c n h = iprop(iprop(owns (c : Thread nD τ) scM5 fullShare (outsAt V c (n - 1) (by omega)).2.1 ∗ owns (c : Thread nD τ) scM6 fullShare (outsAt V c (n - 1) (by omega)).2.2)
      ∗ Pipeline.scopedRestBut (Ix := Unit) (Name := ℕ) (U := UR sig nD τ) (Lvl := ℕ) (Val := Elt F) spec1 c [cc1_scratch0, cc1_scratch1]) := by
  cases n with
  | zero => exact absurd rfl hz
  | succ n => rfl
/-- After any point the invariant gives the scoped rest back: the columns' named contents are forgotten. -/
theorem PhiS_out (c : Dev nD) (n : ℕ) (h : n ≤ cfg1.N) :
    PhiS V c n h ⊢ (Pipeline.scopedRest (Ix := Unit) (Name := ℕ) (U := UR sig nD τ) (Lvl := ℕ) (Val := Elt F) spec1 c : sProp 𝕄) := by
  by_cases hz : n = 0
  · rw [PhiS_zero V c n h hz]
  · rw [PhiS_pos V c n h hz, rest_split]
    iintro ⟨⟨H5, H6⟩, Hr⟩
    isplitl [H5 H6]
    · isplitl [H5]
      · iexists _; iexact H5
      iexists _; iexact H6
    iexact Hr

/-! ## The proof data -/

/-- The region's proof data on core `c`: the arrays as `V` has them; after the body each input's buffer at its block,
    the output's at `outsAt`'s first component; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by dsimp only [dat]
theorem Phi_castSucc (c : Dev nD) (t : Fin cfg1.N) : (dat V c).Φ t.castSucc = PhiS V c t.val (Nat.le_of_lt t.isLt) := by
  dsimp only [dat]; simp only [Fin.coe_castSucc]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = (outsAt V c t.val t.isLt).1 := by dsimp only [dat]
theorem before0 (c : Dev nD) (t : Fin cfg1.N) (d) : (dat V c).before 0 t d = iblk V c 0 t :=
  before_in0 V (dat V c) (A_eq V c 0) (after0 V c) t d
theorem before1 (c : Dev nD) (t : Fin cfg1.N) (d) : (dat V c).before 1 t d = iblk V c 1 t :=
  before_in1 V (dat V c) (A_eq V c 1) (after1 V c) t d

/-! ## Where the output window is idle -/

theorem live0 : ∀ t : Fin cfg1.N, cfg1.idle 0 (grid1.coords t) = false := by decide +kernel
theorem live1 : ∀ t : Fin cfg1.N, cfg1.idle 1 (grid1.coords t) = false := by decide +kernel
theorem idle2 : ∀ t : Fin cfg1.N, ¬t.val % 8 = 7 → cfg1.idle 2 (grid1.coords t) = true := by decide +kernel
theorem noFlush2 : ∀ t : Fin cfg1.N, ¬t.val % 8 = 7 → (cfg1.win 2).flush t = false := by decide +kernel
theorem live2 : ∀ t : Fin cfg1.N, t.val % 8 = 7 → cfg1.idle 2 (grid1.coords t) = false := by decide +kernel

end Cert.KernelIdeal.Lse1

end
-- ==== Proof.Lse1Body.lean ====
import proofs.«154747_j1580547971631_2_alg».proof.Proof.Gen.KernelIdeal.Launch
import proofs.«154747_j1580547971631_2_alg».proof.Proof.Gen.KernelIdeal.Skeleton
import proofs.«154747_j1580547971631_2_alg».proof.Proof.Gen.KernelIdeal.Points
import proofs.«154747_j1580547971631_2_alg».proof.Proof.Lse1Data
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Lse1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The row log-sum-exp region: its body obligation

At every point the invariant hands the body the two running columns — at anything before the region's first point,
otherwise at what the point before left — and takes them back at what this point's case wrote; the inputs' buffers hold
their blocks; the output block's buffer is passed through untouched except at a row block's last tile, where the case
covers it. The core owes nothing throughout. -/

variable (V : (c : Dev nD) → (b : Ref sig .tc) → Buf (Elt F) ((c : Thread nD τ).loc b))

/-- What the body is called with at point `t`, the windows one by one. -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))
/-- What it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

theorem leaves0 (c : Dev nD) (t : Fin cfg1.N) :
    (dat V c).leavesExact 0 t = owns (c : Thread nD τ) (ms0 t) fullShare (iblk V c 0 t) := by
  unfold Dat.leavesExact; rw [live0 t, after0]
theorem leaves1 (c : Dev nD) (t : Fin cfg1.N) :
    (dat V c).leavesExact 1 t = owns (c : Thread nD τ) (ms1 t) fullShare (iblk V c 1 t) := by
  unfold Dat.leavesExact; rw [live1 t, after1]
theorem leaves2_idle (c : Dev nD) (t : Fin cfg1.N) (h7 : ¬t.val % 8 = 7) :
    (dat V c).leavesExact 2 t = iprop(∃ d, owns (c : Thread nD τ) (ms2 t) fullShare ((dat V c).before 2 t d)) :=
  Dat.leavesExact_idle (dat V c) 2 t (idle2 t h7) (noFlush2 t h7)
theorem leaves2_live (c : Dev nD) (t : Fin cfg1.N) (h7 : t.val % 8 = 7) :
    (dat V c).leavesExact 2 t = owns (c : Thread nD τ) (ms2 t) fullShare (outsAt V c t.val t.isLt).1 := by
  unfold Dat.leavesExact; rw [live2 t h7, after2]

set_option maxHeartbeats 4000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat V c).owesAt () t.succ = (dat V c).owesAt () t.castSucc from rfl]
  rw [show (dat V c).Φ t.succ = PhiS V c (t.val + 1) t.isLt from rfl, PhiS_succ, leaves0, leaves1, Phi_castSucc]
  have hN : t.val < 64 := lt_of_lt_of_eq t.isLt (show cfg1.N = 64 from N_1)
  by_cases h0 : t.val % 8 = 0
  · have h7 : ¬t.val % 8 = 7 := by omega
    rw [leaves2_idle V c t h7, outsAt_first V c t h0 h7]
    dsimp only [rd5, rd6, rdO]
    -- whatever the invariant holds of the two columns, the first tile takes them at anything
    have hΦ : PhiS V c t.val (Nat.le_of_lt t.isLt) ⊢ (iprop(iprop((∃ d, owns (c : Thread nD τ) scM5 fullShare d) ∗ (∃ d, owns (c : Thread nD τ) scM6 fullShare d))
          ∗ Pipeline.scopedRestBut (Ix := Unit) (Name := ℕ) (U := UR sig nD τ) (Lvl := ℕ) (Val := Elt F) spec1 c [cc1_scratch0, cc1_scratch1]) : sProp 𝕄) := by
      rw [← rest_split]; exact PhiS_out V c _ _
    iintro ⟨HΦ, Ho, ⟨%d0, H0⟩, ⟨%d1, H1⟩, ⟨%d2, H2⟩⟩
    ihave HΦ' := hΦ $$ HΦ
    icases HΦ' with ⟨⟨H5, H6⟩, Hr⟩
    iapply ((firstAt V c t h0 h7).2.2 _ Set.univ _)
    isplitl [H0]; · iexact H0
    isplitl [H1]; · iexact H1
    isplitl [H2]; · iexact H2
    isplitl [H5]; · iexact H5
    isplitl [H6]; · iexact H6
    iintro ⟨H0, H1, H2, ⟨%e5, H5⟩, ⟨%e6, H6⟩⟩
    isplitl [H5 H6 Hr]
    · isplitl [H5 H6]
      · isplitl [H5]
        · unfold owns; iexists _; isplitr
          swap; · iexact H5
          ipureintro; exact View.read_writes_of_cover _ _ _ _ _ (cov5F V c t h0 h7)
        · unfold owns; iexists _; isplitr
          swap; · iexact H6
          ipureintro; exact View.read_writes_of_cover _ _ _ _ _ (cov6F V c t h0 h7)
      iexact Hr
    isplitl [Ho]; · iexact Ho
    isplitl [H0]; · iexact H0
    isplitl [H1]; · iexact H1
    iexists _; iexact H2
  · have hz : t.val ≠ 0 := fun h => h0 (by rw [h])
    rw [PhiS_pos V c _ _ hz]
    by_cases h7 : t.val % 8 = 7
    · rw [leaves2_live V c t h7, outsAt_last V c t h0 h7]
      dsimp only [rd5, rd6, rdO]
      iintro ⟨⟨⟨H5, H6⟩, Hr⟩, Ho, ⟨%d0, H0⟩, ⟨%d1, H1⟩, ⟨%d2, H2⟩⟩
      iapply ((lastAt V c t h0 h7 _ _).2.2.2 Set.univ _)
      isplitl [H0]; · iexact H0
      isplitl [H1]; · iexact H1
      isplitl [H2]; · iexists _; iexact H2
      isplitl [H5]; · iexact H5
      isplitl [H6]; · iexact H6
      iintro ⟨H0, H1, ⟨%e4, H4⟩, ⟨%e5, H5⟩, ⟨%e6, H6⟩⟩
      isplitl [H5 H6 Hr]
      · isplitl [H5 H6]
        · isplitl [H5]
          · unfold owns; iexists _; isplitr
            swap; · iexact H5
            ipureintro; exact View.read_writes_of_cover _ _ _ _ _ (cov5L V c t h0 h7 _ _)
          · unfold owns; iexists _; isplitr
            swap; · iexact H6
            ipureintro; exact View.read_writes_of_cover _ _ _ _ _ (cov6L V c t h0 h7 _ _)
        iexact Hr
      isplitl [Ho]; · iexact Ho
      isplitl [H0]; · iexact H0
      isplitl [H1]; · iexact H1
      unfold owns; iexists _; isplitr
      swap; · iexact H4
      ipureintro; exact View.read_writes_of_cover _ _ _ _ _ (cov4L V c t h0 h7 _ _)
    · rw [leaves2_idle V c t h7, outsAt_mid V c t h0 h7]
      dsimp only [rd5, rd6, rdO]
      iintro ⟨⟨⟨H5, H6⟩, Hr⟩, Ho, ⟨%d0, H0⟩, ⟨%d1, H1⟩, ⟨%d2, H2⟩⟩
      iapply ((midAt V c t h0 h7 _ _).2.2 _ Set.univ _)
      isplitl [H0]; · iexact H0
      isplitl [H1]; · iexact H1
      isplitl [H2]; · iexact H2
      isplitl [H5]; · iexact H5
      isplitl [H6]; · iexact H6
      iintro ⟨H0, H1, H2, ⟨%e5, H5⟩, ⟨%e6, H6⟩⟩
      isplitl [H5 H6 Hr]
      · isplitl [H5 H6]
        · isplitl [H5]
          · unfold owns; iexists _; isplitr
            swap; · iexact H5
            ipureintro; exact View.read_writes_of_cover _ _ _ _ _ (cov5M V c t h0 h7 _ _)
          · unfold owns; iexists _; isplitr
            swap; · iexact H6
            ipureintro; exact View.read_writes_of_cover _ _ _ _ _ (cov6M V c t h0 h7 _ _)
        iexact Hr
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- The invariant before the first point is the call's scoped rest; after the last it gives it back. -/
theorem Phi_first (c : Dev nD) : (dat V c).Φ 0 = (Pipeline.scopedRest (Ix := Unit) (Name := ℕ) (U := UR sig nD τ) (Lvl := ℕ) (Val := Elt F) spec1 c : sProp 𝕄) := rfl
theorem Phi_last (c : Dev nD) : (dat V c).Φ (Fin.last cfg1.N) ⊢ (Pipeline.scopedRest (Ix := Unit) (Name := ℕ) (U := UR sig nD τ) (Lvl := ℕ) (Val := Elt F) spec1 c : sProp 𝕄) := by
  rw [show (dat V c).Φ (Fin.last cfg1.N) = PhiS V c (Fin.last cfg1.N).val (Nat.le_of_lt_succ (Fin.last cfg1.N).isLt) from rfl]
  exact PhiS_out V c _ _

end Cert.KernelIdeal.Lse1

end
-- ==== Proof.Comb2Runs.lean ====
import proofs.«154747_j1580547971631_2_alg».proof.Proof.Gen.KernelIdeal.Launch
import proofs.«154747_j1580547971631_2_alg».proof.Proof.Gen.KernelIdeal.Skeleton
import proofs.«154747_j1580547971631_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Comb2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! # The combine kernel (region 2), run case by case

The body visits the key tiles of one block of query rows left to right and keeps one accumulator block between tiles.
At a row block's first tile the accumulator is reset to zero; at every tile the exponentials of (score minus the key's
log-sum-exp) times the key block are added to it; at the last tile the query block minus the accumulator is written to
the output block. Three cases meet the grid (eight tiles per row block). -/

/-- A row block's first tile: the accumulator is reset. -/
abbrev firstT (i : grid2.Coords) : Prop := (Scalar.cmpi .ne (Scalar.extui (Scalar.cmpi .eq (BitVec.ofNat 32 (i 1).val) 0#32)) 0#32) = 1#1
/-- A row block's last tile: the output block is written. -/
abbrev lastT (i : grid2.Coords) : Prop := k2_cond2 i = 1#1
theorem hfirstT : ∀ t : Fin cfg2.N, firstT (grid2.coords t) ↔ t.val % 8 = 0 :=
  (by decide +kernel : ∀ t : Fin grid2.N, firstT (grid2.coords t) ↔ t.val % 8 = 0)
theorem hlastT : ∀ t : Fin cfg2.N, lastT (grid2.coords t) ↔ t.val % 8 = 7 :=
  (by decide +kernel : ∀ t : Fin grid2.N, lastT (grid2.coords t) ↔ t.val % 8 = 7)

set_option maxHeartbeats 1000000 in
/-- A FIRST tile: whatever the accumulator held, it is reset and the tile added; the output block is not touched. -/
noncomputable def runFirst (c : Dev nD) (i : grid2.Coords)
    (arg2 : Memref sig .tc .vmem S512x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S512x1024 .f32) (harg6 : arg6.IsWhole) (arg7 : Memref sig .tc .vmem S512x1024 .f32) (harg7 : arg7.IsWhole) (hf : firstT i) (hl : ¬lastT i)
    (x2 : Vec F S512x1024 .bf16) (x3 : Vec F S1024x1024 .bf16) (x4 : Vec F S1x1024 .f32) (x5 : Vec F S512x1024 .f32) :
    { L7 : List (View.Piece (Elt F) S512x1024 .f32) //
      ∀ (o6 : Vec F S512x1024 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare o6 ∗ (∃ d, owns (c : Thread nD τ) arg7 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare o6 ∗ (∃ f, arg7.view.loc (c : Thread nD τ) ↦[arg7.view.set]{fullShare} arg7.view.writes (Elt F) f L7)) -∗ K ⟨⟩))
          ⊢ wp frame (wpE (defs₀ (F := F)) Variants.none c none) E (cc2__combine_kernel i arg2 harg2 arg3 harg3 arg4 harg4 arg5 harg5 arg6 harg6 arg7 harg7) K } := by
  refine ⟨?_, fun o6 E K => ?run⟩
  case run =>
    simp only [cc2__combine_kernel_eq_skeleton]; unfold cc2__combine_kernel_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

set_option maxHeartbeats 1000000 in
/-- A MIDDLE tile: the tile is added to the accumulator `s7` the tile before left; the output block is not touched. -/
noncomputable def runMid (c : Dev nD) (i : grid2.Coords)
    (arg2 : Memref sig .tc .vmem S512x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S512x1024 .f32) (harg6 : arg6.IsWhole) (arg7 : Memref sig .tc .vmem S512x1024 .f32) (harg7 : arg7.IsWhole) (hf : ¬firstT i) (hl : ¬lastT i)
    (x2 : Vec F S512x1024 .bf16) (x3 : Vec F S1024x1024 .bf16) (x4 : Vec F S1x1024 .f32) (x5 : Vec F S512x1024 .f32) (s7 : Vec F S512x1024 .f32) :
    { L7 : List (View.Piece (Elt F) S512x1024 .f32) //
      ∀ (o6 : Vec F S512x1024 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare o6 ∗ owns (c : Thread nD τ) arg7 fullShare s7
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare o6 ∗ (∃ f, arg7.view.loc (c : Thread nD τ) ↦[arg7.view.set]{fullShare} arg7.view.writes (Elt F) f L7)) -∗ K ⟨⟩))
          ⊢ wp frame (wpE (defs₀ (F := F)) Variants.none c none) E (cc2__combine_kernel i arg2 harg2 arg3 harg3 arg4 harg4 arg5 harg5 arg6 harg6 arg7 harg7) K } := by
  refine ⟨?_, fun o6 E K => ?run⟩
  case run =>
    simp only [cc2__combine_kernel_eq_skeleton]; unfold cc2__combine_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

set_option maxHeartbeats 1000000 in
/-- A LAST tile: the tile is added to the accumulator `s7`, then the query block minus the accumulator is written over
    the whole output block, whatever it held. -/
noncomputable def runLast (c : Dev nD) (i : grid2.Coords)
    (arg2 : Memref sig .tc .vmem S512x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S512x1024 .f32) (harg6 : arg6.IsWhole) (arg7 : Memref sig .tc .vmem S512x1024 .f32) (harg7 : arg7.IsWhole) (hf : ¬firstT i) (hl : lastT i)
    (x2 : Vec F S512x1024 .bf16) (x3 : Vec F S1024x1024 .bf16) (x4 : Vec F S1x1024 .f32) (x5 : Vec F S512x1024 .f32) (s7 : Vec F S512x1024 .f32) :
    Σ' (L6 : List (View.Piece (Elt F) S512x1024 .f32)), { L7 : List (View.Piece (Elt F) S512x1024 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare s7
            ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc2__combine_kernel i arg2 harg2 arg3 harg3 arg4 harg4 arg5 harg5 arg6 harg6 arg7 harg7) K } := by
  refine ⟨?_, ?_, fun E K => ?run⟩
  case run =>
    simp only [cc2__combine_kernel_eq_skeleton]; unfold cc2__combine_kernel_skel
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg2.eq_unread hf2; obtain rfl := harg3.eq_unread hf3; obtain rfl := harg4.eq_unread hf4
    obtain rfl := harg5.eq_unread hf5; obtain rfl := harg7.eq_unread hf7
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexact H7

end Cert.KernelIdeal.Comb2

end
-- ==== Proof.Comb2Data.lean ====
import proofs.«154747_j1580547971631_2_alg».proof.Proof.Gen.KernelIdeal.Launch
import proofs.«154747_j1580547971631_2_alg».proof.Proof.Gen.KernelIdeal.Skeleton
import proofs.«154747_j1580547971631_2_alg».proof.Proof.Gen.KernelIdeal.Points
import proofs.«154747_j1580547971631_2_alg».proof.Proof.Comb2Runs
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Comb2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The combine region 2: what it holds point by point

The region's arrays are taken from ANY valuation `V` of the unscoped buffers. At point `t` the four input windows hold
their blocks; the accumulator and, at a row block's last tile, the output block hold what that tile's case wrote, the
accumulator of a non-first tile starting from what the tile before left. -/

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window holds its block at every tile, fetched there or not: between fetches its index does not move. -/
theorem before_in0 {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The memrefs the body is called with -/

abbrev ms0 (t : Fin cfg2.N) : Memref sig .tc .vmem S512x1024 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S1024x1024 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x1024 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S512x1024 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S512x1024 .f32 := win2_4.stage (cfg2.slots t 4)
abbrev hs4 (t : Fin cfg2.N) : (ms4 t).IsWhole := hstage2_4 ((cfg2.slots t 4).cast nbuf2_4)
/-- The accumulator: a whole scoped buffer of the call's own. -/
abbrev scM7 : Memref sig .tc .vmem S512x1024 .f32 := Memref.whole cc2_scratch0
abbrev VO : View sig .tc .vmem S512x1024 .f32 := (Memref.whole cc2_stg4_0 : Memref sig .tc .vmem S512x1024 .f32).view
abbrev VS7 : View sig .tc .vmem S512x1024 .f32 := scM7.view

/-- A block's contents once a list of writes has covered it: the writes read back over anything. -/
def rdO (L : List (View.Piece (Elt F) S512x1024 .f32)) : Vec F S512x1024 .f32 := VO.read (Elt F) (VO.writes (Elt F) VO.junk L)
def rd7 (L : List (View.Piece (Elt F) S512x1024 .f32)) : Vec F S512x1024 .f32 := VS7.read (Elt F) (VS7.writes (Elt F) VS7.junk L)

/-! ## The three cases at a point of the grid -/

def firstAt (c : Dev nD) (t : Fin cfg2.N) (hf : t.val % 8 = 0) (hl : ¬t.val % 8 = 7) :=
  runFirst (F := F) (Ix := Unit) (U := UR sig nD τ) (Lvl := ℕ) c (grid2.coords t) (ms0 t) (hs0 t) (ms1 t) (hs1 t) (ms2 t) (hs2 t) (ms3 t) (hs3 t) (ms4 t) (hs4 t) scM7 (Memref.isWhole_whole _)
    ((hfirstT t).mpr hf) (fun h => hl ((hlastT t).mp h)) (iblk V c 0 t) (iblk V c 1 t) (iblk V c 2 t) (iblk V c 3 t)
def midAt (c : Dev nD) (t : Fin cfg2.N) (hf : ¬t.val % 8 = 0) (hl : ¬t.val % 8 = 7) (s7 : Vec F S512x1024 .f32) :=
  runMid (F := F) (Ix := Unit) (U := UR sig nD τ) (Lvl := ℕ) c (grid2.coords t) (ms0 t) (hs0 t) (ms1 t) (hs1 t) (ms2 t) (hs2 t) (ms3 t) (hs3 t) (ms4 t) (hs4 t) scM7 (Memref.isWhole_whole _)
    (fun h => hf ((hfirstT t).mp h)) (fun h => hl ((hlastT t).mp h)) (iblk V c 0 t) (iblk V c 1 t) (iblk V c 2 t) (iblk V c 3 t) s7
def lastAt (c : Dev nD) (t : Fin cfg2.N) (hf : ¬t.val % 8 = 0) (hl : t.val % 8 = 7) (s7 : Vec F S512x1024 .f32) :=
  runLast (F := F) (Ix := Unit) (U := UR sig nD τ) (Lvl := ℕ) c (grid2.coords t) (ms0 t) (hs0 t) (ms1 t) (hs1 t) (ms2 t) (hs2 t) (ms3 t) (hs3 t) (ms4 t) (hs4 t) scM7 (Memref.isWhole_whole _)
    (fun h => hf ((hfirstT t).mp h)) ((hlastT t).mpr hl) (iblk V c 0 t) (iblk V c 1 t) (iblk V c 2 t) (iblk V c 3 t) s7

/-- Each case's writes to the accumulator, and the last tile's to the output block, cover it (a whole-block store last). -/
theorem cov7F (c : Dev nD) (t : Fin cfg2.N) (hf) (hl) (y : S512x1024.Idx) : ∃ pc ∈ (firstAt V c t hf hl).1, y ∈ pc.1.set :=
  View.cover_of_tiledL (firstAt V c t hf hl).1 S512x1024.size (by sl_kernel_rfl) y
theorem cov7M (c : Dev nD) (t : Fin cfg2.N) (hf) (hl) (s7) (y : S512x1024.Idx) : ∃ pc ∈ (midAt V c t hf hl s7).1, y ∈ pc.1.set :=
  View.cover_of_tiledL (midAt V c t hf hl s7).1 S512x1024.size (by sl_kernel_rfl) y
theorem cov6L (c : Dev nD) (t : Fin cfg2.N) (hf) (hl) (s7) (y : S512x1024.Idx) : ∃ pc ∈ (lastAt V c t hf hl s7).1, y ∈ pc.1.set :=
  View.cover_of_tiledL (lastAt V c t hf hl s7).1 S512x1024.size (by sl_kernel_rfl) y
theorem cov7L (c : Dev nD) (t : Fin cfg2.N) (hf) (hl) (s7) (y : S512x1024.Idx) : ∃ pc ∈ (lastAt V c t hf hl s7).2.1, y ∈ pc.1.set :=
  View.cover_of_tiledL (lastAt V c t hf hl s7).2.1 S512x1024.size (by sl_kernel_rfl) y

/-! ## What the output block and the accumulator hold after each point -/

/-- After the body at position `n`: the output block's staging buffer (a placeholder nothing reads at a tile that does
    not write it) and the accumulator — the case the position selects, a non-first tile run from what position `n - 1` left. -/
def outsAt (c : Dev nD) : (n : ℕ) → n < cfg2.N → Vec F S512x1024 .f32 × Vec F S512x1024 .f32
  | 0, hn => (rdO [], rd7 (firstAt V c ⟨0, hn⟩ (Nat.zero_mod _) (by show ¬(0 : ℕ) % 8 = 7; decide)).1)
  | n + 1, hn =>
    if h0 : (n + 1) % 8 = 0 then
      if h7 : (n + 1) % 8 = 7 then False.elim (by omega)
      else (rdO [], rd7 (firstAt V c ⟨n + 1, hn⟩ h0 h7).1)
    else
      if h7 : (n + 1) % 8 = 7 then
        (rdO (lastAt V c ⟨n + 1, hn⟩ h0 h7 (outsAt c n (Nat.lt_of_succ_lt hn)).2).1,
         rd7 (lastAt V c ⟨n + 1, hn⟩ h0 h7 (outsAt c n (Nat.lt_of_succ_lt hn)).2).2.1)
      else
        (rdO [], rd7 (midAt V c ⟨n + 1, hn⟩ h0 h7 (outsAt c n (Nat.lt_of_succ_lt hn)).2).1)

abbrev prev (c : Dev nD) (t : Fin cfg2.N) := outsAt V c (t.val - 1) (Nat.lt_of_le_of_lt (Nat.sub_le _ _) t.isLt)

theorem outsAt_first (c : Dev nD) (t : Fin cfg2.N) (h0 : t.val % 8 = 0) (h7 : ¬t.val % 8 = 7) :
    outsAt V c t.val t.isLt = (rdO [], rd7 (firstAt V c t h0 h7).1) := by
  obtain ⟨n, hn⟩ := t
  cases n with
  | zero => exact rfl
  | succ n => exact (dif_pos h0).trans ((dif_neg h7).trans rfl)
theorem outsAt_mid (c : Dev nD) (t : Fin cfg2.N) (h0 : ¬t.val % 8 = 0) (h7 : ¬t.val % 8 = 7) :
    outsAt V c t.val t.isLt = (rdO [], rd7 (midAt V c t h0 h7 (prev V c t).2).1) := by
  obtain ⟨n, hn⟩ := t
  cases n with
  | zero => exact absurd (Nat.zero_mod _) h0
  | succ n => exact (dif_neg h0).trans ((dif_neg h7).trans rfl)
theorem outsAt_last (c : Dev nD) (t : Fin cfg2.N) (h0 : ¬t.val % 8 = 0) (h7 : t.val % 8 = 7) :
    outsAt V c t.val t.isLt = (rdO (lastAt V c t h0 h7 (prev V c t).2).1, rd7 (lastAt V c t h0 h7 (prev V c t).2).2.1) := by
  obtain ⟨n, hn⟩ := t
  cases n with
  | zero => exact absurd (Nat.zero_mod _) h0
  | succ n => exact (dif_neg h0).trans ((dif_pos h7).trans rfl)

/-! ## The invariant -/

theorem rest_split (c : Dev nD) :
    (Pipeline.scopedRest (Ix := Unit) (Name := ℕ) (U := UR sig nD τ) (Lvl := ℕ) (Val := Elt F) spec2 c : sProp 𝕄)
      = iprop(iprop((∃ d, owns (c : Thread nD τ) scM7 fullShare d)) ∗ Pipeline.scopedRestBut (Ix := Unit) (Name := ℕ) (U := UR sig nD τ) (Lvl := ℕ) (Val := Elt F) spec2 c [cc2_scratch0]) := by
  rw [scopedRest2_split]; simp only [scM7, owns_whole]; try rfl

/-- Before position `n`: at the region's start every scoped buffer the pipeline does not stage at anything; afterwards
    the accumulator at what the point before left, the other such buffers at anything. -/
def PhiS (c : Dev nD) : (n : ℕ) → n ≤ cfg2.N → sProp 𝕄
  | 0, _ => Pipeline.scopedRest (Ix := Unit) (Name := ℕ) (U := UR sig nD τ) (Lvl := ℕ) (Val := Elt F) spec2 c
  | n + 1, hn => iprop(iprop(owns (c : Thread nD τ) scM7 fullShare (outsAt V c n hn).2) ∗ Pipeline.scopedRestBut (Ix := Unit) (Name := ℕ) (U := UR sig nD τ) (Lvl := ℕ) (Val := Elt F) spec2 c [cc2_scratch0])
theorem PhiS_zero (c : Dev nD) (n : ℕ) (h : n ≤ cfg2.N) (hz : n = 0) : PhiS V c n h = Pipeline.scopedRest (Ix := Unit) (Name := ℕ) (U := UR sig nD τ) (Lvl := ℕ) (Val := Elt F) spec2 c := by
  subst hz; rfl
theorem PhiS_succ (c : Dev nD) (n : ℕ) (hn : n < cfg2.N) :
    PhiS V c (n + 1) hn = iprop(iprop(owns (c : Thread nD τ) scM7 fullShare (outsAt V c n hn).2) ∗ Pipeline.scopedRestBut (Ix := Unit) (Name := ℕ) (U := UR sig nD τ) (Lvl := ℕ) (Val := Elt F) spec2 c [cc2_scratch0]) := rfl
theorem PhiS_pos (c : Dev nD) (n : ℕ) (h : n ≤ cfg2.N) (hz : n ≠ 0) :
    PhiS V c n h = iprop(iprop(owns (c : Thread nD τ) scM7 fullShare (outsAt V c (n - 1) (by omega)).2) ∗ Pipeline.scopedRestBut (Ix := Unit) (Name := ℕ) (U := UR sig nD τ) (Lvl := ℕ) (Val := Elt F) spec2 c [cc2_scratch0]) := by
  cases n with
  | zero => exact absurd rfl hz
  | succ n => rfl
theorem PhiS_out (c : Dev nD) (n : ℕ) (h : n ≤ cfg2.N) : PhiS V c n h ⊢ (Pipeline.scopedRest (Ix := Unit) (Name := ℕ) (U := UR sig nD τ) (Lvl := ℕ) (Val := Elt F) spec2 c : sProp 𝕄) := by
  by_cases hz : n = 0
  · rw [PhiS_zero V c n h hz]
  · rw [PhiS_pos V c n h hz, rest_split]
    iintro ⟨H7, Hr⟩
    isplitl [H7]
    · iexists _; iexact H7
    iexact Hr

/-! ## The proof data -/

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by dsimp only [dat]
theorem Phi_castSucc (c : Dev nD) (t : Fin cfg2.N) : (dat V c).Φ t.castSucc = PhiS V c t.val (Nat.le_of_lt t.isLt) := by
  dsimp only [dat]; simp only [Fin.coe_castSucc]
theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = (outsAt V c t.val t.isLt).1 := by dsimp only [dat]
theorem before0 (c : Dev nD) (t : Fin cfg2.N) (d) : (dat V c).before 0 t d = iblk V c 0 t := before_in0 V (dat V c) (A_eq V c 0) (after0 V c) t d
theorem before1 (c : Dev nD) (t : Fin cfg2.N) (d) : (dat V c).before 1 t d = iblk V c 1 t := before_in1 V (dat V c) (A_eq V c 1) (after1 V c) t d
theorem before2 (c : Dev nD) (t : Fin cfg2.N) (d) : (dat V c).before 2 t d = iblk V c 2 t := before_in2 V (dat V c) (A_eq V c 2) (after2 V c) t d
theorem before3 (c : Dev nD) (t : Fin cfg2.N) (d) : (dat V c).before 3 t d = iblk V c 3 t := before_in3 V (dat V c) (A_eq V c 3) (after3 V c) t d

/-! ## Where the output window is idle -/

theorem live0 : ∀ t : Fin cfg2.N, cfg2.idle 0 (grid2.coords t) = false := by decide +kernel
theorem live1 : ∀ t : Fin cfg2.N, cfg2.idle 1 (grid2.coords t) = false := by decide +kernel
theorem live2 : ∀ t : Fin cfg2.N, cfg2.idle 2 (grid2.coords t) = false := by decide +kernel
theorem live3 : ∀ t : Fin cfg2.N, cfg2.idle 3 (grid2.coords t) = false := by decide +kernel
theorem idle4 : ∀ t : Fin cfg2.N, ¬t.val % 8 = 7 → cfg2.idle 4 (grid2.coords t) = true := by decide +kernel
theorem noFlush4 : ∀ t : Fin cfg2.N, ¬t.val % 8 = 7 → (cfg2.win 4).flush t = false := by decide +kernel
theorem live4 : ∀ t : Fin cfg2.N, t.val % 8 = 7 → cfg2.idle 4 (grid2.coords t) = false := by decide +kernel

end Cert.KernelIdeal.Comb2

end
-- ==== Proof.Comb2Body.lean ====
import proofs.«154747_j1580547971631_2_alg».proof.Proof.Gen.KernelIdeal.Launch
import proofs.«154747_j1580547971631_2_alg».proof.Proof.Gen.KernelIdeal.Skeleton
import proofs.«154747_j1580547971631_2_alg».proof.Proof.Gen.KernelIdeal.Points
import proofs.«154747_j1580547971631_2_alg».proof.Proof.Comb2Data
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Comb2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The combine region 2: its body obligation

At every point the invariant hands the body the accumulator — at anything before the region's first point, otherwise at
what the point before left — and takes it back at what this point's case wrote; the four inputs' buffers hold their blocks;
the output block's buffer is passed through untouched except at a row block's last tile, where the case covers it. -/

variable (V : (c : Dev nD) → (b : Ref sig .tc) → Buf (Elt F) ((c : Thread nD τ).loc b))

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t)

theorem leaves0 (c : Dev nD) (t : Fin cfg2.N) : (dat V c).leavesExact 0 t = owns (c : Thread nD τ) (ms0 t) fullShare (iblk V c 0 t) := by
  unfold Dat.leavesExact; rw [live0 t, after0]
theorem leaves1 (c : Dev nD) (t : Fin cfg2.N) : (dat V c).leavesExact 1 t = owns (c : Thread nD τ) (ms1 t) fullShare (iblk V c 1 t) := by
  unfold Dat.leavesExact; rw [live1 t, after1]
theorem leaves2 (c : Dev nD) (t : Fin cfg2.N) : (dat V c).leavesExact 2 t = owns (c : Thread nD τ) (ms2 t) fullShare (iblk V c 2 t) := by
  unfold Dat.leavesExact; rw [live2 t, after2]
theorem leaves3 (c : Dev nD) (t : Fin cfg2.N) : (dat V c).leavesExact 3 t = owns (c : Thread nD τ) (ms3 t) fullShare (iblk V c 3 t) := by
  unfold Dat.leavesExact; rw [live3 t, after3]
theorem leaves4_idle (c : Dev nD) (t : Fin cfg2.N) (h7 : ¬t.val % 8 = 7) :
    (dat V c).leavesExact 4 t = iprop(∃ d, owns (c : Thread nD τ) (ms4 t) fullShare ((dat V c).before 4 t d)) :=
  Dat.leavesExact_idle (dat V c) 4 t (idle4 t h7) (noFlush4 t h7)
theorem leaves4_live (c : Dev nD) (t : Fin cfg2.N) (h7 : t.val % 8 = 7) :
    (dat V c).leavesExact 4 t = owns (c : Thread nD τ) (ms4 t) fullShare (outsAt V c t.val t.isLt).1 := by
  unfold Dat.leavesExact; rw [live4 t h7, after4]

set_option maxHeartbeats 4000000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3]
  rw [show (dat V c).owesAt () t.succ = (dat V c).owesAt () t.castSucc from rfl]
  rw [show (dat V c).Φ t.succ = PhiS V c (t.val + 1) t.isLt from rfl, PhiS_succ, leaves0, leaves1, leaves2, leaves3, Phi_castSucc]
  have hN : t.val < 128 := lt_of_lt_of_eq t.isLt (show cfg2.N = 128 from N_2)
  by_cases h0 : t.val % 8 = 0
  · have h7 : ¬t.val % 8 = 7 := by omega
    rw [leaves4_idle V c t h7, outsAt_first V c t h0 h7]
    dsimp only [rd7, rdO]
    have hΦ : PhiS V c t.val (Nat.le_of_lt t.isLt) ⊢ (iprop(iprop((∃ d, owns (c : Thread nD τ) scM7 fullShare d)) ∗ Pipeline.scopedRestBut (Ix := Unit) (Name := ℕ) (U := UR sig nD τ) (Lvl := ℕ) (Val := Elt F) spec2 c [cc2_scratch0]) : sProp 𝕄) := by
      rw [← rest_split]; exact PhiS_out V c _ _
    iintro ⟨HΦ, Ho, ⟨%d0, H0⟩, ⟨%d1, H1⟩, ⟨%d2, H2⟩, ⟨%d3, H3⟩, ⟨%d4, H4⟩⟩
    ihave HΦ' := hΦ $$ HΦ
    icases HΦ' with ⟨H7, Hr⟩
    iapply ((firstAt V c t h0 h7).2 _ Set.univ _)
    isplitl [H0]; · iexact H0
    isplitl [H1]; · iexact H1
    isplitl [H2]; · iexact H2
    isplitl [H3]; · iexact H3
    isplitl [H4]; · iexact H4
    isplitl [H7]; · iexact H7
    iintro ⟨H0, H1, H2, H3, H4, ⟨%e7, H7⟩⟩
    isplitl [H7 Hr]
    · isplitl [H7]
      · unfold owns; iexists _; isplitr
        swap; · iexact H7
        ipureintro; exact View.read_writes_of_cover _ _ _ _ _ (cov7F V c t h0 h7)
      iexact Hr
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    rw [PhiS_pos V c _ _ hz]
    by_cases h7 : t.val % 8 = 7
    · rw [leaves4_live V c t h7, outsAt_last V c t h0 h7]
      dsimp only [rd7, rdO]
      iintro ⟨⟨H7, Hr⟩, Ho, ⟨%d0, H0⟩, ⟨%d1, H1⟩, ⟨%d2, H2⟩, ⟨%d3, H3⟩, ⟨%d4, H4⟩⟩
      iapply ((lastAt V c t h0 h7 _).2.2 Set.univ _)
      isplitl [H0]; · iexact H0
      isplitl [H1]; · iexact H1
      isplitl [H2]; · iexact H2
      isplitl [H3]; · iexact H3
      isplitl [H4]; · iexists _; iexact H4
      isplitl [H7]; · iexact H7
      iintro ⟨H0, H1, H2, H3, ⟨%e6, H6⟩, ⟨%e7, H7⟩⟩
      isplitl [H7 Hr]
      · isplitl [H7]
        · unfold owns; iexists _; isplitr
          swap; · iexact H7
          ipureintro; exact View.read_writes_of_cover _ _ _ _ _ (cov7L V c t h0 h7 _)
        iexact Hr
      isplitl [Ho]; · iexact Ho
      isplitl [H0]; · iexact H0
      isplitl [H1]; · iexact H1
      isplitl [H2]; · iexact H2
      isplitl [H3]; · iexact H3
      unfold owns; iexists _; isplitr
      swap; · iexact H6
      ipureintro; exact View.read_writes_of_cover _ _ _ _ _ (cov6L V c t h0 h7 _)
    · rw [leaves4_idle V c t h7, outsAt_mid V c t h0 h7]
      dsimp only [rd7, rdO]
      iintro ⟨⟨H7, Hr⟩, Ho, ⟨%d0, H0⟩, ⟨%d1, H1⟩, ⟨%d2, H2⟩, ⟨%d3, H3⟩, ⟨%d4, H4⟩⟩
      iapply ((midAt V c t h0 h7 _).2 _ Set.univ _)
      isplitl [H0]; · iexact H0
      isplitl [H1]; · iexact H1
      isplitl [H2]; · iexact H2
      isplitl [H3]; · iexact H3
      isplitl [H4]; · iexact H4
      isplitl [H7]; · iexact H7
      iintro ⟨H0, H1, H2, H3, H4, ⟨%e7, H7⟩⟩
      isplitl [H7 Hr]
      · isplitl [H7]
        · unfold owns; iexists _; isplitr
          swap; · iexact H7
          ipureintro; exact View.read_writes_of_cover _ _ _ _ _ (cov7M V c t h0 h7 _)
        iexact Hr
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dat (F := F) V c) (defs₀ (F := F)) Variants.none () Set.univ := fun t => by
  rw [bigSep_W2, bigSep_W2]
  exact sound_body V c t

theorem Phi_first (c : Dev nD) : (dat V c).Φ 0 = (Pipeline.scopedRest (Ix := Unit) (Name := ℕ) (U := UR sig nD τ) (Lvl := ℕ) (Val := Elt F) spec2 c : sProp 𝕄) := rfl
theorem Phi_last (c : Dev nD) : (dat V c).Φ (Fin.last cfg2.N) ⊢ (Pipeline.scopedRest (Ix := Unit) (Name := ℕ) (U := UR sig nD τ) (Lvl := ℕ) (Val := Elt F) spec2 c : sProp 𝕄) := by
  rw [show (dat V c).Φ (Fin.last cfg2.N) = PhiS V c (Fin.last cfg2.N).val (Nat.le_of_lt_succ (Fin.last cfg2.N).isLt) from rfl]
  exact PhiS_out V c _ _

end Cert.KernelIdeal.Comb2

end
-- ==== Proof.Comb3Runs.lean ====
import proofs.«154747_j1580547971631_2_alg».proof.Proof.Gen.KernelIdeal.Launch
import proofs.«154747_j1580547971631_2_alg».proof.Proof.Gen.KernelIdeal.Skeleton
import proofs.«154747_j1580547971631_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Comb3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! # The combine kernel (region 3), run case by case

The body visits the key tiles of one block of query rows left to right and keeps one accumulator block between tiles.
At a row block's first tile the accumulator is reset to zero; at every tile the exponentials of (score minus the key's
log-sum-exp) times the key block are added to it; at the last tile the query block minus the accumulator is written to
the output block. Three cases meet the grid (eight tiles per row block). -/

/-- A row block's first tile: the accumulator is reset. -/
abbrev firstT (i : grid3.Coords) : Prop := (Scalar.cmpi .ne (Scalar.extui (Scalar.cmpi .eq (BitVec.ofNat 32 (i 1).val) 0#32)) 0#32) = 1#1
/-- A row block's last tile: the output block is written. -/
abbrev lastT (i : grid3.Coords) : Prop := k3_cond2 i = 1#1
theorem hfirstT : ∀ t : Fin cfg3.N, firstT (grid3.coords t) ↔ t.val % 8 = 0 :=
  (by decide +kernel : ∀ t : Fin grid3.N, firstT (grid3.coords t) ↔ t.val % 8 = 0)
theorem hlastT : ∀ t : Fin cfg3.N, lastT (grid3.coords t) ↔ t.val % 8 = 7 :=
  (by decide +kernel : ∀ t : Fin grid3.N, lastT (grid3.coords t) ↔ t.val % 8 = 7)

set_option maxHeartbeats 1000000 in
/-- A FIRST tile: whatever the accumulator held, it is reset and the tile added; the output block is not touched. -/
noncomputable def runFirst (c : Dev nD) (i : grid3.Coords)
    (arg2 : Memref sig .tc .vmem S512x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S512x1024 .f32) (harg6 : arg6.IsWhole) (arg7 : Memref sig .tc .vmem S512x1024 .f32) (harg7 : arg7.IsWhole) (hf : firstT i) (hl : ¬lastT i)
    (x2 : Vec F S512x1024 .bf16) (x3 : Vec F S1024x1024 .bf16) (x4 : Vec F S1x1024 .f32) (x5 : Vec F S512x1024 .f32) :
    { L7 : List (View.Piece (Elt F) S512x1024 .f32) //
      ∀ (o6 : Vec F S512x1024 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare o6 ∗ (∃ d, owns (c : Thread nD τ) arg7 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare o6 ∗ (∃ f, arg7.view.loc (c : Thread nD τ) ↦[arg7.view.set]{fullShare} arg7.view.writes (Elt F) f L7)) -∗ K ⟨⟩))
          ⊢ wp frame (wpE (defs₀ (F := F)) Variants.none c none) E (cc3__combine_kernel i arg2 harg2 arg3 harg3 arg4 harg4 arg5 harg5 arg6 harg6 arg7 harg7) K } := by
  refine ⟨?_, fun o6 E K => ?run⟩
  case run =>
    simp only [cc3__combine_kernel_eq_skeleton]; unfold cc3__combine_kernel_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

set_option maxHeartbeats 1000000 in
/-- A MIDDLE tile: the tile is added to the accumulator `s7` the tile before left; the output block is not touched. -/
noncomputable def runMid (c : Dev nD) (i : grid3.Coords)
    (arg2 : Memref sig .tc .vmem S512x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S512x1024 .f32) (harg6 : arg6.IsWhole) (arg7 : Memref sig .tc .vmem S512x1024 .f32) (harg7 : arg7.IsWhole) (hf : ¬firstT i) (hl : ¬lastT i)
    (x2 : Vec F S512x1024 .bf16) (x3 : Vec F S1024x1024 .bf16) (x4 : Vec F S1x1024 .f32) (x5 : Vec F S512x1024 .f32) (s7 : Vec F S512x1024 .f32) :
    { L7 : List (View.Piece (Elt F) S512x1024 .f32) //
      ∀ (o6 : Vec F S512x1024 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare o6 ∗ owns (c : Thread nD τ) arg7 fullShare s7
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare o6 ∗ (∃ f, arg7.view.loc (c : Thread nD τ) ↦[arg7.view.set]{fullShare} arg7.view.writes (Elt F) f L7)) -∗ K ⟨⟩))
          ⊢ wp frame (wpE (defs₀ (F := F)) Variants.none c none) E (cc3__combine_kernel i arg2 harg2 arg3 harg3 arg4 harg4 arg5 harg5 arg6 harg6 arg7 harg7) K } := by
  refine ⟨?_, fun o6 E K => ?run⟩
  case run =>
    simp only [cc3__combine_kernel_eq_skeleton]; unfold cc3__combine_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

set_option maxHeartbeats 1000000 in
/-- A LAST tile: the tile is added to the accumulator `s7`, then the query block minus the accumulator is written over
    the whole output block, whatever it held. -/
noncomputable def runLast (c : Dev nD) (i : grid3.Coords)
    (arg2 : Memref sig .tc .vmem S512x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S512x1024 .f32) (harg6 : arg6.IsWhole) (arg7 : Memref sig .tc .vmem S512x1024 .f32) (harg7 : arg7.IsWhole) (hf : ¬firstT i) (hl : lastT i)
    (x2 : Vec F S512x1024 .bf16) (x3 : Vec F S1024x1024 .bf16) (x4 : Vec F S1x1024 .f32) (x5 : Vec F S512x1024 .f32) (s7 : Vec F S512x1024 .f32) :
    Σ' (L6 : List (View.Piece (Elt F) S512x1024 .f32)), { L7 : List (View.Piece (Elt F) S512x1024 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare s7
            ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc3__combine_kernel i arg2 harg2 arg3 harg3 arg4 harg4 arg5 harg5 arg6 harg6 arg7 harg7) K } := by
  refine ⟨?_, ?_, fun E K => ?run⟩
  case run =>
    simp only [cc3__combine_kernel_eq_skeleton]; unfold cc3__combine_kernel_skel
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg2.eq_unread hf2; obtain rfl := harg3.eq_unread hf3; obtain rfl := harg4.eq_unread hf4
    obtain rfl := harg5.eq_unread hf5; obtain rfl := harg7.eq_unread hf7
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexact H7

end Cert.KernelIdeal.Comb3

end
-- ==== Proof.Comb3Data.lean ====
import proofs.«154747_j1580547971631_2_alg».proof.Proof.Gen.KernelIdeal.Launch
import proofs.«154747_j1580547971631_2_alg».proof.Proof.Gen.KernelIdeal.Skeleton
import proofs.«154747_j1580547971631_2_alg».proof.Proof.Gen.KernelIdeal.Points
import proofs.«154747_j1580547971631_2_alg».proof.Proof.Comb3Runs
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Comb3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The combine region 3: what it holds point by point

The region's arrays are taken from ANY valuation `V` of the unscoped buffers. At point `t` the four input windows hold
their blocks; the accumulator and, at a row block's last tile, the output block hold what that tile's case wrote, the
accumulator of a non-first tile starting from what the tile before left. -/

variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window holds its block at every tile, fetched there or not: between fetches its index does not move. -/
theorem before_in0 {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The memrefs the body is called with -/

abbrev ms0 (t : Fin cfg3.N) : Memref sig .tc .vmem S512x1024 .bf16 := win3_0.stage (cfg3.slots t 0)
abbrev hs0 (t : Fin cfg3.N) : (ms0 t).IsWhole := hstage3_0 ((cfg3.slots t 0).cast nbuf3_0)
abbrev ms1 (t : Fin cfg3.N) : Memref sig .tc .vmem S1024x1024 .bf16 := win3_1.stage (cfg3.slots t 1)
abbrev hs1 (t : Fin cfg3.N) : (ms1 t).IsWhole := hstage3_1 ((cfg3.slots t 1).cast nbuf3_1)
abbrev ms2 (t : Fin cfg3.N) : Memref sig .tc .vmem S1x1024 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S512x1024 .f32 := win3_3.stage (cfg3.slots t 3)
abbrev hs3 (t : Fin cfg3.N) : (ms3 t).IsWhole := hstage3_3 ((cfg3.slots t 3).cast nbuf3_3)
abbrev ms4 (t : Fin cfg3.N) : Memref sig .tc .vmem S512x1024 .f32 := win3_4.stage (cfg3.slots t 4)
abbrev hs4 (t : Fin cfg3.N) : (ms4 t).IsWhole := hstage3_4 ((cfg3.slots t 4).cast nbuf3_4)
/-- The accumulator: a whole scoped buffer of the call's own. -/
abbrev scM7 : Memref sig .tc .vmem S512x1024 .f32 := Memref.whole cc3_scratch0
abbrev VO : View sig .tc .vmem S512x1024 .f32 := (Memref.whole cc3_stg4_0 : Memref sig .tc .vmem S512x1024 .f32).view
abbrev VS7 : View sig .tc .vmem S512x1024 .f32 := scM7.view

/-- A block's contents once a list of writes has covered it: the writes read back over anything. -/
def rdO (L : List (View.Piece (Elt F) S512x1024 .f32)) : Vec F S512x1024 .f32 := VO.read (Elt F) (VO.writes (Elt F) VO.junk L)
def rd7 (L : List (View.Piece (Elt F) S512x1024 .f32)) : Vec F S512x1024 .f32 := VS7.read (Elt F) (VS7.writes (Elt F) VS7.junk L)

/-! ## The three cases at a point of the grid -/

def firstAt (c : Dev nD) (t : Fin cfg3.N) (hf : t.val % 8 = 0) (hl : ¬t.val % 8 = 7) :=
  runFirst (F := F) (Ix := Unit) (U := UR sig nD τ) (Lvl := ℕ) c (grid3.coords t) (ms0 t) (hs0 t) (ms1 t) (hs1 t) (ms2 t) (hs2 t) (ms3 t) (hs3 t) (ms4 t) (hs4 t) scM7 (Memref.isWhole_whole _)
    ((hfirstT t).mpr hf) (fun h => hl ((hlastT t).mp h)) (iblk V c 0 t) (iblk V c 1 t) (iblk V c 2 t) (iblk V c 3 t)
def midAt (c : Dev nD) (t : Fin cfg3.N) (hf : ¬t.val % 8 = 0) (hl : ¬t.val % 8 = 7) (s7 : Vec F S512x1024 .f32) :=
  runMid (F := F) (Ix := Unit) (U := UR sig nD τ) (Lvl := ℕ) c (grid3.coords t) (ms0 t) (hs0 t) (ms1 t) (hs1 t) (ms2 t) (hs2 t) (ms3 t) (hs3 t) (ms4 t) (hs4 t) scM7 (Memref.isWhole_whole _)
    (fun h => hf ((hfirstT t).mp h)) (fun h => hl ((hlastT t).mp h)) (iblk V c 0 t) (iblk V c 1 t) (iblk V c 2 t) (iblk V c 3 t) s7
def lastAt (c : Dev nD) (t : Fin cfg3.N) (hf : ¬t.val % 8 = 0) (hl : t.val % 8 = 7) (s7 : Vec F S512x1024 .f32) :=
  runLast (F := F) (Ix := Unit) (U := UR sig nD τ) (Lvl := ℕ) c (grid3.coords t) (ms0 t) (hs0 t) (ms1 t) (hs1 t) (ms2 t) (hs2 t) (ms3 t) (hs3 t) (ms4 t) (hs4 t) scM7 (Memref.isWhole_whole _)
    (fun h => hf ((hfirstT t).mp h)) ((hlastT t).mpr hl) (iblk V c 0 t) (iblk V c 1 t) (iblk V c 2 t) (iblk V c 3 t) s7

/-- Each case's writes to the accumulator, and the last tile's to the output block, cover it (a whole-block store last). -/
theorem cov7F (c : Dev nD) (t : Fin cfg3.N) (hf) (hl) (y : S512x1024.Idx) : ∃ pc ∈ (firstAt V c t hf hl).1, y ∈ pc.1.set :=
  View.cover_of_tiledL (firstAt V c t hf hl).1 S512x1024.size (by sl_kernel_rfl) y
theorem cov7M (c : Dev nD) (t : Fin cfg3.N) (hf) (hl) (s7) (y : S512x1024.Idx) : ∃ pc ∈ (midAt V c t hf hl s7).1, y ∈ pc.1.set :=
  View.cover_of_tiledL (midAt V c t hf hl s7).1 S512x1024.size (by sl_kernel_rfl) y
theorem cov6L (c : Dev nD) (t : Fin cfg3.N) (hf) (hl) (s7) (y : S512x1024.Idx) : ∃ pc ∈ (lastAt V c t hf hl s7).1, y ∈ pc.1.set :=
  View.cover_of_tiledL (lastAt V c t hf hl s7).1 S512x1024.size (by sl_kernel_rfl) y
theorem cov7L (c : Dev nD) (t : Fin cfg3.N) (hf) (hl) (s7) (y : S512x1024.Idx) : ∃ pc ∈ (lastAt V c t hf hl s7).2.1, y ∈ pc.1.set :=
  View.cover_of_tiledL (lastAt V c t hf hl s7).2.1 S512x1024.size (by sl_kernel_rfl) y

/-! ## What the output block and the accumulator hold after each point -/

/-- After the body at position `n`: the output block's staging buffer (a placeholder nothing reads at a tile that does
    not write it) and the accumulator — the case the position selects, a non-first tile run from what position `n - 1` left. -/
def outsAt (c : Dev nD) : (n : ℕ) → n < cfg3.N → Vec F S512x1024 .f32 × Vec F S512x1024 .f32
  | 0, hn => (rdO [], rd7 (firstAt V c ⟨0, hn⟩ (Nat.zero_mod _) (by show ¬(0 : ℕ) % 8 = 7; decide)).1)
  | n + 1, hn =>
    if h0 : (n + 1) % 8 = 0 then
      if h7 : (n + 1) % 8 = 7 then False.elim (by omega)
      else (rdO [], rd7 (firstAt V c ⟨n + 1, hn⟩ h0 h7).1)
    else
      if h7 : (n + 1) % 8 = 7 then
        (rdO (lastAt V c ⟨n + 1, hn⟩ h0 h7 (outsAt c n (Nat.lt_of_succ_lt hn)).2).1,
         rd7 (lastAt V c ⟨n + 1, hn⟩ h0 h7 (outsAt c n (Nat.lt_of_succ_lt hn)).2).2.1)
      else
        (rdO [], rd7 (midAt V c ⟨n + 1, hn⟩ h0 h7 (outsAt c n (Nat.lt_of_succ_lt hn)).2).1)

abbrev prev (c : Dev nD) (t : Fin cfg3.N) := outsAt V c (t.val - 1) (Nat.lt_of_le_of_lt (Nat.sub_le _ _) t.isLt)

theorem outsAt_first (c : Dev nD) (t : Fin cfg3.N) (h0 : t.val % 8 = 0) (h7 : ¬t.val % 8 = 7) :
    outsAt V c t.val t.isLt = (rdO [], rd7 (firstAt V c t h0 h7).1) := by
  obtain ⟨n, hn⟩ := t
  cases n with
  | zero => exact rfl
  | succ n => exact (dif_pos h0).trans ((dif_neg h7).trans rfl)
theorem outsAt_mid (c : Dev nD) (t : Fin cfg3.N) (h0 : ¬t.val % 8 = 0) (h7 : ¬t.val % 8 = 7) :
    outsAt V c t.val t.isLt = (rdO [], rd7 (midAt V c t h0 h7 (prev V c t).2).1) := by
  obtain ⟨n, hn⟩ := t
  cases n with
  | zero => exact absurd (Nat.zero_mod _) h0
  | succ n => exact (dif_neg h0).trans ((dif_neg h7).trans rfl)
theorem outsAt_last (c : Dev nD) (t : Fin cfg3.N) (h0 : ¬t.val % 8 = 0) (h7 : t.val % 8 = 7) :
    outsAt V c t.val t.isLt = (rdO (lastAt V c t h0 h7 (prev V c t).2).1, rd7 (lastAt V c t h0 h7 (prev V c t).2).2.1) := by
  obtain ⟨n, hn⟩ := t
  cases n with
  | zero => exact absurd (Nat.zero_mod _) h0
  | succ n => exact (dif_neg h0).trans ((dif_pos h7).trans rfl)

/-! ## The invariant -/

theorem rest_split (c : Dev nD) :
    (Pipeline.scopedRest (Ix := Unit) (Name := ℕ) (U := UR sig nD τ) (Lvl := ℕ) (Val := Elt F) spec3 c : sProp 𝕄)
      = iprop(iprop((∃ d, owns (c : Thread nD τ) scM7 fullShare d)) ∗ Pipeline.scopedRestBut (Ix := Unit) (Name := ℕ) (U := UR sig nD τ) (Lvl := ℕ) (Val := Elt F) spec3 c [cc3_scratch0]) := by
  rw [scopedRest3_split]; simp only [scM7, owns_whole]; try rfl

/-- Before position `n`: at the region's start every scoped buffer the pipeline does not stage at anything; afterwards
    the accumulator at what the point before left, the other such buffers at anything. -/
def PhiS (c : Dev nD) : (n : ℕ) → n ≤ cfg3.N → sProp 𝕄
  | 0, _ => Pipeline.scopedRest (Ix := Unit) (Name := ℕ) (U := UR sig nD τ) (Lvl := ℕ) (Val := Elt F) spec3 c
  | n + 1, hn => iprop(iprop(owns (c : Thread nD τ) scM7 fullShare (outsAt V c n hn).2) ∗ Pipeline.scopedRestBut (Ix := Unit) (Name := ℕ) (U := UR sig nD τ) (Lvl := ℕ) (Val := Elt F) spec3 c [cc3_scratch0])
theorem PhiS_zero (c : Dev nD) (n : ℕ) (h : n ≤ cfg3.N) (hz : n = 0) : PhiS V c n h = Pipeline.scopedRest (Ix := Unit) (Name := ℕ) (U := UR sig nD τ) (Lvl := ℕ) (Val := Elt F) spec3 c := by
  subst hz; rfl
theorem PhiS_succ (c : Dev nD) (n : ℕ) (hn : n < cfg3.N) :
    PhiS V c (n + 1) hn = iprop(iprop(owns (c : Thread nD τ) scM7 fullShare (outsAt V c n hn).2) ∗ Pipeline.scopedRestBut (Ix := Unit) (Name := ℕ) (U := UR sig nD τ) (Lvl := ℕ) (Val := Elt F) spec3 c [cc3_scratch0]) := rfl
theorem PhiS_pos (c : Dev nD) (n : ℕ) (h : n ≤ cfg3.N) (hz : n ≠ 0) :
    PhiS V c n h = iprop(iprop(owns (c : Thread nD τ) scM7 fullShare (outsAt V c (n - 1) (by omega)).2) ∗ Pipeline.scopedRestBut (Ix := Unit) (Name := ℕ) (U := UR sig nD τ) (Lvl := ℕ) (Val := Elt F) spec3 c [cc3_scratch0]) := by
  cases n with
  | zero => exact absurd rfl hz
  | succ n => rfl
theorem PhiS_out (c : Dev nD) (n : ℕ) (h : n ≤ cfg3.N) : PhiS V c n h ⊢ (Pipeline.scopedRest (Ix := Unit) (Name := ℕ) (U := UR sig nD τ) (Lvl := ℕ) (Val := Elt F) spec3 c : sProp 𝕄) := by
  by_cases hz : n = 0
  · rw [PhiS_zero V c n h hz]
  · rw [PhiS_pos V c n h hz, rest_split]
    iintro ⟨H7, Hr⟩
    isplitl [H7]
    · iexists _; iexact H7
    iexact Hr

/-! ## The proof data -/

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg3.W) : (dat V c).A w = V c (Pipeline.arrRef spec3 w) := by dsimp only [dat]
theorem Phi_castSucc (c : Dev nD) (t : Fin cfg3.N) : (dat V c).Φ t.castSucc = PhiS V c t.val (Nat.le_of_lt t.isLt) := by
  dsimp only [dat]; simp only [Fin.coe_castSucc]
theorem after0 (c : Dev nD) (t : Fin cfg3.N) : (dat V c).after 0 t = iblk V c 0 t := by dsimp only [dat]
theorem after1 (c : Dev nD) (t : Fin cfg3.N) : (dat V c).after 1 t = iblk V c 1 t := by dsimp only [dat]
theorem after2 (c : Dev nD) (t : Fin cfg3.N) : (dat V c).after 2 t = iblk V c 2 t := by dsimp only [dat]
theorem after3 (c : Dev nD) (t : Fin cfg3.N) : (dat V c).after 3 t = iblk V c 3 t := by dsimp only [dat]
theorem after4 (c : Dev nD) (t : Fin cfg3.N) : (dat V c).after 4 t = (outsAt V c t.val t.isLt).1 := by dsimp only [dat]
theorem before0 (c : Dev nD) (t : Fin cfg3.N) (d) : (dat V c).before 0 t d = iblk V c 0 t := before_in0 V (dat V c) (A_eq V c 0) (after0 V c) t d
theorem before1 (c : Dev nD) (t : Fin cfg3.N) (d) : (dat V c).before 1 t d = iblk V c 1 t := before_in1 V (dat V c) (A_eq V c 1) (after1 V c) t d
theorem before2 (c : Dev nD) (t : Fin cfg3.N) (d) : (dat V c).before 2 t d = iblk V c 2 t := before_in2 V (dat V c) (A_eq V c 2) (after2 V c) t d
theorem before3 (c : Dev nD) (t : Fin cfg3.N) (d) : (dat V c).before 3 t d = iblk V c 3 t := before_in3 V (dat V c) (A_eq V c 3) (after3 V c) t d

/-! ## Where the output window is idle -/

theorem live0 : ∀ t : Fin cfg3.N, cfg3.idle 0 (grid3.coords t) = false := by decide +kernel
theorem live1 : ∀ t : Fin cfg3.N, cfg3.idle 1 (grid3.coords t) = false := by decide +kernel
theorem live2 : ∀ t : Fin cfg3.N, cfg3.idle 2 (grid3.coords t) = false := by decide +kernel
theorem live3 : ∀ t : Fin cfg3.N, cfg3.idle 3 (grid3.coords t) = false := by decide +kernel
theorem idle4 : ∀ t : Fin cfg3.N, ¬t.val % 8 = 7 → cfg3.idle 4 (grid3.coords t) = true := by decide +kernel
theorem noFlush4 : ∀ t : Fin cfg3.N, ¬t.val % 8 = 7 → (cfg3.win 4).flush t = false := by decide +kernel
theorem live4 : ∀ t : Fin cfg3.N, t.val % 8 = 7 → cfg3.idle 4 (grid3.coords t) = false := by decide +kernel

end Cert.KernelIdeal.Comb3

end
-- ==== Proof.Comb3Body.lean ====
import proofs.«154747_j1580547971631_2_alg».proof.Proof.Gen.KernelIdeal.Launch
import proofs.«154747_j1580547971631_2_alg».proof.Proof.Gen.KernelIdeal.Skeleton
import proofs.«154747_j1580547971631_2_alg».proof.Proof.Gen.KernelIdeal.Points
import proofs.«154747_j1580547971631_2_alg».proof.Proof.Comb3Data
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Comb3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The combine region 3: its body obligation

At every point the invariant hands the body the accumulator — at anything before the region's first point, otherwise at
what the point before left — and takes it back at what this point's case wrote; the four inputs' buffers hold their blocks;
the output block's buffer is passed through untouched except at a row block's last tile, where the case covers it. -/

variable (V : (c : Dev nD) → (b : Ref sig .tc) → Buf (Elt F) ((c : Thread nD τ).loc b))

def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))
def bodyPost (c : Dev nD) (t : Fin cfg3.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t)

theorem leaves0 (c : Dev nD) (t : Fin cfg3.N) : (dat V c).leavesExact 0 t = owns (c : Thread nD τ) (ms0 t) fullShare (iblk V c 0 t) := by
  unfold Dat.leavesExact; rw [live0 t, after0]
theorem leaves1 (c : Dev nD) (t : Fin cfg3.N) : (dat V c).leavesExact 1 t = owns (c : Thread nD τ) (ms1 t) fullShare (iblk V c 1 t) := by
  unfold Dat.leavesExact; rw [live1 t, after1]
theorem leaves2 (c : Dev nD) (t : Fin cfg3.N) : (dat V c).leavesExact 2 t = owns (c : Thread nD τ) (ms2 t) fullShare (iblk V c 2 t) := by
  unfold Dat.leavesExact; rw [live2 t, after2]
theorem leaves3 (c : Dev nD) (t : Fin cfg3.N) : (dat V c).leavesExact 3 t = owns (c : Thread nD τ) (ms3 t) fullShare (iblk V c 3 t) := by
  unfold Dat.leavesExact; rw [live3 t, after3]
theorem leaves4_idle (c : Dev nD) (t : Fin cfg3.N) (h7 : ¬t.val % 8 = 7) :
    (dat V c).leavesExact 4 t = iprop(∃ d, owns (c : Thread nD τ) (ms4 t) fullShare ((dat V c).before 4 t d)) :=
  Dat.leavesExact_idle (dat V c) 4 t (idle4 t h7) (noFlush4 t h7)
theorem leaves4_live (c : Dev nD) (t : Fin cfg3.N) (h7 : t.val % 8 = 7) :
    (dat V c).leavesExact 4 t = owns (c : Thread nD τ) (ms4 t) fullShare (outsAt V c t.val t.isLt).1 := by
  unfold Dat.leavesExact; rw [live4 t h7, after4]

set_option maxHeartbeats 4000000 in
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0, before1, before2, before3]
  rw [show (dat V c).owesAt () t.succ = (dat V c).owesAt () t.castSucc from rfl]
  rw [show (dat V c).Φ t.succ = PhiS V c (t.val + 1) t.isLt from rfl, PhiS_succ, leaves0, leaves1, leaves2, leaves3, Phi_castSucc]
  have hN : t.val < 128 := lt_of_lt_of_eq t.isLt (show cfg3.N = 128 from N_3)
  by_cases h0 : t.val % 8 = 0
  · have h7 : ¬t.val % 8 = 7 := by omega
    rw [leaves4_idle V c t h7, outsAt_first V c t h0 h7]
    dsimp only [rd7, rdO]
    have hΦ : PhiS V c t.val (Nat.le_of_lt t.isLt) ⊢ (iprop(iprop((∃ d, owns (c : Thread nD τ) scM7 fullShare d)) ∗ Pipeline.scopedRestBut (Ix := Unit) (Name := ℕ) (U := UR sig nD τ) (Lvl := ℕ) (Val := Elt F) spec3 c [cc3_scratch0]) : sProp 𝕄) := by
      rw [← rest_split]; exact PhiS_out V c _ _
    iintro ⟨HΦ, Ho, ⟨%d0, H0⟩, ⟨%d1, H1⟩, ⟨%d2, H2⟩, ⟨%d3, H3⟩, ⟨%d4, H4⟩⟩
    ihave HΦ' := hΦ $$ HΦ
    icases HΦ' with ⟨H7, Hr⟩
    iapply ((firstAt V c t h0 h7).2 _ Set.univ _)
    isplitl [H0]; · iexact H0
    isplitl [H1]; · iexact H1
    isplitl [H2]; · iexact H2
    isplitl [H3]; · iexact H3
    isplitl [H4]; · iexact H4
    isplitl [H7]; · iexact H7
    iintro ⟨H0, H1, H2, H3, H4, ⟨%e7, H7⟩⟩
    isplitl [H7 Hr]
    · isplitl [H7]
      · unfold owns; iexists _; isplitr
        swap; · iexact H7
        ipureintro; exact View.read_writes_of_cover _ _ _ _ _ (cov7F V c t h0 h7)
      iexact Hr
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    rw [PhiS_pos V c _ _ hz]
    by_cases h7 : t.val % 8 = 7
    · rw [leaves4_live V c t h7, outsAt_last V c t h0 h7]
      dsimp only [rd7, rdO]
      iintro ⟨⟨H7, Hr⟩, Ho, ⟨%d0, H0⟩, ⟨%d1, H1⟩, ⟨%d2, H2⟩, ⟨%d3, H3⟩, ⟨%d4, H4⟩⟩
      iapply ((lastAt V c t h0 h7 _).2.2 Set.univ _)
      isplitl [H0]; · iexact H0
      isplitl [H1]; · iexact H1
      isplitl [H2]; · iexact H2
      isplitl [H3]; · iexact H3
      isplitl [H4]; · iexists _; iexact H4
      isplitl [H7]; · iexact H7
      iintro ⟨H0, H1, H2, H3, ⟨%e6, H6⟩, ⟨%e7, H7⟩⟩
      isplitl [H7 Hr]
      · isplitl [H7]
        · unfold owns; iexists _; isplitr
          swap; · iexact H7
          ipureintro; exact View.read_writes_of_cover _ _ _ _ _ (cov7L V c t h0 h7 _)
        iexact Hr
      isplitl [Ho]; · iexact Ho
      isplitl [H0]; · iexact H0
      isplitl [H1]; · iexact H1
      isplitl [H2]; · iexact H2
      isplitl [H3]; · iexact H3
      unfold owns; iexists _; isplitr
      swap; · iexact H6
      ipureintro; exact View.read_writes_of_cover _ _ _ _ _ (cov6L V c t h0 h7 _)
    · rw [leaves4_idle V c t h7, outsAt_mid V c t h0 h7]
      dsimp only [rd7, rdO]
      iintro ⟨⟨H7, Hr⟩, Ho, ⟨%d0, H0⟩, ⟨%d1, H1⟩, ⟨%d2, H2⟩, ⟨%d3, H3⟩, ⟨%d4, H4⟩⟩
      iapply ((midAt V c t h0 h7 _).2 _ Set.univ _)
      isplitl [H0]; · iexact H0
      isplitl [H1]; · iexact H1
      isplitl [H2]; · iexact H2
      isplitl [H3]; · iexact H3
      isplitl [H4]; · iexact H4
      isplitl [H7]; · iexact H7
      iintro ⟨H0, H1, H2, H3, H4, ⟨%e7, H7⟩⟩
      isplitl [H7 Hr]
      · isplitl [H7]
        · unfold owns; iexists _; isplitr
          swap; · iexact H7
          ipureintro; exact View.read_writes_of_cover _ _ _ _ _ (cov7M V c t h0 h7 _)
        iexact Hr
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dat (F := F) V c) (defs₀ (F := F)) Variants.none () Set.univ := fun t => by
  rw [bigSep_W3, bigSep_W3]
  exact sound_body V c t

theorem Phi_first (c : Dev nD) : (dat V c).Φ 0 = (Pipeline.scopedRest (Ix := Unit) (Name := ℕ) (U := UR sig nD τ) (Lvl := ℕ) (Val := Elt F) spec3 c : sProp 𝕄) := rfl
theorem Phi_last (c : Dev nD) : (dat V c).Φ (Fin.last cfg3.N) ⊢ (Pipeline.scopedRest (Ix := Unit) (Name := ℕ) (U := UR sig nD τ) (Lvl := ℕ) (Val := Elt F) spec3 c : sProp 𝕄) := by
  rw [show (dat V c).Φ (Fin.last cfg3.N) = PhiS V c (Fin.last cfg3.N).val (Nat.le_of_lt_succ (Fin.last cfg3.N).isLt) from rfl]
  exact PhiS_out V c _ _

end Cert.KernelIdeal.Comb3

end
-- ==== Proof.RunCond.lean ====
/-
  The whole program's run from its four regions' records, with the final contents of every unscoped buffer.

  @main is a stretch of host operations, two kernel regions, a second stretch, two more regions. Between two items a core
  holds every unscoped buffer whole at a valuation: the launch contents, then the fold of each host stretch, then, after a
  region, the same valuation updated at the one array that region may change. Given one segment record per region that is
  entered from the state before it and left at the state after it, the program runs to the end, and there every unscoped
  buffer holds what the last valuation says.
-/
import proofs.«154747_j1580547971631_2_alg».proof.Proof.Gen.KernelIdeal.Regions

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the launch theorem's implicit arguments are found by unifying its conclusion with this one, which takes unfolding
-- plain definitions in a metavariable's type
set_option backward.isDefEq.respectTransparency.types false in
/-- THE RUN, GIVEN THE REGIONS' RECORDS. Under the same hypotheses as the conditional frame — per region a segment record
    entered from the thread state before it and left at the one after it — every weakly fair execution of @main from memory
    `m` with zero counters terminates, and in every final memory EVERY unscoped buffer holds what the last valuation gives it:
    the arguments as launched, each region's output array at what that region left. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V5 m outs c) ∗ E 3 c) ⊢ R3.pre c)
    (hpost3 : ∀ c : Dev nD, R3.post c ⊢ iprop(StableHlo.held (c : Thread nD τ) (Pipeline.ucRefs τ sig) (V6 m outs c) ∗ E 4 c)) :
    θ_run defs (onTc (τ := τ) (main (F := F))) ⟨m, fun _ => 0, ρ⟩ (fun r => ∀ c : Dev nD, ∀ b ∈ Pipeline.ucRefs τ sig, r.2.mem ((c : Thread nD τ).1, b) = V6 m outs c b) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨.rfl, hpre0 c, (hpost0 c).trans (hpre1 c), hpost1 c, hpre2 c, (hpost2 c).trans (hpre3 c), (hpost3 c).trans (sep_mono .rfl (hE4 c))⟩)
    (hinit := ?_) (QY := fun c s => ∀ b ∈ Pipeline.ucRefs τ sig, s.mem ((c : Thread nD τ).1, b) = V6 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro
      exact h
    · iexact HSI

end Cert.KernelIdeal.Gen

end
-- ==== Proof.KiRegions.lean ====
import proofs.«154747_j1580547971631_2_alg».proof.Proof.Gen.KernelIdeal.Launch
import proofs.«154747_j1580547971631_2_alg».proof.Proof.Gen.KernelIdeal.Skeleton
import proofs.«154747_j1580547971631_2_alg».proof.Proof.Gen.KernelIdeal.Points
import proofs.«154747_j1580547971631_2_alg».proof.Proof.Lse0Body
import proofs.«154747_j1580547971631_2_alg».proof.Proof.Lse1Body
import proofs.«154747_j1580547971631_2_alg».proof.Proof.Comb2Body
import proofs.«154747_j1580547971631_2_alg».proof.Proof.Comb3Body
import proofs.«154747_j1580547971631_2_alg».proof.Proof.RunCond
import Idealize.ShloMosaic.Lib.Pipeline.Regions
import Idealize.ShloMosaic.Lib.Pipeline.RegionsLoop
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The idealized kernel program's run: four regions between two stretches of host operations

Between two items of @main a core holds every unscoped buffer whole at a valuation. The chain of valuations: the launch
contents; after the first host stretch (the normalisation of both inputs and their narrowing); after the row
log-sum-exp region, which changes one array; after the column log-sum-exp region, which changes another; after the two
reshapes; after each combine region, which changes its result array. Each region's proof data is taken at the valuation
it is entered from, and what it leaves in its output array is what the library computes from that data. -/

variable (m : (ℓ : Loc nD τ sig) → Buf (Elt F) ℓ)

/-- A valuation read at the TensorCore's references. -/
abbrev rd (W : Dev nD → Valuation τ sig (Elt F)) : (c : Dev nD) → (b : Ref sig .tc) → Buf (Elt F) ((c : Thread nD τ).loc b) := fun c b => W c b

/-- After the first host stretch. -/
abbrev W1 : Dev nD → Valuation τ sig (Elt F) := fun c => Gen.V1 m c
/-- What the row log-sum-exp region leaves in its output array. -/
def arr0 (c : Dev nD) : Buf (Elt F) ((c : Thread nD τ).loc main_v14) := (Lse0.dat (rd (W1 m)) c).arrAt 2 cfg0.N

/-- After the row log-sum-exp region. -/
def W2 (c : Dev nD) : Valuation τ sig (Elt F) := Function.update (W1 m c) main_v14 (arr0 m c)
theorem W2_out (c : Dev nD) : W2 m c main_v14 = arr0 m c := by
  unfold W2; exact Function.update_self _ _ _
theorem W2_of_ne (c : Dev nD) (b : Ref sig .tc) (h : b ≠ main_v14) : W2 m c b = W1 m c b := by
  unfold W2; exact Function.update_of_ne (StableHlo.devRef_ne_of_ne h) _ _

/-- What the column log-sum-exp region leaves in its output array. -/
def arr1 (c : Dev nD) : Buf (Elt F) ((c : Thread nD τ).loc main_v15) := (Lse1.dat (rd (W2 m)) c).arrAt 2 cfg1.N

/-- After the column log-sum-exp region. -/
def W3 (c : Dev nD) : Valuation τ sig (Elt F) := Function.update (W2 m c) main_v15 (arr1 m c)
theorem W3_out (c : Dev nD) : W3 m c main_v15 = arr1 m c := by
  unfold W3; exact Function.update_self _ _ _
theorem W3_of_ne (c : Dev nD) (b : Ref sig .tc) (h : b ≠ main_v15) : W3 m c b = W2 m c b := by
  unfold W3; exact Function.update_of_ne (StableHlo.devRef_ne_of_ne h) _ _

/-- After the two reshapes. -/
def W4 (c : Dev nD) : Valuation τ sig (Elt F) := StableHlo.after hostOps2 (W3 m c)
/-- What the first combine region leaves in its output array. -/
def arr2 (c : Dev nD) : Buf (Elt F) ((c : Thread nD τ).loc main_v18) := (Comb2.dat (rd (W4 m)) c).arrAt 4 cfg2.N

/-- After the first combine region. -/
def W5 (c : Dev nD) : Valuation τ sig (Elt F) := Function.update (W4 m c) main_v18 (arr2 m c)
theorem W5_out (c : Dev nD) : W5 m c main_v18 = arr2 m c := by
  unfold W5; exact Function.update_self _ _ _
theorem W5_of_ne (c : Dev nD) (b : Ref sig .tc) (h : b ≠ main_v18) : W5 m c b = W4 m c b := by
  unfold W5; exact Function.update_of_ne (StableHlo.devRef_ne_of_ne h) _ _

/-- What the second combine region leaves in its output array. -/
def arr3 (c : Dev nD) : Buf (Elt F) ((c : Thread nD τ).loc main_v19) := (Comb3.dat (rd (W5 m)) c).arrAt 4 cfg3.N

/-- After the second combine region: the end. -/
def W6 (c : Dev nD) : Valuation τ sig (Elt F) := Function.update (W5 m c) main_v19 (arr3 m c)
theorem W6_out (c : Dev nD) : W6 m c main_v19 = arr3 m c := by
  unfold W6; exact Function.update_self _ _ _
theorem W6_of_ne (c : Dev nD) (b : Ref sig .tc) (h : b ≠ main_v19) : W6 m c b = W5 m c b := by
  unfold W6; exact Function.update_of_ne (StableHlo.devRef_ne_of_ne h) _ _

/-- The contents the regions leave, as the conditional run names them. -/
def outs : Gen.Outs (F := F) := fun J r c =>
  match J with
  | 2 => W2 m c r
  | 3 => W3 m c r
  | 5 => W5 m c r
  | _ => W6 m c r

theorem V2_eq (c : Dev nD) : Gen.V2 m (outs m) c = W2 m c := by
  show Function.update (Gen.V1 m c) main_v14 (W2 m c main_v14) = W2 m c
  rw [W2_out]; rfl
theorem V3_eq (c : Dev nD) : Gen.V3 m (outs m) c = W3 m c := by
  show Function.update (Gen.V2 m (outs m) c) main_v15 (W3 m c main_v15) = W3 m c
  rw [V2_eq, W3_out]; rfl
theorem V4_eq (c : Dev nD) : Gen.V4 m (outs m) c = W4 m c := by
  show StableHlo.after hostOps2 (Gen.V3 m (outs m) c) = W4 m c
  rw [V3_eq]; rfl
theorem V5_eq (c : Dev nD) : Gen.V5 m (outs m) c = W5 m c := by
  show Function.update (Gen.V4 m (outs m) c) main_v18 (W5 m c main_v18) = W5 m c
  rw [V4_eq, W5_out]; rfl
theorem V6_eq (c : Dev nD) : Gen.V6 m (outs m) c = W6 m c := by
  show Function.update (Gen.V5 m (outs m) c) main_v19 (W6 m c main_v19) = W6 m c
  rw [V5_eq, W6_out]; rfl

/-! ## The proof data family and the thread state -/

/-- Every pipeline's proof data, each at its region's entry contents — a literal match, so that the family at a numeral
    reduces to that region's data. -/
def pdats : (p : Fin 4) → (c : Dev nD) → Dat τ (Elt F) Unit ℕ (UR sig nD τ) ℕ (Pipeline.pin (pcfgs (F := F)) adm p) c
  | ⟨0, _⟩ => fun c => Lse0.dat (rd (W1 m)) c
  | ⟨1, _⟩ => fun c => Lse1.dat (rd (W2 m)) c
  | ⟨2, _⟩ => fun c => Comb2.dat (rd (W4 m)) c
  | ⟨3, _⟩ => fun c => Comb3.dat (rd (W5 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core owing nothing. -/
abbrev Rr (c : Dev nD) : sProp 𝕄 := iprop(∃ W, owes (c : Thread nD τ) (0 : CellTallies nD τ sig Unit) W)

-- `iapply` of a library lemma stated over the pinned configuration unifies with the printed one only when unification may
-- unfold plain definitions in a metavariable's type
set_option backward.isDefEq.respectTransparency.types false in
/-- REGION 0 over the thread state: entered from every unscoped buffer at `W1`, left at `W2`. Its arrays are
    split out of the unscoped buffers and put back at the exit contents; the call's scoped rest goes into the invariant and
    comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Lse0.body_obligation (rd (W1 m)) c).loose
  hwaits := Pipeline.hwaits_of_owed_zero _ _ _ _ L lv 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X _ := BI.emp
  Y _ := BI.emp
  Z c := Pipeline.unscopedRest (Ix := Unit) (Name := ℕ) (U := UR sig nD τ) (Lvl := ℕ) spec0 c (rd (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (W1 m) c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = _ from Lse0.Phi_first (rd (W1 m)) c]
    iintro ⟨-, -, Hr⟩
    iexact Hr
  hout c := by
    rw [Pipeline.ownSems0_none, show (pdats m 0 c).Φ (Fin.last _) = (Lse0.dat (rd (W1 m)) c).Φ (Fin.last cfg0.N) from rfl]
    iintro H
    isplitr; · iempintro
    isplitr; · iempintro
    iapply (Lse0.Phi_last (rd (W1 m)) c)
    iexact H
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (W1 m) c) (rd (W2 m) c) ((pdats m 0 c).arrAt · cfg0.N)
      (fun w => by
        fin_cases w
        · exact ((pdats m 0 c).arrAt_in 0 rfl _).trans (((Lse0.A_eq (rd (W1 m)) c 0)).trans (W2_of_ne m c main_v12 (by decide)).symm)
        · exact ((pdats m 0 c).arrAt_in 1 rfl _).trans (((Lse0.A_eq (rd (W1 m)) c 1)).trans (W2_of_ne m c main_v13 (by decide)).symm)
        · exact (W2_out m c).symm)
      (fun b hb => W2_of_ne m c b fun h => hb (h ▸ Finset.mem_image.mpr ⟨2, Finset.mem_univ _, rfl⟩))
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

-- `iapply` of a library lemma stated over the pinned configuration unifies with the printed one only when unification may
-- unfold plain definitions in a metavariable's type
set_option backward.isDefEq.respectTransparency.types false in
/-- REGION 1 over the thread state: entered from every unscoped buffer at `W2`, left at `W3`. Its arrays are
    split out of the unscoped buffers and put back at the exit contents; the call's scoped rest goes into the invariant and
    comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Lse1.body_obligation (rd (W2 m)) c).loose
  hwaits := Pipeline.hwaits_of_owed_zero _ _ _ _ L lv 1 fun _ _ => rfl
  pre c := iprop(StableHlo.held (c : Thread nD τ) (Pipeline.ucRefs τ sig) (W2 m c) ∗ Rr c)
  post c := iprop(StableHlo.held (c : Thread nD τ) (Pipeline.ucRefs τ sig) (W3 m c) ∗ Rr c)
  X _ := BI.emp
  Y _ := BI.emp
  Z c := Pipeline.unscopedRest (Ix := Unit) (Name := ℕ) (U := UR sig nD τ) (Lvl := ℕ) spec1 c (rd (W2 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (W2 m) c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = _ from Lse1.Phi_first (rd (W2 m)) c]
    iintro ⟨-, -, Hr⟩
    iexact Hr
  hout c := by
    rw [Pipeline.ownSems0_none, show (pdats m 1 c).Φ (Fin.last _) = (Lse1.dat (rd (W2 m)) c).Φ (Fin.last cfg1.N) from rfl]
    iintro H
    isplitr; · iempintro
    isplitr; · iempintro
    iapply (Lse1.Phi_last (rd (W2 m)) c)
    iexact H
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (W2 m) c) (rd (W3 m) c) ((pdats m 1 c).arrAt · cfg1.N)
      (fun w => by
        fin_cases w
        · exact ((pdats m 1 c).arrAt_in 0 rfl _).trans (((Lse1.A_eq (rd (W2 m)) c 0)).trans (W3_of_ne m c main_v13 (by decide)).symm)
        · exact ((pdats m 1 c).arrAt_in 1 rfl _).trans (((Lse1.A_eq (rd (W2 m)) c 1)).trans (W3_of_ne m c main_v12 (by decide)).symm)
        · exact (W3_out m c).symm)
      (fun b hb => W3_of_ne m c b fun h => hb (h ▸ Finset.mem_image.mpr ⟨2, Finset.mem_univ _, rfl⟩))
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

-- `iapply` of a library lemma stated over the pinned configuration unifies with the printed one only when unification may
-- unfold plain definitions in a metavariable's type
set_option backward.isDefEq.respectTransparency.types false in
/-- REGION 2 over the thread state: entered from every unscoped buffer at `W4`, left at `W5`. Its arrays are
    split out of the unscoped buffers and put back at the exit contents; the call's scoped rest goes into the invariant and
    comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Comb2.body_obligation (rd (W4 m)) c).loose
  hwaits := Pipeline.hwaits_of_owed_zero _ _ _ _ L lv 2 fun _ _ => rfl
  pre c := iprop(StableHlo.held (c : Thread nD τ) (Pipeline.ucRefs τ sig) (W4 m c) ∗ Rr c)
  post c := iprop(StableHlo.held (c : Thread nD τ) (Pipeline.ucRefs τ sig) (W5 m c) ∗ Rr c)
  X _ := BI.emp
  Y _ := BI.emp
  Z c := Pipeline.unscopedRest (Ix := Unit) (Name := ℕ) (U := UR sig nD τ) (Lvl := ℕ) spec2 c (rd (W4 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (W4 m) c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 2 c).Φ 0 = _ from Comb2.Phi_first (rd (W4 m)) c]
    iintro ⟨-, -, Hr⟩
    iexact Hr
  hout c := by
    rw [Pipeline.ownSems0_none, show (pdats m 2 c).Φ (Fin.last _) = (Comb2.dat (rd (W4 m)) c).Φ (Fin.last cfg2.N) from rfl]
    iintro H
    isplitr; · iempintro
    isplitr; · iempintro
    iapply (Comb2.Phi_last (rd (W4 m)) c)
    iexact H
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (W4 m) c) (rd (W5 m) c) ((pdats m 2 c).arrAt · cfg2.N)
      (fun w => by
        fin_cases w
        · exact ((pdats m 2 c).arrAt_in 0 rfl _).trans (((Comb2.A_eq (rd (W4 m)) c 0)).trans (W5_of_ne m c main_v12 (by decide)).symm)
        · exact ((pdats m 2 c).arrAt_in 1 rfl _).trans (((Comb2.A_eq (rd (W4 m)) c 1)).trans (W5_of_ne m c main_v13 (by decide)).symm)
        · exact ((pdats m 2 c).arrAt_in 2 rfl _).trans (((Comb2.A_eq (rd (W4 m)) c 2)).trans (W5_of_ne m c main_v17 (by decide)).symm)
        · exact ((pdats m 2 c).arrAt_in 3 rfl _).trans (((Comb2.A_eq (rd (W4 m)) c 3)).trans (W5_of_ne m c main_v9 (by decide)).symm)
        · exact (W5_out m c).symm)
      (fun b hb => W5_of_ne m c b fun h => hb (h ▸ Finset.mem_image.mpr ⟨4, Finset.mem_univ _, rfl⟩))
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

-- `iapply` of a library lemma stated over the pinned configuration unifies with the printed one only when unification may
-- unfold plain definitions in a metavariable's type
set_option backward.isDefEq.respectTransparency.types false in
/-- REGION 3 over the thread state: entered from every unscoped buffer at `W5`, left at `W6`. Its arrays are
    split out of the unscoped buffers and put back at the exit contents; the call's scoped rest goes into the invariant and
    comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Comb3.body_obligation (rd (W5 m)) c).loose
  hwaits := Pipeline.hwaits_of_owed_zero _ _ _ _ L lv 3 fun _ _ => rfl
  pre c := iprop(StableHlo.held (c : Thread nD τ) (Pipeline.ucRefs τ sig) (W5 m c) ∗ Rr c)
  post c := iprop(StableHlo.held (c : Thread nD τ) (Pipeline.ucRefs τ sig) (W6 m c) ∗ Rr c)
  X _ := BI.emp
  Y _ := BI.emp
  Z c := Pipeline.unscopedRest (Ix := Unit) (Name := ℕ) (U := UR sig nD τ) (Lvl := ℕ) spec3 c (rd (W5 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (rd (W5 m) c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 3 c).Φ 0 = _ from Comb3.Phi_first (rd (W5 m)) c]
    iintro ⟨-, -, Hr⟩
    iexact Hr
  hout c := by
    rw [Pipeline.ownSems0_none, show (pdats m 3 c).Φ (Fin.last _) = (Comb3.dat (rd (W5 m)) c).Φ (Fin.last cfg3.N) from rfl]
    iintro H
    isplitr; · iempintro
    isplitr; · iempintro
    iapply (Comb3.Phi_last (rd (W5 m)) c)
    iexact H
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (rd (W5 m) c) (rd (W6 m) c) ((pdats m 3 c).arrAt · cfg3.N)
      (fun w => by
        fin_cases w
        · exact ((pdats m 3 c).arrAt_in 0 rfl _).trans (((Comb3.A_eq (rd (W5 m)) c 0)).trans (W6_of_ne m c main_v13 (by decide)).symm)
        · exact ((pdats m 3 c).arrAt_in 1 rfl _).trans (((Comb3.A_eq (rd (W5 m)) c 1)).trans (W6_of_ne m c main_v12 (by decide)).symm)
        · exact ((pdats m 3 c).arrAt_in 2 rfl _).trans (((Comb3.A_eq (rd (W5 m)) c 2)).trans (W6_of_ne m c main_v16 (by decide)).symm)
        · exact ((pdats m 3 c).arrAt_in 3 rfl _).trans (((Comb3.A_eq (rd (W5 m)) c 3)).trans (W6_of_ne m c main_v11 (by decide)).symm)
        · exact (W6_out m c).symm)
      (fun b hb => W6_of_ne m c b fun h => hb (h ▸ Finset.mem_image.mpr ⟨4, Finset.mem_univ _, rfl⟩))
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Hand

end
-- ==== Proof.KiRun.lean ====
import proofs.«154747_j1580547971631_2_alg».proof.Proof.Gen.KernelIdeal.Launch
import proofs.«154747_j1580547971631_2_alg».proof.Proof.Gen.KernelIdeal.Skeleton
import proofs.«154747_j1580547971631_2_alg».proof.Proof.Gen.KernelIdeal.Points
import proofs.«154747_j1580547971631_2_alg».proof.Proof.KiRegions
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The idealized kernel program's run, its frame and its results

The four regions' records chained through the thread states give the run of @main with every unscoped buffer at the last
valuation. Read at the two arguments, which no item changes, that is the frame; read at the two result arrays it is
what the two combine regions left. -/

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
set_option maxHeartbeats 1000000 in
/-- Every weakly fair execution of @main from memory `m` with zero counters terminates, nothing faulting, and in every
    final memory every unscoped buffer holds what the last valuation gives it. -/
theorem run_all : θ_run defs (onTc (τ := τ) (main (F := F))) ⟨m, fun _ => 0, ρ⟩
    (fun r => ∀ c : Dev nD, ∀ b ∈ Pipeline.ucRefs τ sig, r.2.mem ((c : Thread nD τ).1, b) = W6 m c b) := by
  have h0 : θ_run defs (onTc (τ := τ) (main (F := F))) ⟨m, fun _ => 0, ρ⟩
      (fun r => ∀ c : Dev nD, ∀ b ∈ Pipeline.ucRefs τ sig, r.2.mem ((c : Thread nD τ).1, b) = Gen.V6 m (outs m) c b) :=
    Gen.run_cond m (EP := emb₁) (ι := ()) (𝒱₀ := 𝒱₀) (L := L) (lv := lv) (hL := fun _ _ => rfl) (ρ := ρ) (outs := outs m) (pdats := pdats m)
      (O₀ := 0) (G := fun _ => iprop(emp))
      (u₀ := initOf (Pipeline.cells cfgs cellOf_inj) (Pipeline.launchToks cfgs cellOf_inj))
      (hu₀ := by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (E := fun _ c => Rr c)
      (hE0 := by
        refine Pipeline.initEach L lv fun c => ?_
        iintro ⟨⟨-, HO, -, -, -⟩, -⟩
        imodintro
        iexists ∅; iexact HO)
      (hE4 := fun c => .rfl)
      (R0 := reg0 m) (hpre0 := fun c => .rfl) (hpost0 := fun c => by rw [V2_eq]; exact .rfl)
      (R1 := reg1 m) (hpre1 := fun c => by rw [V2_eq]; exact .rfl) (hpost1 := fun c => by rw [V3_eq]; exact .rfl)
      (R2 := reg2 m) (hpre2 := fun c => by rw [V4_eq]; exact .rfl) (hpost2 := fun c => by rw [V5_eq]; exact .rfl)
      (R3 := reg3 m) (hpre3 := fun c => by rw [V5_eq]; exact .rfl) (hpost3 := fun c => by rw [V6_eq]; exact .rfl)
  exact (θ_run defs _ _).mono (fun r h c b hb => (h c b hb).trans (congrFun (V6_eq m c) b)) h0

/-- No item changes an argument: the last valuation has it as launched. -/
theorem W6_arg0 (c : Dev nD) : W6 m c main_arg0 = m ((c : Thread nD τ).loc main_arg0) :=
  (congrFun (V6_eq m c) _).symm.trans (Gen.V6_main_arg0 m (outs m) c)
theorem W6_arg1 (c : Dev nD) : W6 m c main_arg1 = m ((c : Thread nD τ).loc main_arg1) :=
  (congrFun (V6_eq m c) _).symm.trans (Gen.V6_main_arg1 m (outs m) c)
/-- The two result arrays at the end: what the two combine regions left. -/
theorem W6_v19 (c : Dev nD) : W6 m c main_v19 = arr3 m c := W6_out m c
theorem W6_v18 (c : Dev nD) : W6 m c main_v18 = arr2 m c := (W6_of_ne m c main_v18 (by decide)).trans (W5_out m c)

/-- THE FRAME, at any float instance: the program runs to the end and its two arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W6_arg0 m c), (h c _ (mem_uc main_arg1 (by decide))).trans (W6_arg1 m c)⟩) (run_all m ρ)

/-- THE RESULTS: the run with both result arrays named and the arguments unchanged. -/
theorem run_results : θ_run defs (onTc (τ := τ) (main (F := F))) ⟨m, fun _ => 0, ρ⟩ (fun r => ∀ c : Dev nD,
      r.2.mem ((c.tc : Thread nD τ).loc main_v19) = arr3 m c
      ∧ r.2.mem ((c.tc : Thread nD τ).loc main_v18) = arr2 m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v19 (by decide))).trans (W6_v19 m c), (h c _ (mem_uc main_v18 (by decide))).trans (W6_v18 m c),
     (h c _ (mem_uc main_arg0 (by decide))).trans (W6_arg0 m c), (h c _ (mem_uc main_arg1 (by decide))).trans (W6_arg1 m c)⟩) (run_all m ρ)

/-- info: 'Cert.KernelIdeal.Hand.frame' depends on axioms: [propext, Classical.choice, Quot.sound] -/
#guard_msgs in #print axioms frame

end Cert.KernelIdeal.Hand

end
-- ==== Proof.KbLse0Runs.lean ====
import proofs.«154747_j1580547971631_2_alg».proof.Proof.Gen.Kernel.Launch
import proofs.«154747_j1580547971631_2_alg».proof.Proof.Gen.Kernel.Skeleton
import proofs.«154747_j1580547971631_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Lse0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! # The row log-sum-exp kernel (first of the four regions), run case by case

The body visits the tiles of one block of rows left to right. It keeps two columns between tiles: the running row
maximum and the running row sum of exponentials taken relative to that maximum. At a row block's first tile both are
reset (to `-∞` and `0`); at every tile the tile's scores are folded in; at the last tile the row's log-sum-exp,
maximum plus logarithm of the sum, is written to the output block. Three cases meet the grid: a first tile, a middle
tile and a last tile (the grid has eight tiles per row block, so no tile is both first and last). -/

/-- A row block's first tile: the running maximum and running sum are reset before the tile is folded in. -/
abbrev first0 (i : grid0.Coords) : Prop := (Scalar.cmpi .ne (Scalar.extui (Scalar.cmpi .eq (BitVec.ofNat 32 (i 1).val) 0#32)) 0#32) = 1#1
/-- A row block's last tile: the rows' log-sum-exp is written to the output block. -/
abbrev last0 (i : grid0.Coords) : Prop := k0_cond2 i = 1#1

/-- The first tile is the one with tile coordinate `0`: the points `≡ 0 (mod 8)`. -/
theorem hfirst0 : ∀ t : Fin cfg0.N, first0 (grid0.coords t) ↔ t.val % 8 = 0 :=
  (by decide +kernel : ∀ t : Fin grid0.N, first0 (grid0.coords t) ↔ t.val % 8 = 0)
/-- The last tile is the one with tile coordinate `7`: the points `≡ 7 (mod 8)`. -/
theorem hlast0 : ∀ t : Fin cfg0.N, last0 (grid0.coords t) ↔ t.val % 8 = 7 :=
  (by decide +kernel : ∀ t : Fin grid0.N, last0 (grid0.coords t) ↔ t.val % 8 = 7)

set_option maxHeartbeats 1000000 in
/-- A FIRST tile. Whatever the two running columns held, the body resets them and folds the tile in; the output block
    is not touched. The witnesses are what its stores wrote into the two columns. -/
noncomputable def runFirst (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (hf : first0 i) (hl : ¬last0 i)
    (x2 x3 : Vec F S1024x1024 .bf16) :
    Σ' (L5 : List (View.Piece (Elt F) S1024x1 .f32)), { L6 : List (View.Piece (Elt F) S1024x1 .f32) //
      ∀ (o4 : Vec F S1024x1 .f32) (E : Set ℕ) (K : PUnit → sProp 𝕄),
        iprop(owns (c : Thread nD τ) arg2 fullShare x2 ∗ owns (c : Thread nD τ) arg3 fullShare x3 ∗ owns (c : Thread nD τ) arg4 fullShare o4
            ∗ (∃ d, owns (c : Thread nD τ) arg5 fullShare d) ∗ (∃ d, owns (c : Thread nD τ) arg6 fullShare d)
            ∗ (iprop(owns (c : Thread nD τ) arg2 fullShare x2 ∗ owns (c : Thread nD τ) arg3 fullShare x3 ∗ owns (c : Thread nD τ) arg4 fullShare o4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc0__lse_kernel i arg2 harg2 arg3 harg3 arg4 harg4 arg5 harg5 arg6 harg6) K } := by
  refine ⟨?_, ?_, fun o4 E K => ?run⟩
  case run =>
    simp only [cc0__lse_kernel_eq_skeleton]; unfold cc0__lse_kernel_skel
    unfold owns
    iintro ⟨⟨%f2, %hf2, H2⟩, ⟨%f3, %hf3, H3⟩, ⟨%f4, %hf4, H4⟩, ⟨%d5, %f5, -, H5⟩, ⟨%d6, %f6, -, H6⟩, Hk⟩
    obtain rfl := harg2.eq_unread hf2; obtain rfl := harg3.eq_unread hf3; obtain rfl := harg4.eq_unread hf4
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    iexists _; iexact H6

set_option maxHeartbeats 1000000 in
/-- A MIDDLE tile. From the running maximum `s5` and running sum `s6` the previous tile left, the body folds the tile
    in; the output block is not touched. -/
noncomputable def runMid (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (hf : ¬first0 i) (hl : ¬last0 i)
    (x2 x3 : Vec F S1024x1024 .bf16) (s5 s6 : Vec F S1024x1 .f32) :
    Σ' (L5 : List (View.Piece (Elt F) S1024x1 .f32)), { L6 : List (View.Piece (Elt F) S1024x1 .f32) //
      ∀ (o4 : Vec F S1024x1 .f32) (E : Set ℕ) (K : PUnit → sProp 𝕄),
        iprop(owns (c : Thread nD τ) arg2 fullShare x2 ∗ owns (c : Thread nD τ) arg3 fullShare x3 ∗ owns (c : Thread nD τ) arg4 fullShare o4
            ∗ owns (c : Thread nD τ) arg5 fullShare s5 ∗ owns (c : Thread nD τ) arg6 fullShare s6
            ∗ (iprop(owns (c : Thread nD τ) arg2 fullShare x2 ∗ owns (c : Thread nD τ) arg3 fullShare x3 ∗ owns (c : Thread nD τ) arg4 fullShare o4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc0__lse_kernel i arg2 harg2 arg3 harg3 arg4 harg4 arg5 harg5 arg6 harg6) K } := by
  refine ⟨?_, ?_, fun o4 E K => ?run⟩
  case run =>
    simp only [cc0__lse_kernel_eq_skeleton]; unfold cc0__lse_kernel_skel
    unfold owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    iexists _; iexact H6

set_option maxHeartbeats 1000000 in
/-- A LAST tile. From the running maximum `s5` and running sum `s6` the previous tile left, the body folds the tile in
    and then writes maximum plus logarithm of the sum over the whole output block, whatever it held. -/
noncomputable def runLast (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (hf : ¬first0 i) (hl : last0 i)
    (x2 x3 : Vec F S1024x1024 .bf16) (s5 s6 : Vec F S1024x1 .f32) :
    Σ' (L4 : List (View.Piece (Elt F) S1024x1 .f32)) (L5 : List (View.Piece (Elt F) S1024x1 .f32)), { L6 : List (View.Piece (Elt F) S1024x1 .f32) //
      ∀ (E : Set ℕ) (K : PUnit → sProp 𝕄),
        iprop(owns (c : Thread nD τ) arg2 fullShare x2 ∗ owns (c : Thread nD τ) arg3 fullShare x3 ∗ (∃ d, owns (c : Thread nD τ) arg4 fullShare d)
            ∗ owns (c : Thread nD τ) arg5 fullShare s5 ∗ owns (c : Thread nD τ) arg6 fullShare s6
            ∗ (iprop(owns (c : Thread nD τ) arg2 fullShare x2 ∗ owns (c : Thread nD τ) arg3 fullShare x3
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc0__lse_kernel i arg2 harg2 arg3 harg3 arg4 harg4 arg5 harg5 arg6 harg6) K } := by
  refine ⟨?_, ?_, ?_, fun E K => ?run⟩
  case run =>
    simp only [cc0__lse_kernel_eq_skeleton]; unfold cc0__lse_kernel_skel
    unfold owns
    iintro ⟨⟨%f2, %hf2, H2⟩, ⟨%f3, %hf3, H3⟩, ⟨%d4, %f4, -, H4⟩, ⟨%f5, %hf5, H5⟩, ⟨%f6, %hf6, H6⟩, Hk⟩
    obtain rfl := harg2.eq_unread hf2; obtain rfl := harg3.eq_unread hf3
    obtain rfl := harg5.eq_unread hf5; obtain rfl := harg6.eq_unread hf6
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; iexact H4
    isplitl [H5]
    · iexists _; iexact H5
    iexists _; iexact H6

end Cert.Kernel.Lse0

end
-- ==== Proof.KbLse0Data.lean ====
import proofs.«154747_j1580547971631_2_alg».proof.Proof.Gen.Kernel.Launch
import proofs.«154747_j1580547971631_2_alg».proof.Proof.Gen.Kernel.Skeleton
import proofs.«154747_j1580547971631_2_alg».proof.Proof.Gen.Kernel.Points
import proofs.«154747_j1580547971631_2_alg».proof.Proof.KbLse0Runs
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Lse0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The row log-sum-exp region: what it holds point by point, and its body obligation

The region's arrays are taken from ANY valuation `V` of the unscoped buffers (what the items before it left). At
point `t` the two input windows hold their blocks of the arrays; the two running columns and, at a row block's last
tile, the output block hold what the case of that tile's run wrote, the running columns of a non-first tile starting
from what the tile before left. -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window holds its block at every tile, fetched there or not: between fetches its index does not move. -/
theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The column-block window holds its block at every tile. -/
theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The memrefs the body is called with -/

abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
/-- The running row maximum and the running row sum: whole scoped buffers of the call's own. -/
abbrev scM5 : Memref sig .tc .vmem S1024x1 .f32 := Memref.whole cc0_scratch0
abbrev scM6 : Memref sig .tc .vmem S1024x1 .f32 := Memref.whole cc0_scratch1
/-- Views through which a column's contents are stated (which buffer is read through does not matter once the writes cover it). -/
abbrev VO : View sig .tc .vmem S1024x1 .f32 := (Memref.whole cc0_stg2_0 : Memref sig .tc .vmem S1024x1 .f32).view
abbrev VS5 : View sig .tc .vmem S1024x1 .f32 := scM5.view
abbrev VS6 : View sig .tc .vmem S1024x1 .f32 := scM6.view

/-- A column's contents once a list of writes has covered it: the writes read back over anything. -/
def rdO (L : List (View.Piece (Elt F) S1024x1 .f32)) : Vec F S1024x1 .f32 := VO.read (Elt F) (VO.writes (Elt F) VO.junk L)
def rd5 (L : List (View.Piece (Elt F) S1024x1 .f32)) : Vec F S1024x1 .f32 := VS5.read (Elt F) (VS5.writes (Elt F) VS5.junk L)
def rd6 (L : List (View.Piece (Elt F) S1024x1 .f32)) : Vec F S1024x1 .f32 := VS6.read (Elt F) (VS6.writes (Elt F) VS6.junk L)

/-! ## The three cases at a point of the grid -/

/-- The run of a first tile at point `t`, on the point's memrefs and blocks. -/
def firstAt (c : Dev nD) (t : Fin cfg0.N) (hf : t.val % 8 = 0) (hl : ¬t.val % 8 = 7) :=
  runFirst (F := F) (Ix := Unit) (U := UR sig nD τ) (Lvl := ℕ) c (grid0.coords t) (ms0 t) (hs0 t) (ms1 t) (hs1 t) (ms2 t) (hs2 t) scM5 (Memref.isWhole_whole _) scM6 (Memref.isWhole_whole _)
    ((hfirst0 t).mpr hf) (fun h => hl ((hlast0 t).mp h)) (iblk V c 0 t) (iblk V c 1 t)
/-- The run of a middle tile at point `t` from the running columns `s5`, `s6`. -/
def midAt (c : Dev nD) (t : Fin cfg0.N) (hf : ¬t.val % 8 = 0) (hl : ¬t.val % 8 = 7) (s5 s6 : Vec F S1024x1 .f32) :=
  runMid (F := F) (Ix := Unit) (U := UR sig nD τ) (Lvl := ℕ) c (grid0.coords t) (ms0 t) (hs0 t) (ms1 t) (hs1 t) (ms2 t) (hs2 t) scM5 (Memref.isWhole_whole _) scM6 (Memref.isWhole_whole _)
    (fun h => hf ((hfirst0 t).mp h)) (fun h => hl ((hlast0 t).mp h)) (iblk V c 0 t) (iblk V c 1 t) s5 s6
/-- The run of a last tile at point `t` from the running columns `s5`, `s6`. -/
def lastAt (c : Dev nD) (t : Fin cfg0.N) (hf : ¬t.val % 8 = 0) (hl : t.val % 8 = 7) (s5 s6 : Vec F S1024x1 .f32) :=
  runLast (F := F) (Ix := Unit) (U := UR sig nD τ) (Lvl := ℕ) c (grid0.coords t) (ms0 t) (hs0 t) (ms1 t) (hs1 t) (ms2 t) (hs2 t) scM5 (Memref.isWhole_whole _) scM6 (Memref.isWhole_whole _)
    (fun h => hf ((hfirst0 t).mp h)) ((hlast0 t).mpr hl) (iblk V c 0 t) (iblk V c 1 t) s5 s6

/-- Each case's writes to a running column, and the last tile's to the output block, cover it (one whole-column store last). -/
theorem cov5F (c : Dev nD) (t : Fin cfg0.N) (hf) (hl) (y : S1024x1.Idx) : ∃ pc ∈ (firstAt V c t hf hl).1, y ∈ pc.1.set :=
  View.cover_of_tiledL (firstAt V c t hf hl).1 S1024x1.size (by sl_kernel_rfl) y
theorem cov6F (c : Dev nD) (t : Fin cfg0.N) (hf) (hl) (y : S1024x1.Idx) : ∃ pc ∈ (firstAt V c t hf hl).2.1, y ∈ pc.1.set :=
  View.cover_of_tiledL (firstAt V c t hf hl).2.1 S1024x1.size (by sl_kernel_rfl) y
theorem cov5M (c : Dev nD) (t : Fin cfg0.N) (hf) (hl) (s5 s6) (y : S1024x1.Idx) : ∃ pc ∈ (midAt V c t hf hl s5 s6).1, y ∈ pc.1.set :=
  View.cover_of_tiledL (midAt V c t hf hl s5 s6).1 S1024x1.size (by sl_kernel_rfl) y
theorem cov6M (c : Dev nD) (t : Fin cfg0.N) (hf) (hl) (s5 s6) (y : S1024x1.Idx) : ∃ pc ∈ (midAt V c t hf hl s5 s6).2.1, y ∈ pc.1.set :=
  View.cover_of_tiledL (midAt V c t hf hl s5 s6).2.1 S1024x1.size (by sl_kernel_rfl) y
theorem cov4L (c : Dev nD) (t : Fin cfg0.N) (hf) (hl) (s5 s6) (y : S1024x1.Idx) : ∃ pc ∈ (lastAt V c t hf hl s5 s6).1, y ∈ pc.1.set :=
  View.cover_of_tiledL (lastAt V c t hf hl s5 s6).1 S1024x1.size (by sl_kernel_rfl) y
theorem cov5L (c : Dev nD) (t : Fin cfg0.N) (hf) (hl) (s5 s6) (y : S1024x1.Idx) : ∃ pc ∈ (lastAt V c t hf hl s5 s6).2.1, y ∈ pc.1.set :=
  View.cover_of_tiledL (lastAt V c t hf hl s5 s6).2.1 S1024x1.size (by sl_kernel_rfl) y
theorem cov6L (c : Dev nD) (t : Fin cfg0.N) (hf) (hl) (s5 s6) (y : S1024x1.Idx) : ∃ pc ∈ (lastAt V c t hf hl s5 s6).2.2.1, y ∈ pc.1.set :=
  View.cover_of_tiledL (lastAt V c t hf hl s5 s6).2.2.1 S1024x1.size (by sl_kernel_rfl) y

/-! ## What the output block and the running columns hold after each point -/

/-- After the body at position `n`: the output block's staging buffer (a placeholder nothing reads at a tile that does
    not write it), the running maximum, the running sum — the case the position selects, a non-first tile run from
    what position `n - 1` left in the two columns. -/
def outsAt (c : Dev nD) : (n : ℕ) → n < cfg0.N → Vec F S1024x1 .f32 × Vec F S1024x1 .f32 × Vec F S1024x1 .f32
  | 0, hn => (rdO [], rd5 (firstAt V c ⟨0, hn⟩ (Nat.zero_mod _) (by show ¬(0 : ℕ) % 8 = 7; decide)).1, rd6 (firstAt V c ⟨0, hn⟩ (Nat.zero_mod _) (by show ¬(0 : ℕ) % 8 = 7; decide)).2.1)
  | n + 1, hn =>
    if h0 : (n + 1) % 8 = 0 then
      if h7 : (n + 1) % 8 = 7 then False.elim (by omega)
      else (rdO [], rd5 (firstAt V c ⟨n + 1, hn⟩ h0 h7).1, rd6 (firstAt V c ⟨n + 1, hn⟩ h0 h7).2.1)
    else
      if h7 : (n + 1) % 8 = 7 then
        (rdO (lastAt V c ⟨n + 1, hn⟩ h0 h7 (outsAt c n (Nat.lt_of_succ_lt hn)).2.1 (outsAt c n (Nat.lt_of_succ_lt hn)).2.2).1,
         rd5 (lastAt V c ⟨n + 1, hn⟩ h0 h7 (outsAt c n (Nat.lt_of_succ_lt hn)).2.1 (outsAt c n (Nat.lt_of_succ_lt hn)).2.2).2.1,
         rd6 (lastAt V c ⟨n + 1, hn⟩ h0 h7 (outsAt c n (Nat.lt_of_succ_lt hn)).2.1 (outsAt c n (Nat.lt_of_succ_lt hn)).2.2).2.2.1)
      else
        (rdO [],
         rd5 (midAt V c ⟨n + 1, hn⟩ h0 h7 (outsAt c n (Nat.lt_of_succ_lt hn)).2.1 (outsAt c n (Nat.lt_of_succ_lt hn)).2.2).1,
         rd6 (midAt V c ⟨n + 1, hn⟩ h0 h7 (outsAt c n (Nat.lt_of_succ_lt hn)).2.1 (outsAt c n (Nat.lt_of_succ_lt hn)).2.2).2.1)

/-- What position `t - 1` left, for a position that is not the first. -/
abbrev prev (c : Dev nD) (t : Fin cfg0.N) := outsAt V c (t.val - 1) (Nat.lt_of_le_of_lt (Nat.sub_le _ _) t.isLt)

theorem outsAt_first (c : Dev nD) (t : Fin cfg0.N) (h0 : t.val % 8 = 0) (h7 : ¬t.val % 8 = 7) :
    outsAt V c t.val t.isLt = (rdO [], rd5 (firstAt V c t h0 h7).1, rd6 (firstAt V c t h0 h7).2.1) := by
  obtain ⟨n, hn⟩ := t
  cases n with
  | zero => exact rfl
  | succ n => exact (dif_pos h0).trans ((dif_neg h7).trans rfl)
theorem outsAt_mid (c : Dev nD) (t : Fin cfg0.N) (h0 : ¬t.val % 8 = 0) (h7 : ¬t.val % 8 = 7) :
    outsAt V c t.val t.isLt = (rdO [], rd5 (midAt V c t h0 h7 (prev V c t).2.1 (prev V c t).2.2).1, rd6 (midAt V c t h0 h7 (prev V c t).2.1 (prev V c t).2.2).2.1) := by
  obtain ⟨n, hn⟩ := t
  cases n with
  | zero => exact absurd (Nat.zero_mod _) h0
  | succ n => exact (dif_neg h0).trans ((dif_neg h7).trans rfl)
theorem outsAt_last (c : Dev nD) (t : Fin cfg0.N) (h0 : ¬t.val % 8 = 0) (h7 : t.val % 8 = 7) :
    outsAt V c t.val t.isLt = (rdO (lastAt V c t h0 h7 (prev V c t).2.1 (prev V c t).2.2).1, rd5 (lastAt V c t h0 h7 (prev V c t).2.1 (prev V c t).2.2).2.1, rd6 (lastAt V c t h0 h7 (prev V c t).2.1 (prev V c t).2.2).2.2.1) := by
  obtain ⟨n, hn⟩ := t
  cases n with
  | zero => exact absurd (Nat.zero_mod _) h0
  | succ n => exact (dif_neg h0).trans ((dif_pos h7).trans rfl)

/-! ## The invariant -/

/-- The call's scoped rest with its own two columns split off, each whole at some contents. -/
theorem rest_split (c : Dev nD) :
    (Pipeline.scopedRest (Ix := Unit) (Name := ℕ) (U := UR sig nD τ) (Lvl := ℕ) (Val := Elt F) spec0 c : sProp 𝕄)
      = iprop(iprop((∃ d, owns (c : Thread nD τ) scM5 fullShare d) ∗ (∃ d, owns (c : Thread nD τ) scM6 fullShare d))
          ∗ Pipeline.scopedRestBut (Ix := Unit) (Name := ℕ) (U := UR sig nD τ) (Lvl := ℕ) (Val := Elt F) spec0 c [cc0_scratch0, cc0_scratch1]) := by
  rw [scopedRest0_split]; simp only [scM5, scM6, owns_whole]; try rfl

/-- Before position `n`: at the region's start every scoped buffer the pipeline does not stage at anything; afterwards
    the two running columns at what the point before left, the other such buffers at anything. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(iprop(owns (c : Thread nD τ) scM5 fullShare (outsAt V c n hn).2.1 ∗ owns (c : Thread nD τ) scM6 fullShare (outsAt V c n hn).2.2)
      ∗ Pipeline.scopedRestBut (Ix := Unit) (Name := ℕ) (U := UR sig nD τ) (Lvl := ℕ) (Val := Elt F) spec0 c [cc0_scratch0, cc0_scratch1])
theorem PhiS_zero (c : Dev nD) (n : ℕ) (h : n ≤ cfg0.N) (hz : n = 0) :
    PhiS V c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS V c (n + 1) hn = iprop(iprop(owns (c : Thread nD τ) scM5 fullShare (outsAt V c n hn).2.1 ∗ owns (c : Thread nD τ) scM6 fullShare (outsAt V c n hn).2.2)
      ∗ Pipeline.scopedRestBut (Ix := Unit) (Name := ℕ) (U := UR sig nD τ) (Lvl := ℕ) (Val := Elt F) spec0 c [cc0_scratch0, cc0_scratch1]) := rfl
theorem PhiS_pos (c : Dev nD) (n : ℕ) (h : n ≤ cfg0.N) (hz : n ≠ 0) :
    PhiS V c n h = iprop(iprop(owns (c : Thread nD τ) scM5 fullShare (outsAt V c (n - 1) (by omega)).2.1 ∗ owns (c : Thread nD τ) scM6 fullShare (outsAt V c (n - 1) (by omega)).2.2)
      ∗ Pipeline.scopedRestBut (Ix := Unit) (Name := ℕ) (U := UR sig nD τ) (Lvl := ℕ) (Val := Elt F) spec0 c [cc0_scratch0, cc0_scratch1]) := by
  cases n with
  | zero => exact absurd rfl hz
  | succ n => rfl
/-- After any point the invariant gives the scoped rest back: the columns' named contents are forgotten. -/
theorem PhiS_out (c : Dev nD) (n : ℕ) (h : n ≤ cfg0.N) :
    PhiS V c n h ⊢ (Pipeline.scopedRest (Ix := Unit) (Name := ℕ) (U := UR sig nD τ) (Lvl := ℕ) (Val := Elt F) spec0 c : sProp 𝕄) := by
  by_cases hz : n = 0
  · rw [PhiS_zero V c n h hz]
  · rw [PhiS_pos V c n h hz, rest_split]
    iintro ⟨⟨H5, H6⟩, Hr⟩
    isplitl [H5 H6]
    · isplitl [H5]
      · iexists _; iexact H5
      iexists _; iexact H6
    iexact Hr

/-! ## The proof data -/

/-- The region's proof data on core `c`: the arrays as `V` has them; after the body each input's buffer at its block,
    the output's at `outsAt`'s first component; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by dsimp only [dat]
theorem Phi_castSucc (c : Dev nD) (t : Fin cfg0.N) : (dat V c).Φ t.castSucc = PhiS V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = (outsAt V c t.val t.isLt).1 := by dsimp only [dat]
theorem before0 (c : Dev nD) (t : Fin cfg0.N) (d) : (dat V c).before 0 t d = iblk V c 0 t :=
  before_in0 V (dat V c) (A_eq V c 0) (after0 V c) t d
theorem before1 (c : Dev nD) (t : Fin cfg0.N) (d) : (dat V c).before 1 t d = iblk V c 1 t :=
  before_in1 V (dat V c) (A_eq V c 1) (after1 V c) t d

/-! ## Where the output window is idle -/

theorem live0 : ∀ t : Fin cfg0.N, cfg0.idle 0 (grid0.coords t) = false := by decide +kernel
theorem live1 : ∀ t : Fin cfg0.N, cfg0.idle 1 (grid0.coords t) = false := by decide +kernel
theorem idle2 : ∀ t : Fin cfg0.N, ¬t.val % 8 = 7 → cfg0.idle 2 (grid0.coords t) = true := by decide +kernel
theorem noFlush2 : ∀ t : Fin cfg0.N, ¬t.val % 8 = 7 → (cfg0.win 2).flush t = false := by decide +kernel
theorem live2 : ∀ t : Fin cfg0.N, t.val % 8 = 7 → cfg0.idle 2 (grid0.coords t) = false := by decide +kernel

end Cert.Kernel.Lse0

end
-- ==== Proof.KbLse0Body.lean ====
import proofs.«154747_j1580547971631_2_alg».proof.Proof.Gen.Kernel.Launch
import proofs.«154747_j1580547971631_2_alg».proof.Proof.Gen.Kernel.Skeleton
import proofs.«154747_j1580547971631_2_alg».proof.Proof.Gen.Kernel.Points
import proofs.«154747_j1580547971631_2_alg».proof.Proof.KbLse0Data
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Lse0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The row log-sum-exp region: its body obligation

At every point the invariant hands the body the two running columns — at anything before the region's first point,
otherwise at what the point before left — and takes them back at what this point's case wrote; the inputs' buffers hold
their blocks; the output block's buffer is passed through untouched except at a row block's last tile, where the case
covers it. The core owes nothing throughout. -/

variable (V : (c : Dev nD) → (b : Ref sig .tc) → Buf (Elt F) ((c : Thread nD τ).loc b))

/-- What the body is called with at point `t`, the windows one by one. -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))
/-- What it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

theorem leaves0 (c : Dev nD) (t : Fin cfg0.N) :
    (dat V c).leavesExact 0 t = owns (c : Thread nD τ) (ms0 t) fullShare (iblk V c 0 t) := by
  unfold Dat.leavesExact; rw [live0 t, after0]
theorem leaves1 (c : Dev nD) (t : Fin cfg0.N) :
    (dat V c).leavesExact 1 t = owns (c : Thread nD τ) (ms1 t) fullShare (iblk V c 1 t) := by
  unfold Dat.leavesExact; rw [live1 t, after1]
theorem leaves2_idle (c : Dev nD) (t : Fin cfg0.N) (h7 : ¬t.val % 8 = 7) :
    (dat V c).leavesExact 2 t = iprop(∃ d, owns (c : Thread nD τ) (ms2 t) fullShare ((dat V c).before 2 t d)) :=
  Dat.leavesExact_idle (dat V c) 2 t (idle2 t h7) (noFlush2 t h7)
theorem leaves2_live (c : Dev nD) (t : Fin cfg0.N) (h7 : t.val % 8 = 7) :
    (dat V c).leavesExact 2 t = owns (c : Thread nD τ) (ms2 t) fullShare (outsAt V c t.val t.isLt).1 := by
  unfold Dat.leavesExact; rw [live2 t h7, after2]

set_option maxHeartbeats 4000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat V c).owesAt () t.succ = (dat V c).owesAt () t.castSucc from rfl]
  rw [show (dat V c).Φ t.succ = PhiS V c (t.val + 1) t.isLt from rfl, PhiS_succ, leaves0, leaves1, Phi_castSucc]
  have hN : t.val < 64 := lt_of_lt_of_eq t.isLt (show cfg0.N = 64 from N_0)
  by_cases h0 : t.val % 8 = 0
  · have h7 : ¬t.val % 8 = 7 := by omega
    rw [leaves2_idle V c t h7, outsAt_first V c t h0 h7]
    dsimp only [rd5, rd6, rdO]
    -- whatever the invariant holds of the two columns, the first tile takes them at anything
    have hΦ : PhiS V c t.val (Nat.le_of_lt t.isLt) ⊢ (iprop(iprop((∃ d, owns (c : Thread nD τ) scM5 fullShare d) ∗ (∃ d, owns (c : Thread nD τ) scM6 fullShare d))
          ∗ Pipeline.scopedRestBut (Ix := Unit) (Name := ℕ) (U := UR sig nD τ) (Lvl := ℕ) (Val := Elt F) spec0 c [cc0_scratch0, cc0_scratch1]) : sProp 𝕄) := by
      rw [← rest_split]; exact PhiS_out V c _ _
    iintro ⟨HΦ, Ho, ⟨%d0, H0⟩, ⟨%d1, H1⟩, ⟨%d2, H2⟩⟩
    ihave HΦ' := hΦ $$ HΦ
    icases HΦ' with ⟨⟨H5, H6⟩, Hr⟩
    iapply ((firstAt V c t h0 h7).2.2 _ Set.univ _)
    isplitl [H0]; · iexact H0
    isplitl [H1]; · iexact H1
    isplitl [H2]; · iexact H2
    isplitl [H5]; · iexact H5
    isplitl [H6]; · iexact H6
    iintro ⟨H0, H1, H2, ⟨%e5, H5⟩, ⟨%e6, H6⟩⟩
    isplitl [H5 H6 Hr]
    · isplitl [H5 H6]
      · isplitl [H5]
        · unfold owns; iexists _; isplitr
          swap; · iexact H5
          ipureintro; exact View.read_writes_of_cover _ _ _ _ _ (cov5F V c t h0 h7)
        · unfold owns; iexists _; isplitr
          swap; · iexact H6
          ipureintro; exact View.read_writes_of_cover _ _ _ _ _ (cov6F V c t h0 h7)
      iexact Hr
    isplitl [Ho]; · iexact Ho
    isplitl [H0]; · iexact H0
    isplitl [H1]; · iexact H1
    iexists _; iexact H2
  · have hz : t.val ≠ 0 := fun h => h0 (by rw [h])
    rw [PhiS_pos V c _ _ hz]
    by_cases h7 : t.val % 8 = 7
    · rw [leaves2_live V c t h7, outsAt_last V c t h0 h7]
      dsimp only [rd5, rd6, rdO]
      iintro ⟨⟨⟨H5, H6⟩, Hr⟩, Ho, ⟨%d0, H0⟩, ⟨%d1, H1⟩, ⟨%d2, H2⟩⟩
      iapply ((lastAt V c t h0 h7 _ _).2.2.2 Set.univ _)
      isplitl [H0]; · iexact H0
      isplitl [H1]; · iexact H1
      isplitl [H2]; · iexists _; iexact H2
      isplitl [H5]; · iexact H5
      isplitl [H6]; · iexact H6
      iintro ⟨H0, H1, ⟨%e4, H4⟩, ⟨%e5, H5⟩, ⟨%e6, H6⟩⟩
      isplitl [H5 H6 Hr]
      · isplitl [H5 H6]
        · isplitl [H5]
          · unfold owns; iexists _; isplitr
            swap; · iexact H5
            ipureintro; exact View.read_writes_of_cover _ _ _ _ _ (cov5L V c t h0 h7 _ _)
          · unfold owns; iexists _; isplitr
            swap; · iexact H6
            ipureintro; exact View.read_writes_of_cover _ _ _ _ _ (cov6L V c t h0 h7 _ _)
        iexact Hr
      isplitl [Ho]; · iexact Ho
      isplitl [H0]; · iexact H0
      isplitl [H1]; · iexact H1
      unfold owns; iexists _; isplitr
      swap; · iexact H4
      ipureintro; exact View.read_writes_of_cover _ _ _ _ _ (cov4L V c t h0 h7 _ _)
    · rw [leaves2_idle V c t h7, outsAt_mid V c t h0 h7]
      dsimp only [rd5, rd6, rdO]
      iintro ⟨⟨⟨H5, H6⟩, Hr⟩, Ho, ⟨%d0, H0⟩, ⟨%d1, H1⟩, ⟨%d2, H2⟩⟩
      iapply ((midAt V c t h0 h7 _ _).2.2 _ Set.univ _)
      isplitl [H0]; · iexact H0
      isplitl [H1]; · iexact H1
      isplitl [H2]; · iexact H2
      isplitl [H5]; · iexact H5
      isplitl [H6]; · iexact H6
      iintro ⟨H0, H1, H2, ⟨%e5, H5⟩, ⟨%e6, H6⟩⟩
      isplitl [H5 H6 Hr]
      · isplitl [H5 H6]
        · isplitl [H5]
          · unfold owns; iexists _; isplitr
            swap; · iexact H5
            ipureintro; exact View.read_writes_of_cover _ _ _ _ _ (cov5M V c t h0 h7 _ _)
          · unfold owns; iexists _; isplitr
            swap; · iexact H6
            ipureintro; exact View.read_writes_of_cover _ _ _ _ _ (cov6M V c t h0 h7 _ _)
        iexact Hr
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- The invariant before the first point is the call's scoped rest; after the last it gives it back. -/
theorem Phi_first (c : Dev nD) : (dat V c).Φ 0 = (Pipeline.scopedRest (Ix := Unit) (Name := ℕ) (U := UR sig nD τ) (Lvl := ℕ) (Val := Elt F) spec0 c : sProp 𝕄) := rfl
theorem Phi_last (c : Dev nD) : (dat V c).Φ (Fin.last cfg0.N) ⊢ (Pipeline.scopedRest (Ix := Unit) (Name := ℕ) (U := UR sig nD τ) (Lvl := ℕ) (Val := Elt F) spec0 c : sProp 𝕄) := by
  rw [show (dat V c).Φ (Fin.last cfg0.N) = PhiS V c (Fin.last cfg0.N).val (Nat.le_of_lt_succ (Fin.last cfg0.N).isLt) from rfl]
  exact PhiS_out V c _ _

end Cert.Kernel.Lse0

end
-- ==== Proof.KbLse1Runs.lean ====
import proofs.«154747_j1580547971631_2_alg».proof.Proof.Gen.Kernel.Launch
import proofs.«154747_j1580547971631_2_alg».proof.Proof.Gen.Kernel.Skeleton
import proofs.«154747_j1580547971631_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Lse1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! # The row log-sum-exp kernel (second of the four regions), run case by case

The body visits the tiles of one block of rows left to right. It keeps two columns between tiles: the running row
maximum and the running row sum of exponentials taken relative to that maximum. At a row block's first tile both are
reset (to `-∞` and `0`); at every tile the tile's scores are folded in; at the last tile the row's log-sum-exp,
maximum plus logarithm of the sum, is written to the output block. Three cases meet the grid: a first tile, a middle
tile and a last tile (the grid has eight tiles per row block, so no tile is both first and last). -/

/-- A row block's first tile: the running maximum and running sum are reset before the tile is folded in. -/
abbrev first1 (i : grid1.Coords) : Prop := (Scalar.cmpi .ne (Scalar.extui (Scalar.cmpi .eq (BitVec.ofNat 32 (i 1).val) 0#32)) 0#32) = 1#1
/-- A row block's last tile: the rows' log-sum-exp is written to the output block. -/
abbrev last1 (i : grid1.Coords) : Prop := k1_cond2 i = 1#1

/-- The first tile is the one with tile coordinate `0`: the points `≡ 0 (mod 8)`. -/
theorem hfirst1 : ∀ t : Fin cfg1.N, first1 (grid1.coords t) ↔ t.val % 8 = 0 :=
  (by decide +kernel : ∀ t : Fin grid1.N, first1 (grid1.coords t) ↔ t.val % 8 = 0)
/-- The last tile is the one with tile coordinate `7`: the points `≡ 7 (mod 8)`. -/
theorem hlast1 : ∀ t : Fin cfg1.N, last1 (grid1.coords t) ↔ t.val % 8 = 7 :=
  (by decide +kernel : ∀ t : Fin grid1.N, last1 (grid1.coords t) ↔ t.val % 8 = 7)

set_option maxHeartbeats 1000000 in
/-- A FIRST tile. Whatever the two running columns held, the body resets them and folds the tile in; the output block
    is not touched. The witnesses are what its stores wrote into the two columns. -/
noncomputable def runFirst (c : Dev nD) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (hf : first1 i) (hl : ¬last1 i)
    (x2 x3 : Vec F S1024x1024 .bf16) :
    Σ' (L5 : List (View.Piece (Elt F) S1024x1 .f32)), { L6 : List (View.Piece (Elt F) S1024x1 .f32) //
      ∀ (o4 : Vec F S1024x1 .f32) (E : Set ℕ) (K : PUnit → sProp 𝕄),
        iprop(owns (c : Thread nD τ) arg2 fullShare x2 ∗ owns (c : Thread nD τ) arg3 fullShare x3 ∗ owns (c : Thread nD τ) arg4 fullShare o4
            ∗ (∃ d, owns (c : Thread nD τ) arg5 fullShare d) ∗ (∃ d, owns (c : Thread nD τ) arg6 fullShare d)
            ∗ (iprop(owns (c : Thread nD τ) arg2 fullShare x2 ∗ owns (c : Thread nD τ) arg3 fullShare x3 ∗ owns (c : Thread nD τ) arg4 fullShare o4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc1__lse_kernel i arg2 harg2 arg3 harg3 arg4 harg4 arg5 harg5 arg6 harg6) K } := by
  refine ⟨?_, ?_, fun o4 E K => ?run⟩
  case run =>
    simp only [cc1__lse_kernel_eq_skeleton]; unfold cc1__lse_kernel_skel
    unfold owns
    iintro ⟨⟨%f2, %hf2, H2⟩, ⟨%f3, %hf3, H3⟩, ⟨%f4, %hf4, H4⟩, ⟨%d5, %f5, -, H5⟩, ⟨%d6, %f6, -, H6⟩, Hk⟩
    obtain rfl := harg2.eq_unread hf2; obtain rfl := harg3.eq_unread hf3; obtain rfl := harg4.eq_unread hf4
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    iexists _; iexact H6

set_option maxHeartbeats 1000000 in
/-- A MIDDLE tile. From the running maximum `s5` and running sum `s6` the previous tile left, the body folds the tile
    in; the output block is not touched. -/
noncomputable def runMid (c : Dev nD) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (hf : ¬first1 i) (hl : ¬last1 i)
    (x2 x3 : Vec F S1024x1024 .bf16) (s5 s6 : Vec F S1024x1 .f32) :
    Σ' (L5 : List (View.Piece (Elt F) S1024x1 .f32)), { L6 : List (View.Piece (Elt F) S1024x1 .f32) //
      ∀ (o4 : Vec F S1024x1 .f32) (E : Set ℕ) (K : PUnit → sProp 𝕄),
        iprop(owns (c : Thread nD τ) arg2 fullShare x2 ∗ owns (c : Thread nD τ) arg3 fullShare x3 ∗ owns (c : Thread nD τ) arg4 fullShare o4
            ∗ owns (c : Thread nD τ) arg5 fullShare s5 ∗ owns (c : Thread nD τ) arg6 fullShare s6
            ∗ (iprop(owns (c : Thread nD τ) arg2 fullShare x2 ∗ owns (c : Thread nD τ) arg3 fullShare x3 ∗ owns (c : Thread nD τ) arg4 fullShare o4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc1__lse_kernel i arg2 harg2 arg3 harg3 arg4 harg4 arg5 harg5 arg6 harg6) K } := by
  refine ⟨?_, ?_, fun o4 E K => ?run⟩
  case run =>
    simp only [cc1__lse_kernel_eq_skeleton]; unfold cc1__lse_kernel_skel
    unfold owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    iexists _; iexact H6

set_option maxHeartbeats 1000000 in
/-- A LAST tile. From the running maximum `s5` and running sum `s6` the previous tile left, the body folds the tile in
    and then writes maximum plus logarithm of the sum over the whole output block, whatever it held. -/
noncomputable def runLast (c : Dev nD) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (hf : ¬first1 i) (hl : last1 i)
    (x2 x3 : Vec F S1024x1024 .bf16) (s5 s6 : Vec F S1024x1 .f32) :
    Σ' (L4 : List (View.Piece (Elt F) S1024x1 .f32)) (L5 : List (View.Piece (Elt F) S1024x1 .f32)), { L6 : List (View.Piece (Elt F) S1024x1 .f32) //
      ∀ (E : Set ℕ) (K : PUnit → sProp 𝕄),
        iprop(owns (c : Thread nD τ) arg2 fullShare x2 ∗ owns (c : Thread nD τ) arg3 fullShare x3 ∗ (∃ d, owns (c : Thread nD τ) arg4 fullShare d)
            ∗ owns (c : Thread nD τ) arg5 fullShare s5 ∗ owns (c : Thread nD τ) arg6 fullShare s6
            ∗ (iprop(owns (c : Thread nD τ) arg2 fullShare x2 ∗ owns (c : Thread nD τ) arg3 fullShare x3
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc1__lse_kernel i arg2 harg2 arg3 harg3 arg4 harg4 arg5 harg5 arg6 harg6) K } := by
  refine ⟨?_, ?_, ?_, fun E K => ?run⟩
  case run =>
    simp only [cc1__lse_kernel_eq_skeleton]; unfold cc1__lse_kernel_skel
    unfold owns
    iintro ⟨⟨%f2, %hf2, H2⟩, ⟨%f3, %hf3, H3⟩, ⟨%d4, %f4, -, H4⟩, ⟨%f5, %hf5, H5⟩, ⟨%f6, %hf6, H6⟩, Hk⟩
    obtain rfl := harg2.eq_unread hf2; obtain rfl := harg3.eq_unread hf3
    obtain rfl := harg5.eq_unread hf5; obtain rfl := harg6.eq_unread hf6
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; iexact H4
    isplitl [H5]
    · iexists _; iexact H5
    iexists _; iexact H6

end Cert.Kernel.Lse1

end
-- ==== Proof.KbLse1Data.lean ====
import proofs.«154747_j1580547971631_2_alg».proof.Proof.Gen.Kernel.Launch
import proofs.«154747_j1580547971631_2_alg».proof.Proof.Gen.Kernel.Skeleton
import proofs.«154747_j1580547971631_2_alg».proof.Proof.Gen.Kernel.Points
import proofs.«154747_j1580547971631_2_alg».proof.Proof.KbLse1Runs
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Lse1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The row log-sum-exp region: what it holds point by point, and its body obligation

The region's arrays are taken from ANY valuation `V` of the unscoped buffers (what the items before it left). At
point `t` the two input windows hold their blocks of the arrays; the two running columns and, at a row block's last
tile, the output block hold what the case of that tile's run wrote, the running columns of a non-first tile starting
from what the tile before left. -/

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window holds its block at every tile, fetched there or not: between fetches its index does not move. -/
theorem before_in0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The column-block window holds its block at every tile. -/
theorem before_in1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The memrefs the body is called with -/

abbrev ms0 (t : Fin cfg1.N) : Memref sig .tc .vmem S1024x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1 .f32 := win1_2.stage (cfg1.slots t 2)
abbrev hs2 (t : Fin cfg1.N) : (ms2 t).IsWhole := hstage1_2 ((cfg1.slots t 2).cast nbuf1_2)
/-- The running row maximum and the running row sum: whole scoped buffers of the call's own. -/
abbrev scM5 : Memref sig .tc .vmem S1024x1 .f32 := Memref.whole cc1_scratch0
abbrev scM6 : Memref sig .tc .vmem S1024x1 .f32 := Memref.whole cc1_scratch1
/-- Views through which a column's contents are stated (which buffer is read through does not matter once the writes cover it). -/
abbrev VO : View sig .tc .vmem S1024x1 .f32 := (Memref.whole cc1_stg2_0 : Memref sig .tc .vmem S1024x1 .f32).view
abbrev VS5 : View sig .tc .vmem S1024x1 .f32 := scM5.view
abbrev VS6 : View sig .tc .vmem S1024x1 .f32 := scM6.view

/-- A column's contents once a list of writes has covered it: the writes read back over anything. -/
def rdO (L : List (View.Piece (Elt F) S1024x1 .f32)) : Vec F S1024x1 .f32 := VO.read (Elt F) (VO.writes (Elt F) VO.junk L)
def rd5 (L : List (View.Piece (Elt F) S1024x1 .f32)) : Vec F S1024x1 .f32 := VS5.read (Elt F) (VS5.writes (Elt F) VS5.junk L)
def rd6 (L : List (View.Piece (Elt F) S1024x1 .f32)) : Vec F S1024x1 .f32 := VS6.read (Elt F) (VS6.writes (Elt F) VS6.junk L)

/-! ## The three cases at a point of the grid -/

/-- The run of a first tile at point `t`, on the point's memrefs and blocks. -/
def firstAt (c : Dev nD) (t : Fin cfg1.N) (hf : t.val % 8 = 0) (hl : ¬t.val % 8 = 7) :=
  runFirst (F := F) (Ix := Unit) (U := UR sig nD τ) (Lvl := ℕ) c (grid1.coords t) (ms0 t) (hs0 t) (ms1 t) (hs1 t) (ms2 t) (hs2 t) scM5 (Memref.isWhole_whole _) scM6 (Memref.isWhole_whole _)
    ((hfirst1 t).mpr hf) (fun h => hl ((hlast1 t).mp h)) (iblk V c 0 t) (iblk V c 1 t)
/-- The run of a middle tile at point `t` from the running columns `s5`, `s6`. -/
def midAt (c : Dev nD) (t : Fin cfg1.N) (hf : ¬t.val % 8 = 0) (hl : ¬t.val % 8 = 7) (s5 s6 : Vec F S1024x1 .f32) :=
  runMid (F := F) (Ix := Unit) (U := UR sig nD τ) (Lvl := ℕ) c (grid1.coords t) (ms0 t) (hs0 t) (ms1 t) (hs1 t) (ms2 t) (hs2 t) scM5 (Memref.isWhole_whole _) scM6 (Memref.isWhole_whole _)
    (fun h => hf ((hfirst1 t).mp h)) (fun h => hl ((hlast1 t).mp h)) (iblk V c 0 t) (iblk V c 1 t) s5 s6
/-- The run of a last tile at point `t` from the running columns `s5`, `s6`. -/
def lastAt (c : Dev nD) (t : Fin cfg1.N) (hf : ¬t.val % 8 = 0) (hl : t.val % 8 = 7) (s5 s6 : Vec F S1024x1 .f32) :=
  runLast (F := F) (Ix := Unit) (U := UR sig nD τ) (Lvl := ℕ) c (grid1.coords t) (ms0 t) (hs0 t) (ms1 t) (hs1 t) (ms2 t) (hs2 t) scM5 (Memref.isWhole_whole _) scM6 (Memref.isWhole_whole _)
    (fun h => hf ((hfirst1 t).mp h)) ((hlast1 t).mpr hl) (iblk V c 0 t) (iblk V c 1 t) s5 s6

/-- Each case's writes to a running column, and the last tile's to the output block, cover it (one whole-column store last). -/
theorem cov5F (c : Dev nD) (t : Fin cfg1.N) (hf) (hl) (y : S1024x1.Idx) : ∃ pc ∈ (firstAt V c t hf hl).1, y ∈ pc.1.set :=
  View.cover_of_tiledL (firstAt V c t hf hl).1 S1024x1.size (by sl_kernel_rfl) y
theorem cov6F (c : Dev nD) (t : Fin cfg1.N) (hf) (hl) (y : S1024x1.Idx) : ∃ pc ∈ (firstAt V c t hf hl).2.1, y ∈ pc.1.set :=
  View.cover_of_tiledL (firstAt V c t hf hl).2.1 S1024x1.size (by sl_kernel_rfl) y
theorem cov5M (c : Dev nD) (t : Fin cfg1.N) (hf) (hl) (s5 s6) (y : S1024x1.Idx) : ∃ pc ∈ (midAt V c t hf hl s5 s6).1, y ∈ pc.1.set :=
  View.cover_of_tiledL (midAt V c t hf hl s5 s6).1 S1024x1.size (by sl_kernel_rfl) y
theorem cov6M (c : Dev nD) (t : Fin cfg1.N) (hf) (hl) (s5 s6) (y : S1024x1.Idx) : ∃ pc ∈ (midAt V c t hf hl s5 s6).2.1, y ∈ pc.1.set :=
  View.cover_of_tiledL (midAt V c t hf hl s5 s6).2.1 S1024x1.size (by sl_kernel_rfl) y
theorem cov4L (c : Dev nD) (t : Fin cfg1.N) (hf) (hl) (s5 s6) (y : S1024x1.Idx) : ∃ pc ∈ (lastAt V c t hf hl s5 s6).1, y ∈ pc.1.set :=
  View.cover_of_tiledL (lastAt V c t hf hl s5 s6).1 S1024x1.size (by sl_kernel_rfl) y
theorem cov5L (c : Dev nD) (t : Fin cfg1.N) (hf) (hl) (s5 s6) (y : S1024x1.Idx) : ∃ pc ∈ (lastAt V c t hf hl s5 s6).2.1, y ∈ pc.1.set :=
  View.cover_of_tiledL (lastAt V c t hf hl s5 s6).2.1 S1024x1.size (by sl_kernel_rfl) y
theorem cov6L (c : Dev nD) (t : Fin cfg1.N) (hf) (hl) (s5 s6) (y : S1024x1.Idx) : ∃ pc ∈ (lastAt V c t hf hl s5 s6).2.2.1, y ∈ pc.1.set :=
  View.cover_of_tiledL (lastAt V c t hf hl s5 s6).2.2.1 S1024x1.size (by sl_kernel_rfl) y

/-! ## What the output block and the running columns hold after each point -/

/-- After the body at position `n`: the output block's staging buffer (a placeholder nothing reads at a tile that does
    not write it), the running maximum, the running sum — the case the position selects, a non-first tile run from
    what position `n - 1` left in the two columns. -/
def outsAt (c : Dev nD) : (n : ℕ) → n < cfg1.N → Vec F S1024x1 .f32 × Vec F S1024x1 .f32 × Vec F S1024x1 .f32
  | 0, hn => (rdO [], rd5 (firstAt V c ⟨0, hn⟩ (Nat.zero_mod _) (by show ¬(0 : ℕ) % 8 = 7; decide)).1, rd6 (firstAt V c ⟨0, hn⟩ (Nat.zero_mod _) (by show ¬(0 : ℕ) % 8 = 7; decide)).2.1)
  | n + 1, hn =>
    if h0 : (n + 1) % 8 = 0 then
      if h7 : (n + 1) % 8 = 7 then False.elim (by omega)
      else (rdO [], rd5 (firstAt V c ⟨n + 1, hn⟩ h0 h7).1, rd6 (firstAt V c ⟨n + 1, hn⟩ h0 h7).2.1)
    else
      if h7 : (n + 1) % 8 = 7 then
        (rdO (lastAt V c ⟨n + 1, hn⟩ h0 h7 (outsAt c n (Nat.lt_of_succ_lt hn)).2.1 (outsAt c n (Nat.lt_of_succ_lt hn)).2.2).1,
         rd5 (lastAt V c ⟨n + 1, hn⟩ h0 h7 (outsAt c n (Nat.lt_of_succ_lt hn)).2.1 (outsAt c n (Nat.lt_of_succ_lt hn)).2.2).2.1,
         rd6 (lastAt V c ⟨n + 1, hn⟩ h0 h7 (outsAt c n (Nat.lt_of_succ_lt hn)).2.1 (outsAt c n (Nat.lt_of_succ_lt hn)).2.2).2.2.1)
      else
        (rdO [],
         rd5 (midAt V c ⟨n + 1, hn⟩ h0 h7 (outsAt c n (Nat.lt_of_succ_lt hn)).2.1 (outsAt c n (Nat.lt_of_succ_lt hn)).2.2).1,
         rd6 (midAt V c ⟨n + 1, hn⟩ h0 h7 (outsAt c n (Nat.lt_of_succ_lt hn)).2.1 (outsAt c n (Nat.lt_of_succ_lt hn)).2.2).2.1)

/-- What position `t - 1` left, for a position that is not the first. -/
abbrev prev (c : Dev nD) (t : Fin cfg1.N) := outsAt V c (t.val - 1) (Nat.lt_of_le_of_lt (Nat.sub_le _ _) t.isLt)

theorem outsAt_first (c : Dev nD) (t : Fin cfg1.N) (h0 : t.val % 8 = 0) (h7 : ¬t.val % 8 = 7) :
    outsAt V c t.val t.isLt = (rdO [], rd5 (firstAt V c t h0 h7).1, rd6 (firstAt V c t h0 h7).2.1) := by
  obtain ⟨n, hn⟩ := t
  cases n with
  | zero => exact rfl
  | succ n => exact (dif_pos h0).trans ((dif_neg h7).trans rfl)
theorem outsAt_mid (c : Dev nD) (t : Fin cfg1.N) (h0 : ¬t.val % 8 = 0) (h7 : ¬t.val % 8 = 7) :
    outsAt V c t.val t.isLt = (rdO [], rd5 (midAt V c t h0 h7 (prev V c t).2.1 (prev V c t).2.2).1, rd6 (midAt V c t h0 h7 (prev V c t).2.1 (prev V c t).2.2).2.1) := by
  obtain ⟨n, hn⟩ := t
  cases n with
  | zero => exact absurd (Nat.zero_mod _) h0
  | succ n => exact (dif_neg h0).trans ((dif_neg h7).trans rfl)
theorem outsAt_last (c : Dev nD) (t : Fin cfg1.N) (h0 : ¬t.val % 8 = 0) (h7 : t.val % 8 = 7) :
    outsAt V c t.val t.isLt = (rdO (lastAt V c t h0 h7 (prev V c t).2.1 (prev V c t).2.2).1, rd5 (lastAt V c t h0 h7 (prev V c t).2.1 (prev V c t).2.2).2.1, rd6 (lastAt V c t h0 h7 (prev V c t).2.1 (prev V c t).2.2).2.2.1) := by
  obtain ⟨n, hn⟩ := t
  cases n with
  | zero => exact absurd (Nat.zero_mod _) h0
  | succ n => exact (dif_neg h0).trans ((dif_pos h7).trans rfl)

/-! ## The invariant -/

/-- The call's scoped rest with its own two columns split off, each whole at some contents. -/
theorem rest_split (c : Dev nD) :
    (Pipeline.scopedRest (Ix := Unit) (Name := ℕ) (U := UR sig nD τ) (Lvl := ℕ) (Val := Elt F) spec1 c : sProp 𝕄)
      = iprop(iprop((∃ d, owns (c : Thread nD τ) scM5 fullShare d) ∗ (∃ d, owns (c : Thread nD τ) scM6 fullShare d))
          ∗ Pipeline.scopedRestBut (Ix := Unit) (Name := ℕ) (U := UR sig nD τ) (Lvl := ℕ) (Val := Elt F) spec1 c [cc1_scratch0, cc1_scratch1]) := by
  rw [scopedRest1_split]; simp only [scM5, scM6, owns_whole]; try rfl

/-- Before position `n`: at the region's start every scoped buffer the pipeline does not stage at anything; afterwards
    the two running columns at what the point before left, the other such buffers at anything. -/
def PhiS (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop(iprop(owns (c : Thread nD τ) scM5 fullShare (outsAt V c n hn).2.1 ∗ owns (c : Thread nD τ) scM6 fullShare (outsAt V c n hn).2.2)
      ∗ Pipeline.scopedRestBut (Ix := Unit) (Name := ℕ) (U := UR sig nD τ) (Lvl := ℕ) (Val := Elt F) spec1 c [cc1_scratch0, cc1_scratch1])
theorem PhiS_zero (c : Dev nD) (n : ℕ) (h : n ≤ cfg1.N) (hz : n = 0) :
    PhiS V c n h = Pipeline.scopedRest (Ix := Unit) (Name := ℕ) (U := UR sig nD τ) (Lvl := ℕ) (Val := Elt F) spec1 c := by
  subst hz; rfl
theorem PhiS_succ (c : Dev nD) (n : ℕ) (hn : n < cfg1.N) :
    PhiS V c (n + 1) hn = iprop(iprop(owns (c : Thread nD τ) scM5 fullShare (outsAt V c n hn).2.1 ∗ owns (c : Thread nD τ) scM6 fullShare (outsAt V c n hn).2.2)
      ∗ Pipeline.scopedRestBut (Ix := Unit) (Name := ℕ) (U := UR sig nD τ) (Lvl := ℕ) (Val := Elt F) spec1 c [cc1_scratch0, cc1_scratch1]) := rfl
theorem PhiS_pos (c : Dev nD) (n : ℕ) (h : n ≤ cfg1.N) (hz : n ≠ 0) :
    PhiS V c n h = iprop(iprop(owns (c : Thread nD τ) scM5 fullShare (outsAt V c (n - 1) (by omega)).2.1 ∗ owns (c : Thread nD τ) scM6 fullShare (outsAt V c (n - 1) (by omega)).2.2)
      ∗ Pipeline.scopedRestBut (Ix := Unit) (Name := ℕ) (U := UR sig nD τ) (Lvl := ℕ) (Val := Elt F) spec1 c [cc1_scratch0, cc1_scratch1]) := by
  cases n with
  | zero => exact absurd rfl hz
  | succ n => rfl
/-- After any point the invariant gives the scoped rest back: the columns' named contents are forgotten. -/
theorem PhiS_out (c : Dev nD) (n : ℕ) (h : n ≤ cfg1.N) :
    PhiS V c n h ⊢ (Pipeline.scopedRest (Ix := Unit) (Name := ℕ) (U := UR sig nD τ) (Lvl := ℕ) (Val := Elt F) spec1 c : sProp 𝕄) := by
  by_cases hz : n = 0
  · rw [PhiS_zero V c n h hz]
  · rw [PhiS_pos V c n h hz, rest_split]
    iintro ⟨⟨H5, H6⟩, Hr⟩
    isplitl [H5 H6]
    · isplitl [H5]
      · iexists _; iexact H5
      iexists _; iexact H6
    iexact Hr

/-! ## The proof data -/

/-- The region's proof data on core `c`: the arrays as `V` has them; after the body each input's buffer at its block,
    the output's at `outsAt`'s first component; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by dsimp only [dat]
theorem Phi_castSucc (c : Dev nD) (t : Fin cfg1.N) : (dat V c).Φ t.castSucc = PhiS V c t.val (Nat.le_of_lt t.isLt) := by
  dsimp only [dat]; simp only [Fin.coe_castSucc]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = (outsAt V c t.val t.isLt).1 := by dsimp only [dat]
theorem before0 (c : Dev nD) (t : Fin cfg1.N) (d) : (dat V c).before 0 t d = iblk V c 0 t :=
  before_in0 V (dat V c) (A_eq V c 0) (after0 V c) t d
theorem before1 (c : Dev nD) (t : Fin cfg1.N) (d) : (dat V c).before 1 t d = iblk V c 1 t :=
  before_in1 V (dat V c) (A_eq V c 1) (after1 V c) t d

/-! ## Where the output window is idle -/

theorem live0 : ∀ t : Fin cfg1.N, cfg1.idle 0 (grid1.coords t) = false := by decide +kernel
theorem live1 : ∀ t : Fin cfg1.N, cfg1.idle 1 (grid1.coords t) = false := by decide +kernel
theorem idle2 : ∀ t : Fin cfg1.N, ¬t.val % 8 = 7 → cfg1.idle 2 (grid1.coords t) = true := by decide +kernel
theorem noFlush2 : ∀ t : Fin cfg1.N, ¬t.val % 8 = 7 → (cfg1.win 2).flush t = false := by decide +kernel
theorem live2 : ∀ t : Fin cfg1.N, t.val % 8 = 7 → cfg1.idle 2 (grid1.coords t) = false := by decide +kernel

end Cert.Kernel.Lse1

end
-- ==== Proof.KbLse1Body.lean ====
import proofs.«154747_j1580547971631_2_alg».proof.Proof.Gen.Kernel.Launch
import proofs.«154747_j1580547971631_2_alg».proof.Proof.Gen.Kernel.Skeleton
import proofs.«154747_j1580547971631_2_alg».proof.Proof.Gen.Kernel.Points
import proofs.«154747_j1580547971631_2_alg».proof.Proof.KbLse1Data
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Lse1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The row log-sum-exp region: its body obligation

At every point the invariant hands the body the two running columns — at anything before the region's first point,
otherwise at what the point before left — and takes them back at what this point's case wrote; the inputs' buffers hold
their blocks; the output block's buffer is passed through untouched except at a row block's last tile, where the case
covers it. The core owes nothing throughout. -/

variable (V : (c : Dev nD) → (b : Ref sig .tc) → Buf (Elt F) ((c : Thread nD τ).loc b))

/-- What the body is called with at point `t`, the windows one by one. -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))
/-- What it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

theorem leaves0 (c : Dev nD) (t : Fin cfg1.N) :
    (dat V c).leavesExact 0 t = owns (c : Thread nD τ) (ms0 t) fullShare (iblk V c 0 t) := by
  unfold Dat.leavesExact; rw [live0 t, after0]
theorem leaves1 (c : Dev nD) (t : Fin cfg1.N) :
    (dat V c).leavesExact 1 t = owns (c : Thread nD τ) (ms1 t) fullShare (iblk V c 1 t) := by
  unfold Dat.leavesExact; rw [live1 t, after1]
theorem leaves2_idle (c : Dev nD) (t : Fin cfg1.N) (h7 : ¬t.val % 8 = 7) :
    (dat V c).leavesExact 2 t = iprop(∃ d, owns (c : Thread nD τ) (ms2 t) fullShare ((dat V c).before 2 t d)) :=
  Dat.leavesExact_idle (dat V c) 2 t (idle2 t h7) (noFlush2 t h7)
theorem leaves2_live (c : Dev nD) (t : Fin cfg1.N) (h7 : t.val % 8 = 7) :
    (dat V c).leavesExact 2 t = owns (c : Thread nD τ) (ms2 t) fullShare (outsAt V c t.val t.isLt).1 := by
  unfold Dat.leavesExact; rw [live2 t h7, after2]

set_option maxHeartbeats 4000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat V c).owesAt () t.succ = (dat V c).owesAt () t.castSucc from rfl]
  rw [show (dat V c).Φ t.succ = PhiS V c (t.val + 1) t.isLt from rfl, PhiS_succ, leaves0, leaves1, Phi_castSucc]
  have hN : t.val < 64 := lt_of_lt_of_eq t.isLt (show cfg1.N = 64 from N_1)
  by_cases h0 : t.val % 8 = 0
  · have h7 : ¬t.val % 8 = 7 := by omega
    rw [leaves2_idle V c t h7, outsAt_first V c t h0 h7]
    dsimp only [rd5, rd6, rdO]
    -- whatever the invariant holds of the two columns, the first tile takes them at anything
    have hΦ : PhiS V c t.val (Nat.le_of_lt t.isLt) ⊢ (iprop(iprop((∃ d, owns (c : Thread nD τ) scM5 fullShare d) ∗ (∃ d, owns (c : Thread nD τ) scM6 fullShare d))
          ∗ Pipeline.scopedRestBut (Ix := Unit) (Name := ℕ) (U := UR sig nD τ) (Lvl := ℕ) (Val := Elt F) spec1 c [cc1_scratch0, cc1_scratch1]) : sProp 𝕄) := by
      rw [← rest_split]; exact PhiS_out V c _ _
    iintro ⟨HΦ, Ho, ⟨%d0, H0⟩, ⟨%d1, H1⟩, ⟨%d2, H2⟩⟩
    ihave HΦ' := hΦ $$ HΦ
    icases HΦ' with ⟨⟨H5, H6⟩, Hr⟩
    iapply ((firstAt V c t h0 h7).2.2 _ Set.univ _)
    isplitl [H0]; · iexact H0
    isplitl [H1]; · iexact H1
    isplitl [H2]; · iexact H2
    isplitl [H5]; · iexact H5
    isplitl [H6]; · iexact H6
    iintro ⟨H0, H1, H2, ⟨%e5, H5⟩, ⟨%e6, H6⟩⟩
    isplitl [H5 H6 Hr]
    · isplitl [H5 H6]
      · isplitl [H5]
        · unfold owns; iexists _; isplitr
          swap; · iexact H5
          ipureintro; exact View.read_writes_of_cover _ _ _ _ _ (cov5F V c t h0 h7)
        · unfold owns; iexists _; isplitr
          swap; · iexact H6
          ipureintro; exact View.read_writes_of_cover _ _ _ _ _ (cov6F V c t h0 h7)
      iexact Hr
    isplitl [Ho]; · iexact Ho
    isplitl [H0]; · iexact H0
    isplitl [H1]; · iexact H1
    iexists _; iexact H2
  · have hz : t.val ≠ 0 := fun h => h0 (by rw [h])
    rw [PhiS_pos V c _ _ hz]
    by_cases h7 : t.val % 8 = 7
    · rw [leaves2_live V c t h7, outsAt_last V c t h0 h7]
      dsimp only [rd5, rd6, rdO]
      iintro ⟨⟨⟨H5, H6⟩, Hr⟩, Ho, ⟨%d0, H0⟩, ⟨%d1, H1⟩, ⟨%d2, H2⟩⟩
      iapply ((lastAt V c t h0 h7 _ _).2.2.2 Set.univ _)
      isplitl [H0]; · iexact H0
      isplitl [H1]; · iexact H1
      isplitl [H2]; · iexists _; iexact H2
      isplitl [H5]; · iexact H5
      isplitl [H6]; · iexact H6
      iintro ⟨H0, H1, ⟨%e4, H4⟩, ⟨%e5, H5⟩, ⟨%e6, H6⟩⟩
      isplitl [H5 H6 Hr]
      · isplitl [H5 H6]
        · isplitl [H5]
          · unfold owns; iexists _; isplitr
            swap; · iexact H5
            ipureintro; exact View.read_writes_of_cover _ _ _ _ _ (cov5L V c t h0 h7 _ _)
          · unfold owns; iexists _; isplitr
            swap; · iexact H6
            ipureintro; exact View.read_writes_of_cover _ _ _ _ _ (cov6L V c t h0 h7 _ _)
        iexact Hr
      isplitl [Ho]; · iexact Ho
      isplitl [H0]; · iexact H0
      isplitl [H1]; · iexact H1
      unfold owns; iexists _; isplitr
      swap; · iexact H4
      ipureintro; exact View.read_writes_of_cover _ _ _ _ _ (cov4L V c t h0 h7 _ _)
    · rw [leaves2_idle V c t h7, outsAt_mid V c t h0 h7]
      dsimp only [rd5, rd6, rdO]
      iintro ⟨⟨⟨H5, H6⟩, Hr⟩, Ho, ⟨%d0, H0⟩, ⟨%d1, H1⟩, ⟨%d2, H2⟩⟩
      iapply ((midAt V c t h0 h7 _ _).2.2 _ Set.univ _)
      isplitl [H0]; · iexact H0
      isplitl [H1]; · iexact H1
      isplitl [H2]; · iexact H2
      isplitl [H5]; · iexact H5
      isplitl [H6]; · iexact H6
      iintro ⟨H0, H1, H2, ⟨%e5, H5⟩, ⟨%e6, H6⟩⟩
      isplitl [H5 H6 Hr]
      · isplitl [H5 H6]
        · isplitl [H5]
          · unfold owns; iexists _; isplitr
            swap; · iexact H5
            ipureintro; exact View.read_writes_of_cover _ _ _ _ _ (cov5M V c t h0 h7 _ _)
          · unfold owns; iexists _; isplitr
            swap; · iexact H6
            ipureintro; exact View.read_writes_of_cover _ _ _ _ _ (cov6M V c t h0 h7 _ _)
        iexact Hr
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- The invariant before the first point is the call's scoped rest; after the last it gives it back. -/
theorem Phi_first (c : Dev nD) : (dat V c).Φ 0 = (Pipeline.scopedRest (Ix := Unit) (Name := ℕ) (U := UR sig nD τ) (Lvl := ℕ) (Val := Elt F) spec1 c : sProp 𝕄) := rfl
theorem Phi_last (c : Dev nD) : (dat V c).Φ (Fin.last cfg1.N) ⊢ (Pipeline.scopedRest (Ix := Unit) (Name := ℕ) (U := UR sig nD τ) (Lvl := ℕ) (Val := Elt F) spec1 c : sProp 𝕄) := by
  rw [show (dat V c).Φ (Fin.last cfg1.N) = PhiS V c (Fin.last cfg1.N).val (Nat.le_of_lt_succ (Fin.last cfg1.N).isLt) from rfl]
  exact PhiS_out V c _ _

end Cert.Kernel.Lse1

end
-- ==== Proof.KbComb2Runs.lean ====
import proofs.«154747_j1580547971631_2_alg».proof.Proof.Gen.Kernel.Launch
import proofs.«154747_j1580547971631_2_alg».proof.Proof.Gen.Kernel.Skeleton
import proofs.«154747_j1580547971631_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Comb2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! # The combine kernel (region 2), run case by case

The body visits the key tiles of one block of query rows left to right and keeps one accumulator block between tiles.
At a row block's first tile the accumulator is reset to zero; at every tile the exponentials of (score minus the key's
log-sum-exp) times the key block are added to it; at the last tile the query block minus the accumulator is written to
the output block. Three cases meet the grid (eight tiles per row block). -/

/-- A row block's first tile: the accumulator is reset. -/
abbrev firstT (i : grid2.Coords) : Prop := (Scalar.cmpi .ne (Scalar.extui (Scalar.cmpi .eq (BitVec.ofNat 32 (i 1).val) 0#32)) 0#32) = 1#1
/-- A row block's last tile: the output block is written. -/
abbrev lastT (i : grid2.Coords) : Prop := k2_cond2 i = 1#1
theorem hfirstT : ∀ t : Fin cfg2.N, firstT (grid2.coords t) ↔ t.val % 8 = 0 :=
  (by decide +kernel : ∀ t : Fin grid2.N, firstT (grid2.coords t) ↔ t.val % 8 = 0)
theorem hlastT : ∀ t : Fin cfg2.N, lastT (grid2.coords t) ↔ t.val % 8 = 7 :=
  (by decide +kernel : ∀ t : Fin grid2.N, lastT (grid2.coords t) ↔ t.val % 8 = 7)

set_option maxHeartbeats 1000000 in
/-- A FIRST tile: whatever the accumulator held, it is reset and the tile added; the output block is not touched. -/
noncomputable def runFirst (c : Dev nD) (i : grid2.Coords)
    (arg2 : Memref sig .tc .vmem S512x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S512x1024 .f32) (harg6 : arg6.IsWhole) (arg7 : Memref sig .tc .vmem S512x1024 .f32) (harg7 : arg7.IsWhole) (hf : firstT i) (hl : ¬lastT i)
    (x2 : Vec F S512x1024 .bf16) (x3 : Vec F S1024x1024 .bf16) (x4 : Vec F S1x1024 .f32) (x5 : Vec F S512x1024 .f32) :
    { L7 : List (View.Piece (Elt F) S512x1024 .f32) //
      ∀ (o6 : Vec F S512x1024 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare o6 ∗ (∃ d, owns (c : Thread nD τ) arg7 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare o6 ∗ (∃ f, arg7.view.loc (c : Thread nD τ) ↦[arg7.view.set]{fullShare} arg7.view.writes (Elt F) f L7)) -∗ K ⟨⟩))
          ⊢ wp frame (wpE (defs₀ (F := F)) Variants.none c none) E (cc2__combine_kernel i arg2 harg2 arg3 harg3 arg4 harg4 arg5 harg5 arg6 harg6 arg7 harg7) K } := by
  refine ⟨?_, fun o6 E K => ?run⟩
  case run =>
    simp only [cc2__combine_kernel_eq_skeleton]; unfold cc2__combine_kernel_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

set_option maxHeartbeats 1000000 in
/-- A MIDDLE tile: the tile is added to the accumulator `s7` the tile before left; the output block is not touched. -/
noncomputable def runMid (c : Dev nD) (i : grid2.Coords)
    (arg2 : Memref sig .tc .vmem S512x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S512x1024 .f32) (harg6 : arg6.IsWhole) (arg7 : Memref sig .tc .vmem S512x1024 .f32) (harg7 : arg7.IsWhole) (hf : ¬firstT i) (hl : ¬lastT i)
    (x2 : Vec F S512x1024 .bf16) (x3 : Vec F S1024x1024 .bf16) (x4 : Vec F S1x1024 .f32) (x5 : Vec F S512x1024 .f32) (s7 : Vec F S512x1024 .f32) :
    { L7 : List (View.Piece (Elt F) S512x1024 .f32) //
      ∀ (o6 : Vec F S512x1024 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare o6 ∗ owns (c : Thread nD τ) arg7 fullShare s7
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare o6 ∗ (∃ f, arg7.view.loc (c : Thread nD τ) ↦[arg7.view.set]{fullShare} arg7.view.writes (Elt F) f L7)) -∗ K ⟨⟩))
          ⊢ wp frame (wpE (defs₀ (F := F)) Variants.none c none) E (cc2__combine_kernel i arg2 harg2 arg3 harg3 arg4 harg4 arg5 harg5 arg6 harg6 arg7 harg7) K } := by
  refine ⟨?_, fun o6 E K => ?run⟩
  case run =>
    simp only [cc2__combine_kernel_eq_skeleton]; unfold cc2__combine_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

set_option maxHeartbeats 1000000 in
/-- A LAST tile: the tile is added to the accumulator `s7`, then the query block minus the accumulator is written over
    the whole output block, whatever it held. -/
noncomputable def runLast (c : Dev nD) (i : grid2.Coords)
    (arg2 : Memref sig .tc .vmem S512x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S512x1024 .f32) (harg6 : arg6.IsWhole) (arg7 : Memref sig .tc .vmem S512x1024 .f32) (harg7 : arg7.IsWhole) (hf : ¬firstT i) (hl : lastT i)
    (x2 : Vec F S512x1024 .bf16) (x3 : Vec F S1024x1024 .bf16) (x4 : Vec F S1x1024 .f32) (x5 : Vec F S512x1024 .f32) (s7 : Vec F S512x1024 .f32) :
    Σ' (L6 : List (View.Piece (Elt F) S512x1024 .f32)), { L7 : List (View.Piece (Elt F) S512x1024 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare s7
            ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc2__combine_kernel i arg2 harg2 arg3 harg3 arg4 harg4 arg5 harg5 arg6 harg6 arg7 harg7) K } := by
  refine ⟨?_, ?_, fun E K => ?run⟩
  case run =>
    simp only [cc2__combine_kernel_eq_skeleton]; unfold cc2__combine_kernel_skel
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg2.eq_unread hf2; obtain rfl := harg3.eq_unread hf3; obtain rfl := harg4.eq_unread hf4
    obtain rfl := harg5.eq_unread hf5; obtain rfl := harg7.eq_unread hf7
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexact H7

end Cert.Kernel.Comb2

end
-- ==== Proof.KbComb2Data.lean ====
import proofs.«154747_j1580547971631_2_alg».proof.Proof.Gen.Kernel.Launch
import proofs.«154747_j1580547971631_2_alg».proof.Proof.Gen.Kernel.Skeleton
import proofs.«154747_j1580547971631_2_alg».proof.Proof.Gen.Kernel.Points
import proofs.«154747_j1580547971631_2_alg».proof.Proof.KbComb2Runs
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Comb2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The combine region 2: what it holds point by point

The region's arrays are taken from ANY valuation `V` of the unscoped buffers. At point `t` the four input windows hold
their blocks; the accumulator and, at a row block's last tile, the output block hold what that tile's case wrote, the
accumulator of a non-first tile starting from what the tile before left. -/

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window holds its block at every tile, fetched there or not: between fetches its index does not move. -/
theorem before_in0 {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The memrefs the body is called with -/

abbrev ms0 (t : Fin cfg2.N) : Memref sig .tc .vmem S512x1024 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S1024x1024 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x1024 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S512x1024 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S512x1024 .f32 := win2_4.stage (cfg2.slots t 4)
abbrev hs4 (t : Fin cfg2.N) : (ms4 t).IsWhole := hstage2_4 ((cfg2.slots t 4).cast nbuf2_4)
/-- The accumulator: a whole scoped buffer of the call's own. -/
abbrev scM7 : Memref sig .tc .vmem S512x1024 .f32 := Memref.whole cc2_scratch0
abbrev VO : View sig .tc .vmem S512x1024 .f32 := (Memref.whole cc2_stg4_0 : Memref sig .tc .vmem S512x1024 .f32).view
abbrev VS7 : View sig .tc .vmem S512x1024 .f32 := scM7.view

/-- A block's contents once a list of writes has covered it: the writes read back over anything. -/
def rdO (L : List (View.Piece (Elt F) S512x1024 .f32)) : Vec F S512x1024 .f32 := VO.read (Elt F) (VO.writes (Elt F) VO.junk L)
def rd7 (L : List (View.Piece (Elt F) S512x1024 .f32)) : Vec F S512x1024 .f32 := VS7.read (Elt F) (VS7.writes (Elt F) VS7.junk L)

/-! ## The three cases at a point of the grid -/

def firstAt (c : Dev nD) (t : Fin cfg2.N) (hf : t.val % 8 = 0) (hl : ¬t.val % 8 = 7) :=
  runFirst (F := F) (Ix := Unit) (U := UR sig nD τ) (Lvl := ℕ) c (grid2.coords t) (ms0 t) (hs0 t) (ms1 t) (hs1 t) (ms2 t) (hs2 t) (ms3 t) (hs3 t) (ms4 t) (hs4 t) scM7 (Memref.isWhole_whole _)
    ((hfirstT t).mpr hf) (fun h => hl ((hlastT t).mp h)) (iblk V c 0 t) (iblk V c 1 t) (iblk V c 2 t) (iblk V c 3 t)
def midAt (c : Dev nD) (t : Fin cfg2.N) (hf : ¬t.val % 8 = 0) (hl : ¬t.val % 8 = 7) (s7 : Vec F S512x1024 .f32) :=
  runMid (F := F) (Ix := Unit) (U := UR sig nD τ) (Lvl := ℕ) c (grid2.coords t) (ms0 t) (hs0 t) (ms1 t) (hs1 t) (ms2 t) (hs2 t) (ms3 t) (hs3 t) (ms4 t) (hs4 t) scM7 (Memref.isWhole_whole _)
    (fun h => hf ((hfirstT t).mp h)) (fun h => hl ((hlastT t).mp h)) (iblk V c 0 t) (iblk V c 1 t) (iblk V c 2 t) (iblk V c 3 t) s7
def lastAt (c : Dev nD) (t : Fin cfg2.N) (hf : ¬t.val % 8 = 0) (hl : t.val % 8 = 7) (s7 : Vec F S512x1024 .f32) :=
  runLast (F := F) (Ix := Unit) (U := UR sig nD τ) (Lvl := ℕ) c (grid2.coords t) (ms0 t) (hs0 t) (ms1 t) (hs1 t) (ms2 t) (hs2 t) (ms3 t) (hs3 t) (ms4 t) (hs4 t) scM7 (Memref.isWhole_whole _)
    (fun h => hf ((hfirstT t).mp h)) ((hlastT t).mpr hl) (iblk V c 0 t) (iblk V c 1 t) (iblk V c 2 t) (iblk V c 3 t) s7

/-- Each case's writes to the accumulator, and the last tile's to the output block, cover it (a whole-block store last). -/
theorem cov7F (c : Dev nD) (t : Fin cfg2.N) (hf) (hl) (y : S512x1024.Idx) : ∃ pc ∈ (firstAt V c t hf hl).1, y ∈ pc.1.set :=
  View.cover_of_tiledL (firstAt V c t hf hl).1 S512x1024.size (by sl_kernel_rfl) y
theorem cov7M (c : Dev nD) (t : Fin cfg2.N) (hf) (hl) (s7) (y : S512x1024.Idx) : ∃ pc ∈ (midAt V c t hf hl s7).1, y ∈ pc.1.set :=
  View.cover_of_tiledL (midAt V c t hf hl s7).1 S512x1024.size (by sl_kernel_rfl) y
theorem cov6L (c : Dev nD) (t : Fin cfg2.N) (hf) (hl) (s7) (y : S512x1024.Idx) : ∃ pc ∈ (lastAt V c t hf hl s7).1, y ∈ pc.1.set :=
  View.cover_of_tiledL (lastAt V c t hf hl s7).1 S512x1024.size (by sl_kernel_rfl) y
theorem cov7L (c : Dev nD) (t : Fin cfg2.N) (hf) (hl) (s7) (y : S512x1024.Idx) : ∃ pc ∈ (lastAt V c t hf hl s7).2.1, y ∈ pc.1.set :=
  View.cover_of_tiledL (lastAt V c t hf hl s7).2.1 S512x1024.size (by sl_kernel_rfl) y

/-! ## What the output block and the accumulator hold after each point -/

/-- After the body at position `n`: the output block's staging buffer (a placeholder nothing reads at a tile that does
    not write it) and the accumulator — the case the position selects, a non-first tile run from what position `n - 1` left. -/
def outsAt (c : Dev nD) : (n : ℕ) → n < cfg2.N → Vec F S512x1024 .f32 × Vec F S512x1024 .f32
  | 0, hn => (rdO [], rd7 (firstAt V c ⟨0, hn⟩ (Nat.zero_mod _) (by show ¬(0 : ℕ) % 8 = 7; decide)).1)
  | n + 1, hn =>
    if h0 : (n + 1) % 8 = 0 then
      if h7 : (n + 1) % 8 = 7 then False.elim (by omega)
      else (rdO [], rd7 (firstAt V c ⟨n + 1, hn⟩ h0 h7).1)
    else
      if h7 : (n + 1) % 8 = 7 then
        (rdO (lastAt V c ⟨n + 1, hn⟩ h0 h7 (outsAt c n (Nat.lt_of_succ_lt hn)).2).1,
         rd7 (lastAt V c ⟨n + 1, hn⟩ h0 h7 (outsAt c n (Nat.lt_of_succ_lt hn)).2).2.1)
      else
        (rdO [], rd7 (midAt V c ⟨n + 1, hn⟩ h0 h7 (outsAt c n (Nat.lt_of_succ_lt hn)).2).1)

abbrev prev (c : Dev nD) (t : Fin cfg2.N) := outsAt V c (t.val - 1) (Nat.lt_of_le_of_lt (Nat.sub_le _ _) t.isLt)

theorem outsAt_first (c : Dev nD) (t : Fin cfg2.N) (h0 : t.val % 8 = 0) (h7 : ¬t.val % 8 = 7) :
    outsAt V c t.val t.isLt = (rdO [], rd7 (firstAt V c t h0 h7).1) := by
  obtain ⟨n, hn⟩ := t
  cases n with
  | zero => exact rfl
  | succ n => exact (dif_pos h0).trans ((dif_neg h7).trans rfl)
theorem outsAt_mid (c : Dev nD) (t : Fin cfg2.N) (h0 : ¬t.val % 8 = 0) (h7 : ¬t.val % 8 = 7) :
    outsAt V c t.val t.isLt = (rdO [], rd7 (midAt V c t h0 h7 (prev V c t).2).1) := by
  obtain ⟨n, hn⟩ := t
  cases n with
  | zero => exact absurd (Nat.zero_mod _) h0
  | succ n => exact (dif_neg h0).trans ((dif_neg h7).trans rfl)
theorem outsAt_last (c : Dev nD) (t : Fin cfg2.N) (h0 : ¬t.val % 8 = 0) (h7 : t.val % 8 = 7) :
    outsAt V c t.val t.isLt = (rdO (lastAt V c t h0 h7 (prev V c t).2).1, rd7 (lastAt V c t h0 h7 (prev V c t).2).2.1) := by
  obtain ⟨n, hn⟩ := t
  cases n with
  | zero => exact absurd (Nat.zero_mod _) h0
  | succ n => exact (dif_neg h0).trans ((dif_pos h7).trans rfl)

/-! ## The invariant -/

theorem rest_split (c : Dev nD) :
    (Pipeline.scopedRest (Ix := Unit) (Name := ℕ) (U := UR sig nD τ) (Lvl := ℕ) (Val := Elt F) spec2 c : sProp 𝕄)
      = iprop(iprop((∃ d, owns (c : Thread nD τ) scM7 fullShare d)) ∗ Pipeline.scopedRestBut (Ix := Unit) (Name := ℕ) (U := UR sig nD τ) (Lvl := ℕ) (Val := Elt F) spec2 c [cc2_scratch0]) := by
  rw [scopedRest2_split]; simp only [scM7, owns_whole]; try rfl

/-- Before position `n`: at the region's start every scoped buffer the pipeline does not stage at anything; afterwards
    the accumulator at what the point before left, the other such buffers at anything. -/
def PhiS (c : Dev nD) : (n : ℕ) → n ≤ cfg2.N → sProp 𝕄
  | 0, _ => Pipeline.scopedRest (Ix := Unit) (Name := ℕ) (U := UR sig nD τ) (Lvl := ℕ) (Val := Elt F) spec2 c
  | n + 1, hn => iprop(iprop(owns (c : Thread nD τ) scM7 fullShare (outsAt V c n hn).2) ∗ Pipeline.scopedRestBut (Ix := Unit) (Name := ℕ) (U := UR sig nD τ) (Lvl := ℕ) (Val := Elt F) spec2 c [cc2_scratch0])
theorem PhiS_zero (c : Dev nD) (n : ℕ) (h : n ≤ cfg2.N) (hz : n = 0) : PhiS V c n h = Pipeline.scopedRest (Ix := Unit) (Name := ℕ) (U := UR sig nD τ) (Lvl := ℕ) (Val := Elt F) spec2 c := by
  subst hz; rfl
theorem PhiS_succ (c : Dev nD) (n : ℕ) (hn : n < cfg2.N) :
    PhiS V c (n + 1) hn = iprop(iprop(owns (c : Thread nD τ) scM7 fullShare (outsAt V c n hn).2) ∗ Pipeline.scopedRestBut (Ix := Unit) (Name := ℕ) (U := UR sig nD τ) (Lvl := ℕ) (Val := Elt F) spec2 c [cc2_scratch0]) := rfl
theorem PhiS_pos (c : Dev nD) (n : ℕ) (h : n ≤ cfg2.N) (hz : n ≠ 0) :
    PhiS V c n h = iprop(iprop(owns (c : Thread nD τ) scM7 fullShare (outsAt V c (n - 1) (by omega)).2) ∗ Pipeline.scopedRestBut (Ix := Unit) (Name := ℕ) (U := UR sig nD τ) (Lvl := ℕ) (Val := Elt F) spec2 c [cc2_scratch0]) := by
  cases n with
  | zero => exact absurd rfl hz
  | succ n => rfl
theorem PhiS_out (c : Dev nD) (n : ℕ) (h : n ≤ cfg2.N) : PhiS V c n h ⊢ (Pipeline.scopedRest (Ix := Unit) (Name := ℕ) (U := UR sig nD τ) (Lvl := ℕ) (Val := Elt F) spec2 c : sProp 𝕄) := by
  by_cases hz : n = 0
  · rw [PhiS_zero V c n h hz]
  · rw [PhiS_pos V c n h hz, rest_split]
    iintro ⟨H7, Hr⟩
    isplitl [H7]
    · iexists _; iexact H7
    iexact Hr

/-! ## The proof data -/

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by dsimp only [dat]
theorem Phi_castSucc (c : Dev nD) (t : Fin cfg2.N) : (dat V c).Φ t.castSucc = PhiS V c t.val (Nat.le_of_lt t.isLt) := by
  dsimp only [dat]; simp only [Fin.coe_castSucc]
theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = (outsAt V c t.val t.isLt).1 := by dsimp only [dat]
theorem before0 (c : Dev nD) (t : Fin cfg2.N) (d) : (dat V c).before 0 t d = iblk V c 0 t := before_in0 V (dat V c) (A_eq V c 0) (after0 V c) t d
theorem before1 (c : Dev nD) (t : Fin cfg2.N) (d) : (dat V c).before 1 t d = iblk V c 1 t := before_in1 V (dat V c) (A_eq V c 1) (after1 V c) t d
theorem before2 (c : Dev nD) (t : Fin cfg2.N) (d) : (dat V c).before 2 t d = iblk V c 2 t := before_in2 V (dat V c) (A_eq V c 2) (after2 V c) t d
theorem before3 (c : Dev nD) (t : Fin cfg2.N) (d) : (dat V c).before 3 t d = iblk V c 3 t := before_in3 V (dat V c) (A_eq V c 3) (after3 V c) t d

/-! ## Where the output window is idle -/

theorem live0 : ∀ t : Fin cfg2.N, cfg2.idle 0 (grid2.coords t) = false := by decide +kernel
theorem live1 : ∀ t : Fin cfg2.N, cfg2.idle 1 (grid2.coords t) = false := by decide +kernel
theorem live2 : ∀ t : Fin cfg2.N, cfg2.idle 2 (grid2.coords t) = false := by decide +kernel
theorem live3 : ∀ t : Fin cfg2.N, cfg2.idle 3 (grid2.coords t) = false := by decide +kernel
theorem idle4 : ∀ t : Fin cfg2.N, ¬t.val % 8 = 7 → cfg2.idle 4 (grid2.coords t) = true := by decide +kernel
theorem noFlush4 : ∀ t : Fin cfg2.N, ¬t.val % 8 = 7 → (cfg2.win 4).flush t = false := by decide +kernel
theorem live4 : ∀ t : Fin cfg2.N, t.val % 8 = 7 → cfg2.idle 4 (grid2.coords t) = false := by decide +kernel

end Cert.Kernel.Comb2

end
-- ==== Proof.KbComb2Body.lean ====
import proofs.«154747_j1580547971631_2_alg».proof.Proof.Gen.Kernel.Launch
import proofs.«154747_j1580547971631_2_alg».proof.Proof.Gen.Kernel.Skeleton
import proofs.«154747_j1580547971631_2_alg».proof.Proof.Gen.Kernel.Points
import proofs.«154747_j1580547971631_2_alg».proof.Proof.KbComb2Data
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Comb2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The combine region 2: its body obligation

At every point the invariant hands the body the accumulator — at anything before the region's first point, otherwise at
what the point before left — and takes it back at what this point's case wrote; the four inputs' buffers hold their blocks;
the output block's buffer is passed through untouched except at a row block's last tile, where the case covers it. -/

variable (V : (c : Dev nD) → (b : Ref sig .tc) → Buf (Elt F) ((c : Thread nD τ).loc b))

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t)

theorem leaves0 (c : Dev nD) (t : Fin cfg2.N) : (dat V c).leavesExact 0 t = owns (c : Thread nD τ) (ms0 t) fullShare (iblk V c 0 t) := by
  unfold Dat.leavesExact; rw [live0 t, after0]
theorem leaves1 (c : Dev nD) (t : Fin cfg2.N) : (dat V c).leavesExact 1 t = owns (c : Thread nD τ) (ms1 t) fullShare (iblk V c 1 t) := by
  unfold Dat.leavesExact; rw [live1 t, after1]
theorem leaves2 (c : Dev nD) (t : Fin cfg2.N) : (dat V c).leavesExact 2 t = owns (c : Thread nD τ) (ms2 t) fullShare (iblk V c 2 t) := by
  unfold Dat.leavesExact; rw [live2 t, after2]
theorem leaves3 (c : Dev nD) (t : Fin cfg2.N) : (dat V c).leavesExact 3 t = owns (c : Thread nD τ) (ms3 t) fullShare (iblk V c 3 t) := by
  unfold Dat.leavesExact; rw [live3 t, after3]
theorem leaves4_idle (c : Dev nD) (t : Fin cfg2.N) (h7 : ¬t.val % 8 = 7) :
    (dat V c).leavesExact 4 t = iprop(∃ d, owns (c : Thread nD τ) (ms4 t) fullShare ((dat V c).before 4 t d)) :=
  Dat.leavesExact_idle (dat V c) 4 t (idle4 t h7) (noFlush4 t h7)
theorem leaves4_live (c : Dev nD) (t : Fin cfg2.N) (h7 : t.val % 8 = 7) :
    (dat V c).leavesExact 4 t = owns (c : Thread nD τ) (ms4 t) fullShare (outsAt V c t.val t.isLt).1 := by
  unfold Dat.leavesExact; rw [live4 t h7, after4]

set_option maxHeartbeats 4000000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3]
  rw [show (dat V c).owesAt () t.succ = (dat V c).owesAt () t.castSucc from rfl]
  rw [show (dat V c).Φ t.succ = PhiS V c (t.val + 1) t.isLt from rfl, PhiS_succ, leaves0, leaves1, leaves2, leaves3, Phi_castSucc]
  have hN : t.val < 128 := lt_of_lt_of_eq t.isLt (show cfg2.N = 128 from N_2)
  by_cases h0 : t.val % 8 = 0
  · have h7 : ¬t.val % 8 = 7 := by omega
    rw [leaves4_idle V c t h7, outsAt_first V c t h0 h7]
    dsimp only [rd7, rdO]
    have hΦ : PhiS V c t.val (Nat.le_of_lt t.isLt) ⊢ (iprop(iprop((∃ d, owns (c : Thread nD τ) scM7 fullShare d)) ∗ Pipeline.scopedRestBut (Ix := Unit) (Name := ℕ) (U := UR sig nD τ) (Lvl := ℕ) (Val := Elt F) spec2 c [cc2_scratch0]) : sProp 𝕄) := by
      rw [← rest_split]; exact PhiS_out V c _ _
    iintro ⟨HΦ, Ho, ⟨%d0, H0⟩, ⟨%d1, H1⟩, ⟨%d2, H2⟩, ⟨%d3, H3⟩, ⟨%d4, H4⟩⟩
    ihave HΦ' := hΦ $$ HΦ
    icases HΦ' with ⟨H7, Hr⟩
    iapply ((firstAt V c t h0 h7).2 _ Set.univ _)
    isplitl [H0]; · iexact H0
    isplitl [H1]; · iexact H1
    isplitl [H2]; · iexact H2
    isplitl [H3]; · iexact H3
    isplitl [H4]; · iexact H4
    isplitl [H7]; · iexact H7
    iintro ⟨H0, H1, H2, H3, H4, ⟨%e7, H7⟩⟩
    isplitl [H7 Hr]
    · isplitl [H7]
      · unfold owns; iexists _; isplitr
        swap; · iexact H7
        ipureintro; exact View.read_writes_of_cover _ _ _ _ _ (cov7F V c t h0 h7)
      iexact Hr
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    rw [PhiS_pos V c _ _ hz]
    by_cases h7 : t.val % 8 = 7
    · rw [leaves4_live V c t h7, outsAt_last V c t h0 h7]
      dsimp only [rd7, rdO]
      iintro ⟨⟨H7, Hr⟩, Ho, ⟨%d0, H0⟩, ⟨%d1, H1⟩, ⟨%d2, H2⟩, ⟨%d3, H3⟩, ⟨%d4, H4⟩⟩
      iapply ((lastAt V c t h0 h7 _).2.2 Set.univ _)
      isplitl [H0]; · iexact H0
      isplitl [H1]; · iexact H1
      isplitl [H2]; · iexact H2
      isplitl [H3]; · iexact H3
      isplitl [H4]; · iexists _; iexact H4
      isplitl [H7]; · iexact H7
      iintro ⟨H0, H1, H2, H3, ⟨%e6, H6⟩, ⟨%e7, H7⟩⟩
      isplitl [H7 Hr]
      · isplitl [H7]
        · unfold owns; iexists _; isplitr
          swap; · iexact H7
          ipureintro; exact View.read_writes_of_cover _ _ _ _ _ (cov7L V c t h0 h7 _)
        iexact Hr
      isplitl [Ho]; · iexact Ho
      isplitl [H0]; · iexact H0
      isplitl [H1]; · iexact H1
      isplitl [H2]; · iexact H2
      isplitl [H3]; · iexact H3
      unfold owns; iexists _; isplitr
      swap; · iexact H6
      ipureintro; exact View.read_writes_of_cover _ _ _ _ _ (cov6L V c t h0 h7 _)
    · rw [leaves4_idle V c t h7, outsAt_mid V c t h0 h7]
      dsimp only [rd7, rdO]
      iintro ⟨⟨H7, Hr⟩, Ho, ⟨%d0, H0⟩, ⟨%d1, H1⟩, ⟨%d2, H2⟩, ⟨%d3, H3⟩, ⟨%d4, H4⟩⟩
      iapply ((midAt V c t h0 h7 _).2 _ Set.univ _)
      isplitl [H0]; · iexact H0
      isplitl [H1]; · iexact H1
      isplitl [H2]; · iexact H2
      isplitl [H3]; · iexact H3
      isplitl [H4]; · iexact H4
      isplitl [H7]; · iexact H7
      iintro ⟨H0, H1, H2, H3, H4, ⟨%e7, H7⟩⟩
      isplitl [H7 Hr]
      · isplitl [H7]
        · unfold owns; iexists _; isplitr
          swap; · iexact H7
          ipureintro; exact View.read_writes_of_cover _ _ _ _ _ (cov7M V c t h0 h7 _)
        iexact Hr
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dat (F := F) V c) (defs₀ (F := F)) Variants.none () Set.univ := fun t => by
  rw [bigSep_W2, bigSep_W2]
  exact sound_body V c t

theorem Phi_first (c : Dev nD) : (dat V c).Φ 0 = (Pipeline.scopedRest (Ix := Unit) (Name := ℕ) (U := UR sig nD τ) (Lvl := ℕ) (Val := Elt F) spec2 c : sProp 𝕄) := rfl
theorem Phi_last (c : Dev nD) : (dat V c).Φ (Fin.last cfg2.N) ⊢ (Pipeline.scopedRest (Ix := Unit) (Name := ℕ) (U := UR sig nD τ) (Lvl := ℕ) (Val := Elt F) spec2 c : sProp 𝕄) := by
  rw [show (dat V c).Φ (Fin.last cfg2.N) = PhiS V c (Fin.last cfg2.N).val (Nat.le_of_lt_succ (Fin.last cfg2.N).isLt) from rfl]
  exact PhiS_out V c _ _

end Cert.Kernel.Comb2

end
-- ==== Proof.KbComb3Runs.lean ====
import proofs.«154747_j1580547971631_2_alg».proof.Proof.Gen.Kernel.Launch
import proofs.«154747_j1580547971631_2_alg».proof.Proof.Gen.Kernel.Skeleton
import proofs.«154747_j1580547971631_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Comb3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! # The combine kernel (region 3), run case by case

The body visits the key tiles of one block of query rows left to right and keeps one accumulator block between tiles.
At a row block's first tile the accumulator is reset to zero; at every tile the exponentials of (score minus the key's
log-sum-exp) times the key block are added to it; at the last tile the query block minus the accumulator is written to
the output block. Three cases meet the grid (eight tiles per row block). -/

/-- A row block's first tile: the accumulator is reset. -/
abbrev firstT (i : grid3.Coords) : Prop := (Scalar.cmpi .ne (Scalar.extui (Scalar.cmpi .eq (BitVec.ofNat 32 (i 1).val) 0#32)) 0#32) = 1#1
/-- A row block's last tile: the output block is written. -/
abbrev lastT (i : grid3.Coords) : Prop := k3_cond2 i = 1#1
theorem hfirstT : ∀ t : Fin cfg3.N, firstT (grid3.coords t) ↔ t.val % 8 = 0 :=
  (by decide +kernel : ∀ t : Fin grid3.N, firstT (grid3.coords t) ↔ t.val % 8 = 0)
theorem hlastT : ∀ t : Fin cfg3.N, lastT (grid3.coords t) ↔ t.val % 8 = 7 :=
  (by decide +kernel : ∀ t : Fin grid3.N, lastT (grid3.coords t) ↔ t.val % 8 = 7)

set_option maxHeartbeats 1000000 in
/-- A FIRST tile: whatever the accumulator held, it is reset and the tile added; the output block is not touched. -/
noncomputable def runFirst (c : Dev nD) (i : grid3.Coords)
    (arg2 : Memref sig .tc .vmem S512x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S512x1024 .f32) (harg6 : arg6.IsWhole) (arg7 : Memref sig .tc .vmem S512x1024 .f32) (harg7 : arg7.IsWhole) (hf : firstT i) (hl : ¬lastT i)
    (x2 : Vec F S512x1024 .bf16) (x3 : Vec F S1024x1024 .bf16) (x4 : Vec F S1x1024 .f32) (x5 : Vec F S512x1024 .f32) :
    { L7 : List (View.Piece (Elt F) S512x1024 .f32) //
      ∀ (o6 : Vec F S512x1024 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare o6 ∗ (∃ d, owns (c : Thread nD τ) arg7 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare o6 ∗ (∃ f, arg7.view.loc (c : Thread nD τ) ↦[arg7.view.set]{fullShare} arg7.view.writes (Elt F) f L7)) -∗ K ⟨⟩))
          ⊢ wp frame (wpE (defs₀ (F := F)) Variants.none c none) E (cc3__combine_kernel i arg2 harg2 arg3 harg3 arg4 harg4 arg5 harg5 arg6 harg6 arg7 harg7) K } := by
  refine ⟨?_, fun o6 E K => ?run⟩
  case run =>
    simp only [cc3__combine_kernel_eq_skeleton]; unfold cc3__combine_kernel_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

set_option maxHeartbeats 1000000 in
/-- A MIDDLE tile: the tile is added to the accumulator `s7` the tile before left; the output block is not touched. -/
noncomputable def runMid (c : Dev nD) (i : grid3.Coords)
    (arg2 : Memref sig .tc .vmem S512x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S512x1024 .f32) (harg6 : arg6.IsWhole) (arg7 : Memref sig .tc .vmem S512x1024 .f32) (harg7 : arg7.IsWhole) (hf : ¬firstT i) (hl : ¬lastT i)
    (x2 : Vec F S512x1024 .bf16) (x3 : Vec F S1024x1024 .bf16) (x4 : Vec F S1x1024 .f32) (x5 : Vec F S512x1024 .f32) (s7 : Vec F S512x1024 .f32) :
    { L7 : List (View.Piece (Elt F) S512x1024 .f32) //
      ∀ (o6 : Vec F S512x1024 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare o6 ∗ owns (c : Thread nD τ) arg7 fullShare s7
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare o6 ∗ (∃ f, arg7.view.loc (c : Thread nD τ) ↦[arg7.view.set]{fullShare} arg7.view.writes (Elt F) f L7)) -∗ K ⟨⟩))
          ⊢ wp frame (wpE (defs₀ (F := F)) Variants.none c none) E (cc3__combine_kernel i arg2 harg2 arg3 harg3 arg4 harg4 arg5 harg5 arg6 harg6 arg7 harg7) K } := by
  refine ⟨?_, fun o6 E K => ?run⟩
  case run =>
    simp only [cc3__combine_kernel_eq_skeleton]; unfold cc3__combine_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

set_option maxHeartbeats 1000000 in
/-- A LAST tile: the tile is added to the accumulator `s7`, then the query block minus the accumulator is written over
    the whole output block, whatever it held. -/
noncomputable def runLast (c : Dev nD) (i : grid3.Coords)
    (arg2 : Memref sig .tc .vmem S512x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S512x1024 .f32) (harg6 : arg6.IsWhole) (arg7 : Memref sig .tc .vmem S512x1024 .f32) (harg7 : arg7.IsWhole) (hf : ¬firstT i) (hl : lastT i)
    (x2 : Vec F S512x1024 .bf16) (x3 : Vec F S1024x1024 .bf16) (x4 : Vec F S1x1024 .f32) (x5 : Vec F S512x1024 .f32) (s7 : Vec F S512x1024 .f32) :
    Σ' (L6 : List (View.Piece (Elt F) S512x1024 .f32)), { L7 : List (View.Piece (Elt F) S512x1024 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare s7
            ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc3__combine_kernel i arg2 harg2 arg3 harg3 arg4 harg4 arg5 harg5 arg6 harg6 arg7 harg7) K } := by
  refine ⟨?_, ?_, fun E K => ?run⟩
  case run =>
    simp only [cc3__combine_kernel_eq_skeleton]; unfold cc3__combine_kernel_skel
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg2.eq_unread hf2; obtain rfl := harg3.eq_unread hf3; obtain rfl := harg4.eq_unread hf4
    obtain rfl := harg5.eq_unread hf5; obtain rfl := harg7.eq_unread hf7
    sl_exec (disch := first | exact hf | exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexact H7

end Cert.Kernel.Comb3

end
-- ==== Proof.KbComb3Data.lean ====
import proofs.«154747_j1580547971631_2_alg».proof.Proof.Gen.Kernel.Launch
import proofs.«154747_j1580547971631_2_alg».proof.Proof.Gen.Kernel.Skeleton
import proofs.«154747_j1580547971631_2_alg».proof.Proof.Gen.Kernel.Points
import proofs.«154747_j1580547971631_2_alg».proof.Proof.KbComb3Runs
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Comb3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The combine region 3: what it holds point by point

The region's arrays are taken from ANY valuation `V` of the unscoped buffers. At point `t` the four input windows hold
their blocks; the accumulator and, at a row block's last tile, the output block hold what that tile's case wrote, the
accumulator of a non-first tile starting from what the tile before left. -/

variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window holds its block at every tile, fetched there or not: between fetches its index does not move. -/
theorem before_in0 {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The memrefs the body is called with -/

abbrev ms0 (t : Fin cfg3.N) : Memref sig .tc .vmem S512x1024 .bf16 := win3_0.stage (cfg3.slots t 0)
abbrev hs0 (t : Fin cfg3.N) : (ms0 t).IsWhole := hstage3_0 ((cfg3.slots t 0).cast nbuf3_0)
abbrev ms1 (t : Fin cfg3.N) : Memref sig .tc .vmem S1024x1024 .bf16 := win3_1.stage (cfg3.slots t 1)
abbrev hs1 (t : Fin cfg3.N) : (ms1 t).IsWhole := hstage3_1 ((cfg3.slots t 1).cast nbuf3_1)
abbrev ms2 (t : Fin cfg3.N) : Memref sig .tc .vmem S1x1024 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S512x1024 .f32 := win3_3.stage (cfg3.slots t 3)
abbrev hs3 (t : Fin cfg3.N) : (ms3 t).IsWhole := hstage3_3 ((cfg3.slots t 3).cast nbuf3_3)
abbrev ms4 (t : Fin cfg3.N) : Memref sig .tc .vmem S512x1024 .f32 := win3_4.stage (cfg3.slots t 4)
abbrev hs4 (t : Fin cfg3.N) : (ms4 t).IsWhole := hstage3_4 ((cfg3.slots t 4).cast nbuf3_4)
/-- The accumulator: a whole scoped buffer of the call's own. -/
abbrev scM7 : Memref sig .tc .vmem S512x1024 .f32 := Memref.whole cc3_scratch0
abbrev VO : View sig .tc .vmem S512x1024 .f32 := (Memref.whole cc3_stg4_0 : Memref sig .tc .vmem S512x1024 .f32).view
abbrev VS7 : View sig .tc .vmem S512x1024 .f32 := scM7.view

/-- A block's contents once a list of writes has covered it: the writes read back over anything. -/
def rdO (L : List (View.Piece (Elt F) S512x1024 .f32)) : Vec F S512x1024 .f32 := VO.read (Elt F) (VO.writes (Elt F) VO.junk L)
def rd7 (L : List (View.Piece (Elt F) S512x1024 .f32)) : Vec F S512x1024 .f32 := VS7.read (Elt F) (VS7.writes (Elt F) VS7.junk L)

/-! ## The three cases at a point of the grid -/

def firstAt (c : Dev nD) (t : Fin cfg3.N) (hf : t.val % 8 = 0) (hl : ¬t.val % 8 = 7) :=
  runFirst (F := F) (Ix := Unit) (U := UR sig nD τ) (Lvl := ℕ) c (grid3.coords t) (ms0 t) (hs0 t) (ms1 t) (hs1 t) (ms2 t) (hs2 t) (ms3 t) (hs3 t) (ms4 t) (hs4 t) scM7 (Memref.isWhole_whole _)
    ((hfirstT t).mpr hf) (fun h => hl ((hlastT t).mp h)) (iblk V c 0 t) (iblk V c 1 t) (iblk V c 2 t) (iblk V c 3 t)
def midAt (c : Dev nD) (t : Fin cfg3.N) (hf : ¬t.val % 8 = 0) (hl : ¬t.val % 8 = 7) (s7 : Vec F S512x1024 .f32) :=
  runMid (F := F) (Ix := Unit) (U := UR sig nD τ) (Lvl := ℕ) c (grid3.coords t) (ms0 t) (hs0 t) (ms1 t) (hs1 t) (ms2 t) (hs2 t) (ms3 t) (hs3 t) (ms4 t) (hs4 t) scM7 (Memref.isWhole_whole _)
    (fun h => hf ((hfirstT t).mp h)) (fun h => hl ((hlastT t).mp h)) (iblk V c 0 t) (iblk V c 1 t) (iblk V c 2 t) (iblk V c 3 t) s7
def lastAt (c : Dev nD) (t : Fin cfg3.N) (hf : ¬t.val % 8 = 0) (hl : t.val % 8 = 7) (s7 : Vec F S512x1024 .f32) :=
  runLast (F := F) (Ix := Unit) (U := UR sig nD τ) (Lvl := ℕ) c (grid3.coords t) (ms0 t) (hs0 t) (ms1 t) (hs1 t) (ms2 t) (hs2 t) (ms3 t) (hs3 t) (ms4 t) (hs4 t) scM7 (Memref.isWhole_whole _)
    (fun h => hf ((hfirstT t).mp h)) ((hlastT t).mpr hl) (iblk V c 0 t) (iblk V c 1 t) (iblk V c 2 t) (iblk V c 3 t) s7

/-- Each case's writes to the accumulator, and the last tile's to the output block, cover it (a whole-block store last). -/
theorem cov7F (c : Dev nD) (t : Fin cfg3.N) (hf) (hl) (y : S512x1024.Idx) : ∃ pc ∈ (firstAt V c t hf hl).1, y ∈ pc.1.set :=
  View.cover_of_tiledL (firstAt V c t hf hl).1 S512x1024.size (by sl_kernel_rfl) y
theorem cov7M (c : Dev nD) (t : Fin cfg3.N) (hf) (hl) (s7) (y : S512x1024.Idx) : ∃ pc ∈ (midAt V c t hf hl s7).1, y ∈ pc.1.set :=
  View.cover_of_tiledL (midAt V c t hf hl s7).1 S512x1024.size (by sl_kernel_rfl) y
theorem cov6L (c : Dev nD) (t : Fin cfg3.N) (hf) (hl) (s7) (y : S512x1024.Idx) : ∃ pc ∈ (lastAt V c t hf hl s7).1, y ∈ pc.1.set :=
  View.cover_of_tiledL (lastAt V c t hf hl s7).1 S512x1024.size (by sl_kernel_rfl) y
theorem cov7L (c : Dev nD) (t : Fin cfg3.N) (hf) (hl) (s7) (y : S512x1024.Idx) : ∃ pc ∈ (lastAt V c t hf hl s7).2.1, y ∈ pc.1.set :=
  View.cover_of_tiledL (lastAt V c t hf hl s7).2.1 S512x1024.size (by sl_kernel_rfl) y

/-! ## What the output block and the accumulator hold after each point -/

/-- After the body at position `n`: the output block's staging buffer (a placeholder nothing reads at a tile that does
    not write it) and the accumulator — the case the position selects, a non-first tile run from what position `n - 1` left. -/
def outsAt (c : Dev nD) : (n : ℕ) → n < cfg3.N → Vec F S512x1024 .f32 × Vec F S512x1024 .f32
  | 0, hn => (rdO [], rd7 (firstAt V c ⟨0, hn⟩ (Nat.zero_mod _) (by show ¬(0 : ℕ) % 8 = 7; decide)).1)
  | n + 1, hn =>
    if h0 : (n + 1) % 8 = 0 then
      if h7 : (n + 1) % 8 = 7 then False.elim (by omega)
      else (rdO [], rd7 (firstAt V c ⟨n + 1, hn⟩ h0 h7).1)
    else
      if h7 : (n + 1) % 8 = 7 then
        (rdO (lastAt V c ⟨n + 1, hn⟩ h0 h7 (outsAt c n (Nat.lt_of_succ_lt hn)).2).1,
         rd7 (lastAt V c ⟨n + 1, hn⟩ h0 h7 (outsAt c n (Nat.lt_of_succ_lt hn)).2).2.1)
      else
        (rdO [], rd7 (midAt V c ⟨n + 1, hn⟩ h0 h7 (outsAt c n (Nat.lt_of_succ_lt hn)).2).1)

abbrev prev (c : Dev nD) (t : Fin cfg3.N) := outsAt V c (t.val - 1) (Nat.lt_of_le_of_lt (Nat.sub_le _ _) t.isLt)

theorem outsAt_first (c : Dev nD) (t : Fin cfg3.N) (h0 : t.val % 8 = 0) (h7 : ¬t.val % 8 = 7) :
    outsAt V c t.val t.isLt = (rdO [], rd7 (firstAt V c t h0 h7).1) := by
  obtain ⟨n, hn⟩ := t
  cases n with
  | zero => exact rfl
  | succ n => exact (dif_pos h0).trans ((dif_neg h7).trans rfl)
theorem outsAt_mid (c : Dev nD) (t : Fin cfg3.N) (h0 : ¬t.val % 8 = 0) (h7 : ¬t.val % 8 = 7) :
    outsAt V c t.val t.isLt = (rdO [], rd7 (midAt V c t h0 h7 (prev V c t).2).1) := by
  obtain ⟨n, hn⟩ := t
  cases n with
  | zero => exact absurd (Nat.zero_mod _) h0
  | succ n => exact (dif_neg h0).trans ((dif_neg h7).trans rfl)
theorem outsAt_last (c : Dev nD) (t : Fin cfg3.N) (h0 : ¬t.val % 8 = 0) (h7 : t.val % 8 = 7) :
    outsAt V c t.val t.isLt = (rdO (lastAt V c t h0 h7 (prev V c t).2).1, rd7 (lastAt V c t h0 h7 (prev V c t).2).2.1) := by
  obtain ⟨n, hn⟩ := t
  cases n with
  | zero => exact absurd (Nat.zero_mod _) h0
  | succ n => exact (dif_neg h0).trans ((dif_pos h7).trans rfl)

/-! ## The invariant -/

theorem rest_split (c : Dev nD) :
    (Pipeline.scopedRest (Ix := Unit) (Name := ℕ) (U := UR sig nD τ) (Lvl := ℕ) (Val := Elt F) spec3 c : sProp 𝕄)
      = iprop(iprop((∃ d, owns (c : Thread nD τ) scM7 fullShare d)) ∗ Pipeline.scopedRestBut (Ix := Unit) (Name := ℕ) (U := UR sig nD τ) (Lvl := ℕ) (Val := Elt F) spec3 c [cc3_scratch0]) := by
  rw [scopedRest3_split]; simp only [scM7, owns_whole]; try rfl

/-- Before position `n`: at the region's start every scoped buffer the pipeline does not stage at anything; afterwards
    the accumulator at what the point before left, the other such buffers at anything. -/
def PhiS (c : Dev nD) : (n : ℕ) → n ≤ cfg3.N → sProp 𝕄
  | 0, _ => Pipeline.scopedRest (Ix := Unit) (Name := ℕ) (U := UR sig nD τ) (Lvl := ℕ) (Val := Elt F) spec3 c
  | n + 1, hn => iprop(iprop(owns (c : Thread nD τ) scM7 fullShare (outsAt V c n hn).2) ∗ Pipeline.scopedRestBut (Ix := Unit) (Name := ℕ) (U := UR sig nD τ) (Lvl := ℕ) (Val := Elt F) spec3 c [cc3_scratch0])
theorem PhiS_zero (c : Dev nD) (n : ℕ) (h : n ≤ cfg3.N) (hz : n = 0) : PhiS V c n h = Pipeline.scopedRest (Ix := Unit) (Name := ℕ) (U := UR sig nD τ) (Lvl := ℕ) (Val := Elt F) spec3 c := by
  subst hz; rfl
theorem PhiS_succ (c : Dev nD) (n : ℕ) (hn : n < cfg3.N) :
    PhiS V c (n + 1) hn = iprop(iprop(owns (c : Thread nD τ) scM7 fullShare (outsAt V c n hn).2) ∗ Pipeline.scopedRestBut (Ix := Unit) (Name := ℕ) (U := UR sig nD τ) (Lvl := ℕ) (Val := Elt F) spec3 c [cc3_scratch0]) := rfl
theorem PhiS_pos (c : Dev nD) (n : ℕ) (h : n ≤ cfg3.N) (hz : n ≠ 0) :
    PhiS V c n h = iprop(iprop(owns (c : Thread nD τ) scM7 fullShare (outsAt V c (n - 1) (by omega)).2) ∗ Pipeline.scopedRestBut (Ix := Unit) (Name := ℕ) (U := UR sig nD τ) (Lvl := ℕ) (Val := Elt F) spec3 c [cc3_scratch0]) := by
  cases n with
  | zero => exact absurd rfl hz
  | succ n => rfl
theorem PhiS_out (c : Dev nD) (n : ℕ) (h : n ≤ cfg3.N) : PhiS V c n h ⊢ (Pipeline.scopedRest (Ix := Unit) (Name := ℕ) (U := UR sig nD τ) (Lvl := ℕ) (Val := Elt F) spec3 c : sProp 𝕄) := by
  by_cases hz : n = 0
  · rw [PhiS_zero V c n h hz]
  · rw [PhiS_pos V c n h hz, rest_split]
    iintro ⟨H7, Hr⟩
    isplitl [H7]
    · iexists _; iexact H7
    iexact Hr

/-! ## The proof data -/

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg3.W) : (dat V c).A w = V c (Pipeline.arrRef spec3 w) := by dsimp only [dat]
theorem Phi_castSucc (c : Dev nD) (t : Fin cfg3.N) : (dat V c).Φ t.castSucc = PhiS V c t.val (Nat.le_of_lt t.isLt) := by
  dsimp only [dat]; simp only [Fin.coe_castSucc]
theorem after0 (c : Dev nD) (t : Fin cfg3.N) : (dat V c).after 0 t = iblk V c 0 t := by dsimp only [dat]
theorem after1 (c : Dev nD) (t : Fin cfg3.N) : (dat V c).after 1 t = iblk V c 1 t := by dsimp only [dat]
theorem after2 (c : Dev nD) (t : Fin cfg3.N) : (dat V c).after 2 t = iblk V c 2 t := by dsimp only [dat]
theorem after3 (c : Dev nD) (t : Fin cfg3.N) : (dat V c).after 3 t = iblk V c 3 t := by dsimp only [dat]
theorem after4 (c : Dev nD) (t : Fin cfg3.N) : (dat V c).after 4 t = (outsAt V c t.val t.isLt).1 := by dsimp only [dat]
theorem before0 (c : Dev nD) (t : Fin cfg3.N) (d) : (dat V c).before 0 t d = iblk V c 0 t := before_in0 V (dat V c) (A_eq V c 0) (after0 V c) t d
theorem before1 (c : Dev nD) (t : Fin cfg3.N) (d) : (dat V c).before 1 t d = iblk V c 1 t := before_in1 V (dat V c) (A_eq V c 1) (after1 V c) t d
theorem before2 (c : Dev nD) (t : Fin cfg3.N) (d) : (dat V c).before 2 t d = iblk V c 2 t := before_in2 V (dat V c) (A_eq V c 2) (after2 V c) t d
theorem before3 (c : Dev nD) (t : Fin cfg3.N) (d) : (dat V c).before 3 t d = iblk V c 3 t := before_in3 V (dat V c) (A_eq V c 3) (after3 V c) t d

/-! ## Where the output window is idle -/

theorem live0 : ∀ t : Fin cfg3.N, cfg3.idle 0 (grid3.coords t) = false := by decide +kernel
theorem live1 : ∀ t : Fin cfg3.N, cfg3.idle 1 (grid3.coords t) = false := by decide +kernel
theorem live2 : ∀ t : Fin cfg3.N, cfg3.idle 2 (grid3.coords t) = false := by decide +kernel
theorem live3 : ∀ t : Fin cfg3.N, cfg3.idle 3 (grid3.coords t) = false := by decide +kernel
theorem idle4 : ∀ t : Fin cfg3.N, ¬t.val % 8 = 7 → cfg3.idle 4 (grid3.coords t) = true := by decide +kernel
theorem noFlush4 : ∀ t : Fin cfg3.N, ¬t.val % 8 = 7 → (cfg3.win 4).flush t = false := by decide +kernel
theorem live4 : ∀ t : Fin cfg3.N, t.val % 8 = 7 → cfg3.idle 4 (grid3.coords t) = false := by decide +kernel

end Cert.Kernel.Comb3

end
-- ==== Proof.KbComb3Body.lean ====
import proofs.«154747_j1580547971631_2_alg».proof.Proof.Gen.Kernel.Launch
import proofs.«154747_j1580547971631_2_alg».proof.Proof.Gen.Kernel.Skeleton
import proofs.«154747_j1580547971631_2_alg».proof.Proof.Gen.Kernel.Points
import proofs.«154747_j1580547971631_2_alg».proof.Proof.KbComb3Data
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Comb3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The combine region 3: its body obligation

At every point the invariant hands the body the accumulator — at anything before the region's first point, otherwise at
what the point before left — and takes it back at what this point's case wrote; the four inputs' buffers hold their blocks;
the output block's buffer is passed through untouched except at a row block's last tile, where the case covers it. -/

variable (V : (c : Dev nD) → (b : Ref sig .tc) → Buf (Elt F) ((c : Thread nD τ).loc b))

def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))
def bodyPost (c : Dev nD) (t : Fin cfg3.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t)

theorem leaves0 (c : Dev nD) (t : Fin cfg3.N) : (dat V c).leavesExact 0 t = owns (c : Thread nD τ) (ms0 t) fullShare (iblk V c 0 t) := by
  unfold Dat.leavesExact; rw [live0 t, after0]
theorem leaves1 (c : Dev nD) (t : Fin cfg3.N) : (dat V c).leavesExact 1 t = owns (c : Thread nD τ) (ms1 t) fullShare (iblk V c 1 t) := by
  unfold Dat.leavesExact; rw [live1 t, after1]
theorem leaves2 (c : Dev nD) (t : Fin cfg3.N) : (dat V c).leavesExact 2 t = owns (c : Thread nD τ) (ms2 t) fullShare (iblk V c 2 t) := by
  unfold Dat.leavesExact; rw [live2 t, after2]
theorem leaves3 (c : Dev nD) (t : Fin cfg3.N) : (dat V c).leavesExact 3 t = owns (c : Thread nD τ) (ms3 t) fullShare (iblk V c 3 t) := by
  unfold Dat.leavesExact; rw [live3 t, after3]
theorem leaves4_idle (c : Dev nD) (t : Fin cfg3.N) (h7 : ¬t.val % 8 = 7) :
    (dat V c).leavesExact 4 t = iprop(∃ d, owns (c : Thread nD τ) (ms4 t) fullShare ((dat V c).before 4 t d)) :=
  Dat.leavesExact_idle (dat V c) 4 t (idle4 t h7) (noFlush4 t h7)
theorem leaves4_live (c : Dev nD) (t : Fin cfg3.N) (h7 : t.val % 8 = 7) :
    (dat V c).leavesExact 4 t = owns (c : Thread nD τ) (ms4 t) fullShare (outsAt V c t.val t.isLt).1 := by
  unfold Dat.leavesExact; rw [live4 t h7, after4]

set_option maxHeartbeats 4000000 in
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0, before1, before2, before3]
  rw [show (dat V c).owesAt () t.succ = (dat V c).owesAt () t.castSucc from rfl]
  rw [show (dat V c).Φ t.succ = PhiS V c (t.val + 1) t.isLt from rfl, PhiS_succ, leaves0, leaves1, leaves2, leaves3, Phi_castSucc]
  have hN : t.val < 128 := lt_of_lt_of_eq t.isLt (show cfg3.N = 128 from N_3)
  by_cases h0 : t.val % 8 = 0
  · have h7 : ¬t.val % 8 = 7 := by omega
    rw [leaves4_idle V c t h7, outsAt_first V c t h0 h7]
    dsimp only [rd7, rdO]
    have hΦ : PhiS V c t.val (Nat.le_of_lt t.isLt) ⊢ (iprop(iprop((∃ d, owns (c : Thread nD τ) scM7 fullShare d)) ∗ Pipeline.scopedRestBut (Ix := Unit) (Name := ℕ) (U := UR sig nD τ) (Lvl := ℕ) (Val := Elt F) spec3 c [cc3_scratch0]) : sProp 𝕄) := by
      rw [← rest_split]; exact PhiS_out V c _ _
    iintro ⟨HΦ, Ho, ⟨%d0, H0⟩, ⟨%d1, H1⟩, ⟨%d2, H2⟩, ⟨%d3, H3⟩, ⟨%d4, H4⟩⟩
    ihave HΦ' := hΦ $$ HΦ
    icases HΦ' with ⟨H7, Hr⟩
    iapply ((firstAt V c t h0 h7).2 _ Set.univ _)
    isplitl [H0]; · iexact H0
    isplitl [H1]; · iexact H1
    isplitl [H2]; · iexact H2
    isplitl [H3]; · iexact H3
    isplitl [H4]; · iexact H4
    isplitl [H7]; · iexact H7
    iintro ⟨H0, H1, H2, H3, H4, ⟨%e7, H7⟩⟩
    isplitl [H7 Hr]
    · isplitl [H7]
      · unfold owns; iexists _; isplitr
        swap; · iexact H7
        ipureintro; exact View.read_writes_of_cover _ _ _ _ _ (cov7F V c t h0 h7)
      iexact Hr
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    rw [PhiS_pos V c _ _ hz]
    by_cases h7 : t.val % 8 = 7
    · rw [leaves4_live V c t h7, outsAt_last V c t h0 h7]
      dsimp only [rd7, rdO]
      iintro ⟨⟨H7, Hr⟩, Ho, ⟨%d0, H0⟩, ⟨%d1, H1⟩, ⟨%d2, H2⟩, ⟨%d3, H3⟩, ⟨%d4, H4⟩⟩
      iapply ((lastAt V c t h0 h7 _).2.2 Set.univ _)
      isplitl [H0]; · iexact H0
      isplitl [H1]; · iexact H1
      isplitl [H2]; · iexact H2
      isplitl [H3]; · iexact H3
      isplitl [H4]; · iexists _; iexact H4
      isplitl [H7]; · iexact H7
      iintro ⟨H0, H1, H2, H3, ⟨%e6, H6⟩, ⟨%e7, H7⟩⟩
      isplitl [H7 Hr]
      · isplitl [H7]
        · unfold owns; iexists _; isplitr
          swap; · iexact H7
          ipureintro; exact View.read_writes_of_cover _ _ _ _ _ (cov7L V c t h0 h7 _)
        iexact Hr
      isplitl [Ho]; · iexact Ho
      isplitl [H0]; · iexact H0
      isplitl [H1]; · iexact H1
      isplitl [H2]; · iexact H2
      isplitl [H3]; · iexact H3
      unfold owns; iexists _; isplitr
      swap; · iexact H6
      ipureintro; exact View.read_writes_of_cover _ _ _ _ _ (cov6L V c t h0 h7 _)
    · rw [leaves4_idle V c t h7, outsAt_mid V c t h0 h7]
      dsimp only [rd7, rdO]
      iintro ⟨⟨H7, Hr⟩, Ho, ⟨%d0, H0⟩, ⟨%d1, H1⟩, ⟨%d2, H2⟩, ⟨%d3, H3⟩, ⟨%d4, H4⟩⟩
      iapply ((midAt V c t h0 h7 _).2 _ Set.univ _)
      isplitl [H0]; · iexact H0
      isplitl [H1]; · iexact H1
      isplitl [H2]; · iexact H2
      isplitl [H3]; · iexact H3
      isplitl [H4]; · iexact H4
      isplitl [H7]; · iexact H7
      iintro ⟨H0, H1, H2, H3, H4, ⟨%e7, H7⟩⟩
      isplitl [H7 Hr]
      · isplitl [H7]
        · unfold owns; iexists _; isplitr
          swap; · iexact H7
          ipureintro; exact View.read_writes_of_cover _ _ _ _ _ (cov7M V c t h0 h7 _)
        iexact Hr
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dat (F := F) V c) (defs₀ (F := F)) Variants.none () Set.univ := fun t => by
  rw [bigSep_W3, bigSep_W3]
  exact sound_body V c t

theorem Phi_first (c : Dev nD) : (dat V c).Φ 0 = (Pipeline.scopedRest (Ix := Unit) (Name := ℕ) (U := UR sig nD τ) (Lvl := ℕ) (Val := Elt F) spec3 c : sProp 𝕄) := rfl
theorem Phi_last (c : Dev nD) : (dat V c).Φ (Fin.last cfg3.N) ⊢ (Pipeline.scopedRest (Ix := Unit) (Name := ℕ) (U := UR sig nD τ) (Lvl := ℕ) (Val := Elt F) spec3 c : sProp 𝕄) := by
  rw [show (dat V c).Φ (Fin.last cfg3.N) = PhiS V c (Fin.last cfg3.N).val (Nat.le_of_lt_succ (Fin.last cfg3.N).isLt) from rfl]
  exact PhiS_out V c _ _

end Cert.Kernel.Comb3

end
-- ==== Proof.KbRunCond.lean ====
/-
  The whole program's run from its four regions' records, with the final contents of every unscoped buffer.

  @main is a stretch of host operations, two kernel regions, a second stretch, two more regions. Between two items a core
  holds every unscoped buffer whole at a valuation: the launch contents, then the fold of each host stretch, then, after a
  region, the same valuation updated at the one array that region may change. Given one segment record per region that is
  entered from the state before it and left at the state after it, the program runs to the end, and there every unscoped
  buffer holds what the last valuation says.
-/
import proofs.«154747_j1580547971631_2_alg».proof.Proof.Gen.Kernel.Regions

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the launch theorem's implicit arguments are found by unifying its conclusion with this one, which takes unfolding
-- plain definitions in a metavariable's type
set_option backward.isDefEq.respectTransparency.types false in
/-- THE RUN, GIVEN THE REGIONS' RECORDS. Under the same hypotheses as the conditional frame — per region a segment record
    entered from the thread state before it and left at the one after it — every weakly fair execution of @main from memory
    `m` with zero counters terminates, and in every final memory EVERY unscoped buffer holds what the last valuation gives it:
    the arguments as launched, each region's output array at what that region left. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V5 m outs c) ∗ E 3 c) ⊢ R3.pre c)
    (hpost3 : ∀ c : Dev nD, R3.post c ⊢ iprop(StableHlo.held (c : Thread nD τ) (Pipeline.ucRefs τ sig) (V6 m outs c) ∗ E 4 c)) :
    θ_run defs (onTc (τ := τ) (main (F := F))) ⟨m, fun _ => 0, ρ⟩ (fun r => ∀ c : Dev nD, ∀ b ∈ Pipeline.ucRefs τ sig, r.2.mem ((c : Thread nD τ).1, b) = V6 m outs c b) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨.rfl, hpre0 c, (hpost0 c).trans (hpre1 c), hpost1 c, hpre2 c, (hpost2 c).trans (hpre3 c), (hpost3 c).trans (sep_mono .rfl (hE4 c))⟩)
    (hinit := ?_) (QY := fun c s => ∀ b ∈ Pipeline.ucRefs τ sig, s.mem ((c : Thread nD τ).1, b) = V6 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro
      exact h
    · iexact HSI

end Cert.Kernel.Gen

end
-- ==== Proof.KbKiRegions.lean ====
import proofs.«154747_j1580547971631_2_alg».proof.Proof.Gen.Kernel.Launch
import proofs.«154747_j1580547971631_2_alg».proof.Proof.Gen.Kernel.Skeleton
import proofs.«154747_j1580547971631_2_alg».proof.Proof.Gen.Kernel.Points
import proofs.«154747_j1580547971631_2_alg».proof.Proof.KbLse0Body
import proofs.«154747_j1580547971631_2_alg».proof.Proof.KbLse1Body
import proofs.«154747_j1580547971631_2_alg».proof.Proof.KbComb2Body
import proofs.«154747_j1580547971631_2_alg».proof.Proof.KbComb3Body
import proofs.«154747_j1580547971631_2_alg».proof.Proof.KbRunCond
import Idealize.ShloMosaic.Lib.Pipeline.Regions
import Idealize.ShloMosaic.Lib.Pipeline.RegionsLoop
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel program's run: four regions between two stretches of host operations

Between two items of @main a core holds every unscoped buffer whole at a valuation. The chain of valuations: the launch
contents; after the first host stretch (the normalisation of both inputs and their narrowing); after the row
log-sum-exp region, which changes one array; after the column log-sum-exp region, which changes another; after the two
reshapes; after each combine region, which changes its result array. Each region's proof data is taken at the valuation
it is entered from, and what it leaves in its output array is what the library computes from that data. -/

variable (m : (ℓ : Loc nD τ sig) → Buf (Elt F) ℓ)

/-- A valuation read at the TensorCore's references. -/
abbrev rd (W : Dev nD → Valuation τ sig (Elt F)) : (c : Dev nD) → (b : Ref sig .tc) → Buf (Elt F) ((c : Thread nD τ).loc b) := fun c b => W c b

/-- After the first host stretch. -/
abbrev W1 : Dev nD → Valuation τ sig (Elt F) := fun c => Gen.V1 m c
/-- What the row log-sum-exp region leaves in its output array. -/
def arr0 (c : Dev nD) : Buf (Elt F) ((c : Thread nD τ).loc main_v14) := (Lse0.dat (rd (W1 m)) c).arrAt 2 cfg0.N

/-- After the row log-sum-exp region. -/
def W2 (c : Dev nD) : Valuation τ sig (Elt F) := Function.update (W1 m c) main_v14 (arr0 m c)
theorem W2_out (c : Dev nD) : W2 m c main_v14 = arr0 m c := by
  unfold W2; exact Function.update_self _ _ _
theorem W2_of_ne (c : Dev nD) (b : Ref sig .tc) (h : b ≠ main_v14) : W2 m c b = W1 m c b := by
  unfold W2; exact Function.update_of_ne (StableHlo.devRef_ne_of_ne h) _ _

/-- What the column log-sum-exp region leaves in its output array. -/
def arr1 (c : Dev nD) : Buf (Elt F) ((c : Thread nD τ).loc main_v15) := (Lse1.dat (rd (W2 m)) c).arrAt 2 cfg1.N

/-- After the column log-sum-exp region. -/
def W3 (c : Dev nD) : Valuation τ sig (Elt F) := Function.update (W2 m c) main_v15 (arr1 m c)
theorem W3_out (c : Dev nD) : W3 m c main_v15 = arr1 m c := by
  unfold W3; exact Function.update_self _ _ _
theorem W3_of_ne (c : Dev nD) (b : Ref sig .tc) (h : b ≠ main_v15) : W3 m c b = W2 m c b := by
  unfold W3; exact Function.update_of_ne (StableHlo.devRef_ne_of_ne h) _ _

/-- After the two reshapes. -/
def W4 (c : Dev nD) : Valuation τ sig (Elt F) := StableHlo.after hostOps2 (W3 m c)
/-- What the first combine region leaves in its output array. -/
def arr2 (c : Dev nD) : Buf (Elt F) ((c : Thread nD τ).loc main_v18) := (Comb2.dat (rd (W4 m)) c).arrAt 4 cfg2.N

/-- After the first combine region. -/
def W5 (c : Dev nD) : Valuation τ sig (Elt F) := Function.update (W4 m c) main_v18 (arr2 m c)
theorem W5_out (c : Dev nD) : W5 m c main_v18 = arr2 m c := by
  unfold W5; exact Function.update_self _ _ _
theorem W5_of_ne (c : Dev nD) (b : Ref sig .tc) (h : b ≠ main_v18) : W5 m c b = W4 m c b := by
  unfold W5; exact Function.update_of_ne (StableHlo.devRef_ne_of_ne h) _ _

/-- What the second combine region leaves in its output array. -/
def arr3 (c : Dev nD) : Buf (Elt F) ((c : Thread nD τ).loc main_v19) := (Comb3.dat (rd (W5 m)) c).arrAt 4 cfg3.N

/-- After the second combine region: the end. -/
def W6 (c : Dev nD) : Valuation τ sig (Elt F) := Function.update (W5 m c) main_v19 (arr3 m c)
theorem W6_out (c : Dev nD) : W6 m c main_v19 = arr3 m c := by
  unfold W6; exact Function.update_self _ _ _
theorem W6_of_ne (c : Dev nD) (b : Ref sig .tc) (h : b ≠ main_v19) : W6 m c b = W5 m c b := by
  unfold W6; exact Function.update_of_ne (StableHlo.devRef_ne_of_ne h) _ _

/-- The contents the regions leave, as the conditional run names them. -/
def outs : Gen.Outs (F := F) := fun J r c =>
  match J with
  | 2 => W2 m c r
  | 3 => W3 m c r
  | 5 => W5 m c r
  | _ => W6 m c r

theorem V2_eq (c : Dev nD) : Gen.V2 m (outs m) c = W2 m c := by
  show Function.update (Gen.V1 m c) main_v14 (W2 m c main_v14) = W2 m c
  rw [W2_out]; rfl
theorem V3_eq (c : Dev nD) : Gen.V3 m (outs m) c = W3 m c := by
  show Function.update (Gen.V2 m (outs m) c) main_v15 (W3 m c main_v15) = W3 m c
  rw [V2_eq, W3_out]; rfl
theorem V4_eq (c : Dev nD) : Gen.V4 m (outs m) c = W4 m c := by
  show StableHlo.after hostOps2 (Gen.V3 m (outs m) c) = W4 m c
  rw [V3_eq]; rfl
theorem V5_eq (c : Dev nD) : Gen.V5 m (outs m) c = W5 m c := by
  show Function.update (Gen.V4 m (outs m) c) main_v18 (W5 m c main_v18) = W5 m c
  rw [V4_eq, W5_out]; rfl
theorem V6_eq (c : Dev nD) : Gen.V6 m (outs m) c = W6 m c := by
  show Function.update (Gen.V5 m (outs m) c) main_v19 (W6 m c main_v19) = W6 m c
  rw [V5_eq, W6_out]; rfl

/-! ## The proof data family and the thread state -/

/-- Every pipeline's proof data, each at its region's entry contents — a literal match, so that the family at a numeral
    reduces to that region's data. -/
def pdats : (p : Fin 4) → (c : Dev nD) → Dat τ (Elt F) Unit ℕ (UR sig nD τ) ℕ (Pipeline.pin (pcfgs (F := F)) adm p) c
  | ⟨0, _⟩ => fun c => Lse0.dat (rd (W1 m)) c
  | ⟨1, _⟩ => fun c => Lse1.dat (rd (W2 m)) c
  | ⟨2, _⟩ => fun c => Comb2.dat (rd (W4 m)) c
  | ⟨3, _⟩ => fun c => Comb3.dat (rd (W5 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core owing nothing. -/
abbrev Rr (c : Dev nD) : sProp 𝕄 := iprop(∃ W, owes (c : Thread nD τ) (0 : CellTallies nD τ sig Unit) W)

-- `iapply` of a library lemma stated over the pinned configuration unifies with the printed one only when unification may
-- unfold plain definitions in a metavariable's type
set_option backward.isDefEq.respectTransparency.types false in
/-- REGION 0 over the thread state: entered from every unscoped buffer at `W1`, left at `W2`. Its arrays are
    split out of the unscoped buffers and put back at the exit contents; the call's scoped rest goes into the invariant and
    comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Lse0.body_obligation (rd (W1 m)) c).loose
  hwaits := Pipeline.hwaits_of_owed_zero _ _ _ _ L lv 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X _ := BI.emp
  Y _ := BI.emp
  Z c := Pipeline.unscopedRest (Ix := Unit) (Name := ℕ) (U := UR sig nD τ) (Lvl := ℕ) spec0 c (rd (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (W1 m) c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = _ from Lse0.Phi_first (rd (W1 m)) c]
    iintro ⟨-, -, Hr⟩
    iexact Hr
  hout c := by
    rw [Pipeline.ownSems0_none, show (pdats m 0 c).Φ (Fin.last _) = (Lse0.dat (rd (W1 m)) c).Φ (Fin.last cfg0.N) from rfl]
    iintro H
    isplitr; · iempintro
    isplitr; · iempintro
    iapply (Lse0.Phi_last (rd (W1 m)) c)
    iexact H
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (W1 m) c) (rd (W2 m) c) ((pdats m 0 c).arrAt · cfg0.N)
      (fun w => by
        fin_cases w
        · exact ((pdats m 0 c).arrAt_in 0 rfl _).trans (((Lse0.A_eq (rd (W1 m)) c 0)).trans (W2_of_ne m c main_v12 (by decide)).symm)
        · exact ((pdats m 0 c).arrAt_in 1 rfl _).trans (((Lse0.A_eq (rd (W1 m)) c 1)).trans (W2_of_ne m c main_v13 (by decide)).symm)
        · exact (W2_out m c).symm)
      (fun b hb => W2_of_ne m c b fun h => hb (h ▸ Finset.mem_image.mpr ⟨2, Finset.mem_univ _, rfl⟩))
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

-- `iapply` of a library lemma stated over the pinned configuration unifies with the printed one only when unification may
-- unfold plain definitions in a metavariable's type
set_option backward.isDefEq.respectTransparency.types false in
/-- REGION 1 over the thread state: entered from every unscoped buffer at `W2`, left at `W3`. Its arrays are
    split out of the unscoped buffers and put back at the exit contents; the call's scoped rest goes into the invariant and
    comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Lse1.body_obligation (rd (W2 m)) c).loose
  hwaits := Pipeline.hwaits_of_owed_zero _ _ _ _ L lv 1 fun _ _ => rfl
  pre c := iprop(StableHlo.held (c : Thread nD τ) (Pipeline.ucRefs τ sig) (W2 m c) ∗ Rr c)
  post c := iprop(StableHlo.held (c : Thread nD τ) (Pipeline.ucRefs τ sig) (W3 m c) ∗ Rr c)
  X _ := BI.emp
  Y _ := BI.emp
  Z c := Pipeline.unscopedRest (Ix := Unit) (Name := ℕ) (U := UR sig nD τ) (Lvl := ℕ) spec1 c (rd (W2 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (W2 m) c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = _ from Lse1.Phi_first (rd (W2 m)) c]
    iintro ⟨-, -, Hr⟩
    iexact Hr
  hout c := by
    rw [Pipeline.ownSems0_none, show (pdats m 1 c).Φ (Fin.last _) = (Lse1.dat (rd (W2 m)) c).Φ (Fin.last cfg1.N) from rfl]
    iintro H
    isplitr; · iempintro
    isplitr; · iempintro
    iapply (Lse1.Phi_last (rd (W2 m)) c)
    iexact H
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (W2 m) c) (rd (W3 m) c) ((pdats m 1 c).arrAt · cfg1.N)
      (fun w => by
        fin_cases w
        · exact ((pdats m 1 c).arrAt_in 0 rfl _).trans (((Lse1.A_eq (rd (W2 m)) c 0)).trans (W3_of_ne m c main_v13 (by decide)).symm)
        · exact ((pdats m 1 c).arrAt_in 1 rfl _).trans (((Lse1.A_eq (rd (W2 m)) c 1)).trans (W3_of_ne m c main_v12 (by decide)).symm)
        · exact (W3_out m c).symm)
      (fun b hb => W3_of_ne m c b fun h => hb (h ▸ Finset.mem_image.mpr ⟨2, Finset.mem_univ _, rfl⟩))
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

-- `iapply` of a library lemma stated over the pinned configuration unifies with the printed one only when unification may
-- unfold plain definitions in a metavariable's type
set_option backward.isDefEq.respectTransparency.types false in
/-- REGION 2 over the thread state: entered from every unscoped buffer at `W4`, left at `W5`. Its arrays are
    split out of the unscoped buffers and put back at the exit contents; the call's scoped rest goes into the invariant and
    comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Comb2.body_obligation (rd (W4 m)) c).loose
  hwaits := Pipeline.hwaits_of_owed_zero _ _ _ _ L lv 2 fun _ _ => rfl
  pre c := iprop(StableHlo.held (c : Thread nD τ) (Pipeline.ucRefs τ sig) (W4 m c) ∗ Rr c)
  post c := iprop(StableHlo.held (c : Thread nD τ) (Pipeline.ucRefs τ sig) (W5 m c) ∗ Rr c)
  X _ := BI.emp
  Y _ := BI.emp
  Z c := Pipeline.unscopedRest (Ix := Unit) (Name := ℕ) (U := UR sig nD τ) (Lvl := ℕ) spec2 c (rd (W4 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (W4 m) c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 2 c).Φ 0 = _ from Comb2.Phi_first (rd (W4 m)) c]
    iintro ⟨-, -, Hr⟩
    iexact Hr
  hout c := by
    rw [Pipeline.ownSems0_none, show (pdats m 2 c).Φ (Fin.last _) = (Comb2.dat (rd (W4 m)) c).Φ (Fin.last cfg2.N) from rfl]
    iintro H
    isplitr; · iempintro
    isplitr; · iempintro
    iapply (Comb2.Phi_last (rd (W4 m)) c)
    iexact H
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (W4 m) c) (rd (W5 m) c) ((pdats m 2 c).arrAt · cfg2.N)
      (fun w => by
        fin_cases w
        · exact ((pdats m 2 c).arrAt_in 0 rfl _).trans (((Comb2.A_eq (rd (W4 m)) c 0)).trans (W5_of_ne m c main_v12 (by decide)).symm)
        · exact ((pdats m 2 c).arrAt_in 1 rfl _).trans (((Comb2.A_eq (rd (W4 m)) c 1)).trans (W5_of_ne m c main_v13 (by decide)).symm)
        · exact ((pdats m 2 c).arrAt_in 2 rfl _).trans (((Comb2.A_eq (rd (W4 m)) c 2)).trans (W5_of_ne m c main_v17 (by decide)).symm)
        · exact ((pdats m 2 c).arrAt_in 3 rfl _).trans (((Comb2.A_eq (rd (W4 m)) c 3)).trans (W5_of_ne m c main_v9 (by decide)).symm)
        · exact (W5_out m c).symm)
      (fun b hb => W5_of_ne m c b fun h => hb (h ▸ Finset.mem_image.mpr ⟨4, Finset.mem_univ _, rfl⟩))
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

-- `iapply` of a library lemma stated over the pinned configuration unifies with the printed one only when unification may
-- unfold plain definitions in a metavariable's type
set_option backward.isDefEq.respectTransparency.types false in
/-- REGION 3 over the thread state: entered from every unscoped buffer at `W5`, left at `W6`. Its arrays are
    split out of the unscoped buffers and put back at the exit contents; the call's scoped rest goes into the invariant and
    comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Comb3.body_obligation (rd (W5 m)) c).loose
  hwaits := Pipeline.hwaits_of_owed_zero _ _ _ _ L lv 3 fun _ _ => rfl
  pre c := iprop(StableHlo.held (c : Thread nD τ) (Pipeline.ucRefs τ sig) (W5 m c) ∗ Rr c)
  post c := iprop(StableHlo.held (c : Thread nD τ) (Pipeline.ucRefs τ sig) (W6 m c) ∗ Rr c)
  X _ := BI.emp
  Y _ := BI.emp
  Z c := Pipeline.unscopedRest (Ix := Unit) (Name := ℕ) (U := UR sig nD τ) (Lvl := ℕ) spec3 c (rd (W5 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (rd (W5 m) c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 3 c).Φ 0 = _ from Comb3.Phi_first (rd (W5 m)) c]
    iintro ⟨-, -, Hr⟩
    iexact Hr
  hout c := by
    rw [Pipeline.ownSems0_none, show (pdats m 3 c).Φ (Fin.last _) = (Comb3.dat (rd (W5 m)) c).Φ (Fin.last cfg3.N) from rfl]
    iintro H
    isplitr; · iempintro
    isplitr; · iempintro
    iapply (Comb3.Phi_last (rd (W5 m)) c)
    iexact H
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (rd (W5 m) c) (rd (W6 m) c) ((pdats m 3 c).arrAt · cfg3.N)
      (fun w => by
        fin_cases w
        · exact ((pdats m 3 c).arrAt_in 0 rfl _).trans (((Comb3.A_eq (rd (W5 m)) c 0)).trans (W6_of_ne m c main_v13 (by decide)).symm)
        · exact ((pdats m 3 c).arrAt_in 1 rfl _).trans (((Comb3.A_eq (rd (W5 m)) c 1)).trans (W6_of_ne m c main_v12 (by decide)).symm)
        · exact ((pdats m 3 c).arrAt_in 2 rfl _).trans (((Comb3.A_eq (rd (W5 m)) c 2)).trans (W6_of_ne m c main_v16 (by decide)).symm)
        · exact ((pdats m 3 c).arrAt_in 3 rfl _).trans (((Comb3.A_eq (rd (W5 m)) c 3)).trans (W6_of_ne m c main_v11 (by decide)).symm)
        · exact (W6_out m c).symm)
      (fun b hb => W6_of_ne m c b fun h => hb (h ▸ Finset.mem_image.mpr ⟨4, Finset.mem_univ _, rfl⟩))
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Kernel.Hand

end
-- ==== Proof.KbKiRun.lean ====
import proofs.«154747_j1580547971631_2_alg».proof.Proof.Gen.Kernel.Launch
import proofs.«154747_j1580547971631_2_alg».proof.Proof.Gen.Kernel.Skeleton
import proofs.«154747_j1580547971631_2_alg».proof.Proof.Gen.Kernel.Points
import proofs.«154747_j1580547971631_2_alg».proof.Proof.KbKiRegions
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel program's run, its frame and its results

The four regions' records chained through the thread states give the run of @main with every unscoped buffer at the last
valuation. Read at the two arguments, which no item changes, that is the frame; read at the two result arrays it is
what the two combine regions left. -/

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
set_option maxHeartbeats 1000000 in
/-- Every weakly fair execution of @main from memory `m` with zero counters terminates, nothing faulting, and in every
    final memory every unscoped buffer holds what the last valuation gives it. -/
theorem run_all : θ_run defs (onTc (τ := τ) (main (F := F))) ⟨m, fun _ => 0, ρ⟩
    (fun r => ∀ c : Dev nD, ∀ b ∈ Pipeline.ucRefs τ sig, r.2.mem ((c : Thread nD τ).1, b) = W6 m c b) := by
  have h0 : θ_run defs (onTc (τ := τ) (main (F := F))) ⟨m, fun _ => 0, ρ⟩
      (fun r => ∀ c : Dev nD, ∀ b ∈ Pipeline.ucRefs τ sig, r.2.mem ((c : Thread nD τ).1, b) = Gen.V6 m (outs m) c b) :=
    Gen.run_cond m (EP := emb₁) (ι := ()) (𝒱₀ := 𝒱₀) (L := L) (lv := lv) (hL := fun _ _ => rfl) (ρ := ρ) (outs := outs m) (pdats := pdats m)
      (O₀ := 0) (G := fun _ => iprop(emp))
      (u₀ := initOf (Pipeline.cells cfgs cellOf_inj) (Pipeline.launchToks cfgs cellOf_inj))
      (hu₀ := by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (E := fun _ c => Rr c)
      (hE0 := by
        refine Pipeline.initEach L lv fun c => ?_
        iintro ⟨⟨-, HO, -, -, -⟩, -⟩
        imodintro
        iexists ∅; iexact HO)
      (hE4 := fun c => .rfl)
      (R0 := reg0 m) (hpre0 := fun c => .rfl) (hpost0 := fun c => by rw [V2_eq]; exact .rfl)
      (R1 := reg1 m) (hpre1 := fun c => by rw [V2_eq]; exact .rfl) (hpost1 := fun c => by rw [V3_eq]; exact .rfl)
      (R2 := reg2 m) (hpre2 := fun c => by rw [V4_eq]; exact .rfl) (hpost2 := fun c => by rw [V5_eq]; exact .rfl)
      (R3 := reg3 m) (hpre3 := fun c => by rw [V5_eq]; exact .rfl) (hpost3 := fun c => by rw [V6_eq]; exact .rfl)
  exact (θ_run defs _ _).mono (fun r h c b hb => (h c b hb).trans (congrFun (V6_eq m c) b)) h0

/-- No item changes an argument: the last valuation has it as launched. -/
theorem W6_arg0 (c : Dev nD) : W6 m c main_arg0 = m ((c : Thread nD τ).loc main_arg0) :=
  (congrFun (V6_eq m c) _).symm.trans (Gen.V6_main_arg0 m (outs m) c)
theorem W6_arg1 (c : Dev nD) : W6 m c main_arg1 = m ((c : Thread nD τ).loc main_arg1) :=
  (congrFun (V6_eq m c) _).symm.trans (Gen.V6_main_arg1 m (outs m) c)
/-- The two result arrays at the end: what the two combine regions left. -/
theorem W6_v19 (c : Dev nD) : W6 m c main_v19 = arr3 m c := W6_out m c
theorem W6_v18 (c : Dev nD) : W6 m c main_v18 = arr2 m c := (W6_of_ne m c main_v18 (by decide)).trans (W5_out m c)

/-- THE FRAME, at any float instance: the program runs to the end and its two arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W6_arg0 m c), (h c _ (mem_uc main_arg1 (by decide))).trans (W6_arg1 m c)⟩) (run_all m ρ)

/-- THE RESULTS: the run with both result arrays named and the arguments unchanged. -/
theorem run_results : θ_run defs (onTc (τ := τ) (main (F := F))) ⟨m, fun _ => 0, ρ⟩ (fun r => ∀ c : Dev nD,
      r.2.mem ((c.tc : Thread nD τ).loc main_v19) = arr3 m c
      ∧ r.2.mem ((c.tc : Thread nD τ).loc main_v18) = arr2 m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v19 (by decide))).trans (W6_v19 m c), (h c _ (mem_uc main_v18 (by decide))).trans (W6_v18 m c),
     (h c _ (mem_uc main_arg0 (by decide))).trans (W6_arg0 m c), (h c _ (mem_uc main_arg1 (by decide))).trans (W6_arg1 m c)⟩) (run_all m ρ)

/-- info: 'Cert.Kernel.Hand.frame' depends on axioms: [propext, Classical.choice, Quot.sound] -/
#guard_msgs in #print axioms frame

end Cert.Kernel.Hand

end
-- ==== Proof.Spec.lean ====
/-
  The two results as functions of the two input matrices, over the reals.

  Each input row is divided by its Euclidean norm. The score of a row `i` of the first matrix against a row `j` of the
  second is the inner product of the two normalised rows. The first result corrects each normalised row `j` of the second
  matrix by the average of the first matrix's normalised rows weighted by the soft-max of the scores ALONG `j` (each row
  `i` of the score matrix normalised over its columns); the second result corrects each normalised row `i` of the first
  matrix by the average of the second matrix's normalised rows weighted by the soft-max of the scores ALONG `i` (each
  column `j` normalised over its rows).
-/
import Mathlib.Analysis.SpecialFunctions.Exp
import Mathlib.Analysis.SpecialFunctions.Sqrt
import Mathlib.Algebra.BigOperators.Fin

noncomputable section

namespace Cert.Spec

open Finset

variable {N M D : ℕ}

/-- Row `i` of `x` divided by its Euclidean norm. -/
def nrm (x : Fin N → Fin D → ℝ) (i : Fin N) (k : Fin D) : ℝ := x i k / Real.sqrt (∑ k', x i k' * x i k')

/-- The score of row `i` of `x` against row `j` of `y`: the inner product of the normalised rows. -/
def score (x : Fin N → Fin D → ℝ) (y : Fin M → Fin D → ℝ) (i : Fin N) (j : Fin M) : ℝ := ∑ k, nrm x i k * nrm y j k

/-- The soft-max of the scores over the SECOND index: row `i` normalised over its columns. -/
def smRow (x : Fin N → Fin D → ℝ) (y : Fin M → Fin D → ℝ) (i : Fin N) (j : Fin M) : ℝ :=
  Real.exp (score x y i j) / ∑ j', Real.exp (score x y i j')

/-- The soft-max of the scores over the FIRST index: column `j` normalised over its rows. -/
def smCol (x : Fin N → Fin D → ℝ) (y : Fin M → Fin D → ℝ) (i : Fin N) (j : Fin M) : ℝ :=
  Real.exp (score x y i j) / ∑ i', Real.exp (score x y i' j)

/-- The first result: normalised row `j` of `y` minus the row-soft-max-weighted average of `x`'s normalised rows. -/
def outLR (x : Fin N → Fin D → ℝ) (y : Fin M → Fin D → ℝ) (j : Fin M) (k : Fin D) : ℝ :=
  nrm y j k - ∑ i, smRow x y i j * nrm x i k

/-- The second result: normalised row `i` of `x` minus the column-soft-max-weighted average of `y`'s normalised rows. -/
def outRL (x : Fin N → Fin D → ℝ) (y : Fin M → Fin D → ℝ) (i : Fin N) (k : Fin D) : ℝ :=
  nrm x i k - ∑ j, smCol x y i j * nrm y j k

end Cert.Spec

end
-- ==== Proof.SpecEmbed.lean ====
/-
  A real matrix as the contents of an array of extended reals: entry `(a, b)` of the array is the coercion of entry
  `(a, b)` of the matrix. The two programs' results are stated as such arrays of the specification's functions.
-/
import Idealize.ShloMosaic.Lib.ValueIdx
import proofs.«154747_j1580547971631_2_alg».proof.Proof.Spec

noncomputable section

namespace Cert.Spec

open Idealize.ShloMosaic Idealize.ShloMosaic.ValueIdx

/-- The array of extended reals holding the real matrix `f`. -/
def embed {n0 n1 : ℕ} (f : Fin n0 → Fin n1 → ℝ) : (⟨2, ![n0, n1]⟩ : Shape).Idx → EReal :=
  fun j => ((f (j 0) (j 1) : ℝ) : EReal)

/-- Its entry at the index with coordinates `a`, `b`. -/
theorem embed_ix2 {n0 n1 : ℕ} (f : Fin n0 → Fin n1 → ℝ) (a : Fin n0) (b : Fin n1) :
    embed f (ix2 a b) = ((f a b : ℝ) : EReal) := rfl

/-- Two real matrices held by the same array are equal. -/
theorem embed_injective {n0 n1 : ℕ} : Function.Injective (embed (n0 := n0) (n1 := n1)) := by
  intro f g h
  funext a b
  have := congrFun h (ix2 a b)
  rw [embed_ix2, embed_ix2] at this
  exact EReal.coe_injective this

end Cert.Spec

end
-- ==== Proof.LibHostRows.lean ====
/-
  The reference's array operations read at an index, over arrays of extended reals of any two extents.

  A `broadcast_in_dim` of a column, of a row, of a vector to a column or to a row, and of a scalar; a transpose of a
  matrix; a sum and a maximum along a row and along a column; a product of two matrices: each read at an index with
  named coordinates is the operand at the index it names, the sum (the fold of the maximum) over the reduced
  coordinate, the sum of the products over the contracted coordinate.
-/
import Idealize.ShloMosaic.Lib.ValueIdx
import Idealize.ShloMosaic.Lib.Pipeline.Value
import Idealize.ShloMosaic.PureOps.Ideal.Laws
import Idealize.ShloMosaic.PureOps.Reduce

noncomputable section

namespace Cert.Lib.HostRows

open Idealize.ShloMosaic Idealize.ShloMosaic.ValueIdx
open scoped BigOperators

variable {α : Type} {n0 n1 : ℕ}

/-! ## Broadcasts -/

/-- An [n0, 1] column stretched along the rows of an [n0, n1] array reads its row's entry. -/
theorem bcast_col (h : (⟨2, ![n0, 1]⟩ : Shape).BroadcastsInDim ⟨2, ![n0, n1]⟩ (![0, 1] : Fin 2 → Fin 2))
    (N : (⟨2, ![n0, 1]⟩ : Shape).Idx → α) (a : Fin n0) (b : Fin n1) :
    broadcastInDim ⟨2, ![n0, n1]⟩ (![0, 1] : Fin 2 → Fin 2) h N (ix2 a b) = N (ix2 a 0) := by
  refine broadcastInDim_apply _ h N _ _ fun d => ?_
  fin_cases d
  · show (a : ℕ) = if n0 = 1 then 0 else (a : ℕ)
    split_ifs with h1
    · subst h1; exact Nat.lt_one_iff.mp a.isLt
    · rfl
  · rfl

/-- A [1, n1] row stretched along the columns of an [n0, n1] array reads its column's entry. -/
theorem bcast_row (h : (⟨2, ![1, n1]⟩ : Shape).BroadcastsInDim ⟨2, ![n0, n1]⟩ (![0, 1] : Fin 2 → Fin 2))
    (N : (⟨2, ![1, n1]⟩ : Shape).Idx → α) (a : Fin n0) (b : Fin n1) :
    broadcastInDim ⟨2, ![n0, n1]⟩ (![0, 1] : Fin 2 → Fin 2) h N (ix2 a b) = N (ix2 0 b) := by
  refine broadcastInDim_apply _ h N _ _ fun d => ?_
  fin_cases d
  · rfl
  · show (b : ℕ) = if n1 = 1 then 0 else (b : ℕ)
    split_ifs with h1
    · subst h1; exact Nat.lt_one_iff.mp b.isLt
    · rfl

/-- A vector of `n0` entries as an [n0, 1] column. -/
theorem bcast_vec_col (h : (⟨1, ![n0]⟩ : Shape).BroadcastsInDim ⟨2, ![n0, 1]⟩ (![0] : Fin 1 → Fin 2))
    (R : (⟨1, ![n0]⟩ : Shape).Idx → α) (a : Fin n0) (c : Fin 1) :
    broadcastInDim ⟨2, ![n0, 1]⟩ (![0] : Fin 1 → Fin 2) h R (ix2 a c) = R (ix1 a) := by
  refine broadcastInDim_apply _ h R _ _ fun d => ?_
  fin_cases d
  show (a : ℕ) = if n0 = 1 then 0 else (a : ℕ)
  split_ifs with h1
  · subst h1; exact Nat.lt_one_iff.mp a.isLt
  · rfl

/-- A vector of `n1` entries as a [1, n1] row. -/
theorem bcast_vec_row (h : (⟨1, ![n1]⟩ : Shape).BroadcastsInDim ⟨2, ![1, n1]⟩ (![1] : Fin 1 → Fin 2))
    (R : (⟨1, ![n1]⟩ : Shape).Idx → α) (c : Fin 1) (b : Fin n1) :
    broadcastInDim ⟨2, ![1, n1]⟩ (![1] : Fin 1 → Fin 2) h R (ix2 c b) = R (ix1 b) := by
  refine broadcastInDim_apply _ h R _ _ fun d => ?_
  fin_cases d
  show (b : ℕ) = if n1 = 1 then 0 else (b : ℕ)
  split_ifs with h1
  · subst h1; exact Nat.lt_one_iff.mp b.isLt
  · rfl

/-- A scalar stretched to a vector reads the scalar. -/
theorem bcast_scalar (h : (⟨0, ![]⟩ : Shape).BroadcastsInDim ⟨1, ![n0]⟩ (![] : Fin 0 → Fin 1))
    (c : (⟨0, ![]⟩ : Shape).Idx → α) (a : Fin n0) :
    broadcastInDim ⟨1, ![n0]⟩ (![] : Fin 0 → Fin 1) h c (ix1 a) = c ix0 :=
  broadcastInDim_apply _ h c _ _ fun d => d.elim0

/-! ## Transpose -/

/-- The transpose of an [n0, n1] array read at (b, a) is the array at (a, b). -/
theorem transpose_swap (h : (⟨2, ![n0, n1]⟩ : Shape).Transposes ([1, 0] : List (Fin 2)) ⟨2, ![n1, n0]⟩)
    (Q : (⟨2, ![n0, n1]⟩ : Shape).Idx → α) (a : Fin n0) (b : Fin n1) :
    transpose ⟨2, ![n1, n0]⟩ ([1, 0] : List (Fin 2)) Q h (ix2 b a) = Q (ix2 a b) := by
  refine transpose_apply _ Q h _ _ fun d => ?_
  fin_cases d <;> rfl

/-! ## Reductions -/

/-- The index over the vector index `a` with the coordinate `k` inserted on the second axis. -/
theorem lift_axis1 (h : (⟨2, ![n0, n1]⟩ : Shape).Reduces ([1] : List (Fin 2)) ⟨1, ![n0]⟩) (a : Fin n0) (k : Fin n1) :
    h.lift (ix1 a) k = ix2 a k := by
  funext c
  refine Fin.ext ?_
  fin_cases c <;> rfl

/-- The index over the vector index `b` with the coordinate `k` inserted on the first axis. -/
theorem lift_axis0 (h : (⟨2, ![n0, n1]⟩ : Shape).Reduces ([0] : List (Fin 2)) ⟨1, ![n1]⟩) (b : Fin n1) (k : Fin n0) :
    h.lift (ix1 b) k = ix2 k b := by
  funext c
  refine Fin.ext ?_
  fin_cases c <;> rfl

/-- The host's sum along each row: the initial value plus the sum of the row's entries. -/
theorem hostReduceAdd_rows (h' : (⟨2, ![n0, n1]⟩ : Shape).ReducesTo ([1] : List (Fin 2)) ⟨1, ![n0]⟩)
    (h : (⟨2, ![n0, n1]⟩ : Shape).Reduces ([1] : List (Fin 2)) ⟨1, ![n0]⟩)
    (X : (⟨2, ![n0, n1]⟩ : Shape).Idx → EReal) (init : EReal) (a : Fin n0) :
    Ideal.hostReduceAdd h' X init (ix1 a) = init + ∑ k : Fin n1, X (ix2 a k) := by
  rw [Ideal.hostReduceAdd_single h' h]
  exact congrArg (init + ·) (Finset.sum_congr rfl fun k _ => congrArg X (lift_axis1 h a k))

/-- The host's sum along each column: the initial value plus the sum of the column's entries. -/
theorem hostReduceAdd_cols (h' : (⟨2, ![n0, n1]⟩ : Shape).ReducesTo ([0] : List (Fin 2)) ⟨1, ![n1]⟩)
    (h : (⟨2, ![n0, n1]⟩ : Shape).Reduces ([0] : List (Fin 2)) ⟨1, ![n1]⟩)
    (X : (⟨2, ![n0, n1]⟩ : Shape).Idx → EReal) (init : EReal) (b : Fin n1) :
    Ideal.hostReduceAdd h' X init (ix1 b) = init + ∑ k : Fin n0, X (ix2 k b) := by
  rw [Ideal.hostReduceAdd_single h' h]
  exact congrArg (init + ·) (Finset.sum_congr rfl fun k _ => congrArg X (lift_axis0 h b k))

/-- The host's `reduce` with an add body along each row, as a program writes it: the scalar initial value's one entry
    plus the sum of the row's entries. -/
theorem hostReduceAdd_rows_apply {u : Shape} (h' : (⟨2, ![n0, n1]⟩ : Shape).ReducesTo ([1] : List (Fin 2)) ⟨1, ![n0]⟩)
    (hu : 0 < u.numel) (X : (⟨2, ![n0, n1]⟩ : Shape).Idx → EReal) (init : u.Idx → EReal) (a : Fin n0) :
    Host.reduceAdd (F := Ideal) (φ := .f32) X init h' hu (ix1 a)
      = init (Shape.Idx.first hu) + ∑ k : Fin n1, X (ix2 a k) :=
  hostReduceAdd_rows h' ⟨h'.1, Nat.one_pos, h'.2⟩ X _ a

/-- The same along each column. -/
theorem hostReduceAdd_cols_apply {u : Shape} (h' : (⟨2, ![n0, n1]⟩ : Shape).ReducesTo ([0] : List (Fin 2)) ⟨1, ![n1]⟩)
    (hu : 0 < u.numel) (X : (⟨2, ![n0, n1]⟩ : Shape).Idx → EReal) (init : u.Idx → EReal) (b : Fin n1) :
    Host.reduceAdd (F := Ideal) (φ := .f32) X init h' hu (ix1 b)
      = init (Shape.Idx.first hu) + ∑ k : Fin n0, X (ix2 k b) :=
  hostReduceAdd_cols h' ⟨h'.1, Nat.one_pos, h'.2⟩ X _ b

/-- The f32 zero constant, of any shape, is `0` at every index. -/
theorem constant_zero_apply {s : Shape} (i : s.Idx) : constant (F := Ideal) s .f32 0x00000000#32 i = 0 :=
  Ideal.ofBits_zero_f32

/-- The host's maximum along each row: the fold of the maximum from the initial value over the row's entries. -/
theorem hostReduceMax_rows {u : Shape} (h' : (⟨2, ![n0, n1]⟩ : Shape).ReducesTo ([1] : List (Fin 2)) ⟨1, ![n0]⟩)
    (h : (⟨2, ![n0, n1]⟩ : Shape).Reduces ([1] : List (Fin 2)) ⟨1, ![n0]⟩) (hu : 0 < u.numel)
    (X : (⟨2, ![n0, n1]⟩ : Shape).Idx → EReal) (init : u.Idx → EReal) (a : Fin n0) :
    Host.reduce (FloatOps.maximumf (F := Ideal) (φ := .f32)) X init h' hu (ix1 a)
      = (Finset.univ : Finset (Fin n1)).fold max (init (Shape.Idx.first hu)) fun k => X (ix2 a k) := by
  rw [Host.reduce_eq_fold_single (FloatOps.maximumf (F := Ideal) (φ := .f32)) X init h' h hu]
  refine Finset.fold_congr fun k _ => ?_
  exact congrArg X (lift_axis1 h a k)

/-- The host's maximum along each column. -/
theorem hostReduceMax_cols {u : Shape} (h' : (⟨2, ![n0, n1]⟩ : Shape).ReducesTo ([0] : List (Fin 2)) ⟨1, ![n1]⟩)
    (h : (⟨2, ![n0, n1]⟩ : Shape).Reduces ([0] : List (Fin 2)) ⟨1, ![n1]⟩) (hu : 0 < u.numel)
    (X : (⟨2, ![n0, n1]⟩ : Shape).Idx → EReal) (init : u.Idx → EReal) (b : Fin n1) :
    Host.reduce (FloatOps.maximumf (F := Ideal) (φ := .f32)) X init h' hu (ix1 b)
      = (Finset.univ : Finset (Fin n0)).fold max (init (Shape.Idx.first hu)) fun k => X (ix2 k b) := by
  rw [Host.reduce_eq_fold_single (FloatOps.maximumf (F := Ideal) (φ := .f32)) X init h' h hu]
  refine Finset.fold_congr fun k _ => ?_
  exact congrArg X (lift_axis0 h b k)

/-! ## A product with one contracted axis -/

/-- The host's product read at an index: the sum over the contracted coordinate of the products of the two operands'
    entries, whatever those are known to be (`hl`, `hr`) at the operand indices of that coordinate. -/
theorem dotGeneral_read {sl sr so : Shape} (d : DotDims sl sr so) (K : ℕ) (hrk : d.contr.rank = 1)
    (hs : d.contr.size ⟨0, by omega⟩ = K) (P : FVec Ideal sl .f32) (Q : FVec Ideal sr .f32) (j : so.Idx)
    (L R : Fin K → EReal)
    (hl : ∀ k, P (d.lhsIdx j ((contrEquiv1 d K hrk hs).symm k)) = L k)
    (hr : ∀ k, Q (d.rhsIdx j ((contrEquiv1 d K hrk hs).symm k)) = R k) :
    FloatOps.dotGeneral d none .single P Q j = ∑ k : Fin K, L k * R k := by
  rw [Ideal.dotGeneral_apply, ← Equiv.sum_comp (contrEquiv1 d K hrk hs).symm]
  exact Finset.sum_congr rfl fun k _ => by rw [hl, hr]

end Cert.Lib.HostRows

end
-- ==== Proof.LibNormalise.lean ====
/-
  Normalisation by the root of a sum of squares, at the extended reals.

  A kernel scales a row by the reciprocal square root of its sum of squares,
  `y * rsqrt s`; a reference divides by the square root, `y / sqrt s`. On the
  extended reals (`Ideal.rsqrt`, `Ideal.sqrt`, `Ideal.div`) both are the coercion
  of the real quotient `y / √s` as soon as `s` is a positive real. At `s = 0`
  the two still agree for `y ≠ 0` (both are the infinity of `y`'s sign) and differ
  at `y = 0`: `0 * rsqrt 0 = 0 * ⊤ = 0` while `Ideal.div 0 (sqrt 0) = ⊥`
  (`zero_mul_rsqrt_zero`, `div_zero_sqrt_zero`) — the case of a row that is all
  zeros, whose sum of squares is `0`; hence the hypothesis `0 < s`.
-/
import Mathlib.Analysis.SpecialFunctions.Pow.Real
import Mathlib.Algebra.BigOperators.Group.Finset.Basic
import Idealize.ShloMosaic.PureOps.Ideal

noncomputable section

open Idealize.ShloMosaic
open scoped BigOperators

namespace Cert.Lib.Normalise

/-- The reciprocal square root of a positive real is the coercion of `(√s)⁻¹`. -/
theorem rsqrt_coe_pos {s : ℝ} (hs : 0 < s) :
    Ideal.rsqrt (s : EReal) = (((Real.sqrt s)⁻¹ : ℝ) : EReal) := by
  rw [Ideal.rsqrt_coe, if_neg (not_lt.mpr hs.le), if_neg hs.ne']

/-- The square root of a nonnegative real is the coercion of `√s`. -/
theorem sqrt_coe_nonneg {s : ℝ} (hs : 0 ≤ s) :
    Ideal.sqrt (s : EReal) = ((Real.sqrt s : ℝ) : EReal) := by
  rw [Ideal.sqrt_coe, if_neg (not_lt.mpr hs)]

/-- `y * rsqrt s` is the coercion of the real `y / √s`, for real `y` and real `s > 0`. -/
theorem mul_rsqrt_eq_coe (y : ℝ) {s : ℝ} (hs : 0 < s) :
    (y : EReal) * Ideal.rsqrt (s : EReal) = ((y / Real.sqrt s : ℝ) : EReal) := by
  rw [rsqrt_coe_pos hs, ← EReal.coe_mul, div_eq_mul_inv]

/-- `y / sqrt s` (the extended-real quotient `Ideal.div`) is the coercion of the real
    `y / √s`, for real `y` and real `s > 0`. -/
theorem div_sqrt_eq_coe (y : ℝ) {s : ℝ} (hs : 0 < s) :
    Ideal.div (y : EReal) (Ideal.sqrt (s : EReal)) = ((y / Real.sqrt s : ℝ) : EReal) := by
  rw [sqrt_coe_nonneg hs.le, Ideal.div_coe (Real.sqrt_pos.mpr hs).ne', ← EReal.coe_mul, one_div,
    div_eq_mul_inv]

/-- NORMALISATION: multiplying by the reciprocal square root is dividing by the square root,
    `y * rsqrt s = y / sqrt s` on the extended reals, for real `y` and real `s > 0`. -/
theorem mul_rsqrt_eq_div_sqrt (y : ℝ) {s : ℝ} (hs : 0 < s) :
    (y : EReal) * Ideal.rsqrt (s : EReal) = Ideal.div (y : EReal) (Ideal.sqrt (s : EReal)) := by
  rw [mul_rsqrt_eq_coe y hs, div_sqrt_eq_coe y hs]

/-- The same with the factors in the other order: `rsqrt s * y = y / sqrt s`. -/
theorem rsqrt_mul_eq_div_sqrt (y : ℝ) {s : ℝ} (hs : 0 < s) :
    Ideal.rsqrt (s : EReal) * (y : EReal) = Ideal.div (y : EReal) (Ideal.sqrt (s : EReal)) := by
  rw [mul_comm, mul_rsqrt_eq_div_sqrt y hs]

/-- The corner `y = 0`, `s = 0`, kernel side: `0 * rsqrt 0 = 0 * ⊤ = 0`. -/
theorem zero_mul_rsqrt_zero : ((0 : ℝ) : EReal) * Ideal.rsqrt ((0 : ℝ) : EReal) = 0 := by
  rw [EReal.coe_zero, zero_mul]

/-- The corner `y = 0`, `s = 0`, reference side: `0 / sqrt 0 = 0 / 0 = ⊥`. -/
theorem div_zero_sqrt_zero :
    Ideal.div ((0 : ℝ) : EReal) (Ideal.sqrt ((0 : ℝ) : EReal)) = ⊥ := by
  rw [sqrt_coe_nonneg le_rfl, Real.sqrt_zero, EReal.coe_zero, Ideal.div, if_pos rfl,
    if_neg (lt_irrefl _)]

/-- A finite sum of coerced reals is the coercion of the real sum. -/
theorem coe_finset_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The sum of squares of a row of coerced reals is the coercion of the real sum of squares. -/
theorem sum_sq_coe {ι : Type*} [Fintype ι] (x : ι → ℝ) :
    (∑ j, (x j : EReal) * (x j : EReal)) = ((∑ j, x j * x j : ℝ) : EReal) := by
  rw [← coe_finset_sum]
  exact Finset.sum_congr rfl fun j _ => (EReal.coe_mul _ _).symm

/-- A real row with a nonzero entry has a positive sum of squares. -/
theorem sum_sq_pos {ι : Type*} [Fintype ι] (x : ι → ℝ) {j₀ : ι} (h : x j₀ ≠ 0) :
    0 < ∑ j, x j * x j := by
  classical
  refine lt_of_lt_of_le (mul_self_pos.mpr h) ?_
  exact Finset.single_le_sum (f := fun j => x j * x j) (fun j _ => mul_self_nonneg (x j))
    (Finset.mem_univ j₀)

/-- ROW NORMALISATION: for a real row `x` whose sum of squares is positive, the kernel's
    `x i * rsqrt (∑ j, x j * x j)` and the reference's `x i / sqrt (∑ j, x j * x j)`, both
    computed on the extended reals, are the coercion of the real `x i / √(∑ j, x j ^ 2)`. -/
theorem row_mul_rsqrt_sum_sq {ι : Type*} [Fintype ι] (x : ι → ℝ) (hpos : 0 < ∑ j, x j * x j)
    (i : ι) :
    (x i : EReal) * Ideal.rsqrt (∑ j, (x j : EReal) * (x j : EReal))
      = ((x i / Real.sqrt (∑ j, x j * x j) : ℝ) : EReal) := by
  rw [sum_sq_coe, mul_rsqrt_eq_coe _ hpos]

theorem row_div_sqrt_sum_sq {ι : Type*} [Fintype ι] (x : ι → ℝ) (hpos : 0 < ∑ j, x j * x j)
    (i : ι) :
    Ideal.div (x i : EReal) (Ideal.sqrt (∑ j, (x j : EReal) * (x j : EReal)))
      = ((x i / Real.sqrt (∑ j, x j * x j) : ℝ) : EReal) := by
  rw [sum_sq_coe, div_sqrt_eq_coe _ hpos]

/-- The two row normalisations agree on the extended reals. -/
theorem row_mul_rsqrt_eq_div_sqrt {ι : Type*} [Fintype ι] (x : ι → ℝ)
    (hpos : 0 < ∑ j, x j * x j) (i : ι) :
    (x i : EReal) * Ideal.rsqrt (∑ j, (x j : EReal) * (x j : EReal))
      = Ideal.div (x i : EReal) (Ideal.sqrt (∑ j, (x j : EReal) * (x j : EReal))) := by
  rw [row_mul_rsqrt_sum_sq x hpos, row_div_sqrt_sum_sq x hpos]

end Cert.Lib.Normalise
-- ==== Proof.HostV.lean ====
/-
  The first stretch of host operations of the idealized kernel program, read as values.

  Each input is multiplied, row by row, by the reciprocal square root of the row's sum of squares; the product is kept
  both as it is and narrowed (a change of format, the identity on extended reals). When an input holds a real matrix whose
  rows have positive sums of squares, each of those four buffers holds the matrix with every row divided by its norm.
-/
import proofs.«154747_j1580547971631_2_alg».proof.Proof.Gen.KernelIdeal.Regions
import proofs.«154747_j1580547971631_2_alg».proof.Proof.SpecEmbed
import proofs.«154747_j1580547971631_2_alg».proof.Proof.LibHostRows
import proofs.«154747_j1580547971631_2_alg».proof.Proof.LibNormalise
import Idealize.ShloMosaic.Lib.StableHlo.Run

set_option maxRecDepth 16384

noncomputable section

namespace Cert.KernelIdeal.HostV

open Cert.KernelIdeal Cert.KernelIdeal.Gen Cert.Spec Cert.Lib.HostRows Cert.Lib.Normalise
open Idealize.ShloMosaic Idealize.ShloMosaic.TcCoe Idealize.ShloMosaic.ValueIdx Idealize.SL.Sem

/-- The host's normalisation of an array: each entry times the reciprocal square root of its row's sum of squares. -/
def nrmOp (a : FVec Ideal S8192x1024 .f32) : FVec Ideal S8192x1024 .f32 :=
  mulf a (broadcastInDim S8192x1024 ![0, 1] bcast_S8192x1_S8192x1024_0_1 (Host.rsqrt (broadcastInDim S8192x1 ![0] bcast_S8192_S8192x1_0
    (Host.reduceAdd (mulf a a) (constant S_ .f32 0#32) reducesTo_S8192x1024_S8192_d1 h_S_))))

/-- On a real matrix with positive row sums of squares it is the matrix with every row divided by its norm. -/
theorem nrmOp_embed (x : Fin 8192 → Fin 1024 → ℝ) (hpos : ∀ i, 0 < ∑ k, x i k * x i k) :
    nrmOp (embed x) = embed (nrm x) := by
  funext j
  obtain ⟨i, d, rfl⟩ : ∃ (i : Fin 8192) (d : Fin 1024), j = ix2 i d := ⟨j 0, j 1, eq_ix2 j⟩
  have hS : Host.reduceAdd (F := Ideal) (mulf (embed x) (embed x)) (constant S_ .f32 0#32) reducesTo_S8192x1024_S8192_d1 h_S_ (ix1 i)
      = (constant (F := Ideal) S_ .f32 0#32) (Shape.Idx.first h_S_) + ∑ k : Fin 1024, (mulf (embed x) (embed x)) (ix2 i k) :=
    hostReduceAdd_rows_apply _ h_S_ _ _ i
  have hC := bcast_vec_col bcast_S8192_S8192x1_0
    (Host.reduceAdd (F := Ideal) (mulf (embed x) (embed x)) (constant S_ .f32 0#32) reducesTo_S8192x1024_S8192_d1 h_S_) i 0
  have hB := bcast_col bcast_S8192x1_S8192x1024_0_1 (Host.rsqrt (broadcastInDim S8192x1 ![0] bcast_S8192_S8192x1_0
    (Host.reduceAdd (F := Ideal) (mulf (embed x) (embed x)) (constant S_ .f32 0#32) reducesTo_S8192x1024_S8192_d1 h_S_))) i d
  have hR : (broadcastInDim S8192x1024 ![0, 1] bcast_S8192x1_S8192x1024_0_1 (Host.rsqrt (broadcastInDim S8192x1 ![0] bcast_S8192_S8192x1_0
      (Host.reduceAdd (F := Ideal) (mulf (embed x) (embed x)) (constant S_ .f32 0#32) reducesTo_S8192x1024_S8192_d1 h_S_)))) (ix2 i d)
      = Ideal.rsqrt (∑ k : Fin 1024, ((x i k : ℝ) : EReal) * ((x i k : ℝ) : EReal)) :=
    hB.trans (congrArg Ideal.rsqrt (hC.trans (hS.trans (by rw [constant_zero_apply, zero_add]; rfl))))
  exact (congrArg (fun z => embed x (ix2 i d) * z) hR).trans (row_mul_rsqrt_sum_sq (x i) (hpos i) d)

variable (m : (ℓ : Loc nD τ sig) → Buf (Elt Ideal) ℓ)

/-- After the first host stretch the four normalised buffers are the normalisation of the launch contents. -/
theorem V1_v9 (c : Dev nD) : Gen.V1 m c main_v9 = nrmOp (m (c, Proc.devRef .tc main_arg0)) := by
  show StableHlo.after hostOps0 (fun b => m (c, b)) (Proc.devRef .tc main_v9) = _
  after_results
  rfl
theorem V1_v11 (c : Dev nD) : Gen.V1 m c main_v11 = nrmOp (m (c, Proc.devRef .tc main_arg1)) := by
  show StableHlo.after hostOps0 (fun b => m (c, b)) (Proc.devRef .tc main_v11) = _
  after_results
  rfl
theorem V1_v12 (c : Dev nD) : Gen.V1 m c main_v12 = truncf .bf16 (nrmOp (m (c, Proc.devRef .tc main_arg0))) bitsLt_bf16_f32 := by
  show StableHlo.after hostOps0 (fun b => m (c, b)) (Proc.devRef .tc main_v12) = _
  after_results
  rfl
theorem V1_v13 (c : Dev nD) : Gen.V1 m c main_v13 = truncf .bf16 (nrmOp (m (c, Proc.devRef .tc main_arg1))) bitsLt_bf16_f32 := by
  show StableHlo.after hostOps0 (fun b => m (c, b)) (Proc.devRef .tc main_v13) = _
  after_results
  rfl

end Cert.KernelIdeal.HostV

end
-- ==== Proof.HostV2.lean ====
/-
  The second stretch of host operations of the idealized kernel program, read as values: each of the two columns of row
  log-sum-exps, an [8192, 1] array, is re-laid as a [1, 8192] row. Entry `(0, j)` of the row is entry `(j, 0)` of the
  column: the two have the same row-major position.
-/
import proofs.«154747_j1580547971631_2_alg».proof.Proof.Gen.KernelIdeal.Regions
import proofs.«154747_j1580547971631_2_alg».proof.Proof.SpecEmbed
import Idealize.ShloMosaic.Lib.Pipeline.Value
import Idealize.ShloMosaic.Lib.StableHlo.Run

set_option maxRecDepth 16384

noncomputable section

namespace Cert.KernelIdeal.HostV

open Cert.KernelIdeal Cert.KernelIdeal.Gen Cert.Spec
open Idealize.ShloMosaic Idealize.ShloMosaic.TcCoe Idealize.ShloMosaic.ValueIdx Idealize.SL.Sem

/-- A column re-laid as a row holds the same numbers. -/
theorem reshape_embed (l : Fin 8192 → ℝ) :
    shapeCast S1x8192 (embed (fun (i : Fin 8192) (_ : Fin 1) => l i)) shapeCasts_S8192x1_S1x8192 = embed (fun (_ : Fin 1) (j : Fin 8192) => l j) := by
  funext idx
  obtain ⟨a, j, rfl⟩ : ∃ (a : Fin 1) (j : Fin 8192), idx = ix2 a j := ⟨idx 0, idx 1, eq_ix2 idx⟩
  refine (shapeCast_apply _ shapeCasts_S8192x1_S1x8192 (ix2 a j) (ix2 j (0 : Fin 1)) ?_).trans rfl
  rw [Shape.rowMajor_val_two, Shape.rowMajor_val_two]
  have ha : a.val = 0 := by omega
  show j.val * 1 + (0 : Fin 1).val = a.val * 8192 + j.val
  rw [ha]; simp

variable {F : FTy → Type} [FloatOps F]

/-- After the two reshapes each row buffer is its column re-laid; every other buffer is as before. -/
theorem after2_v16 (c : Dev nD) (W : Valuation τ sig (Elt F)) :
    StableHlo.after hostOps2 W (Proc.devRef .tc main_v16) = shapeCast S1x8192 (W (Proc.devRef .tc main_v14)) shapeCasts_S8192x1_S1x8192 := by
  after_results
  rfl
theorem after2_v17 (c : Dev nD) (W : Valuation τ sig (Elt F)) :
    StableHlo.after hostOps2 W (Proc.devRef .tc main_v17) = shapeCast S1x8192 (W (Proc.devRef .tc main_v15)) shapeCasts_S8192x1_S1x8192 := by
  after_results
  rfl
theorem after2_of (W : Valuation τ sig (Elt F)) (r : Ref sig .tc) (h : r ∉ hostOps2_W) : StableHlo.after hostOps2 W r = W r :=
  StableHlo.after_of_writes_sub hostOps2 _ hostOps2_writes h

end Cert.KernelIdeal.HostV

end
-- ==== Proof.SpecAlgebra.lean ====
/-
  The kernel's way of writing the two results is the specification's.

  The kernel weights a pair by the exponential of its score minus the logarithm of a sum of exponentials of scores; since
  that sum is positive, the weight is the exponential of the score divided by the sum: the soft-max entry. The kernel forms
  the column-wise sum with the two normalised rows' inner product written in the other order, which is the same number.
-/
import proofs.«154747_j1580547971631_2_alg».proof.Proof.Spec
import Mathlib.Analysis.SpecialFunctions.Log.Basic

noncomputable section

namespace Cert.Spec

open Finset

variable {N M D : ℕ}

theorem sum_exp_pos {K : ℕ} (hK : 0 < K) (f : Fin K → ℝ) : 0 < ∑ i, Real.exp (f i) := by
  haveI : Nonempty (Fin K) := ⟨⟨0, hK⟩⟩
  exact Finset.sum_pos (fun _ _ => Real.exp_pos _) Finset.univ_nonempty

/-- A weight `exp (s - log L)` with `L > 0` is `exp s / L`. -/
theorem exp_sub_log {s L : ℝ} (hL : 0 < L) : Real.exp (s - Real.log L) = Real.exp s / L := by
  rw [Real.exp_sub, Real.exp_log hL]

/-- The second result as the kernel forms it: weights from the COLUMN log-sum-exps, the inner products of the column pass
    written with the second matrix's row first. -/
theorem outRL_kernel (hN : 0 < N) (x : Fin N → Fin D → ℝ) (y : Fin M → Fin D → ℝ) (i : Fin N) (d : Fin D) :
    nrm x i d - ∑ j, Real.exp ((∑ e, nrm x i e * nrm y j e) - Real.log (∑ i', Real.exp (∑ e, nrm y j e * nrm x i' e))) * nrm y j d
      = outRL x y i d := by
  unfold outRL smCol score
  congr 1
  refine Finset.sum_congr rfl fun j _ => ?_
  have hsum : (∑ i', Real.exp (∑ e, nrm y j e * nrm x i' e)) = ∑ i', Real.exp (∑ e, nrm x i' e * nrm y j e) :=
    Finset.sum_congr rfl fun i' _ => congrArg Real.exp (Finset.sum_congr rfl fun e _ => mul_comm _ _)
  rw [hsum, exp_sub_log (sum_exp_pos hN _)]

/-- The first result as the kernel forms it: weights from the ROW log-sum-exps, the inner products written with the second
    matrix's row first. -/
theorem outLR_kernel (hM : 0 < M) (x : Fin N → Fin D → ℝ) (y : Fin M → Fin D → ℝ) (j : Fin M) (d : Fin D) :
    nrm y j d - ∑ i, Real.exp ((∑ e, nrm y j e * nrm x i e) - Real.log (∑ j', Real.exp (∑ e, nrm x i e * nrm y j' e))) * nrm x i d
      = outLR x y j d := by
  unfold outLR smRow score
  congr 1
  refine Finset.sum_congr rfl fun i _ => ?_
  have hs : (∑ e, nrm y j e * nrm x i e) = ∑ e, nrm x i e * nrm y j e := Finset.sum_congr rfl fun e _ => mul_comm _ _
  rw [hs, exp_sub_log (sum_exp_pos hM _)]

end Cert.Spec

end
-- ==== Proof.KiValue.lean ====
/-
  The idealized kernel program's two results as the specification's functions of the inputs.

  Through the chain of valuations: the first host stretch normalises both inputs; the two log-sum-exp regions leave the
  row and the column log-sum-exps of the score matrix; the reshapes re-lay them as rows; each combine region leaves the
  normalised rows minus the weighted average whose weights are exponentials of scores minus those log-sum-exps — which are
  the soft-max entries.
-/
import proofs.«154747_j1580547971631_2_alg».proof.Proof.KiRun
import proofs.«154747_j1580547971631_2_alg».proof.Proof.HostV
import proofs.«154747_j1580547971631_2_alg».proof.Proof.HostV2
import proofs.«154747_j1580547971631_2_alg».proof.Proof.SpecAlgebra

set_option maxRecDepth 16384

noncomputable section

namespace Cert.KernelIdeal.Hand

open Cert.KernelIdeal Cert.KernelIdeal.Gen Cert.Spec Cert.KernelIdeal.HostV
open Idealize.ShloMosaic Idealize.ShloMosaic.TcCoe Idealize.ShloMosaic.ValueIdx Idealize.SL.Sem
open Idealize.ShloMosaic.Pipeline (Dat)

/-- What each region leaves in its output array, as a function of what its input arrays hold: the four facts the value
    of the whole program is composed from. -/
structure RegionValues : Prop where
  /-- The row log-sum-exp region: the log-sum-exp over the keys of the queries' inner products with them. -/
  lse0 : ∀ (V : (c : Dev nD) → (b : Ref sig .tc) → Buf (Elt Ideal) ((c : Thread nD τ).loc b)) (c : Dev nD) (q k : Fin 8192 → Fin 1024 → ℝ),
    V c main_v12 = embed q → V c main_v13 = embed k →
    (Lse0.dat V c).arrAt 2 cfg0.N = embed (fun (i : Fin 8192) (_ : Fin 1) => Real.log (∑ j : Fin 8192, Real.exp (∑ d : Fin 1024, q i d * k j d)))
  /-- The column log-sum-exp region: the same with the two arrays' roles exchanged. -/
  lse1 : ∀ (V : (c : Dev nD) → (b : Ref sig .tc) → Buf (Elt Ideal) ((c : Thread nD τ).loc b)) (c : Dev nD) (q k : Fin 8192 → Fin 1024 → ℝ),
    V c main_v13 = embed q → V c main_v12 = embed k →
    (Lse1.dat V c).arrAt 2 cfg1.N = embed (fun (i : Fin 8192) (_ : Fin 1) => Real.log (∑ j : Fin 8192, Real.exp (∑ d : Fin 1024, q i d * k j d)))
  /-- The first combine region. -/
  comb2 : ∀ (V : (c : Dev nD) → (b : Ref sig .tc) → Buf (Elt Ideal) ((c : Thread nD τ).loc b)) (c : Dev nD) (q k qn : Fin 8192 → Fin 1024 → ℝ) (l : Fin 8192 → ℝ),
    V c main_v12 = embed q → V c main_v13 = embed k → V c main_v17 = embed (fun (_ : Fin 1) (j : Fin 8192) => l j) → V c main_v9 = embed qn →
    (Comb2.dat V c).arrAt 4 cfg2.N = embed (fun i d => qn i d - ∑ j : Fin 8192, Real.exp ((∑ e : Fin 1024, q i e * k j e) - l j) * k j d)
  /-- The second combine region. -/
  comb3 : ∀ (V : (c : Dev nD) → (b : Ref sig .tc) → Buf (Elt Ideal) ((c : Thread nD τ).loc b)) (c : Dev nD) (q k qn : Fin 8192 → Fin 1024 → ℝ) (l : Fin 8192 → ℝ),
    V c main_v13 = embed q → V c main_v12 = embed k → V c main_v16 = embed (fun (_ : Fin 1) (j : Fin 8192) => l j) → V c main_v11 = embed qn →
    (Comb3.dat V c).arrAt 4 cfg3.N = embed (fun i d => qn i d - ∑ j : Fin 8192, Real.exp ((∑ e : Fin 1024, q i e * k j e) - l j) * k j d)

variable (m : (ℓ : Loc nD τ sig) → Buf (Elt Ideal) ℓ)

/-- The row and the column log-sum-exp of the score matrix of the normalised inputs. -/
def rowLse (x y : Fin 8192 → Fin 1024 → ℝ) (i : Fin 8192) : ℝ := Real.log (∑ j : Fin 8192, Real.exp (∑ d : Fin 1024, nrm x i d * nrm y j d))
def colLse (x y : Fin 8192 → Fin 1024 → ℝ) (j : Fin 8192) : ℝ := Real.log (∑ i : Fin 8192, Real.exp (∑ d : Fin 1024, nrm y j d * nrm x i d))

set_option maxHeartbeats 2000000 in
/-- When the two arguments hold real matrices with positive row sums of squares, the two result arrays hold the
    specification's two functions of them. -/
theorem results_value (hv : RegionValues) (x y : Fin 8192 → Fin 1024 → ℝ)
    (hx : ∀ c : Dev nD, m ((c.tc : Thread nD τ).loc main_arg0) = embed x) (hy : ∀ c : Dev nD, m ((c.tc : Thread nD τ).loc main_arg1) = embed y)
    (hxpos : ∀ i, 0 < ∑ k, x i k * x i k) (hypos : ∀ j, 0 < ∑ k, y j k * y j k) (c : Dev nD) :
    arr3 m c = embed (outLR x y) ∧ arr2 m c = embed (outRL x y) := by
  -- after the first host stretch
  have e9 : W1 m c main_v9 = embed (nrm x) := (V1_v9 m c).trans ((congrArg nrmOp (hx c)).trans (nrmOp_embed x hxpos))
  have e11 : W1 m c main_v11 = embed (nrm y) := (V1_v11 m c).trans ((congrArg nrmOp (hy c)).trans (nrmOp_embed y hypos))
  have e12 : W1 m c main_v12 = embed (nrm x) := (V1_v12 m c).trans ((congrArg nrmOp (hx c)).trans (nrmOp_embed x hxpos))
  have e13 : W1 m c main_v13 = embed (nrm y) := (V1_v13 m c).trans ((congrArg nrmOp (hy c)).trans (nrmOp_embed y hypos))
  -- the row log-sum-exp region
  have a0 : arr0 m c = embed (fun (i : Fin 8192) (_ : Fin 1) => rowLse x y i) := hv.lse0 (rd (W1 m)) c (nrm x) (nrm y) e12 e13
  have f12 : W2 m c main_v12 = embed (nrm x) := (W2_of_ne m c main_v12 (by decide)).trans e12
  have f13 : W2 m c main_v13 = embed (nrm y) := (W2_of_ne m c main_v13 (by decide)).trans e13
  -- the column log-sum-exp region
  have a1 : arr1 m c = embed (fun (j : Fin 8192) (_ : Fin 1) => colLse x y j) := hv.lse1 (rd (W2 m)) c (nrm y) (nrm x) f13 f12
  have g14 : W3 m c main_v14 = embed (fun (i : Fin 8192) (_ : Fin 1) => rowLse x y i) :=
    (W3_of_ne m c main_v14 (by decide)).trans ((W2_out m c).trans a0)
  have g15 : W3 m c main_v15 = embed (fun (j : Fin 8192) (_ : Fin 1) => colLse x y j) := (W3_out m c).trans a1
  have g (r : Ref sig .tc) (h2 : r ≠ main_v14) (h3 : r ≠ main_v15) : W3 m c r = W1 m c r :=
    (W3_of_ne m c r h3).trans (W2_of_ne m c r h2)
  -- the reshapes
  have k16 : W4 m c main_v16 = embed (fun (_ : Fin 1) (j : Fin 8192) => rowLse x y j) := by
    unfold W4; rw [after2_v16 c, g14]; exact reshape_embed _
  have k17 : W4 m c main_v17 = embed (fun (_ : Fin 1) (j : Fin 8192) => colLse x y j) := by
    unfold W4; rw [after2_v17 c, g15]; exact reshape_embed _
  have k (r : Ref sig .tc) (h : r ∉ hostOps2_W) (h2 : r ≠ main_v14) (h3 : r ≠ main_v15) : W4 m c r = W1 m c r := by
    unfold W4; rw [after2_of _ r h]; exact g r h2 h3
  -- the first combine region
  have a2 : arr2 m c = embed (outRL x y) := by
    refine (hv.comb2 (rd (W4 m)) c (nrm x) (nrm y) (nrm x) (colLse x y) ((k main_v12 (by decide) (by decide) (by decide)).trans e12)
      ((k main_v13 (by decide) (by decide) (by decide)).trans e13) k17 ((k main_v9 (by decide) (by decide) (by decide)).trans e9)).trans ?_
    exact congrArg embed (funext fun i => funext fun d => outRL_kernel (by norm_num) x y i d)
  -- the second combine region
  have n (r : Ref sig .tc) (h5 : r ≠ main_v18) : W5 m c r = W4 m c r := W5_of_ne m c r h5
  have a3 : arr3 m c = embed (outLR x y) := by
    refine (hv.comb3 (rd (W5 m)) c (nrm y) (nrm x) (nrm y) (rowLse x y)
      ((n main_v13 (by decide)).trans ((k main_v13 (by decide) (by decide) (by decide)).trans e13))
      ((n main_v12 (by decide)).trans ((k main_v12 (by decide) (by decide) (by decide)).trans e12))
      ((n main_v16 (by decide)).trans k16)
      ((n main_v11 (by decide)).trans ((k main_v11 (by decide) (by decide) (by decide)).trans e11))).trans ?_
    exact congrArg embed (funext fun j => funext fun d => outLR_kernel (by norm_num) x y j d)
  exact ⟨a3, a2⟩

end Cert.KernelIdeal.Hand

end
-- ==== Proof.LibSumReindex.lean ====
/-
  Re-indexing finite sums (and maxima) of tiles along an equivalence, and sums of coerced reals.

  A row read in tiles is indexed by a pair (tile `k`, position `j` in the tile); the same row in a
  reference is indexed by one flat index `p`. Along an equivalence `e : κ × ι ≃ ρ` the double sum
  `∑ k, ∑ j, f (e (k, j))` is the flat sum `∑ p, f p`, in any commutative additive monoid (the reals
  and the extended reals among them), and the maximum over the pairs is the maximum over the flat
  index. For tiles of equal length `n` the equivalence is `finProdFinEquiv`, `(k, j) ↦ j + n * k`.
  A finite sum of coerced reals is the coercion of the real sum.
-/
import Mathlib.Data.EReal.Operations
import Mathlib.Algebra.BigOperators.Group.Finset.Basic
import Mathlib.Algebra.BigOperators.Fin
import Mathlib.Data.Fintype.BigOperators
import Mathlib.Data.Finset.Lattice.Fold
import Mathlib.Logic.Equiv.Fin.Basic

noncomputable section

open scoped BigOperators

namespace Cert.Lib.SumReindex

/-! ## Sums of coerced reals -/

/-- A finite sum of coerced reals is the coercion of the real sum. -/
theorem coe_finset_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The sum over a whole finite type of coerced reals is the coercion of the real sum. -/
theorem coe_sum {ι : Type*} [Fintype ι] (f : ι → ℝ) :
    (∑ i, (f i : EReal)) = ((∑ i, f i : ℝ) : EReal) :=
  coe_finset_sum Finset.univ f

/-- A double sum of coerced reals is the coercion of the real double sum. -/
theorem coe_sum_sum {κ ι : Type*} [Fintype κ] [Fintype ι] (f : κ → ι → ℝ) :
    (∑ k, ∑ j, (f k j : EReal)) = ((∑ k, ∑ j, f k j : ℝ) : EReal) := by
  rw [← coe_sum]
  exact Finset.sum_congr rfl fun k _ => coe_sum (f k)

/-- A sum of products of coerced reals (a contraction) is the coercion of the real sum of products. -/
theorem coe_sum_mul {ι : Type*} [Fintype ι] (f g : ι → ℝ) :
    (∑ i, (f i : EReal) * (g i : EReal)) = ((∑ i, f i * g i : ℝ) : EReal) := by
  rw [← coe_sum]
  exact Finset.sum_congr rfl fun i _ => (EReal.coe_mul _ _).symm

/-! ## Tiles to a flat index -/

section Reindex
variable {M : Type*} [AddCommMonoid M] {κ ι ρ : Type*} [Fintype κ] [Fintype ι] [Fintype ρ]

/-- The sum over tiles `k` and positions `j` of `f` at the flat index `e (k, j)` is the sum of `f`
    over the flat index, for an equivalence `e` of the pairs with the flat index. -/
theorem sum_sum_comp_equiv (e : κ × ι ≃ ρ) (f : ρ → M) :
    ∑ k, ∑ j, f (e (k, j)) = ∑ p, f p := by
  rw [← Fintype.sum_prod_type (f := fun q => f (e q))]
  exact Equiv.sum_comp e f

/-- The same for a tiled family `a k j` that is `f` at the flat index `e (k, j)`. -/
theorem sum_sum_eq_sum_of_equiv (e : κ × ι ≃ ρ) (a : κ → ι → M) (f : ρ → M)
    (h : ∀ k j, a k j = f (e (k, j))) :
    ∑ k, ∑ j, a k j = ∑ p, f p := by
  rw [← sum_sum_comp_equiv e f]
  exact Finset.sum_congr rfl fun k _ => Finset.sum_congr rfl fun j _ => h k j

/-- The flat sum as the sum over tiles of the tiles' sums, read through the inverse equivalence. -/
theorem sum_eq_sum_sum_symm (e : κ × ι ≃ ρ) (a : κ → ι → M) :
    ∑ p, a (e.symm p).1 (e.symm p).2 = ∑ k, ∑ j, a k j := by
  rw [← sum_sum_comp_equiv e fun p => a (e.symm p).1 (e.symm p).2]
  simp

end Reindex

/-- `K` tiles of equal length `n`: the sum over tile `k` and position `j` of `f` at the flat position
    `j + n * k` (`finProdFinEquiv (k, j)`) is the sum of `f` over `Fin (K * n)`. -/
theorem sum_fin_sum_fin {M : Type*} [AddCommMonoid M] {K n : ℕ} (f : Fin (K * n) → M) :
    ∑ k : Fin K, ∑ j : Fin n, f (finProdFinEquiv (k, j)) = ∑ p, f p :=
  sum_sum_comp_equiv finProdFinEquiv f

/-- The flat position of `finProdFinEquiv (k, j)` is `j + n * k`. -/
theorem finProdFinEquiv_val {K n : ℕ} (k : Fin K) (j : Fin n) :
    ((finProdFinEquiv (k, j) : Fin (K * n)) : ℕ) = j + n * k := rfl

/-! ## Maxima along an equivalence -/

/-- The maximum of `f ∘ e` over a finite nonempty type is the maximum of `f`, for an equivalence `e`. -/
theorem sup'_univ_comp_equiv {α κ ρ : Type*} [SemilatticeSup α] [Fintype κ] [Fintype ρ] [Nonempty κ]
    [Nonempty ρ] (e : κ ≃ ρ) (f : ρ → α) :
    Finset.univ.sup' Finset.univ_nonempty (fun q => f (e q))
      = Finset.univ.sup' Finset.univ_nonempty f := by
  apply le_antisymm
  · exact Finset.sup'_le _ _ fun q _ => Finset.le_sup' f (Finset.mem_univ (e q))
  · refine Finset.sup'_le _ _ fun p _ => ?_
    have h := Finset.le_sup' (fun q => f (e q)) (Finset.mem_univ (e.symm p))
    simpa using h

end Cert.Lib.SumReindex
-- ==== Proof.PreWitness.lean ====
/-
  From the precondition to real matrices.

  The precondition says of each input that every entry is finite in absolute value and that every row's sum of squares is
  positive. An extended real whose absolute value is below `+∞` is a real number, so each input is the array of a real
  matrix; and the extended-real sum of squares of a row of reals is the coercion of the real sum, so its positivity is the
  real one.
-/
import proofs.«154747_j1580547971631_2_alg».proof.Pre_finite_inputs
import proofs.«154747_j1580547971631_2_alg».proof.Proof.Gen.Pre_finite_inputs
import proofs.«154747_j1580547971631_2_alg».proof.Proof.SpecEmbed
import proofs.«154747_j1580547971631_2_alg».proof.Proof.LibHostRows
import proofs.«154747_j1580547971631_2_alg».proof.Proof.LibSumReindex
import Idealize.ShloMosaic.Lib.ReduceAll
import Idealize.ShloMosaic.Lib.Pipeline.Value
import Idealize.ShloMosaic.Lib.Affine

set_option maxRecDepth 16384

noncomputable section

namespace Cert.PreW

open Cert.Pre_finite_inputs Cert.Pre_finite_inputs.Facts Cert.Spec Cert.Lib.HostRows
open Idealize.ShloMosaic Idealize.ShloMosaic.ValueIdx

/-- An extended real whose absolute value is strictly below `+∞` is a real number. -/
theorem real_of_abs_lt_top (v : EReal) (h : Ideal.cmp .olt (max v (-v)) ⊤ = 1#1) : ∃ r : ℝ, v = (r : EReal) := by
  induction v using EReal.rec with
  | bot => simp [Ideal.cmp] at h
  | coe r => exact ⟨r, rfl⟩
  | top => simp [Ideal.cmp] at h

/-- A comparison "greater than zero" that holds says the number is positive. -/
theorem pos_of_cmp_ogt (v : EReal) (h : Ideal.cmp .ogt v 0 = 1#1) : 0 < v := by
  by_contra hn
  simp [Ideal.cmp, hn] at h

instance : Subsingleton S_.Idx := ⟨fun a b => funext fun d => d.elim0⟩

variable [Cert.Pre_finite_inputs.Facts]

/-- Every entry of an array that passes the finiteness test is real. -/
theorem entries_real (a : FVec Ideal S8192x1024 .f32)
    (h : Host.reduce IntOp.andi (cmpf .olt (Host.absf a) (broadcastInDim S8192x1024 ![] bcast_S_S8192x1024 (constant S_ .f32 0x7F800000#32)))
      (constantI S_ 1 1#1) reducesTo_S8192x1024_S_d0_1 h_S_ ix0 = 1#1) (idx : S8192x1024.Idx) : ∃ r : ℝ, a idx = (r : EReal) := by
  have e := Host.reduce_andi_all _ _ reducesTo_S8192x1024_S_d0_1 h_S_ ix0 h idx
  have hinf : (broadcastInDim S8192x1024 ![] bcast_S_S8192x1024 (constant (F := Ideal) S_ .f32 0x7F800000#32)) idx = (⊤ : EReal) := by
    refine (broadcastInDim_apply _ bcast_S_S8192x1024 _ idx ix0 (fun d => d.elim0)).trans ?_
    show Ideal.ofBits .f32 0x7F800000#32 = ⊤
    simp [Ideal.ofBits, Ideal.ieee]
  refine real_of_abs_lt_top (a idx) ?_
  have e' : Ideal.cmp .olt (max (a idx) (-(a idx))) ((broadcastInDim S8192x1024 ![] bcast_S_S8192x1024 (constant (F := Ideal) S_ .f32 0x7F800000#32)) idx) = 1#1 := e
  rwa [hinf] at e'

/-- Every row of an array that passes the positivity test has a positive sum of squares. -/
theorem rows_pos (x : Fin 8192 → Fin 1024 → ℝ)
    (h : Host.reduce IntOp.andi (cmpf .ogt (Host.reduceAdd (F := Ideal) (mulf (embed x) (embed x)) (constant S_ .f32 0x00000000#32) reducesTo_S8192x1024_S8192_d1 h_S_)
        (broadcastInDim S8192 ![] bcast_S_S8192 (constant S_ .f32 0x00000000#32)))
      (constantI S_ 1 1#1) reducesTo_S8192_S_d0 h_S_ ix0 = 1#1) (i : Fin 8192) : 0 < ∑ k, x i k * x i k := by
  have e := Host.reduce_andi_all _ _ reducesTo_S8192_S_d0 h_S_ ix0 h (ix1 i)
  have hz : (broadcastInDim S8192 ![] bcast_S_S8192 (constant (F := Ideal) S_ .f32 0x00000000#32)) (ix1 i) = (0 : EReal) :=
    (bcast_scalar bcast_S_S8192 _ i).trans (constant_zero_apply _)
  have hs : Host.reduceAdd (F := Ideal) (mulf (embed x) (embed x)) (constant S_ .f32 0x00000000#32) reducesTo_S8192x1024_S8192_d1 h_S_ (ix1 i)
      = ((∑ k, x i k * x i k : ℝ) : EReal) :=
    (hostReduceAdd_rows_apply _ h_S_ _ _ i).trans (by
      rw [constant_zero_apply, zero_add]
      exact Cert.Lib.SumReindex.coe_sum_mul (x i) (x i))
  have e' : Ideal.cmp .ogt (Host.reduceAdd (F := Ideal) (mulf (embed x) (embed x)) (constant S_ .f32 0x00000000#32) reducesTo_S8192x1024_S8192_d1 h_S_ (ix1 i))
      ((broadcastInDim S8192 ![] bcast_S_S8192 (constant (F := Ideal) S_ .f32 0x00000000#32)) (ix1 i)) = 1#1 := e
  rw [hz, hs] at e'
  exact EReal.coe_pos.mp (pos_of_cmp_ogt _ e')

/-- THE WITNESS. Two arrays that pass the precondition hold real matrices whose rows have positive sums of squares. -/
theorem witness (a b : FVec Ideal S8192x1024 .f32) (h : fn (F := Ideal) a b = fun _ => 1#1) :
    ∃ x y : Fin 8192 → Fin 1024 → ℝ, a = embed x ∧ b = embed y ∧ (∀ i, 0 < ∑ k, x i k * x i k) ∧ (∀ j, 0 < ∑ k, y j k * y j k) := by
  have h0 := congrFun h ix0
  dsimp only [fn, fn_part1] at h0
  obtain ⟨h123, h4⟩ := IntOp.andi_eq_one.mp (h0 : IntOp.andi _ _ = 1#1)
  obtain ⟨h12, h3⟩ := IntOp.andi_eq_one.mp (h123 : IntOp.andi _ _ = 1#1)
  obtain ⟨h1, h2⟩ := IntOp.andi_eq_one.mp (h12 : IntOp.andi _ _ = 1#1)
  choose xa hxa using entries_real a h1
  choose ya hya using entries_real b h2
  have ha : a = embed (fun i k => xa (ix2 i k)) := funext fun idx => by
    obtain ⟨i, k, rfl⟩ : ∃ (i : Fin 8192) (k : Fin 1024), idx = ix2 i k := ⟨idx 0, idx 1, eq_ix2 idx⟩
    exact hxa _
  have hb : b = embed (fun i k => ya (ix2 i k)) := funext fun idx => by
    obtain ⟨i, k, rfl⟩ : ∃ (i : Fin 8192) (k : Fin 1024), idx = ix2 i k := ⟨idx 0, idx 1, eq_ix2 idx⟩
    exact hya _
  refine ⟨_, _, ha, hb, ?_, ?_⟩
  · rw [ha] at h3; exact rows_pos _ h3
  · rw [hb] at h4; exact rows_pos _ h4

end Cert.PreW

end
-- ==== Proof.Algebraic.lean ====
/-
  The value claim, composed.

  Under the precondition both inputs hold real matrices whose rows have positive sums of squares. From memories that agree
  on the inputs, the idealized kernel program ends with its two result arrays at the specification's two functions of those
  matrices, and so does the idealized reference: the results are equal, entry by entry, as extended reals.
-/
import proofs.«154747_j1580547971631_2_alg».proof.Defs
import proofs.«154747_j1580547971631_2_alg».proof.Proof.Gen.KernelIdeal
import proofs.«154747_j1580547971631_2_alg».proof.Proof.Gen.ReferenceIdeal
import proofs.«154747_j1580547971631_2_alg».proof.Proof.Gen.Pre_finite_inputs
import proofs.«154747_j1580547971631_2_alg».proof.Proof.KiValue
import proofs.«154747_j1580547971631_2_alg».proof.Proof.PreWitness

set_option maxRecDepth 16384

noncomputable section

namespace Cert.Proof

open Idealize.ShloMosaic Idealize.ShloMosaic.TcCoe Idealize.SL.Sem Cert.Spec

/-- What the reference side must provide: from a memory whose two arguments hold real matrices with positive row sums of
    squares, the reference runs to the specification's two functions of them, its arguments unchanged. -/
def RefValue : Prop :=
  ∀ (m' : (ℓ : Loc Cert.ReferenceIdeal.nD Cert.ReferenceIdeal.τ Cert.ReferenceIdeal.sig) → Buf (Elt Ideal) ℓ) (g' : Dev Cert.ReferenceIdeal.nD → PrngReg)
    (x y : Fin 8192 → Fin 1024 → ℝ),
    (∀ c : Dev Cert.ReferenceIdeal.nD, m' ((c.tc : Thread Cert.ReferenceIdeal.nD Cert.ReferenceIdeal.τ).loc Cert.ReferenceIdeal.main_arg0) = embed x) →
    (∀ c : Dev Cert.ReferenceIdeal.nD, m' ((c.tc : Thread Cert.ReferenceIdeal.nD Cert.ReferenceIdeal.τ).loc Cert.ReferenceIdeal.main_arg1) = embed y) →
    (∀ i, 0 < ∑ k, x i k * x i k) → (∀ j, 0 < ∑ k, y j k * y j k) →
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v21) = embed (outLR x y)
      ∧ r.2.mem ((c.tc : Thread Cert.ReferenceIdeal.nD Cert.ReferenceIdeal.τ).loc Cert.ReferenceIdeal.main_v34) = embed (outRL x y)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

/-- The value claim from the four regions' values and the reference's. -/
theorem algebraic_of (hv : Cert.KernelIdeal.Hand.RegionValues) (href : RefValue) :
    @Cert.algebraic_KernelIdeal_ReferenceIdeal Cert.KernelIdeal.Gen.facts Cert.ReferenceIdeal.Gen.facts Cert.Pre_finite_inputs.Gen.facts := by
  intro m g m' g' hpre hagree
  -- one core: the witnesses found on it serve every core
  have hsub : ∀ c c' : Dev Cert.KernelIdeal.nD, c = c' := fun c c' => Subsingleton.elim c c'
  let c₀ : Dev Cert.KernelIdeal.nD := ⟨0, by decide⟩
  obtain ⟨x, y, hx0, hy0, hxpos, hypos⟩ := @Cert.PreW.witness Cert.Pre_finite_inputs.Gen.facts _ _ (hpre c₀)
  have hx : ∀ c : Dev Cert.KernelIdeal.nD, m ((c.tc : Thread Cert.KernelIdeal.nD Cert.KernelIdeal.τ).loc Cert.KernelIdeal.main_arg0) = embed x :=
    fun c => by rw [hsub c c₀]; exact hx0
  have hy : ∀ c : Dev Cert.KernelIdeal.nD, m ((c.tc : Thread Cert.KernelIdeal.nD Cert.KernelIdeal.τ).loc Cert.KernelIdeal.main_arg1) = embed y :=
    fun c => by rw [hsub c c₀]; exact hy0
  refine ⟨fun _ => embed (outLR x y), fun _ => embed (outRL x y), ?_, ?_⟩
  · exact (θ_run (Cert.KernelIdeal.defs (F := Ideal)) _ _).mono (fun r h c =>
      ⟨(h c).1.trans (Cert.KernelIdeal.Hand.results_value m hv x y hx hy hxpos hypos c).1,
       (h c).2.1.trans (Cert.KernelIdeal.Hand.results_value m hv x y hx hy hxpos hypos c).2, (h c).2.2.1, (h c).2.2.2⟩)
      (Cert.KernelIdeal.Hand.run_results m g)
  · exact href m' g' x y (fun c => ((hagree c).1).trans (hx c)) (fun c => ((hagree c).2).trans (hy c)) hxpos hypos

end Cert.Proof

end
-- ==== Proof.LseV1Pieces.lean ====
import proofs.«154747_j1580547971631_2_alg».proof.Proof.Lse0Data
import Idealize.ShloMosaic.Lib.Pipeline.Value

set_option maxRecDepth 16384

noncomputable section

namespace Cert.KernelIdeal.Lse0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # What each tile's stores leave in the two running columns and in the output block

A tile's body ends with one store over the whole running-sum column and one over the whole running-maximum column,
and a row block's last tile with one more over the whole output block. Read back, each column is the payload of that
last store. The loads that feed the payloads read the two input blocks whole; the running columns as the tile found
them, or, at a row block's first tile, as the reset just stored them; and, for the output block, the two columns as
this tile's own stores just left them. -/

variable {F : FTy → Type} [FloatOps F]

/-- The zero offsets of a whole-buffer rectangle of rank two. -/
theorem hz : (![0, 0] : Fin 2 → Nat) = fun _ => 0 := funext fun a => by fin_cases a <;> rfl

section Cases
variable (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole)
    (x2 x3 : Vec F S1024x1024 .bf16)

/-- First tile, running maximum: the maximum of the reset value (minus infinity) and the tile's row maxima. -/
theorem canon5_first (hf : first0 i) (hl : ¬last0 i) :
    View.canon (runFirst (F := F) (Ix := Unit) (U := UR sig nD τ) (Lvl := ℕ) c i arg2 harg2 arg3 harg3 arg4 harg4 arg5 harg5 arg6 harg6 hf hl x2 x3).1 = k0_pay6 x2 x3 k0_pay1 := by
  unfold runFirst
  dsimp only
  sl_unfold_words
  rw [View.canon_cons_unit_zero (S := S1024x1) hz]
  simp only [View.readAt_eq_ld, harg2.read_unread, harg3.read_unread, harg5.read_unread, harg6.read_unread,
    View.ld_unit_zero (S := S1024x1024) hz, View.ld_unit_zero (S := S1024x1) hz, View.readCov_unit_zero (S := S1024x1) _ hz]

/-- First tile, running sum: the update from the reset values (minus infinity and zero). -/
theorem canon6_first (hf : first0 i) (hl : ¬last0 i) :
    View.canon (runFirst (F := F) (Ix := Unit) (U := UR sig nD τ) (Lvl := ℕ) c i arg2 harg2 arg3 harg3 arg4 harg4 arg5 harg5 arg6 harg6 hf hl x2 x3).2.1 = k0_pay5 x2 x3 k0_pay1 k0_pay1 k0_pay2 := by
  unfold runFirst
  dsimp only
  sl_unfold_words
  rw [View.canon_cons_unit_zero (S := S1024x1) hz]
  simp only [View.readAt_eq_ld, harg2.read_unread, harg3.read_unread, harg5.read_unread, harg6.read_unread,
    View.ld_unit_zero (S := S1024x1024) hz, View.ld_unit_zero (S := S1024x1) hz, View.readCov_unit_zero (S := S1024x1) _ hz]

/-- Middle tile, running maximum, from the columns s5, s6 the tile before left. -/
theorem canon5_mid (hf : ¬first0 i) (hl : ¬last0 i) (s5 s6 : Vec F S1024x1 .f32) :
    View.canon (runMid (F := F) (Ix := Unit) (U := UR sig nD τ) (Lvl := ℕ) c i arg2 harg2 arg3 harg3 arg4 harg4 arg5 harg5 arg6 harg6 hf hl x2 x3 s5 s6).1 = k0_pay6 x2 x3 s5 := by
  unfold runMid
  dsimp only
  sl_unfold_words
  rw [View.canon_cons_unit_zero (S := S1024x1) hz]
  simp only [View.readAt_eq_ld, harg2.read_unread, harg3.read_unread, harg5.read_unread, harg6.read_unread,
    View.ld_unit_zero (S := S1024x1024) hz, View.ld_unit_zero (S := S1024x1) hz, View.readCov_unit_zero (S := S1024x1) _ hz]

/-- Middle tile, running sum. -/
theorem canon6_mid (hf : ¬first0 i) (hl : ¬last0 i) (s5 s6 : Vec F S1024x1 .f32) :
    View.canon (runMid (F := F) (Ix := Unit) (U := UR sig nD τ) (Lvl := ℕ) c i arg2 harg2 arg3 harg3 arg4 harg4 arg5 harg5 arg6 harg6 hf hl x2 x3 s5 s6).2.1 = k0_pay5 x2 x3 s5 s5 s6 := by
  unfold runMid
  dsimp only
  sl_unfold_words
  rw [View.canon_cons_unit_zero (S := S1024x1) hz]
  simp only [View.readAt_eq_ld, harg2.read_unread, harg3.read_unread, harg5.read_unread, harg6.read_unread,
    View.ld_unit_zero (S := S1024x1024) hz, View.ld_unit_zero (S := S1024x1) hz, View.readCov_unit_zero (S := S1024x1) _ hz]

/-- Last tile, output block: the updated maximum plus the logarithm of the updated sum. -/
theorem canon4_last (hf : ¬first0 i) (hl : last0 i) (s5 s6 : Vec F S1024x1 .f32) :
    View.canon (runLast (F := F) (Ix := Unit) (U := UR sig nD τ) (Lvl := ℕ) c i arg2 harg2 arg3 harg3 arg4 harg4 arg5 harg5 arg6 harg6 hf hl x2 x3 s5 s6).1 = k0_pay7 (k0_pay6 x2 x3 s5) (k0_pay5 x2 x3 s5 s5 s6) := by
  unfold runLast
  dsimp only
  sl_unfold_words
  rw [View.canon_cons_unit_zero (S := S1024x1) hz]
  simp only [View.readAt_eq_ld, harg2.read_unread, harg3.read_unread, harg5.read_unread, harg6.read_unread,
    View.ld_unit_zero (S := S1024x1024) hz, View.ld_unit_zero (S := S1024x1) hz, View.readCov_unit_zero (S := S1024x1) _ hz]

/-- Last tile, running maximum. -/
theorem canon5_last (hf : ¬first0 i) (hl : last0 i) (s5 s6 : Vec F S1024x1 .f32) :
    View.canon (runLast (F := F) (Ix := Unit) (U := UR sig nD τ) (Lvl := ℕ) c i arg2 harg2 arg3 harg3 arg4 harg4 arg5 harg5 arg6 harg6 hf hl x2 x3 s5 s6).2.1 = k0_pay6 x2 x3 s5 := by
  unfold runLast
  dsimp only
  sl_unfold_words
  rw [View.canon_cons_unit_zero (S := S1024x1) hz]
  simp only [View.readAt_eq_ld, harg2.read_unread, harg3.read_unread, harg5.read_unread, harg6.read_unread,
    View.ld_unit_zero (S := S1024x1024) hz, View.ld_unit_zero (S := S1024x1) hz, View.readCov_unit_zero (S := S1024x1) _ hz]

/-- Last tile, running sum. -/
theorem canon6_last (hf : ¬first0 i) (hl : last0 i) (s5 s6 : Vec F S1024x1 .f32) :
    View.canon (runLast (F := F) (Ix := Unit) (U := UR sig nD τ) (Lvl := ℕ) c i arg2 harg2 arg3 harg3 arg4 harg4 arg5 harg5 arg6 harg6 hf hl x2 x3 s5 s6).2.2.1 = k0_pay5 x2 x3 s5 s5 s6 := by
  unfold runLast
  dsimp only
  sl_unfold_words
  rw [View.canon_cons_unit_zero (S := S1024x1) hz]
  simp only [View.readAt_eq_ld, harg2.read_unread, harg3.read_unread, harg5.read_unread, harg6.read_unread,
    View.ld_unit_zero (S := S1024x1024) hz, View.ld_unit_zero (S := S1024x1) hz, View.readCov_unit_zero (S := S1024x1) _ hz]

end Cases

/-! ## The same at a point of the grid -/

variable (V : (c : Dev nD) → (b : Ref sig .tc) → Buf (Elt F) ((c : Thread nD τ).loc b))

theorem rd5_first (c : Dev nD) (t : Fin cfg0.N) (hf : t.val % 8 = 0) (hl : ¬t.val % 8 = 7) :
    rd5 (firstAt V c t hf hl).1 = k0_pay6 (iblk V c 0 t) (iblk V c 1 t) k0_pay1 := by
  unfold rd5 firstAt
  exact (View.read_writes_junk_eq_canon _ _).trans (canon5_first (F := F) c (grid0.coords t) (ms0 t) (hs0 t) (ms1 t) (hs1 t) (ms2 t) (hs2 t) scM5 (Memref.isWhole_whole _) scM6 (Memref.isWhole_whole _) (iblk V c 0 t) (iblk V c 1 t) _ _)
theorem rd6_first (c : Dev nD) (t : Fin cfg0.N) (hf : t.val % 8 = 0) (hl : ¬t.val % 8 = 7) :
    rd6 (firstAt V c t hf hl).2.1 = k0_pay5 (iblk V c 0 t) (iblk V c 1 t) k0_pay1 k0_pay1 k0_pay2 := by
  unfold rd6 firstAt
  exact (View.read_writes_junk_eq_canon _ _).trans (canon6_first (F := F) c (grid0.coords t) (ms0 t) (hs0 t) (ms1 t) (hs1 t) (ms2 t) (hs2 t) scM5 (Memref.isWhole_whole _) scM6 (Memref.isWhole_whole _) (iblk V c 0 t) (iblk V c 1 t) _ _)
theorem rd5_mid (c : Dev nD) (t : Fin cfg0.N) (hf : ¬t.val % 8 = 0) (hl : ¬t.val % 8 = 7) (s5 s6 : Vec F S1024x1 .f32) :
    rd5 (midAt V c t hf hl s5 s6).1 = k0_pay6 (iblk V c 0 t) (iblk V c 1 t) s5 := by
  unfold rd5 midAt
  exact (View.read_writes_junk_eq_canon _ _).trans (canon5_mid (F := F) c (grid0.coords t) (ms0 t) (hs0 t) (ms1 t) (hs1 t) (ms2 t) (hs2 t) scM5 (Memref.isWhole_whole _) scM6 (Memref.isWhole_whole _) (iblk V c 0 t) (iblk V c 1 t) _ _ s5 s6)
theorem rd6_mid (c : Dev nD) (t : Fin cfg0.N) (hf : ¬t.val % 8 = 0) (hl : ¬t.val % 8 = 7) (s5 s6 : Vec F S1024x1 .f32) :
    rd6 (midAt V c t hf hl s5 s6).2.1 = k0_pay5 (iblk V c 0 t) (iblk V c 1 t) s5 s5 s6 := by
  unfold rd6 midAt
  exact (View.read_writes_junk_eq_canon _ _).trans (canon6_mid (F := F) c (grid0.coords t) (ms0 t) (hs0 t) (ms1 t) (hs1 t) (ms2 t) (hs2 t) scM5 (Memref.isWhole_whole _) scM6 (Memref.isWhole_whole _) (iblk V c 0 t) (iblk V c 1 t) _ _ s5 s6)
theorem rdO_last (c : Dev nD) (t : Fin cfg0.N) (hf : ¬t.val % 8 = 0) (hl : t.val % 8 = 7) (s5 s6 : Vec F S1024x1 .f32) :
    rdO (lastAt V c t hf hl s5 s6).1
      = k0_pay7 (k0_pay6 (iblk V c 0 t) (iblk V c 1 t) s5) (k0_pay5 (iblk V c 0 t) (iblk V c 1 t) s5 s5 s6) := by
  unfold rdO lastAt
  exact (View.read_writes_junk_eq_canon _ _).trans (canon4_last (F := F) c (grid0.coords t) (ms0 t) (hs0 t) (ms1 t) (hs1 t) (ms2 t) (hs2 t) scM5 (Memref.isWhole_whole _) scM6 (Memref.isWhole_whole _) (iblk V c 0 t) (iblk V c 1 t) _ _ s5 s6)
theorem rd5_last (c : Dev nD) (t : Fin cfg0.N) (hf : ¬t.val % 8 = 0) (hl : t.val % 8 = 7) (s5 s6 : Vec F S1024x1 .f32) :
    rd5 (lastAt V c t hf hl s5 s6).2.1 = k0_pay6 (iblk V c 0 t) (iblk V c 1 t) s5 := by
  unfold rd5 lastAt
  exact (View.read_writes_junk_eq_canon _ _).trans (canon5_last (F := F) c (grid0.coords t) (ms0 t) (hs0 t) (ms1 t) (hs1 t) (ms2 t) (hs2 t) scM5 (Memref.isWhole_whole _) scM6 (Memref.isWhole_whole _) (iblk V c 0 t) (iblk V c 1 t) _ _ s5 s6)
theorem rd6_last (c : Dev nD) (t : Fin cfg0.N) (hf : ¬t.val % 8 = 0) (hl : t.val % 8 = 7) (s5 s6 : Vec F S1024x1 .f32) :
    rd6 (lastAt V c t hf hl s5 s6).2.2.1 = k0_pay5 (iblk V c 0 t) (iblk V c 1 t) s5 s5 s6 := by
  unfold rd6 lastAt
  exact (View.read_writes_junk_eq_canon _ _).trans (canon6_last (F := F) c (grid0.coords t) (ms0 t) (hs0 t) (ms1 t) (hs1 t) (ms2 t) (hs2 t) scM5 (Memref.isWhole_whole _) scM6 (Memref.isWhole_whole _) (iblk V c 0 t) (iblk V c 1 t) _ _ s5 s6)

end Cert.KernelIdeal.Lse0
end
-- ==== Proof.LseV2Score.lean ====
import proofs.«154747_j1580547971631_2_alg».proof.Proof.Gen.KernelIdeal.Skeleton
import Idealize.ShloMosaic.PureOps.Ideal.Laws
import Idealize.ShloMosaic.Lib.ValueIdx
import Idealize.ShloMosaic.Lib.Pipeline.Value

set_option maxRecDepth 16384

noncomputable section

namespace Cert.KernelIdeal.Lse0

open Cert.KernelIdeal Cert.KernelIdeal.Gen
open Idealize.ShloMosaic Idealize.ShloMosaic.ValueIdx
open scoped BigOperators

/-! # A tile's score matrix, entry by entry

The tile's scores are the product of the block of query rows with the block of key rows, contracted over the shared
last axis: entry (r, s) is the sum over d of query row r at d times key row s at d. Two layout steps of the
payloads are read here as well: a vector of row results viewed as a column, and a column repeated along the rows. -/

/-- A vector of 1024 row results viewed as a column reads, at row r, the vector at r. -/
theorem col_of_vec (v : FVec Ideal S1024 .f32) (r : Fin 1024) (u : Fin 1) :
    shapeCast S1024x1 v shapeCasts_S1024_S1024x1 (ix2 r u) = v (ix1 r) :=
  shapeCast_apply v shapeCasts_S1024_S1024x1 (ix2 r u) (ix1 r) (by
    rw [Shape.rowMajor_val_one, Shape.rowMajor_val_two]
    show r.val = r.val * 1 + u.val
    omega)

/-- A column repeated along the rows reads, at (r, s), the column at row r. -/
theorem bcast_col (v : FVec Ideal S1024x1 .f32) (r s : Fin 1024) :
    broadcastTo S1024x1024 v broadcasts_S1024x1_S1024x1024 (ix2 r s) = v (ix2 r (0 : Fin 1)) := by
  refine broadcastTo_apply v broadcasts_S1024x1_S1024x1024 (ix2 r s) (ix2 r (0 : Fin 1)) fun ax => ?_
  match ax with
  | ⟨0, _⟩ => rfl
  | ⟨1, _⟩ => rfl

/-- The left operand's index for output entry (r, s) and contraction position d is (r, d). -/
theorem lhs_idx (r s d : Fin 1024) :
    dot_S1024x1024_S1024x1024_S1024x1024_1_1_0_0_n_n.lhsIdx (ix2 r s)
      ((contrEquiv1 dot_S1024x1024_S1024x1024_S1024x1024_1_1_0_0_n_n 1024 rfl rfl).symm d) = ix2 r d := by
  funext a
  apply Fin.ext
  match a with
  | ⟨0, _⟩ => rfl
  | ⟨1, _⟩ =>
    refine (DotDims.lhsIdx_val_of_single dot_S1024x1024_S1024x1024_S1024x1024_1_1_0_0_n_n (cl := (1 : Fin 2)) rfl _ _).trans ?_
    exact contrEquiv1_symm_val _ 1024 rfl rfl d

/-- The right operand's index for output entry (r, s) and contraction position d is (s, d). -/
theorem rhs_idx (r s d : Fin 1024) :
    dot_S1024x1024_S1024x1024_S1024x1024_1_1_0_0_n_n.rhsIdx (ix2 r s)
      ((contrEquiv1 dot_S1024x1024_S1024x1024_S1024x1024_1_1_0_0_n_n 1024 rfl rfl).symm d) = ix2 s d := by
  funext a
  apply Fin.ext
  match a with
  | ⟨0, _⟩ => rfl
  | ⟨1, _⟩ =>
    refine (DotDims.rhsIdx_val_of_single dot_S1024x1024_S1024x1024_S1024x1024_1_1_0_0_n_n (cr := (1 : Fin 2)) rfl _ _).trans ?_
    exact contrEquiv1_symm_val _ 1024 rfl rfl d

/-- Entry (r, s) of the tile's scores: the inner product of query row r and key row s. -/
theorem pay3_apply (x2 x3 : FVec Ideal S1024x1024 .bf16) (r s : Fin 1024) :
    k0_pay3 (F := Ideal) x2 x3 (ix2 r s) = ∑ d : Fin 1024, x2 (ix2 r d) * x3 (ix2 s d) := by
  unfold k0_pay3
  refine (Ideal.matmul_constant_zero_apply dot_S1024x1024_S1024x1024_S1024x1024_1_1_0_0_n_n none _ _ (ix2 r s)).trans ?_
  refine (Equiv.sum_comp (contrEquiv1 dot_S1024x1024_S1024x1024_S1024x1024_1_1_0_0_n_n 1024 rfl rfl).symm _).symm.trans ?_
  refine Finset.sum_congr rfl fun d _ => ?_
  rw [lhs_idx, rhs_idx, shapeCast_self, shapeCast_self]

end Cert.KernelIdeal.Lse0
end
-- ==== Proof.LibLogSumExp.lean ====
/-
  The online log-sum-exp recurrence and the soft-max weight, at the extended reals.

  A kernel that reads a row in tiles keeps a running maximum `m` and a running sum `l`:
  it starts from `m = ⊥`, `l = 0`, and a tile with entries `t j` and maximum `c` moves it to
  `m' = max m c`, `l' = l * exp (m - m') + ∑ j, exp (t j - m')`. With real entries every state
  after the first tile is a pair of (coerced) reals: `m` the maximum `M` of the entries seen and
  `l` the sum over the entries seen of `exp (entry - M)`; so `m + log l` is the logarithm of
  the sum of the exponentials of all entries, and `exp (a - (m + log l))` the soft-max weight
  `exp (a - M) / ∑ exp (entry - M)`. The first tile is special only in that `m = ⊥` makes
  `exp (⊥ - m') = exp ⊥ = 0`, and `0 * 0 = 0`.

  The recurrence is stated as a left fold of `lseStep` over a LIST of tiles (`foldl_lseStep_cons`),
  and from it as `Fin.foldl` over tiles indexed by `Fin (K + 1)` (`fin_foldl_lseStep`); the
  single steps (`lseStep_bot_zero`, `lseStep_coe`, and their componentwise forms with the
  tile's maximum given as any coerced real) are there for a recurrence that is written out step
  by step. When the tiles are those of one flat row `f` along an equivalence `e` of the pairs
  (tile, position) with the flat index, the results are stated over the row (`fin_foldl_lseStep_flat`
  and its `_lse`, `_weight`): `m + log l = log (∑ p, exp (f p))`.
-/
import Mathlib.Analysis.SpecialFunctions.Log.Basic
import Mathlib.Analysis.SpecialFunctions.Pow.Real
import Mathlib.Algebra.BigOperators.Group.Finset.Basic
import Mathlib.Algebra.BigOperators.Fin
import Mathlib.Data.Fintype.Lattice
import Mathlib.Data.List.OfFn
import Mathlib.Data.List.FinRange
import Idealize.ShloMosaic.PureOps.Ideal

noncomputable section

open Idealize.ShloMosaic
open scoped BigOperators

namespace Cert.Lib.LogSumExp

/-! ## Coercions -/

/-- A finite sum of coerced reals is the coercion of the real sum. -/
theorem coe_finset_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The coercion of a maximum of two reals is the maximum of the coercions. -/
theorem coe_max (x y : ℝ) : ((max x y : ℝ) : EReal) = max (x : EReal) (y : EReal) :=
  EReal.coe_strictMono.monotone.map_max

/-- `exp (a - c)` of coerced reals is the coercion of the real `exp (a - c)`. -/
theorem exp_coe_sub_coe (a c : ℝ) :
    Ideal.exp ((a : EReal) - (c : EReal)) = ((Real.exp (a - c) : ℝ) : EReal) := by
  rw [← EReal.coe_sub, Ideal.exp_coe]

/-- The logarithm of a positive real is the coercion of the real logarithm. -/
theorem log_coe_pos {L : ℝ} (hL : 0 < L) : Ideal.log (L : EReal) = ((Real.log L : ℝ) : EReal) := by
  rw [Ideal.log_coe, if_neg (not_le.mpr hL)]

/-- A sum of `exp (t j - c)` over a tile of coerced reals is the coercion of the real sum. -/
theorem sum_exp_coe_sub_coe {ι : Type*} [Fintype ι] (t : ι → ℝ) (c : ℝ) :
    (∑ j, Ideal.exp ((t j : EReal) - (c : EReal))) = ((∑ j, Real.exp (t j - c) : ℝ) : EReal) := by
  rw [← coe_finset_sum]
  exact Finset.sum_congr rfl fun j _ => exp_coe_sub_coe _ _

/-! ## The weight -/

/-- THE WEIGHT: for real `a`, `M` and real `L > 0`,
    `exp (a - (M + log L)) = exp (a - M) / L`: the kernel's weight `exp (a - lse)` is the
    soft-max entry `exp (a - max) / ∑ exp (entry - max)`. -/
theorem exp_sub_add_log (a M : ℝ) {L : ℝ} (hL : 0 < L) :
    Ideal.exp ((a : EReal) - ((M : EReal) + Ideal.log (L : EReal)))
      = ((Real.exp (a - M) / L : ℝ) : EReal) := by
  rw [log_coe_pos hL, ← EReal.coe_add, exp_coe_sub_coe,
    show a - (M + Real.log L) = (a - M) - Real.log L by ring, Real.exp_sub, Real.exp_log hL]

/-- The same with the log-sum-exp given as one coerced real `s = M + log L`. -/
theorem exp_sub_coe_add_log (a M : ℝ) {L : ℝ} (hL : 0 < L) :
    Ideal.exp ((a : EReal) - ((M + Real.log L : ℝ) : EReal))
      = ((Real.exp (a - M) / L : ℝ) : EReal) := by
  rw [exp_coe_sub_coe, show a - (M + Real.log L) = (a - M) - Real.log L by ring, Real.exp_sub,
    Real.exp_log hL]

/-- `c + log (∑ exp (f p - c))` does not depend on the shift `c`: it is `log (∑ exp (f p))`. -/
theorem add_log_sum_exp_sub {κ : Type*} [Fintype κ] [Nonempty κ] (f : κ → ℝ) (c : ℝ) :
    c + Real.log (∑ p, Real.exp (f p - c)) = Real.log (∑ p, Real.exp (f p)) := by
  have hpos : 0 < ∑ p, Real.exp (f p) :=
    Finset.sum_pos (fun p _ => Real.exp_pos _) Finset.univ_nonempty
  have h : (∑ p, Real.exp (f p - c)) = (∑ p, Real.exp (f p)) * Real.exp (-c) := by
    rw [Finset.sum_mul]
    exact Finset.sum_congr rfl fun p _ => by rw [← Real.exp_add, sub_eq_add_neg]
  rw [h, Real.log_mul hpos.ne' (Real.exp_pos _).ne', Real.log_exp]
  ring

/-! ## A tile and its maximum -/

section Tile
variable {ι : Type*} [Fintype ι] [Nonempty ι]

/-- The maximum of a tile of reals (a finite nonempty family). -/
def tileMax (t : ι → ℝ) : ℝ := Finset.univ.sup' Finset.univ_nonempty t

theorem le_tileMax (t : ι → ℝ) (j : ι) : t j ≤ tileMax t :=
  Finset.le_sup' t (Finset.mem_univ j)

theorem exists_eq_tileMax (t : ι → ℝ) : ∃ j, t j = tileMax t := by
  obtain ⟨j, _, hj⟩ := Finset.exists_mem_eq_sup' Finset.univ_nonempty t
  exact ⟨j, hj.symm⟩

/-- The max-reduction of a tile of coerced reals from the initial value `⊥`
    (`Finset.sup`, whose empty value is `⊥`) is the coercion of the tile's real maximum. -/
theorem sup_coe_eq (t : ι → ℝ) :
    Finset.univ.sup (fun j => (t j : EReal)) = ((tileMax t : ℝ) : EReal) := by
  rw [tileMax, ← Finset.sup'_eq_sup Finset.univ_nonempty]
  exact (Finset.comp_sup'_eq_sup'_comp Finset.univ_nonempty (fun x : ℝ => (x : EReal)) coe_max).symm

/-- The same maximum as a supremum `⨆ j` in the extended reals. -/
theorem iSup_coe_eq (t : ι → ℝ) : (⨆ j, (t j : EReal)) = ((tileMax t : ℝ) : EReal) := by
  rw [← Finset.sup_univ_eq_iSup, sup_coe_eq]

/-- Moving a tile's exponential sum from the shift `c` to the shift `c'`. -/
theorem sum_exp_shift (t : ι → ℝ) (c c' : ℝ) :
    (∑ j, Real.exp (t j - c)) * Real.exp (c - c') = ∑ j, Real.exp (t j - c') := by
  rw [Finset.sum_mul]
  exact Finset.sum_congr rfl fun j _ => by
    rw [← Real.exp_add]; congr 1; ring

/-! ## One step, with the tile's maximum any coerced real -/

/-- First step, the maximum: `max ⊥ c = c`. -/
theorem first_max (c : EReal) : max (⊥ : EReal) c = c := max_bot_left c

/-- First step, the sum: from `m = ⊥`, `l = 0` the new sum is the tile's own,
    `0 * exp (⊥ - C) + ∑ j, exp (t j - C) = ∑ j, exp (t j - C)` (`exp ⊥ = 0`, `0 * 0 = 0`). -/
theorem first_sum (t : ι → ℝ) (C : ℝ) :
    (0 : EReal) * Ideal.exp ((⊥ : EReal) - (C : EReal)) + ∑ j, Ideal.exp ((t j : EReal) - (C : EReal))
      = ((∑ j, Real.exp (t j - C) : ℝ) : EReal) := by
  rw [EReal.bot_sub, Ideal.exp_bot, mul_zero, zero_add, sum_exp_coe_sub_coe]

/-- A later step, the sum: from real `m = M`, `l = L` and the new maximum `M'`,
    `L * exp (M - M') + ∑ j, exp (t j - M')` is the coercion of the same real expression. -/
theorem next_sum (t : ι → ℝ) (M L M' : ℝ) :
    (L : EReal) * Ideal.exp ((M : EReal) - (M' : EReal)) + ∑ j, Ideal.exp ((t j : EReal) - (M' : EReal))
      = ((L * Real.exp (M - M') + ∑ j, Real.exp (t j - M') : ℝ) : EReal) := by
  rw [exp_coe_sub_coe, sum_exp_coe_sub_coe, ← EReal.coe_mul, ← EReal.coe_add]

/-! ## The step as a function of the state and the tile -/

/-- One step of the online log-sum-exp: from the state `s = (m, l)` and the tile `t`,
    `m' = max m c` with `c` the tile's max-reduction from `⊥`, and
    `l' = l * exp (m - m') + ∑ j, exp (t j - m')`. -/
def lseStep (s : EReal × EReal) (t : ι → ℝ) : EReal × EReal :=
  (max s.1 (Finset.univ.sup fun j => (t j : EReal)),
   s.2 * Ideal.exp (s.1 - max s.1 (Finset.univ.sup fun j => (t j : EReal)))
     + ∑ j, Ideal.exp ((t j : EReal) - max s.1 (Finset.univ.sup fun j => (t j : EReal))))

/-- The first step: from `(⊥, 0)` to the tile's maximum and the tile's own exponential sum. -/
theorem lseStep_bot_zero (t : ι → ℝ) :
    lseStep ((⊥ : EReal), (0 : EReal)) t
      = (((tileMax t : ℝ) : EReal), ((∑ j, Real.exp (t j - tileMax t) : ℝ) : EReal)) := by
  simp only [lseStep, sup_coe_eq, first_max, first_sum]

/-- A later step: from a real state `(M, L)` to the real state
    `(max M c, L * exp (M - max M c) + ∑ j, exp (t j - max M c))`, `c` the tile's maximum. -/
theorem lseStep_coe (M L : ℝ) (t : ι → ℝ) :
    lseStep ((M : EReal), (L : EReal)) t
      = (((max M (tileMax t) : ℝ) : EReal),
         ((L * Real.exp (M - max M (tileMax t)) + ∑ j, Real.exp (t j - max M (tileMax t)) : ℝ) : EReal)) := by
  simp only [lseStep, sup_coe_eq, ← coe_max, next_sum]

/-! ## The recurrence over a list of tiles -/

/-- The running maximum after the tiles `ts`, started from the real `M`. -/
def runMax (M : ℝ) (ts : List (ι → ℝ)) : ℝ := ts.foldl (fun M u => max M (tileMax u)) M

/-- The sum over the tiles `ts` of their exponential sums at the shift `c`. -/
def sumExp (c : ℝ) (ts : List (ι → ℝ)) : ℝ := (ts.map fun u => ∑ j, Real.exp (u j - c)).sum

@[simp] theorem runMax_nil (M : ℝ) : runMax M ([] : List (ι → ℝ)) = M := rfl
@[simp] theorem runMax_cons (M : ℝ) (u : ι → ℝ) (ts : List (ι → ℝ)) :
    runMax M (u :: ts) = runMax (max M (tileMax u)) ts := rfl
@[simp] theorem sumExp_nil (c : ℝ) : sumExp c ([] : List (ι → ℝ)) = 0 := rfl
@[simp] theorem sumExp_cons (c : ℝ) (u : ι → ℝ) (ts : List (ι → ℝ)) :
    sumExp c (u :: ts) = (∑ j, Real.exp (u j - c)) + sumExp c ts := rfl

/-- THE INVARIANT, from a real state: folding the step over the tiles `ts` from `(M, L)` ends at
    the running maximum `M' = runMax M ts` and at `L * exp (M - M') + ∑ over ts of exp (entry - M')`. -/
theorem foldl_lseStep_coe (ts : List (ι → ℝ)) (M L : ℝ) :
    ts.foldl lseStep ((M : EReal), (L : EReal))
      = (((runMax M ts : ℝ) : EReal),
         ((L * Real.exp (M - runMax M ts) + sumExp (runMax M ts) ts : ℝ) : EReal)) := by
  induction ts generalizing M L with
  | nil => simp
  | cons u ts ih =>
    rw [List.foldl_cons, lseStep_coe, ih, runMax_cons, sumExp_cons]
    congr 2
    rw [add_mul, sum_exp_shift, mul_assoc, ← Real.exp_add]
    rw [show M - max M (tileMax u) + (max M (tileMax u) - runMax (max M (tileMax u)) ts)
      = M - runMax (max M (tileMax u)) ts by ring]
    ring

/-- ONLINE LOG-SUM-EXP over a list of tiles (a left fold of `lseStep` from `(⊥, 0)`): after the
    tiles `t :: ts` the running maximum is the real `M = runMax (tileMax t) ts`, the maximum of
    all their entries, and the running sum is the real `∑ over t :: ts of exp (entry - M)`. -/
theorem foldl_lseStep_cons (t : ι → ℝ) (ts : List (ι → ℝ)) :
    (t :: ts).foldl lseStep ((⊥ : EReal), (0 : EReal))
      = (((runMax (tileMax t) ts : ℝ) : EReal),
         ((sumExp (runMax (tileMax t) ts) (t :: ts) : ℝ) : EReal)) := by
  rw [List.foldl_cons, lseStep_bot_zero, foldl_lseStep_coe, sumExp_cons, sum_exp_shift]

/-- The running maximum is at least its starting value. -/
theorem le_runMax_init (M : ℝ) (ts : List (ι → ℝ)) : M ≤ runMax M ts := by
  induction ts generalizing M with
  | nil => exact le_rfl
  | cons u ts ih => exact le_trans (le_max_left _ _) (ih _)

/-- The running maximum is at least every entry of every tile. -/
theorem le_runMax (M : ℝ) (ts : List (ι → ℝ)) {u : ι → ℝ} (hu : u ∈ ts) (j : ι) :
    u j ≤ runMax M ts := by
  induction ts generalizing M with
  | nil => cases hu
  | cons v ts ih =>
    rcases List.mem_cons.mp hu with rfl | h
    · exact le_trans (le_trans (le_tileMax u j) (le_max_right _ _)) (le_runMax_init _ _)
    · exact ih _ h

/-- The running maximum is its starting value or an entry of a tile. -/
theorem runMax_eq (M : ℝ) (ts : List (ι → ℝ)) :
    runMax M ts = M ∨ ∃ u ∈ ts, ∃ j, u j = runMax M ts := by
  induction ts generalizing M with
  | nil => exact Or.inl rfl
  | cons v ts ih =>
    rcases ih (max M (tileMax v)) with h | ⟨u, hu, j, hj⟩
    · rcases max_choice M (tileMax v) with h' | h'
      · exact Or.inl (by rw [runMax_cons, h, h'])
      · obtain ⟨j, hj⟩ := exists_eq_tileMax v
        exact Or.inr ⟨v, List.mem_cons_self .., j, by rw [runMax_cons, h, h', hj]⟩
    · exact Or.inr ⟨u, List.mem_cons_of_mem _ hu, j, hj⟩

end Tile

/-! ## The recurrence over tiles indexed by `Fin (K + 1)` -/

section FinTiles
variable {ι : Type*} [Fintype ι] [Nonempty ι]

/-- The maximum of all entries `a k j` of the tiles `k : Fin (K + 1)`. -/
def allMax {K : ℕ} (a : Fin (K + 1) → ι → ℝ) : ℝ :=
  Finset.univ.sup' Finset.univ_nonempty fun p : Fin (K + 1) × ι => a p.1 p.2

theorem le_allMax {K : ℕ} (a : Fin (K + 1) → ι → ℝ) (k : Fin (K + 1)) (j : ι) : a k j ≤ allMax a :=
  Finset.le_sup' (fun p : Fin (K + 1) × ι => a p.1 p.2) (Finset.mem_univ (k, j))

theorem exists_eq_allMax {K : ℕ} (a : Fin (K + 1) → ι → ℝ) : ∃ k j, a k j = allMax a := by
  obtain ⟨p, _, hp⟩ := Finset.exists_mem_eq_sup' Finset.univ_nonempty
    fun p : Fin (K + 1) × ι => a p.1 p.2
  exact ⟨p.1, p.2, hp.symm⟩

/-- A real that bounds every entry and is one of them is the maximum of all entries. -/
theorem eq_allMax {K : ℕ} (a : Fin (K + 1) → ι → ℝ) {M : ℝ} (hle : ∀ k j, a k j ≤ M)
    (hmem : ∃ k j, a k j = M) : M = allMax a := by
  obtain ⟨k, j, rfl⟩ := hmem
  exact le_antisymm (le_allMax a k j) (Finset.sup'_le _ _ fun p _ => hle p.1 p.2)

/-- The running maximum over the list of all tiles is the maximum of all entries. -/
theorem runMax_ofFn {K : ℕ} (a : Fin (K + 1) → ι → ℝ) :
    runMax (tileMax (a 0)) (List.ofFn fun i : Fin K => a i.succ) = allMax a := by
  refine eq_allMax a (fun k j => ?_) ?_
  · refine Fin.cases ?_ (fun i => ?_) k
    · exact le_trans (le_tileMax (a 0) j) (le_runMax_init _ _)
    · exact le_runMax _ _ (u := a i.succ) (List.mem_ofFn.mpr ⟨i, rfl⟩) j
  · rcases runMax_eq (tileMax (a 0)) (List.ofFn fun i : Fin K => a i.succ) with h | ⟨u, hu, j, hj⟩
    · obtain ⟨j, hj⟩ := exists_eq_tileMax (a 0)
      exact ⟨0, j, by rw [h, hj]⟩
    · obtain ⟨i, rfl⟩ := List.mem_ofFn.mp hu
      exact ⟨i.succ, j, hj⟩

/-- The exponential sums of the list of all tiles add up to the double sum over `k` and `j`. -/
theorem sumExp_ofFn {K : ℕ} (a : Fin (K + 1) → ι → ℝ) (c : ℝ) :
    sumExp c (List.ofFn a) = ∑ k, ∑ j, Real.exp (a k j - c) := by
  rw [sumExp, List.map_ofFn, List.sum_ofFn]
  rfl

/-- A `Fin.foldl` whose step reads the `k`-th of `n` items is the left fold over their list. -/
theorem fin_foldl_eq_foldl_ofFn {α β : Type*} (g : β → α → β) {n : ℕ} (f : Fin n → α) (x : β) :
    Fin.foldl n (fun s k => g s (f k)) x = (List.ofFn f).foldl g x := by
  induction n generalizing x with
  | zero => rw [Fin.foldl_zero, List.ofFn_zero, List.foldl_nil]
  | succ n ih => rw [Fin.foldl_succ, List.ofFn_succ, List.foldl_cons, ih]

/-- ONLINE LOG-SUM-EXP over tiles indexed by `Fin (K + 1)` (`Fin.foldl` of `lseStep` from `(⊥, 0)`,
    tile `0` first): the final running maximum is the real `M = allMax a`, the maximum of all
    entries, and the final running sum is the real `∑ k, ∑ j, exp (a k j - M)`. -/
theorem fin_foldl_lseStep {K : ℕ} (a : Fin (K + 1) → ι → ℝ) :
    Fin.foldl (K + 1) (fun s k => lseStep s (a k)) ((⊥ : EReal), (0 : EReal))
      = (((allMax a : ℝ) : EReal), ((∑ k, ∑ j, Real.exp (a k j - allMax a) : ℝ) : EReal)) := by
  rw [fin_foldl_eq_foldl_ofFn lseStep a, List.ofFn_succ, foldl_lseStep_cons, runMax_ofFn, ← List.ofFn_succ (f := a), sumExp_ofFn]

/-- The double sum of exponentials is positive. -/
theorem sum_sum_exp_pos {K : ℕ} (a : Fin (K + 1) → ι → ℝ) (c : ℝ) :
    0 < ∑ k, ∑ j, Real.exp (a k j - c) :=
  Finset.sum_pos (fun _ _ => Finset.sum_pos (fun _ _ => Real.exp_pos _) Finset.univ_nonempty)
    Finset.univ_nonempty

/-- THE LOG-SUM-EXP: with `(m, l)` the final state, `m + log l` is the coercion of the real
    `M + log (∑ k, ∑ j, exp (a k j - M))`, `M` the maximum of all entries. -/
theorem fin_foldl_lseStep_lse {K : ℕ} (a : Fin (K + 1) → ι → ℝ) :
    (Fin.foldl (K + 1) (fun s k => lseStep s (a k)) ((⊥ : EReal), (0 : EReal))).1
      + Ideal.log (Fin.foldl (K + 1) (fun s k => lseStep s (a k)) ((⊥ : EReal), (0 : EReal))).2
      = ((allMax a + Real.log (∑ k, ∑ j, Real.exp (a k j - allMax a)) : ℝ) : EReal) := by
  rw [fin_foldl_lseStep, log_coe_pos (sum_sum_exp_pos a _), ← EReal.coe_add]

/-- The same value without the maximum: `M + log (∑ k, ∑ j, exp (a k j - M)) = log (∑ k, ∑ j, exp (a k j))`,
    for every real shift `M`. -/
theorem add_log_sum_sum_exp_sub {K : ℕ} (a : Fin (K + 1) → ι → ℝ) (M : ℝ) :
    M + Real.log (∑ k, ∑ j, Real.exp (a k j - M)) = Real.log (∑ k, ∑ j, Real.exp (a k j)) := by
  have h := add_log_sum_exp_sub (fun p : Fin (K + 1) × ι => a p.1 p.2) M
  rwa [Fintype.sum_prod_type, Fintype.sum_prod_type] at h

/-- THE WEIGHT after the recurrence: with `(m, l)` the final state, `exp (x - (m + log l))` is the
    soft-max weight `exp (x - M) / ∑ k, ∑ j, exp (a k j - M)` of the real `x`. -/
theorem fin_foldl_lseStep_weight {K : ℕ} (a : Fin (K + 1) → ι → ℝ) (x : ℝ) :
    Ideal.exp ((x : EReal)
      - ((Fin.foldl (K + 1) (fun s k => lseStep s (a k)) ((⊥ : EReal), (0 : EReal))).1
        + Ideal.log (Fin.foldl (K + 1) (fun s k => lseStep s (a k)) ((⊥ : EReal), (0 : EReal))).2))
      = ((Real.exp (x - allMax a) / (∑ k, ∑ j, Real.exp (a k j - allMax a)) : ℝ) : EReal) := by
  rw [fin_foldl_lseStep, exp_sub_add_log _ _ (sum_sum_exp_pos a _)]

end FinTiles

/-! ## The tiles of one flat row -/

section FlatRow
variable {ι κ : Type*} [Fintype ι] [Nonempty ι] [Fintype κ] [Nonempty κ]

/-- The soft-max weight does not depend on the shift: `exp (x - c) / ∑ exp (f p - c) = exp x / ∑ exp (f p)`. -/
theorem exp_sub_div_sum_exp_sub (f : κ → ℝ) (x c : ℝ) :
    Real.exp (x - c) / (∑ p, Real.exp (f p - c)) = Real.exp x / ∑ p, Real.exp (f p) := by
  have h : (∑ p, Real.exp (f p - c)) = (∑ p, Real.exp (f p)) / Real.exp c := by
    rw [Finset.sum_div]
    exact Finset.sum_congr rfl fun p _ => Real.exp_sub _ _
  rw [h, Real.exp_sub, div_div_div_cancel_right₀ (Real.exp_pos c).ne']

/-- The maximum of all entries of the tiles `(k, j) ↦ f (e (k, j))` of a flat row `f`, for an
    equivalence `e` of the pairs (tile, position) with the flat index, is the row's maximum. -/
theorem allMax_comp_equiv {K : ℕ} (e : Fin (K + 1) × ι ≃ κ) (f : κ → ℝ) :
    allMax (fun k j => f (e (k, j))) = tileMax f := by
  refine (eq_allMax _ (fun k j => le_tileMax f _) ?_).symm
  obtain ⟨p, hp⟩ := exists_eq_tileMax f
  refine ⟨(e.symm p).1, (e.symm p).2, ?_⟩
  rw [Prod.mk.eta, Equiv.apply_symm_apply, hp]

/-- The double sum over the tiles of a flat row is the sum over the row. -/
theorem sum_sum_comp_equiv {K : ℕ} (e : Fin (K + 1) × ι ≃ κ) (g : κ → ℝ) :
    ∑ k, ∑ j, g (e (k, j)) = ∑ p, g p := by
  rw [← Fintype.sum_prod_type (f := fun q => g (e q))]
  exact Equiv.sum_comp e g

/-- ONLINE LOG-SUM-EXP of a flat row `f` read in the tiles `(k, j) ↦ f (e (k, j))`: the final running
    maximum is the row's maximum `M = tileMax f` and the final running sum is `∑ p, exp (f p - M)`. -/
theorem fin_foldl_lseStep_flat {K : ℕ} (e : Fin (K + 1) × ι ≃ κ) (f : κ → ℝ) :
    Fin.foldl (K + 1) (fun s k => lseStep s fun j => f (e (k, j))) ((⊥ : EReal), (0 : EReal))
      = (((tileMax f : ℝ) : EReal), ((∑ p, Real.exp (f p - tileMax f) : ℝ) : EReal)) := by
  rw [fin_foldl_lseStep (fun k j => f (e (k, j))), allMax_comp_equiv,
    sum_sum_comp_equiv e fun p => Real.exp (f p - tileMax f)]

/-- Its log-sum-exp: `m + log l = log (∑ p, exp (f p))`, the coercion of the real log-sum-exp of the row. -/
theorem fin_foldl_lseStep_flat_lse {K : ℕ} (e : Fin (K + 1) × ι ≃ κ) (f : κ → ℝ) :
    (Fin.foldl (K + 1) (fun s k => lseStep s fun j => f (e (k, j))) ((⊥ : EReal), (0 : EReal))).1
      + Ideal.log
        (Fin.foldl (K + 1) (fun s k => lseStep s fun j => f (e (k, j))) ((⊥ : EReal), (0 : EReal))).2
      = ((Real.log (∑ p, Real.exp (f p)) : ℝ) : EReal) := by
  have hpos : 0 < ∑ p, Real.exp (f p - tileMax f) :=
    Finset.sum_pos (fun _ _ => Real.exp_pos _) Finset.univ_nonempty
  rw [fin_foldl_lseStep_flat, log_coe_pos hpos, ← EReal.coe_add, add_log_sum_exp_sub]

/-- Its weight: `exp (x - (m + log l)) = exp x / ∑ p, exp (f p)`, the soft-max weight of the real `x`
    against the row (equally `exp (x - M) / ∑ p, exp (f p - M)` for any shift `M`:
    `exp_sub_div_sum_exp_sub`). -/
theorem fin_foldl_lseStep_flat_weight {K : ℕ} (e : Fin (K + 1) × ι ≃ κ) (f : κ → ℝ) (x : ℝ) :
    Ideal.exp ((x : EReal)
      - ((Fin.foldl (K + 1) (fun s k => lseStep s fun j => f (e (k, j))) ((⊥ : EReal), (0 : EReal))).1
        + Ideal.log
          (Fin.foldl (K + 1) (fun s k => lseStep s fun j => f (e (k, j))) ((⊥ : EReal), (0 : EReal))).2))
      = ((Real.exp x / (∑ p, Real.exp (f p)) : ℝ) : EReal) := by
  have hpos : 0 < ∑ p, Real.exp (f p - tileMax f) :=
    Finset.sum_pos (fun _ _ => Real.exp_pos _) Finset.univ_nonempty
  rw [fin_foldl_lseStep_flat, exp_sub_add_log _ _ hpos, exp_sub_div_sum_exp_sub]

end FlatRow

end Cert.Lib.LogSumExp
-- ==== Proof.LseV2Step.lean ====
import proofs.«154747_j1580547971631_2_alg».proof.Proof.LseV2Score
import proofs.«154747_j1580547971631_2_alg».proof.Proof.LibLogSumExp
import proofs.«154747_j1580547971631_2_alg».proof.Proof.LibSumReindex

set_option maxRecDepth 16384

noncomputable section

namespace Cert.KernelIdeal.Lse0

open Cert.KernelIdeal Cert.KernelIdeal.Gen
open Idealize.ShloMosaic Idealize.ShloMosaic.ValueIdx
open scoped BigOperators

open Cert.Lib.LogSumExp

/-! # One tile's update of the two running columns, row by row

At row r the new running maximum is the larger of the old one and the largest score of the row in this tile; the
new running sum is the old one rescaled by the exponential of (old maximum minus new maximum) plus the sum over
the row of the exponentials of (score minus new maximum). With real inputs that is exactly one step of the online
log-sum-exp recurrence on the row of scores. -/

/-- The bit pattern of minus infinity is the bottom element of the extended reals. -/
theorem ofBits_neg_inf : FloatOps.ofBits (F := Ideal) .f32 0xFF800000#32 = (⊥ : EReal) := by
  show Ideal.ofBits .f32 0xFF800000#32 = ⊥
  simp [Ideal.ofBits, Ideal.ieee]

/-- A fold of the binary maximum from the bottom element is the supremum. -/
theorem fold_max_eq_sup {ι : Type*} (s : Finset ι) (f : ι → EReal) : s.fold max ⊥ f = s.sup f := by
  classical
  induction s using Finset.induction_on with
  | empty => simp
  | insert a s ha ih => rw [Finset.fold_insert ha, Finset.sup_insert, ih]

/-- Row r of the result of a reduction along the rows, with column s put back, is entry (r, s). -/
theorem lift_row (r s : Fin 1024) : reduces_S1024x1024_S1024.lift (ix1 r) s = ix2 r s :=
  funext fun a => Fin.ext (by match a with | ⟨0, _⟩ => rfl | ⟨1, _⟩ => rfl)

/-- The new running maximum at row r. -/
theorem pay4_apply (x2 x3 : FVec Ideal S1024x1024 .bf16) (m : FVec Ideal S1024x1 .f32) (r : Fin 1024) (u : Fin 1) :
    k0_pay4 (F := Ideal) x2 x3 m (ix2 r u)
      = max (m (ix2 r u)) (Finset.univ.sup fun s : Fin 1024 => k0_pay3 (F := Ideal) x2 x3 (ix2 r s)) := by
  unfold k0_pay4
  show max (m (ix2 r u)) (shapeCast S1024x1 _ shapeCasts_S1024_S1024x1 (ix2 r u)) = _
  refine congrArg (max (m (ix2 r u))) ?_
  refine (col_of_vec _ r u).trans ?_
  refine (Ideal.multiReduction_maximumf_single (k0_pay3 (F := Ideal) x2 x3) 0xFF800000#32 reduces_S1024x1024_S1024 (.inl rfl) rfl (ix1 r)).trans ?_
  have e2 : (k0_pay3 (F := Ideal) x2 x3 ∘ reduces_S1024x1024_S1024.lift (ix1 r))
      = fun s : Fin 1024 => k0_pay3 (F := Ideal) x2 x3 (ix2 r s) := funext fun s => congrArg (k0_pay3 (F := Ideal) x2 x3) (lift_row r s)
  rw [ofBits_neg_inf, e2]
  exact fold_max_eq_sup _ _

/-- The column the running maximum is stored from is that maximum. -/
theorem pay6_eq (x2 x3 : FVec Ideal S1024x1024 .bf16) (m : FVec Ideal S1024x1 .f32) :
    k0_pay6 (F := Ideal) x2 x3 m = k0_pay4 (F := Ideal) x2 x3 m := by
  unfold k0_pay6
  exact shapeCast_self _ _

/-- The new running sum at row r, from the old maximum m and the old sum l. -/
theorem pay5_apply (x2 x3 : FVec Ideal S1024x1024 .bf16) (m l : FVec Ideal S1024x1 .f32) (r : Fin 1024) (u : Fin 1) :
    k0_pay5 (F := Ideal) x2 x3 m m l (ix2 r u)
      = l (ix2 r u) * Ideal.exp (m (ix2 r u) - k0_pay4 (F := Ideal) x2 x3 m (ix2 r u))
        + ∑ s : Fin 1024, Ideal.exp (k0_pay3 (F := Ideal) x2 x3 (ix2 r s) - k0_pay4 (F := Ideal) x2 x3 m (ix2 r (0 : Fin 1))) := by
  unfold k0_pay5
  refine (congrFun (shapeCast_self _ _) _).trans ?_
  show l (ix2 r u) * Ideal.exp (m (ix2 r u) - k0_pay4 (F := Ideal) x2 x3 m (ix2 r u))
      + shapeCast S1024x1 _ shapeCasts_S1024_S1024x1 (ix2 r u) = _
  refine congrArg (fun z : EReal => l (ix2 r u) * Ideal.exp (m (ix2 r u) - k0_pay4 (F := Ideal) x2 x3 m (ix2 r u)) + z) ?_
  refine (col_of_vec _ r u).trans ?_
  refine (Ideal.multiReduction_add_single _ 0x00000000#32 reduces_S1024x1024_S1024 (.inl rfl) rfl (ix1 r)).trans ?_
  refine Finset.sum_congr rfl fun (s : Fin 1024) _ => ?_
  have e : reduces_S1024x1024_S1024.lift (ix1 r) s = ix2 r s := lift_row r s
  show Ideal.exp (k0_pay3 (F := Ideal) x2 x3 (reduces_S1024x1024_S1024.lift (ix1 r) s)
      - broadcastTo S1024x1024 (k0_pay4 (F := Ideal) x2 x3 m) broadcasts_S1024x1_S1024x1024 (reduces_S1024x1024_S1024.lift (ix1 r) s)) = _
  rw [e, bcast_col]

/-- The output block at row r: the maximum plus the logarithm of the sum. -/
theorem pay7_apply (a b : FVec Ideal S1024x1 .f32) (j : S1024x1.Idx) :
    k0_pay7 (F := Ideal) a b j = a j + Ideal.log (b j) := rfl

/-- The reset value of the running maximum is minus infinity in every row. -/
theorem pay1_apply (j : S1024x1.Idx) : k0_pay1 (F := Ideal) j = (⊥ : EReal) := by
  unfold k0_pay1
  refine (congrFun (shapeCast_self _ _) _).trans ?_
  exact ofBits_neg_inf

/-- The reset value of the running sum is zero in every row. -/
theorem pay2_apply (j : S1024x1.Idx) : k0_pay2 (F := Ideal) j = (0 : EReal) := by
  unfold k0_pay2
  refine (congrFun (shapeCast_self _ _) _).trans ?_
  exact Ideal.ofBits_zero_f32

/-- With real query rows a and real key rows b in the two blocks, the pair (new maximum, new sum) at row r is one
    step of the online log-sum-exp recurrence from the pair (old maximum, old sum) on the row of real scores. -/
theorem step_eq (a b : Fin 1024 → Fin 1024 → ℝ) (x2 x3 : FVec Ideal S1024x1024 .bf16)
    (hx2 : ∀ r d, x2 (ix2 r d) = ((a r d : ℝ) : EReal)) (hx3 : ∀ s d, x3 (ix2 s d) = ((b s d : ℝ) : EReal))
    (m l : FVec Ideal S1024x1 .f32) (r : Fin 1024) (u : Fin 1) :
    (k0_pay6 (F := Ideal) x2 x3 m (ix2 r u), k0_pay5 (F := Ideal) x2 x3 m m l (ix2 r u))
      = lseStep (m (ix2 r u), l (ix2 r u)) (fun s : Fin 1024 => ∑ d, a r d * b s d) := by
  obtain rfl : u = 0 := Subsingleton.elim _ _
  have h3 : ∀ s, k0_pay3 (F := Ideal) x2 x3 (ix2 r s) = ((∑ d, a r d * b s d : ℝ) : EReal) := fun s => by
    rw [pay3_apply]; simp only [hx2, hx3]; exact Cert.Lib.SumReindex.coe_sum_mul _ _
  have h4 : k0_pay4 (F := Ideal) x2 x3 m (ix2 r (0 : Fin 1))
      = max (m (ix2 r (0 : Fin 1))) (Finset.univ.sup fun s : Fin 1024 => ((∑ d, a r d * b s d : ℝ) : EReal)) := by
    rw [pay4_apply]; simp only [h3]
  unfold lseStep
  rw [pay6_eq, pay5_apply, h4]
  simp only [h3]

end Cert.KernelIdeal.Lse0
end
-- ==== Proof.LseV3Inv.lean ====
import proofs.«154747_j1580547971631_2_alg».proof.Proof.LseV1Pieces
import proofs.«154747_j1580547971631_2_alg».proof.Proof.LseV2Step
import proofs.«154747_j1580547971631_2_alg».proof.Proof.LibLogSumExp
import proofs.«154747_j1580547971631_2_alg».proof.Proof.Gen.KernelIdeal.Launch

set_option maxRecDepth 16384

noncomputable section

namespace Cert.KernelIdeal.Lse0

open Cert.KernelIdeal Cert.KernelIdeal.Gen
open Idealize.ShloMosaic Idealize.ShloMosaic.TcCoe Idealize.ShloMosaic.ValueIdx
open Idealize.ShloMosaic.Pipeline (Dat)
open Cert.Lib.LogSumExp
open scoped BigOperators

/-! # The two running columns, tile after tile

Fix a row block b and a row r of it, and write i = 1024 b + r for the row of the first matrix. The score of row i
against key row p is the inner product of the two rows. Tile n of the keys holds key rows 1024 (n % 8) ...
1024 (n % 8) + 1023. After the tile with coordinate kv of row block b the pair (running maximum, running sum) at
row r is the left fold of the online log-sum-exp step over the rows of scores of tiles 0, ..., kv, started from
(minus infinity, zero); so after the last tile, maximum plus logarithm of the sum is the logarithm of the sum over
all 8192 keys of the exponentials of the scores. -/

variable (V : (c : Dev nD) → (b : Ref sig .tc) → Buf (Elt Ideal) ((c : Thread nD τ).loc b))
variable (c : Dev nD) (q k : Fin 8192 → Fin 1024 → ℝ)

/-- The row of the first matrix that row r of the block of point n is. -/
def rowAt (n : ℕ) (r : Fin 1024) : Fin 8192 := ⟨1024 * (n / 8 % 8) + r.val, by have := r.isLt; omega⟩
/-- The row of the second matrix that row s of the key tile of point n is. -/
def keyAt (n : ℕ) (s : Fin 1024) : Fin 8192 := ⟨1024 * (n % 8) + s.val, by have := s.isLt; omega⟩
/-- Row r of row block b. -/
def rowB (b : ℕ) (hb : b < 8) (r : Fin 1024) : Fin 8192 := ⟨1024 * b + r.val, by have := r.isLt; omega⟩
/-- The scores of row i against the key tile of point n. -/
def tileRow (i : Fin 8192) (n : ℕ) : Fin 1024 → ℝ := fun s => ∑ d, q i d * k (keyAt n s) d

theorem rowAt_eq (b : ℕ) (hb : b < 8) (kv : ℕ) (hkv : kv < 8) (r : Fin 1024) : rowAt (8 * b + kv) r = rowB b hb r :=
  Fin.ext (by show 1024 * ((8 * b + kv) / 8 % 8) + r.val = 1024 * b + r.val; omega)
theorem keyAt_add (b kv : ℕ) (s : Fin 1024) : keyAt (8 * b + kv) s = keyAt kv s :=
  Fin.ext (by show 1024 * ((8 * b + kv) % 8) + s.val = 1024 * (kv % 8) + s.val; omega)
theorem tileRow_add (i : Fin 8192) (b kv : ℕ) : tileRow q k i (8 * b + kv) = tileRow q k i kv := by
  unfold tileRow; funext s; rw [keyAt_add]

/-- The pair (running maximum, running sum) at row r after position n. -/
def st (n : ℕ) (hn : n < cfg0.N) (r : Fin 1024) (u : Fin 1) : EReal × EReal :=
  ((outsAt V c n hn).2.1 (ix2 r u), (outsAt V c n hn).2.2 (ix2 r u))

/-- A key tile's row of scores is the flat row of scores read through tile and position. -/
theorem tile_flat (i : Fin 8192) (κ : Fin 8) :
    (fun j : Fin 1024 => (fun p : Fin 8192 => ∑ d, q i d * k p d) ((finProdFinEquiv : Fin 8 × Fin 1024 ≃ Fin 8192) (κ, j)))
      = tileRow q k i κ.val := by
  funext j
  unfold tileRow
  refine Finset.sum_congr rfl fun d _ => ?_
  congr 2
  exact Fin.ext (by show j.val + 1024 * κ.val = 1024 * (κ.val % 8) + j.val; have := κ.isLt; omega)

section Steps
variable (hA : ∀ (t : Fin cfg0.N) (r d : Fin 1024), (iblk V c 0 t : Vec Ideal S1024x1024 .bf16) (ix2 r d) = ((q (rowAt t.val r) d : ℝ) : EReal))
variable (hB : ∀ (t : Fin cfg0.N) (s d : Fin 1024), (iblk V c 1 t : Vec Ideal S1024x1024 .bf16) (ix2 s d) = ((k (keyAt t.val s) d : ℝ) : EReal))
include hA hB

/-- A row block's first tile: one step from the reset values. -/
theorem st_first (t : Fin cfg0.N) (h0 : t.val % 8 = 0) (r : Fin 1024) (u : Fin 1) :
    st V c t.val t.isLt r u = lseStep ((⊥ : EReal), (0 : EReal)) (tileRow q k (rowAt t.val r) t.val) := by
  have h7 : ¬t.val % 8 = 7 := by omega
  unfold st
  rw [outsAt_first V c t h0 h7]
  dsimp only
  rw [rd5_first, rd6_first]
  refine (step_eq (fun r d => q (rowAt t.val r) d) (fun s d => k (keyAt t.val s) d) (iblk V c 0 t) (iblk V c 1 t)
    (hA t) (hB t) k0_pay1 k0_pay2 r u).trans ?_
  rw [pay1_apply, pay2_apply]
  rfl

/-- Any later tile: one step from what the tile before left. -/
theorem st_next (t : Fin cfg0.N) (h0 : ¬t.val % 8 = 0) (r : Fin 1024) (u : Fin 1) :
    st V c t.val t.isLt r u
      = lseStep ((prev V c t).2.1 (ix2 r u), (prev V c t).2.2 (ix2 r u)) (tileRow q k (rowAt t.val r) t.val) := by
  unfold st
  by_cases h7 : t.val % 8 = 7
  · rw [outsAt_last V c t h0 h7]
    dsimp only
    rw [rd5_last, rd6_last]
    exact step_eq (fun r d => q (rowAt t.val r) d) (fun s d => k (keyAt t.val s) d) (iblk V c 0 t) (iblk V c 1 t)
      (hA t) (hB t) (prev V c t).2.1 (prev V c t).2.2 r u
  · rw [outsAt_mid V c t h0 h7]
    dsimp only
    rw [rd5_mid, rd6_mid]
    exact step_eq (fun r d => q (rowAt t.val r) d) (fun s d => k (keyAt t.val s) d) (iblk V c 0 t) (iblk V c 1 t)
      (hA t) (hB t) (prev V c t).2.1 (prev V c t).2.2 r u

/-- THE INVARIANT: after the tile with coordinate kv of row block b, the fold over tiles 0, ..., kv. -/
theorem inv (b : ℕ) (hb : b < 8) (r : Fin 1024) (u : Fin 1) :
    ∀ (kv : ℕ) (hkv : kv < 8) (h : 8 * b + kv < cfg0.N),
      st V c (8 * b + kv) h r u
        = Fin.foldl (kv + 1) (fun s κ => lseStep s (tileRow q k (rowB b hb r) κ.val)) ((⊥ : EReal), (0 : EReal))
  | 0, hkv, h => by
    have e := st_first V c q k hA hB ⟨8 * b + 0, h⟩ (by show (8 * b + 0) % 8 = 0; omega) r u
    rw [Fin.foldl_succ, Fin.foldl_zero]
    refine e.trans ?_
    show lseStep _ (tileRow q k (rowAt (8 * b + 0) r) (8 * b + 0)) = lseStep _ (tileRow q k (rowB b hb r) 0)
    rw [rowAt_eq b hb 0 hkv r, tileRow_add]
  | kv + 1, hkv, h => by
    have hN : cfg0.N = 64 := N_0
    have h' : 8 * b + kv < cfg0.N := by omega
    have ih : ((outsAt V c (8 * b + kv) h').2.1 (ix2 r u), (outsAt V c (8 * b + kv) h').2.2 (ix2 r u))
        = Fin.foldl (kv + 1) (fun s κ => lseStep s (tileRow q k (rowB b hb r) κ.val)) ((⊥ : EReal), (0 : EReal)) :=
      inv b hb r u kv (by omega) h'
    have e := st_next V c q k hA hB ⟨8 * b + (kv + 1), h⟩ (by show ¬(8 * b + (kv + 1)) % 8 = 0; omega) r u
    have hp : prev V c ⟨8 * b + (kv + 1), h⟩ = outsAt V c (8 * b + kv) h' := rfl
    rw [hp] at e
    refine e.trans ?_
    show lseStep _ (tileRow q k (rowAt (8 * b + (kv + 1)) r) (8 * b + (kv + 1))) = _
    rw [ih, rowAt_eq b hb (kv + 1) hkv r, tileRow_add]
    exact (Fin.foldl_succ_last (fun s (κ : Fin (kv + 1 + 1)) => lseStep s (tileRow q k (rowB b hb r) κ.val)) _).symm

/-- THE OUTPUT BLOCK of a row block's last tile, at row r: the logarithm of the sum over all keys of the
    exponentials of the scores of row 1024 b + r. -/
theorem out_last (b : ℕ) (hb : b < 8) (r : Fin 1024) (u : Fin 1) (h : 8 * b + 7 < cfg0.N) :
    (outsAt V c (8 * b + 7) h).1 (ix2 r u)
      = ((Real.log (∑ j : Fin 8192, Real.exp (∑ d, q (rowB b hb r) d * k j d)) : ℝ) : EReal) := by
  have h0 : ¬(⟨8 * b + 7, h⟩ : Fin cfg0.N).val % 8 = 0 := by show ¬(8 * b + 7) % 8 = 0; omega
  have h7 : (⟨8 * b + 7, h⟩ : Fin cfg0.N).val % 8 = 7 := by show (8 * b + 7) % 8 = 7; omega
  have e1 : (outsAt V c (8 * b + 7) h).1 (ix2 r u)
      = (st V c (8 * b + 7) h r u).1 + Ideal.log (st V c (8 * b + 7) h r u).2 := by
    unfold st
    rw [outsAt_last V c ⟨8 * b + 7, h⟩ h0 h7]
    dsimp only
    rw [rdO_last, rd5_last, rd6_last, pay7_apply]
  rw [e1, inv V c q k hA hB b hb r u 7 (by omega) h]
  have hf := fin_foldl_lseStep_flat_lse (K := 7) (finProdFinEquiv : Fin 8 × Fin 1024 ≃ Fin 8192)
    (fun p : Fin 8192 => ∑ d, q (rowB b hb r) d * k p d)
  have hfold : Fin.foldl (7 + 1) (fun s κ => lseStep s (tileRow q k (rowB b hb r) κ.val)) ((⊥ : EReal), (0 : EReal))
      = Fin.foldl (7 + 1) (fun s κ => lseStep s fun j : Fin 1024 =>
          (fun p : Fin 8192 => ∑ d, q (rowB b hb r) d * k p d) ((finProdFinEquiv : Fin 8 × Fin 1024 ≃ Fin 8192) (κ, j)))
          ((⊥ : EReal), (0 : EReal)) :=
    congrArg (fun g => Fin.foldl (7 + 1) g ((⊥ : EReal), (0 : EReal)))
      (funext fun s => funext fun κ => congrArg (lseStep s) (tile_flat q k (rowB b hb r) κ).symm)
  rw [hfold]
  exact hf

end Steps

end Cert.KernelIdeal.Lse0
end
-- ==== Proof.LseV4Blocks.lean ====
import proofs.«154747_j1580547971631_2_alg».proof.Proof.Lse0Data
import proofs.«154747_j1580547971631_2_alg».proof.Proof.SpecEmbed
import Idealize.ShloMosaic.Lib.ValueIdx
import Idealize.ShloMosaic.Lib.Pipeline.Value

set_option maxRecDepth 16384

noncomputable section

namespace Cert.KernelIdeal.Lse0

open Cert.KernelIdeal Cert.KernelIdeal.Gen
open Idealize.ShloMosaic Idealize.ShloMosaic.TcCoe Idealize.ShloMosaic.ValueIdx
open Idealize.ShloMosaic.Pipeline (Dat)
open scoped BigOperators

/-! # The blocks of the two input arrays

Point t of the grid works on row block t / 8 and key tile t % 8. The first window's block at t is rows
1024 (t / 8) ... 1024 (t / 8) + 1023 of the first array; the second window's block is rows 1024 (t % 8) ...
1024 (t % 8) + 1023 of the second array; the output window's block is rows 1024 (t / 8) ... of the result column.
A block's element (r, d) sits at row (block index) * 1024 + r and column d of its array. -/

variable (V : (c : Dev nD) → (b : Ref sig .tc) → Buf (Elt Ideal) ((c : Thread nD τ).loc b))

/-- The block indices of the three windows, decided over the grid. -/
theorem idx0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem idx1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem idx2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- Element (r, d) of the first window's block at point t is entry (1024 (t / 8) + r, d) of the first matrix. -/
theorem iblk0_apply (c : Dev nD) (q : Fin 8192 → Fin 1024 → ℝ) (hq : V c main_v12 = Cert.Spec.embed q)
    (t : Fin cfg0.N) (r d : Fin 1024) (i : Fin 8192) (hi : i.val = 1024 * (t.val / 8) + r.val) :
    (iblk V c 0 t : Vec Ideal S1024x1024 .bf16) (ix2 r d) = ((q i d : ℝ) : EReal) := by
  unfold iblk
  rw [View.read_apply]
  show V c main_v12 _ = _
  rw [hq]
  refine (congrArg (Cert.Spec.embed q) (?_ : _ = ix2 i d)).trans (Cert.Spec.embed_ix2 q i d)
  funext a
  apply Fin.ext
  match a with
  | ⟨0, _⟩ => show win0_0.index t (0 : Fin 2) * 1024 + 1 * r.val = i.val; rw [(idx0 t).1, hi]; omega
  | ⟨1, _⟩ => show win0_0.index t (1 : Fin 2) * 1024 + 1 * d.val = d.val; rw [(idx0 t).2]; omega

/-- Element (s, d) of the second window's block at point t is entry (1024 (t % 8) + s, d) of the second matrix. -/
theorem iblk1_apply (c : Dev nD) (k : Fin 8192 → Fin 1024 → ℝ) (hk : V c main_v13 = Cert.Spec.embed k)
    (t : Fin cfg0.N) (s d : Fin 1024) (j : Fin 8192) (hj : j.val = 1024 * (t.val % 8) + s.val) :
    (iblk V c 1 t : Vec Ideal S1024x1024 .bf16) (ix2 s d) = ((k j d : ℝ) : EReal) := by
  unfold iblk
  rw [View.read_apply]
  show V c main_v13 _ = _
  rw [hk]
  refine (congrArg (Cert.Spec.embed k) (?_ : _ = ix2 j d)).trans (Cert.Spec.embed_ix2 k j d)
  funext a
  apply Fin.ext
  match a with
  | ⟨0, _⟩ => show win0_1.index t (0 : Fin 2) * 1024 + 1 * s.val = j.val; rw [(idx1 t).1, hj]; omega
  | ⟨1, _⟩ => show win0_1.index t (1 : Fin 2) * 1024 + 1 * d.val = d.val; rw [(idx1 t).2]; omega

end Cert.KernelIdeal.Lse0
end
-- ==== Proof.LseV5Array.lean ====
import proofs.«154747_j1580547971631_2_alg».proof.Proof.LseV3Inv
import proofs.«154747_j1580547971631_2_alg».proof.Proof.LseV4Blocks
import proofs.«154747_j1580547971631_2_alg».proof.Proof.Gen.KernelIdeal.Points
import proofs.«154747_j1580547971631_2_alg».proof.Proof.Gen.KernelIdeal.Launch
import Idealize.ShloMosaic.Lib.Pipeline.Value

set_option maxRecDepth 16384

noncomputable section

namespace Cert.KernelIdeal.Lse0

open Cert.KernelIdeal Cert.KernelIdeal.Gen
open Idealize.ShloMosaic Idealize.ShloMosaic.TcCoe Idealize.ShloMosaic.ValueIdx
open Idealize.ShloMosaic.Pipeline (Dat)
open scoped BigOperators

/-! # The result column of the row log-sum-exp region

The output window is written back at each row block's last tile, and the eight blocks written there tile the
result column. Block b holds, at row r, the logarithm of the sum over all keys of the exponentials of the scores of
row 1024 b + r; so the column ends holding, at row i, the log-sum-exp of row i of the score matrix. -/

variable (V : (c : Dev nD) → (b : Ref sig .tc) → Buf (Elt Ideal) ((c : Thread nD τ).loc b))
variable (c : Dev nD) (q k : Fin 8192 → Fin 1024 → ℝ)

/-- The result column: at row i the logarithm of the sum over j of the exponentials of the inner products of row i of
    the first matrix with row j of the second. -/
abbrev lseCol : (⟨2, ![8192, 1]⟩ : Shape).Idx → EReal :=
  Cert.Spec.embed (fun (i : Fin 8192) (_ : Fin 1) => Real.log (∑ j : Fin 8192, Real.exp (∑ d : Fin 1024, q i d * k j d)))

/-- The first window's blocks hold the rows of the first matrix. -/
theorem blkA (hq : V c main_v12 = Cert.Spec.embed q) (t : Fin cfg0.N) (r d : Fin 1024) :
    (iblk V c 0 t : Vec Ideal S1024x1024 .bf16) (ix2 r d) = ((q (rowAt t.val r) d : ℝ) : EReal) :=
  iblk0_apply V c q hq t r d (rowAt t.val r) (by
    have hN : cfg0.N = 64 := N_0
    have := t.isLt
    show 1024 * (t.val / 8 % 8) + r.val = 1024 * (t.val / 8) + r.val
    omega)
/-- The second window's blocks hold the rows of the second matrix. -/
theorem blkB (hk : V c main_v13 = Cert.Spec.embed k) (t : Fin cfg0.N) (s d : Fin 1024) :
    (iblk V c 1 t : Vec Ideal S1024x1024 .bf16) (ix2 s d) = ((k (keyAt t.val s) d : ℝ) : EReal) :=
  iblk1_apply V c k hk t s d (keyAt t.val s) rfl

/-- What the last tile of row block b leaves in the output block is block b of the result column. -/
theorem out_at (hq : V c main_v12 = Cert.Spec.embed q) (hk : V c main_v13 = Cert.Spec.embed k)
    (b : ℕ) (hb : b < 8) (h : 8 * b + 7 < cfg0.N) (j : S1024x1.Idx) :
    (outsAt V c (8 * b + 7) h).1 j = lseCol q k (((cfg0.win 2).blk ⟨8 * b + 7, h⟩).view.emb j) := by
  obtain ⟨r, u, rfl⟩ : ∃ (r : Fin 1024) (u : Fin 1), j = ix2 r u := ⟨j 0, j 1, eq_ix2 j⟩
  rw [out_last V c q k (blkA V c q hq) (blkB V c k hk) b hb r u h]
  refine ((congrArg (lseCol q k) (?_ : _ = ix2 (rowB b hb r) u)).trans (Cert.Spec.embed_ix2 _ (rowB b hb r) u)).symm
  funext a
  apply Fin.ext
  match a with
  | ⟨0, _⟩ =>
    show win0_2.index ⟨8 * b + 7, h⟩ (0 : Fin 2) * 1024 + 1 * r.val = 1024 * b + r.val
    rw [(idx2 ⟨8 * b + 7, h⟩).1]
    show (8 * b + 7) / 8 * 1024 + 1 * r.val = 1024 * b + r.val
    omega
  | ⟨1, _⟩ =>
    show win0_2.index ⟨8 * b + 7, h⟩ (1 : Fin 2) * 1 + 1 * u.val = u.val
    rw [(idx2 ⟨8 * b + 7, h⟩).2]
    omega

/-- WHAT A WRITE-BACK WRITES is its block of the result column. -/
theorem flushed_eq (hq : V c main_v12 = Cert.Spec.embed q) (hk : V c main_v13 = Cert.Spec.embed k)
    (t : Fin cfg0.N) (hf : (cfg0.win 2).flush t = true) :
    (dat V c).flushed 2 t = ((cfg0.win 2).blk t).view.read (Elt Ideal) (lseCol q k) := by
  have hN : cfg0.N = 64 := N_0
  have h7 : t.val % 8 = 7 := (flush0_2 t).mp hf
  obtain ⟨n, hn⟩ := t
  obtain ⟨b, rfl⟩ : ∃ b, n = 8 * b + 7 := ⟨n / 8, by dsimp only at h7; omega⟩
  show (cfg0.win 2).cut (grid0.coords ⟨8 * b + 7, hn⟩) ((dat V c).after 2 ⟨8 * b + 7, hn⟩) = _
  rw [after2]
  funext j
  rw [View.read_apply]
  exact out_at V c q k hq hk b (by omega) hn j

/-- The written-back blocks cover the result column: row i is in the block of row block i / 1024. -/
theorem cover (i : (⟨2, ![8192, 1]⟩ : Shape).Idx) :
    ∃ t : Fin cfg0.N, (cfg0.win 2).flush t = true ∧ i ∈ ((cfg0.win 2).blk t).view.set := by
  have hN : cfg0.N = 64 := N_0
  have hi0 : (i 0).val < 8192 := (i 0).isLt
  have hi1 : (i 1).val < 1 := (i 1).isLt
  have ht : 8 * ((i 0).val / 1024) + 7 < cfg0.N := by omega
  refine ⟨⟨8 * ((i 0).val / 1024) + 7, ht⟩, (flush0_2 _).mpr (by show (8 * ((i 0).val / 1024) + 7) % 8 = 7; omega), ?_⟩
  show i ∈ ((View.whole main_v14).slice (win0_2.rect ⟨8 * ((i 0).val / 1024) + 7, ht⟩)).set
  rw [View.set_slice_whole, Rect.mem_set_unit]
  intro a
  match a with
  | ⟨0, _⟩ =>
    show win0_2.index ⟨8 * ((i 0).val / 1024) + 7, ht⟩ (0 : Fin 2) * 1024 ≤ (i 0).val
      ∧ (i 0).val < win0_2.index ⟨8 * ((i 0).val / 1024) + 7, ht⟩ (0 : Fin 2) * 1024 + 1024
    rw [(idx2 ⟨8 * ((i 0).val / 1024) + 7, ht⟩).1]
    show (8 * ((i 0).val / 1024) + 7) / 8 * 1024 ≤ (i 0).val ∧ (i 0).val < (8 * ((i 0).val / 1024) + 7) / 8 * 1024 + 1024
    omega
  | ⟨1, _⟩ =>
    show win0_2.index ⟨8 * ((i 0).val / 1024) + 7, ht⟩ (1 : Fin 2) * 1 ≤ (i 1).val
      ∧ (i 1).val < win0_2.index ⟨8 * ((i 0).val / 1024) + 7, ht⟩ (1 : Fin 2) * 1 + 1
    rw [(idx2 ⟨8 * ((i 0).val / 1024) + 7, ht⟩).2]
    omega

/-- THE RESULT ARRAY of the region: the column of row log-sum-exps of the score matrix of the two input matrices. -/
theorem arr_value (hq : V c main_v12 = Cert.Spec.embed q) (hk : V c main_v13 = Cert.Spec.embed k) :
    (dat V c).arrAt 2 cfg0.N
      = Cert.Spec.embed (fun (i : Fin 8192) (_ : Fin 1) => Real.log (∑ j : Fin 8192, Real.exp (∑ d : Fin 1024, q i d * k j d))) :=
  (dat V c).arrAt_eq_of_cover 2 (lseCol q k) (flushed_eq V c q k hq hk) cover

end Cert.KernelIdeal.Lse0
end
-- ==== Proof.LseV1PiecesR1.lean ====
import proofs.«154747_j1580547971631_2_alg».proof.Proof.Lse1Data
import Idealize.ShloMosaic.Lib.Pipeline.Value

set_option maxRecDepth 16384

noncomputable section

namespace Cert.KernelIdeal.Lse1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # What each tile's stores leave in the two running columns and in the output block

A tile's body ends with one store over the whole running-sum column and one over the whole running-maximum column,
and a row block's last tile with one more over the whole output block. Read back, each column is the payload of that
last store. The loads that feed the payloads read the two input blocks whole; the running columns as the tile found
them, or, at a row block's first tile, as the reset just stored them; and, for the output block, the two columns as
this tile's own stores just left them. -/

variable {F : FTy → Type} [FloatOps F]

/-- The zero offsets of a whole-buffer rectangle of rank two. -/
theorem hz : (![0, 0] : Fin 2 → Nat) = fun _ => 0 := funext fun a => by fin_cases a <;> rfl

section Cases
variable (c : Dev nD) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole)
    (x2 x3 : Vec F S1024x1024 .bf16)

/-- First tile, running maximum: the maximum of the reset value (minus infinity) and the tile's row maxima. -/
theorem canon5_first (hf : first1 i) (hl : ¬last1 i) :
    View.canon (runFirst (F := F) (Ix := Unit) (U := UR sig nD τ) (Lvl := ℕ) c i arg2 harg2 arg3 harg3 arg4 harg4 arg5 harg5 arg6 harg6 hf hl x2 x3).1 = k1_pay6 x2 x3 k1_pay1 := by
  unfold runFirst
  dsimp only
  sl_unfold_words
  rw [View.canon_cons_unit_zero (S := S1024x1) hz]
  simp only [View.readAt_eq_ld, harg2.read_unread, harg3.read_unread, harg5.read_unread, harg6.read_unread,
    View.ld_unit_zero (S := S1024x1024) hz, View.ld_unit_zero (S := S1024x1) hz, View.readCov_unit_zero (S := S1024x1) _ hz]

/-- First tile, running sum: the update from the reset values (minus infinity and zero). -/
theorem canon6_first (hf : first1 i) (hl : ¬last1 i) :
    View.canon (runFirst (F := F) (Ix := Unit) (U := UR sig nD τ) (Lvl := ℕ) c i arg2 harg2 arg3 harg3 arg4 harg4 arg5 harg5 arg6 harg6 hf hl x2 x3).2.1 = k1_pay5 x2 x3 k1_pay1 k1_pay1 k1_pay2 := by
  unfold runFirst
  dsimp only
  sl_unfold_words
  rw [View.canon_cons_unit_zero (S := S1024x1) hz]
  simp only [View.readAt_eq_ld, harg2.read_unread, harg3.read_unread, harg5.read_unread, harg6.read_unread,
    View.ld_unit_zero (S := S1024x1024) hz, View.ld_unit_zero (S := S1024x1) hz, View.readCov_unit_zero (S := S1024x1) _ hz]

/-- Middle tile, running maximum, from the columns s5, s6 the tile before left. -/
theorem canon5_mid (hf : ¬first1 i) (hl : ¬last1 i) (s5 s6 : Vec F S1024x1 .f32) :
    View.canon (runMid (F := F) (Ix := Unit) (U := UR sig nD τ) (Lvl := ℕ) c i arg2 harg2 arg3 harg3 arg4 harg4 arg5 harg5 arg6 harg6 hf hl x2 x3 s5 s6).1 = k1_pay6 x2 x3 s5 := by
  unfold runMid
  dsimp only
  sl_unfold_words
  rw [View.canon_cons_unit_zero (S := S1024x1) hz]
  simp only [View.readAt_eq_ld, harg2.read_unread, harg3.read_unread, harg5.read_unread, harg6.read_unread,
    View.ld_unit_zero (S := S1024x1024) hz, View.ld_unit_zero (S := S1024x1) hz, View.readCov_unit_zero (S := S1024x1) _ hz]

/-- Middle tile, running sum. -/
theorem canon6_mid (hf : ¬first1 i) (hl : ¬last1 i) (s5 s6 : Vec F S1024x1 .f32) :
    View.canon (runMid (F := F) (Ix := Unit) (U := UR sig nD τ) (Lvl := ℕ) c i arg2 harg2 arg3 harg3 arg4 harg4 arg5 harg5 arg6 harg6 hf hl x2 x3 s5 s6).2.1 = k1_pay5 x2 x3 s5 s5 s6 := by
  unfold runMid
  dsimp only
  sl_unfold_words
  rw [View.canon_cons_unit_zero (S := S1024x1) hz]
  simp only [View.readAt_eq_ld, harg2.read_unread, harg3.read_unread, harg5.read_unread, harg6.read_unread,
    View.ld_unit_zero (S := S1024x1024) hz, View.ld_unit_zero (S := S1024x1) hz, View.readCov_unit_zero (S := S1024x1) _ hz]

/-- Last tile, output block: the updated maximum plus the logarithm of the updated sum. -/
theorem canon4_last (hf : ¬first1 i) (hl : last1 i) (s5 s6 : Vec F S1024x1 .f32) :
    View.canon (runLast (F := F) (Ix := Unit) (U := UR sig nD τ) (Lvl := ℕ) c i arg2 harg2 arg3 harg3 arg4 harg4 arg5 harg5 arg6 harg6 hf hl x2 x3 s5 s6).1 = k1_pay7 (k1_pay6 x2 x3 s5) (k1_pay5 x2 x3 s5 s5 s6) := by
  unfold runLast
  dsimp only
  sl_unfold_words
  rw [View.canon_cons_unit_zero (S := S1024x1) hz]
  simp only [View.readAt_eq_ld, harg2.read_unread, harg3.read_unread, harg5.read_unread, harg6.read_unread,
    View.ld_unit_zero (S := S1024x1024) hz, View.ld_unit_zero (S := S1024x1) hz, View.readCov_unit_zero (S := S1024x1) _ hz]

/-- Last tile, running maximum. -/
theorem canon5_last (hf : ¬first1 i) (hl : last1 i) (s5 s6 : Vec F S1024x1 .f32) :
    View.canon (runLast (F := F) (Ix := Unit) (U := UR sig nD τ) (Lvl := ℕ) c i arg2 harg2 arg3 harg3 arg4 harg4 arg5 harg5 arg6 harg6 hf hl x2 x3 s5 s6).2.1 = k1_pay6 x2 x3 s5 := by
  unfold runLast
  dsimp only
  sl_unfold_words
  rw [View.canon_cons_unit_zero (S := S1024x1) hz]
  simp only [View.readAt_eq_ld, harg2.read_unread, harg3.read_unread, harg5.read_unread, harg6.read_unread,
    View.ld_unit_zero (S := S1024x1024) hz, View.ld_unit_zero (S := S1024x1) hz, View.readCov_unit_zero (S := S1024x1) _ hz]

/-- Last tile, running sum. -/
theorem canon6_last (hf : ¬first1 i) (hl : last1 i) (s5 s6 : Vec F S1024x1 .f32) :
    View.canon (runLast (F := F) (Ix := Unit) (U := UR sig nD τ) (Lvl := ℕ) c i arg2 harg2 arg3 harg3 arg4 harg4 arg5 harg5 arg6 harg6 hf hl x2 x3 s5 s6).2.2.1 = k1_pay5 x2 x3 s5 s5 s6 := by
  unfold runLast
  dsimp only
  sl_unfold_words
  rw [View.canon_cons_unit_zero (S := S1024x1) hz]
  simp only [View.readAt_eq_ld, harg2.read_unread, harg3.read_unread, harg5.read_unread, harg6.read_unread,
    View.ld_unit_zero (S := S1024x1024) hz, View.ld_unit_zero (S := S1024x1) hz, View.readCov_unit_zero (S := S1024x1) _ hz]

end Cases

/-! ## The same at a point of the grid -/

variable (V : (c : Dev nD) → (b : Ref sig .tc) → Buf (Elt F) ((c : Thread nD τ).loc b))

theorem rd5_first (c : Dev nD) (t : Fin cfg1.N) (hf : t.val % 8 = 0) (hl : ¬t.val % 8 = 7) :
    rd5 (firstAt V c t hf hl).1 = k1_pay6 (iblk V c 0 t) (iblk V c 1 t) k1_pay1 := by
  unfold rd5 firstAt
  exact (View.read_writes_junk_eq_canon _ _).trans (canon5_first (F := F) c (grid1.coords t) (ms0 t) (hs0 t) (ms1 t) (hs1 t) (ms2 t) (hs2 t) scM5 (Memref.isWhole_whole _) scM6 (Memref.isWhole_whole _) (iblk V c 0 t) (iblk V c 1 t) _ _)
theorem rd6_first (c : Dev nD) (t : Fin cfg1.N) (hf : t.val % 8 = 0) (hl : ¬t.val % 8 = 7) :
    rd6 (firstAt V c t hf hl).2.1 = k1_pay5 (iblk V c 0 t) (iblk V c 1 t) k1_pay1 k1_pay1 k1_pay2 := by
  unfold rd6 firstAt
  exact (View.read_writes_junk_eq_canon _ _).trans (canon6_first (F := F) c (grid1.coords t) (ms0 t) (hs0 t) (ms1 t) (hs1 t) (ms2 t) (hs2 t) scM5 (Memref.isWhole_whole _) scM6 (Memref.isWhole_whole _) (iblk V c 0 t) (iblk V c 1 t) _ _)
theorem rd5_mid (c : Dev nD) (t : Fin cfg1.N) (hf : ¬t.val % 8 = 0) (hl : ¬t.val % 8 = 7) (s5 s6 : Vec F S1024x1 .f32) :
    rd5 (midAt V c t hf hl s5 s6).1 = k1_pay6 (iblk V c 0 t) (iblk V c 1 t) s5 := by
  unfold rd5 midAt
  exact (View.read_writes_junk_eq_canon _ _).trans (canon5_mid (F := F) c (grid1.coords t) (ms0 t) (hs0 t) (ms1 t) (hs1 t) (ms2 t) (hs2 t) scM5 (Memref.isWhole_whole _) scM6 (Memref.isWhole_whole _) (iblk V c 0 t) (iblk V c 1 t) _ _ s5 s6)
theorem rd6_mid (c : Dev nD) (t : Fin cfg1.N) (hf : ¬t.val % 8 = 0) (hl : ¬t.val % 8 = 7) (s5 s6 : Vec F S1024x1 .f32) :
    rd6 (midAt V c t hf hl s5 s6).2.1 = k1_pay5 (iblk V c 0 t) (iblk V c 1 t) s5 s5 s6 := by
  unfold rd6 midAt
  exact (View.read_writes_junk_eq_canon _ _).trans (canon6_mid (F := F) c (grid1.coords t) (ms0 t) (hs0 t) (ms1 t) (hs1 t) (ms2 t) (hs2 t) scM5 (Memref.isWhole_whole _) scM6 (Memref.isWhole_whole _) (iblk V c 0 t) (iblk V c 1 t) _ _ s5 s6)
theorem rdO_last (c : Dev nD) (t : Fin cfg1.N) (hf : ¬t.val % 8 = 0) (hl : t.val % 8 = 7) (s5 s6 : Vec F S1024x1 .f32) :
    rdO (lastAt V c t hf hl s5 s6).1
      = k1_pay7 (k1_pay6 (iblk V c 0 t) (iblk V c 1 t) s5) (k1_pay5 (iblk V c 0 t) (iblk V c 1 t) s5 s5 s6) := by
  unfold rdO lastAt
  exact (View.read_writes_junk_eq_canon _ _).trans (canon4_last (F := F) c (grid1.coords t) (ms0 t) (hs0 t) (ms1 t) (hs1 t) (ms2 t) (hs2 t) scM5 (Memref.isWhole_whole _) scM6 (Memref.isWhole_whole _) (iblk V c 0 t) (iblk V c 1 t) _ _ s5 s6)
theorem rd5_last (c : Dev nD) (t : Fin cfg1.N) (hf : ¬t.val % 8 = 0) (hl : t.val % 8 = 7) (s5 s6 : Vec F S1024x1 .f32) :
    rd5 (lastAt V c t hf hl s5 s6).2.1 = k1_pay6 (iblk V c 0 t) (iblk V c 1 t) s5 := by
  unfold rd5 lastAt
  exact (View.read_writes_junk_eq_canon _ _).trans (canon5_last (F := F) c (grid1.coords t) (ms0 t) (hs0 t) (ms1 t) (hs1 t) (ms2 t) (hs2 t) scM5 (Memref.isWhole_whole _) scM6 (Memref.isWhole_whole _) (iblk V c 0 t) (iblk V c 1 t) _ _ s5 s6)
theorem rd6_last (c : Dev nD) (t : Fin cfg1.N) (hf : ¬t.val % 8 = 0) (hl : t.val % 8 = 7) (s5 s6 : Vec F S1024x1 .f32) :
    rd6 (lastAt V c t hf hl s5 s6).2.2.1 = k1_pay5 (iblk V c 0 t) (iblk V c 1 t) s5 s5 s6 := by
  unfold rd6 lastAt
  exact (View.read_writes_junk_eq_canon _ _).trans (canon6_last (F := F) c (grid1.coords t) (ms0 t) (hs0 t) (ms1 t) (hs1 t) (ms2 t) (hs2 t) scM5 (Memref.isWhole_whole _) scM6 (Memref.isWhole_whole _) (iblk V c 0 t) (iblk V c 1 t) _ _ s5 s6)

end Cert.KernelIdeal.Lse1
end
-- ==== Proof.LseV2ScoreR1.lean ====
import proofs.«154747_j1580547971631_2_alg».proof.Proof.Gen.KernelIdeal.Skeleton
import Idealize.ShloMosaic.PureOps.Ideal.Laws
import Idealize.ShloMosaic.Lib.ValueIdx
import Idealize.ShloMosaic.Lib.Pipeline.Value

set_option maxRecDepth 16384

noncomputable section

namespace Cert.KernelIdeal.Lse1

open Cert.KernelIdeal Cert.KernelIdeal.Gen
open Idealize.ShloMosaic Idealize.ShloMosaic.ValueIdx
open scoped BigOperators

/-! # A tile's score matrix, entry by entry

The tile's scores are the product of the block of query rows with the block of key rows, contracted over the shared
last axis: entry (r, s) is the sum over d of query row r at d times key row s at d. Two layout steps of the
payloads are read here as well: a vector of row results viewed as a column, and a column repeated along the rows. -/

/-- A vector of 1024 row results viewed as a column reads, at row r, the vector at r. -/
theorem col_of_vec (v : FVec Ideal S1024 .f32) (r : Fin 1024) (u : Fin 1) :
    shapeCast S1024x1 v shapeCasts_S1024_S1024x1 (ix2 r u) = v (ix1 r) :=
  shapeCast_apply v shapeCasts_S1024_S1024x1 (ix2 r u) (ix1 r) (by
    rw [Shape.rowMajor_val_one, Shape.rowMajor_val_two]
    show r.val = r.val * 1 + u.val
    omega)

/-- A column repeated along the rows reads, at (r, s), the column at row r. -/
theorem bcast_col (v : FVec Ideal S1024x1 .f32) (r s : Fin 1024) :
    broadcastTo S1024x1024 v broadcasts_S1024x1_S1024x1024 (ix2 r s) = v (ix2 r (0 : Fin 1)) := by
  refine broadcastTo_apply v broadcasts_S1024x1_S1024x1024 (ix2 r s) (ix2 r (0 : Fin 1)) fun ax => ?_
  match ax with
  | ⟨0, _⟩ => rfl
  | ⟨1, _⟩ => rfl

/-- The left operand's index for output entry (r, s) and contraction position d is (r, d). -/
theorem lhs_idx (r s d : Fin 1024) :
    dot_S1024x1024_S1024x1024_S1024x1024_1_1_0_0_n_n.lhsIdx (ix2 r s)
      ((contrEquiv1 dot_S1024x1024_S1024x1024_S1024x1024_1_1_0_0_n_n 1024 rfl rfl).symm d) = ix2 r d := by
  funext a
  apply Fin.ext
  match a with
  | ⟨0, _⟩ => rfl
  | ⟨1, _⟩ =>
    refine (DotDims.lhsIdx_val_of_single dot_S1024x1024_S1024x1024_S1024x1024_1_1_0_0_n_n (cl := (1 : Fin 2)) rfl _ _).trans ?_
    exact contrEquiv1_symm_val _ 1024 rfl rfl d

/-- The right operand's index for output entry (r, s) and contraction position d is (s, d). -/
theorem rhs_idx (r s d : Fin 1024) :
    dot_S1024x1024_S1024x1024_S1024x1024_1_1_0_0_n_n.rhsIdx (ix2 r s)
      ((contrEquiv1 dot_S1024x1024_S1024x1024_S1024x1024_1_1_0_0_n_n 1024 rfl rfl).symm d) = ix2 s d := by
  funext a
  apply Fin.ext
  match a with
  | ⟨0, _⟩ => rfl
  | ⟨1, _⟩ =>
    refine (DotDims.rhsIdx_val_of_single dot_S1024x1024_S1024x1024_S1024x1024_1_1_0_0_n_n (cr := (1 : Fin 2)) rfl _ _).trans ?_
    exact contrEquiv1_symm_val _ 1024 rfl rfl d

/-- Entry (r, s) of the tile's scores: the inner product of query row r and key row s. -/
theorem pay3_apply (x2 x3 : FVec Ideal S1024x1024 .bf16) (r s : Fin 1024) :
    k1_pay3 (F := Ideal) x2 x3 (ix2 r s) = ∑ d : Fin 1024, x2 (ix2 r d) * x3 (ix2 s d) := by
  unfold k1_pay3
  refine (Ideal.matmul_constant_zero_apply dot_S1024x1024_S1024x1024_S1024x1024_1_1_0_0_n_n none _ _ (ix2 r s)).trans ?_
  refine (Equiv.sum_comp (contrEquiv1 dot_S1024x1024_S1024x1024_S1024x1024_1_1_0_0_n_n 1024 rfl rfl).symm _).symm.trans ?_
  refine Finset.sum_congr rfl fun d _ => ?_
  rw [lhs_idx, rhs_idx, shapeCast_self, shapeCast_self]

end Cert.KernelIdeal.Lse1
end
-- ==== Proof.LseV2StepR1.lean ====
import proofs.«154747_j1580547971631_2_alg».proof.Proof.LseV2ScoreR1
import proofs.«154747_j1580547971631_2_alg».proof.Proof.LibLogSumExp
import proofs.«154747_j1580547971631_2_alg».proof.Proof.LibSumReindex

set_option maxRecDepth 16384

noncomputable section

namespace Cert.KernelIdeal.Lse1

open Cert.KernelIdeal Cert.KernelIdeal.Gen
open Idealize.ShloMosaic Idealize.ShloMosaic.ValueIdx
open scoped BigOperators

open Cert.Lib.LogSumExp

/-! # One tile's update of the two running columns, row by row

At row r the new running maximum is the larger of the old one and the largest score of the row in this tile; the
new running sum is the old one rescaled by the exponential of (old maximum minus new maximum) plus the sum over
the row of the exponentials of (score minus new maximum). With real inputs that is exactly one step of the online
log-sum-exp recurrence on the row of scores. -/

/-- The bit pattern of minus infinity is the bottom element of the extended reals. -/
theorem ofBits_neg_inf : FloatOps.ofBits (F := Ideal) .f32 0xFF800000#32 = (⊥ : EReal) := by
  show Ideal.ofBits .f32 0xFF800000#32 = ⊥
  simp [Ideal.ofBits, Ideal.ieee]

/-- A fold of the binary maximum from the bottom element is the supremum. -/
theorem fold_max_eq_sup {ι : Type*} (s : Finset ι) (f : ι → EReal) : s.fold max ⊥ f = s.sup f := by
  classical
  induction s using Finset.induction_on with
  | empty => simp
  | insert a s ha ih => rw [Finset.fold_insert ha, Finset.sup_insert, ih]

/-- Row r of the result of a reduction along the rows, with column s put back, is entry (r, s). -/
theorem lift_row (r s : Fin 1024) : reduces_S1024x1024_S1024.lift (ix1 r) s = ix2 r s :=
  funext fun a => Fin.ext (by match a with | ⟨0, _⟩ => rfl | ⟨1, _⟩ => rfl)

/-- The new running maximum at row r. -/
theorem pay4_apply (x2 x3 : FVec Ideal S1024x1024 .bf16) (m : FVec Ideal S1024x1 .f32) (r : Fin 1024) (u : Fin 1) :
    k1_pay4 (F := Ideal) x2 x3 m (ix2 r u)
      = max (m (ix2 r u)) (Finset.univ.sup fun s : Fin 1024 => k1_pay3 (F := Ideal) x2 x3 (ix2 r s)) := by
  unfold k1_pay4
  show max (m (ix2 r u)) (shapeCast S1024x1 _ shapeCasts_S1024_S1024x1 (ix2 r u)) = _
  refine congrArg (max (m (ix2 r u))) ?_
  refine (col_of_vec _ r u).trans ?_
  refine (Ideal.multiReduction_maximumf_single (k1_pay3 (F := Ideal) x2 x3) 0xFF800000#32 reduces_S1024x1024_S1024 (.inl rfl) rfl (ix1 r)).trans ?_
  have e2 : (k1_pay3 (F := Ideal) x2 x3 ∘ reduces_S1024x1024_S1024.lift (ix1 r))
      = fun s : Fin 1024 => k1_pay3 (F := Ideal) x2 x3 (ix2 r s) := funext fun s => congrArg (k1_pay3 (F := Ideal) x2 x3) (lift_row r s)
  rw [ofBits_neg_inf, e2]
  exact fold_max_eq_sup _ _

/-- The column the running maximum is stored from is that maximum. -/
theorem pay6_eq (x2 x3 : FVec Ideal S1024x1024 .bf16) (m : FVec Ideal S1024x1 .f32) :
    k1_pay6 (F := Ideal) x2 x3 m = k1_pay4 (F := Ideal) x2 x3 m := by
  unfold k1_pay6
  exact shapeCast_self _ _

/-- The new running sum at row r, from the old maximum m and the old sum l. -/
theorem pay5_apply (x2 x3 : FVec Ideal S1024x1024 .bf16) (m l : FVec Ideal S1024x1 .f32) (r : Fin 1024) (u : Fin 1) :
    k1_pay5 (F := Ideal) x2 x3 m m l (ix2 r u)
      = l (ix2 r u) * Ideal.exp (m (ix2 r u) - k1_pay4 (F := Ideal) x2 x3 m (ix2 r u))
        + ∑ s : Fin 1024, Ideal.exp (k1_pay3 (F := Ideal) x2 x3 (ix2 r s) - k1_pay4 (F := Ideal) x2 x3 m (ix2 r (0 : Fin 1))) := by
  unfold k1_pay5
  refine (congrFun (shapeCast_self _ _) _).trans ?_
  show l (ix2 r u) * Ideal.exp (m (ix2 r u) - k1_pay4 (F := Ideal) x2 x3 m (ix2 r u))
      + shapeCast S1024x1 _ shapeCasts_S1024_S1024x1 (ix2 r u) = _
  refine congrArg (fun z : EReal => l (ix2 r u) * Ideal.exp (m (ix2 r u) - k1_pay4 (F := Ideal) x2 x3 m (ix2 r u)) + z) ?_
  refine (col_of_vec _ r u).trans ?_
  refine (Ideal.multiReduction_add_single _ 0x00000000#32 reduces_S1024x1024_S1024 (.inl rfl) rfl (ix1 r)).trans ?_
  refine Finset.sum_congr rfl fun (s : Fin 1024) _ => ?_
  have e : reduces_S1024x1024_S1024.lift (ix1 r) s = ix2 r s := lift_row r s
  show Ideal.exp (k1_pay3 (F := Ideal) x2 x3 (reduces_S1024x1024_S1024.lift (ix1 r) s)
      - broadcastTo S1024x1024 (k1_pay4 (F := Ideal) x2 x3 m) broadcasts_S1024x1_S1024x1024 (reduces_S1024x1024_S1024.lift (ix1 r) s)) = _
  rw [e, bcast_col]

/-- The output block at row r: the maximum plus the logarithm of the sum. -/
theorem pay7_apply (a b : FVec Ideal S1024x1 .f32) (j : S1024x1.Idx) :
    k1_pay7 (F := Ideal) a b j = a j + Ideal.log (b j) := rfl

/-- The reset value of the running maximum is minus infinity in every row. -/
theorem pay1_apply (j : S1024x1.Idx) : k1_pay1 (F := Ideal) j = (⊥ : EReal) := by
  unfold k1_pay1
  refine (congrFun (shapeCast_self _ _) _).trans ?_
  exact ofBits_neg_inf

/-- The reset value of the running sum is zero in every row. -/
theorem pay2_apply (j : S1024x1.Idx) : k1_pay2 (F := Ideal) j = (0 : EReal) := by
  unfold k1_pay2
  refine (congrFun (shapeCast_self _ _) _).trans ?_
  exact Ideal.ofBits_zero_f32

/-- With real query rows a and real key rows b in the two blocks, the pair (new maximum, new sum) at row r is one
    step of the online log-sum-exp recurrence from the pair (old maximum, old sum) on the row of real scores. -/
theorem step_eq (a b : Fin 1024 → Fin 1024 → ℝ) (x2 x3 : FVec Ideal S1024x1024 .bf16)
    (hx2 : ∀ r d, x2 (ix2 r d) = ((a r d : ℝ) : EReal)) (hx3 : ∀ s d, x3 (ix2 s d) = ((b s d : ℝ) : EReal))
    (m l : FVec Ideal S1024x1 .f32) (r : Fin 1024) (u : Fin 1) :
    (k1_pay6 (F := Ideal) x2 x3 m (ix2 r u), k1_pay5 (F := Ideal) x2 x3 m m l (ix2 r u))
      = lseStep (m (ix2 r u), l (ix2 r u)) (fun s : Fin 1024 => ∑ d, a r d * b s d) := by
  obtain rfl : u = 0 := Subsingleton.elim _ _
  have h3 : ∀ s, k1_pay3 (F := Ideal) x2 x3 (ix2 r s) = ((∑ d, a r d * b s d : ℝ) : EReal) := fun s => by
    rw [pay3_apply]; simp only [hx2, hx3]; exact Cert.Lib.SumReindex.coe_sum_mul _ _
  have h4 : k1_pay4 (F := Ideal) x2 x3 m (ix2 r (0 : Fin 1))
      = max (m (ix2 r (0 : Fin 1))) (Finset.univ.sup fun s : Fin 1024 => ((∑ d, a r d * b s d : ℝ) : EReal)) := by
    rw [pay4_apply]; simp only [h3]
  unfold lseStep
  rw [pay6_eq, pay5_apply, h4]
  simp only [h3]

end Cert.KernelIdeal.Lse1
end
-- ==== Proof.LseV3InvR1.lean ====
import proofs.«154747_j1580547971631_2_alg».proof.Proof.LseV1PiecesR1
import proofs.«154747_j1580547971631_2_alg».proof.Proof.LseV2StepR1
import proofs.«154747_j1580547971631_2_alg».proof.Proof.LibLogSumExp
import proofs.«154747_j1580547971631_2_alg».proof.Proof.Gen.KernelIdeal.Launch

set_option maxRecDepth 16384

noncomputable section

namespace Cert.KernelIdeal.Lse1

open Cert.KernelIdeal Cert.KernelIdeal.Gen
open Idealize.ShloMosaic Idealize.ShloMosaic.TcCoe Idealize.ShloMosaic.ValueIdx
open Idealize.ShloMosaic.Pipeline (Dat)
open Cert.Lib.LogSumExp
open scoped BigOperators

/-! # The two running columns, tile after tile

Fix a row block b and a row r of it, and write i = 1024 b + r for the row of the first matrix. The score of row i
against key row p is the inner product of the two rows. Tile n of the keys holds key rows 1024 (n % 8) ...
1024 (n % 8) + 1023. After the tile with coordinate kv of row block b the pair (running maximum, running sum) at
row r is the left fold of the online log-sum-exp step over the rows of scores of tiles 0, ..., kv, started from
(minus infinity, zero); so after the last tile, maximum plus logarithm of the sum is the logarithm of the sum over
all 8192 keys of the exponentials of the scores. -/

variable (V : (c : Dev nD) → (b : Ref sig .tc) → Buf (Elt Ideal) ((c : Thread nD τ).loc b))
variable (c : Dev nD) (q k : Fin 8192 → Fin 1024 → ℝ)

/-- The row of the first matrix that row r of the block of point n is. -/
def rowAt (n : ℕ) (r : Fin 1024) : Fin 8192 := ⟨1024 * (n / 8 % 8) + r.val, by have := r.isLt; omega⟩
/-- The row of the second matrix that row s of the key tile of point n is. -/
def keyAt (n : ℕ) (s : Fin 1024) : Fin 8192 := ⟨1024 * (n % 8) + s.val, by have := s.isLt; omega⟩
/-- Row r of row block b. -/
def rowB (b : ℕ) (hb : b < 8) (r : Fin 1024) : Fin 8192 := ⟨1024 * b + r.val, by have := r.isLt; omega⟩
/-- The scores of row i against the key tile of point n. -/
def tileRow (i : Fin 8192) (n : ℕ) : Fin 1024 → ℝ := fun s => ∑ d, q i d * k (keyAt n s) d

theorem rowAt_eq (b : ℕ) (hb : b < 8) (kv : ℕ) (hkv : kv < 8) (r : Fin 1024) : rowAt (8 * b + kv) r = rowB b hb r :=
  Fin.ext (by show 1024 * ((8 * b + kv) / 8 % 8) + r.val = 1024 * b + r.val; omega)
theorem keyAt_add (b kv : ℕ) (s : Fin 1024) : keyAt (8 * b + kv) s = keyAt kv s :=
  Fin.ext (by show 1024 * ((8 * b + kv) % 8) + s.val = 1024 * (kv % 8) + s.val; omega)
theorem tileRow_add (i : Fin 8192) (b kv : ℕ) : tileRow q k i (8 * b + kv) = tileRow q k i kv := by
  unfold tileRow; funext s; rw [keyAt_add]

/-- The pair (running maximum, running sum) at row r after position n. -/
def st (n : ℕ) (hn : n < cfg1.N) (r : Fin 1024) (u : Fin 1) : EReal × EReal :=
  ((outsAt V c n hn).2.1 (ix2 r u), (outsAt V c n hn).2.2 (ix2 r u))

/-- A key tile's row of scores is the flat row of scores read through tile and position. -/
theorem tile_flat (i : Fin 8192) (κ : Fin 8) :
    (fun j : Fin 1024 => (fun p : Fin 8192 => ∑ d, q i d * k p d) ((finProdFinEquiv : Fin 8 × Fin 1024 ≃ Fin 8192) (κ, j)))
      = tileRow q k i κ.val := by
  funext j
  unfold tileRow
  refine Finset.sum_congr rfl fun d _ => ?_
  congr 2
  exact Fin.ext (by show j.val + 1024 * κ.val = 1024 * (κ.val % 8) + j.val; have := κ.isLt; omega)

section Steps
variable (hA : ∀ (t : Fin cfg1.N) (r d : Fin 1024), (iblk V c 0 t : Vec Ideal S1024x1024 .bf16) (ix2 r d) = ((q (rowAt t.val r) d : ℝ) : EReal))
variable (hB : ∀ (t : Fin cfg1.N) (s d : Fin 1024), (iblk V c 1 t : Vec Ideal S1024x1024 .bf16) (ix2 s d) = ((k (keyAt t.val s) d : ℝ) : EReal))
include hA hB

/-- A row block's first tile: one step from the reset values. -/
theorem st_first (t : Fin cfg1.N) (h0 : t.val % 8 = 0) (r : Fin 1024) (u : Fin 1) :
    st V c t.val t.isLt r u = lseStep ((⊥ : EReal), (0 : EReal)) (tileRow q k (rowAt t.val r) t.val) := by
  have h7 : ¬t.val % 8 = 7 := by omega
  unfold st
  rw [outsAt_first V c t h0 h7]
  dsimp only
  rw [rd5_first, rd6_first]
  refine (step_eq (fun r d => q (rowAt t.val r) d) (fun s d => k (keyAt t.val s) d) (iblk V c 0 t) (iblk V c 1 t)
    (hA t) (hB t) k1_pay1 k1_pay2 r u).trans ?_
  rw [pay1_apply, pay2_apply]
  rfl

/-- Any later tile: one step from what the tile before left. -/
theorem st_next (t : Fin cfg1.N) (h0 : ¬t.val % 8 = 0) (r : Fin 1024) (u : Fin 1) :
    st V c t.val t.isLt r u
      = lseStep ((prev V c t).2.1 (ix2 r u), (prev V c t).2.2 (ix2 r u)) (tileRow q k (rowAt t.val r) t.val) := by
  unfold st
  by_cases h7 : t.val % 8 = 7
  · rw [outsAt_last V c t h0 h7]
    dsimp only
    rw [rd5_last, rd6_last]
    exact step_eq (fun r d => q (rowAt t.val r) d) (fun s d => k (keyAt t.val s) d) (iblk V c 0 t) (iblk V c 1 t)
      (hA t) (hB t) (prev V c t).2.1 (prev V c t).2.2 r u
  · rw [outsAt_mid V c t h0 h7]
    dsimp only
    rw [rd5_mid, rd6_mid]
    exact step_eq (fun r d => q (rowAt t.val r) d) (fun s d => k (keyAt t.val s) d) (iblk V c 0 t) (iblk V c 1 t)
      (hA t) (hB t) (prev V c t).2.1 (prev V c t).2.2 r u

/-- THE INVARIANT: after the tile with coordinate kv of row block b, the fold over tiles 0, ..., kv. -/
theorem inv (b : ℕ) (hb : b < 8) (r : Fin 1024) (u : Fin 1) :
    ∀ (kv : ℕ) (hkv : kv < 8) (h : 8 * b + kv < cfg1.N),
      st V c (8 * b + kv) h r u
        = Fin.foldl (kv + 1) (fun s κ => lseStep s (tileRow q k (rowB b hb r) κ.val)) ((⊥ : EReal), (0 : EReal))
  | 0, hkv, h => by
    have e := st_first V c q k hA hB ⟨8 * b + 0, h⟩ (by show (8 * b + 0) % 8 = 0; omega) r u
    rw [Fin.foldl_succ, Fin.foldl_zero]
    refine e.trans ?_
    show lseStep _ (tileRow q k (rowAt (8 * b + 0) r) (8 * b + 0)) = lseStep _ (tileRow q k (rowB b hb r) 0)
    rw [rowAt_eq b hb 0 hkv r, tileRow_add]
  | kv + 1, hkv, h => by
    have hN : cfg1.N = 64 := N_1
    have h' : 8 * b + kv < cfg1.N := by omega
    have ih : ((outsAt V c (8 * b + kv) h').2.1 (ix2 r u), (outsAt V c (8 * b + kv) h').2.2 (ix2 r u))
        = Fin.foldl (kv + 1) (fun s κ => lseStep s (tileRow q k (rowB b hb r) κ.val)) ((⊥ : EReal), (0 : EReal)) :=
      inv b hb r u kv (by omega) h'
    have e := st_next V c q k hA hB ⟨8 * b + (kv + 1), h⟩ (by show ¬(8 * b + (kv + 1)) % 8 = 0; omega) r u
    have hp : prev V c ⟨8 * b + (kv + 1), h⟩ = outsAt V c (8 * b + kv) h' := rfl
    rw [hp] at e
    refine e.trans ?_
    show lseStep _ (tileRow q k (rowAt (8 * b + (kv + 1)) r) (8 * b + (kv + 1))) = _
    rw [ih, rowAt_eq b hb (kv + 1) hkv r, tileRow_add]
    exact (Fin.foldl_succ_last (fun s (κ : Fin (kv + 1 + 1)) => lseStep s (tileRow q k (rowB b hb r) κ.val)) _).symm

/-- THE OUTPUT BLOCK of a row block's last tile, at row r: the logarithm of the sum over all keys of the
    exponentials of the scores of row 1024 b + r. -/
theorem out_last (b : ℕ) (hb : b < 8) (r : Fin 1024) (u : Fin 1) (h : 8 * b + 7 < cfg1.N) :
    (outsAt V c (8 * b + 7) h).1 (ix2 r u)
      = ((Real.log (∑ j : Fin 8192, Real.exp (∑ d, q (rowB b hb r) d * k j d)) : ℝ) : EReal) := by
  have h0 : ¬(⟨8 * b + 7, h⟩ : Fin cfg1.N).val % 8 = 0 := by show ¬(8 * b + 7) % 8 = 0; omega
  have h7 : (⟨8 * b + 7, h⟩ : Fin cfg1.N).val % 8 = 7 := by show (8 * b + 7) % 8 = 7; omega
  have e1 : (outsAt V c (8 * b + 7) h).1 (ix2 r u)
      = (st V c (8 * b + 7) h r u).1 + Ideal.log (st V c (8 * b + 7) h r u).2 := by
    unfold st
    rw [outsAt_last V c ⟨8 * b + 7, h⟩ h0 h7]
    dsimp only
    rw [rdO_last, rd5_last, rd6_last, pay7_apply]
  rw [e1, inv V c q k hA hB b hb r u 7 (by omega) h]
  have hf := fin_foldl_lseStep_flat_lse (K := 7) (finProdFinEquiv : Fin 8 × Fin 1024 ≃ Fin 8192)
    (fun p : Fin 8192 => ∑ d, q (rowB b hb r) d * k p d)
  have hfold : Fin.foldl (7 + 1) (fun s κ => lseStep s (tileRow q k (rowB b hb r) κ.val)) ((⊥ : EReal), (0 : EReal))
      = Fin.foldl (7 + 1) (fun s κ => lseStep s fun j : Fin 1024 =>
          (fun p : Fin 8192 => ∑ d, q (rowB b hb r) d * k p d) ((finProdFinEquiv : Fin 8 × Fin 1024 ≃ Fin 8192) (κ, j)))
          ((⊥ : EReal), (0 : EReal)) :=
    congrArg (fun g => Fin.foldl (7 + 1) g ((⊥ : EReal), (0 : EReal)))
      (funext fun s => funext fun κ => congrArg (lseStep s) (tile_flat q k (rowB b hb r) κ).symm)
  rw [hfold]
  exact hf

end Steps

end Cert.KernelIdeal.Lse1
end
-- ==== Proof.LseV4BlocksR1.lean ====
import proofs.«154747_j1580547971631_2_alg».proof.Proof.Lse1Data
import proofs.«154747_j1580547971631_2_alg».proof.Proof.SpecEmbed
import Idealize.ShloMosaic.Lib.ValueIdx
import Idealize.ShloMosaic.Lib.Pipeline.Value

set_option maxRecDepth 16384

noncomputable section

namespace Cert.KernelIdeal.Lse1

open Cert.KernelIdeal Cert.KernelIdeal.Gen
open Idealize.ShloMosaic Idealize.ShloMosaic.TcCoe Idealize.ShloMosaic.ValueIdx
open Idealize.ShloMosaic.Pipeline (Dat)
open scoped BigOperators

/-! # The blocks of the two input arrays

Point t of the grid works on row block t / 8 and key tile t % 8. The first window's block at t is rows
1024 (t / 8) ... 1024 (t / 8) + 1023 of the first array; the second window's block is rows 1024 (t % 8) ...
1024 (t % 8) + 1023 of the second array; the output window's block is rows 1024 (t / 8) ... of the result column.
A block's element (r, d) sits at row (block index) * 1024 + r and column d of its array. -/

variable (V : (c : Dev nD) → (b : Ref sig .tc) → Buf (Elt Ideal) ((c : Thread nD τ).loc b))

/-- The block indices of the three windows, decided over the grid. -/
theorem idx0 : ∀ t : Fin cfg1.N, win1_0.index t (0 : Fin 2) = t.val / 8 ∧ win1_0.index t (1 : Fin 2) = 0 :=
  (by decide +kernel : ∀ t : Fin grid1.N, win1_0.index t (0 : Fin 2) = t.val / 8 ∧ win1_0.index t (1 : Fin 2) = 0)
theorem idx1 : ∀ t : Fin cfg1.N, win1_1.index t (0 : Fin 2) = t.val % 8 ∧ win1_1.index t (1 : Fin 2) = 0 :=
  (by decide +kernel : ∀ t : Fin grid1.N, win1_1.index t (0 : Fin 2) = t.val % 8 ∧ win1_1.index t (1 : Fin 2) = 0)
theorem idx2 : ∀ t : Fin cfg1.N, win1_2.index t (0 : Fin 2) = t.val / 8 ∧ win1_2.index t (1 : Fin 2) = 0 :=
  (by decide +kernel : ∀ t : Fin grid1.N, win1_2.index t (0 : Fin 2) = t.val / 8 ∧ win1_2.index t (1 : Fin 2) = 0)

/-- Element (r, d) of the first window's block at point t is entry (1024 (t / 8) + r, d) of the first matrix. -/
theorem iblk0_apply (c : Dev nD) (q : Fin 8192 → Fin 1024 → ℝ) (hq : V c main_v13 = Cert.Spec.embed q)
    (t : Fin cfg1.N) (r d : Fin 1024) (i : Fin 8192) (hi : i.val = 1024 * (t.val / 8) + r.val) :
    (iblk V c 0 t : Vec Ideal S1024x1024 .bf16) (ix2 r d) = ((q i d : ℝ) : EReal) := by
  unfold iblk
  rw [View.read_apply]
  show V c main_v13 _ = _
  rw [hq]
  refine (congrArg (Cert.Spec.embed q) (?_ : _ = ix2 i d)).trans (Cert.Spec.embed_ix2 q i d)
  funext a
  apply Fin.ext
  match a with
  | ⟨0, _⟩ => show win1_0.index t (0 : Fin 2) * 1024 + 1 * r.val = i.val; rw [(idx0 t).1, hi]; omega
  | ⟨1, _⟩ => show win1_0.index t (1 : Fin 2) * 1024 + 1 * d.val = d.val; rw [(idx0 t).2]; omega

/-- Element (s, d) of the second window's block at point t is entry (1024 (t % 8) + s, d) of the second matrix. -/
theorem iblk1_apply (c : Dev nD) (k : Fin 8192 → Fin 1024 → ℝ) (hk : V c main_v12 = Cert.Spec.embed k)
    (t : Fin cfg1.N) (s d : Fin 1024) (j : Fin 8192) (hj : j.val = 1024 * (t.val % 8) + s.val) :
    (iblk V c 1 t : Vec Ideal S1024x1024 .bf16) (ix2 s d) = ((k j d : ℝ) : EReal) := by
  unfold iblk
  rw [View.read_apply]
  show V c main_v12 _ = _
  rw [hk]
  refine (congrArg (Cert.Spec.embed k) (?_ : _ = ix2 j d)).trans (Cert.Spec.embed_ix2 k j d)
  funext a
  apply Fin.ext
  match a with
  | ⟨0, _⟩ => show win1_1.index t (0 : Fin 2) * 1024 + 1 * s.val = j.val; rw [(idx1 t).1, hj]; omega
  | ⟨1, _⟩ => show win1_1.index t (1 : Fin 2) * 1024 + 1 * d.val = d.val; rw [(idx1 t).2]; omega

end Cert.KernelIdeal.Lse1
end
-- ==== Proof.LseV5ArrayR1.lean ====
import proofs.«154747_j1580547971631_2_alg».proof.Proof.LseV3InvR1
import proofs.«154747_j1580547971631_2_alg».proof.Proof.LseV4BlocksR1
import proofs.«154747_j1580547971631_2_alg».proof.Proof.Gen.KernelIdeal.Points
import proofs.«154747_j1580547971631_2_alg».proof.Proof.Gen.KernelIdeal.Launch
import Idealize.ShloMosaic.Lib.Pipeline.Value

set_option maxRecDepth 16384

noncomputable section

namespace Cert.KernelIdeal.Lse1

open Cert.KernelIdeal Cert.KernelIdeal.Gen
open Idealize.ShloMosaic Idealize.ShloMosaic.TcCoe Idealize.ShloMosaic.ValueIdx
open Idealize.ShloMosaic.Pipeline (Dat)
open scoped BigOperators

/-! # The result column of the row log-sum-exp region

The output window is written back at each row block's last tile, and the eight blocks written there tile the
result column. Block b holds, at row r, the logarithm of the sum over all keys of the exponentials of the scores of
row 1024 b + r; so the column ends holding, at row i, the log-sum-exp of row i of the score matrix. -/

variable (V : (c : Dev nD) → (b : Ref sig .tc) → Buf (Elt Ideal) ((c : Thread nD τ).loc b))
variable (c : Dev nD) (q k : Fin 8192 → Fin 1024 → ℝ)

/-- The result column: at row i the logarithm of the sum over j of the exponentials of the inner products of row i of
    the first matrix with row j of the second. -/
abbrev lseCol : (⟨2, ![8192, 1]⟩ : Shape).Idx → EReal :=
  Cert.Spec.embed (fun (i : Fin 8192) (_ : Fin 1) => Real.log (∑ j : Fin 8192, Real.exp (∑ d : Fin 1024, q i d * k j d)))

/-- The first window's blocks hold the rows of the first matrix. -/
theorem blkA (hq : V c main_v13 = Cert.Spec.embed q) (t : Fin cfg1.N) (r d : Fin 1024) :
    (iblk V c 0 t : Vec Ideal S1024x1024 .bf16) (ix2 r d) = ((q (rowAt t.val r) d : ℝ) : EReal) :=
  iblk0_apply V c q hq t r d (rowAt t.val r) (by
    have hN : cfg1.N = 64 := N_1
    have := t.isLt
    show 1024 * (t.val / 8 % 8) + r.val = 1024 * (t.val / 8) + r.val
    omega)
/-- The second window's blocks hold the rows of the second matrix. -/
theorem blkB (hk : V c main_v12 = Cert.Spec.embed k) (t : Fin cfg1.N) (s d : Fin 1024) :
    (iblk V c 1 t : Vec Ideal S1024x1024 .bf16) (ix2 s d) = ((k (keyAt t.val s) d : ℝ) : EReal) :=
  iblk1_apply V c k hk t s d (keyAt t.val s) rfl

/-- What the last tile of row block b leaves in the output block is block b of the result column. -/
theorem out_at (hq : V c main_v13 = Cert.Spec.embed q) (hk : V c main_v12 = Cert.Spec.embed k)
    (b : ℕ) (hb : b < 8) (h : 8 * b + 7 < cfg1.N) (j : S1024x1.Idx) :
    (outsAt V c (8 * b + 7) h).1 j = lseCol q k (((cfg1.win 2).blk ⟨8 * b + 7, h⟩).view.emb j) := by
  obtain ⟨r, u, rfl⟩ : ∃ (r : Fin 1024) (u : Fin 1), j = ix2 r u := ⟨j 0, j 1, eq_ix2 j⟩
  rw [out_last V c q k (blkA V c q hq) (blkB V c k hk) b hb r u h]
  refine ((congrArg (lseCol q k) (?_ : _ = ix2 (rowB b hb r) u)).trans (Cert.Spec.embed_ix2 _ (rowB b hb r) u)).symm
  funext a
  apply Fin.ext
  match a with
  | ⟨0, _⟩ =>
    show win1_2.index ⟨8 * b + 7, h⟩ (0 : Fin 2) * 1024 + 1 * r.val = 1024 * b + r.val
    rw [(idx2 ⟨8 * b + 7, h⟩).1]
    show (8 * b + 7) / 8 * 1024 + 1 * r.val = 1024 * b + r.val
    omega
  | ⟨1, _⟩ =>
    show win1_2.index ⟨8 * b + 7, h⟩ (1 : Fin 2) * 1 + 1 * u.val = u.val
    rw [(idx2 ⟨8 * b + 7, h⟩).2]
    omega

/-- WHAT A WRITE-BACK WRITES is its block of the result column. -/
theorem flushed_eq (hq : V c main_v13 = Cert.Spec.embed q) (hk : V c main_v12 = Cert.Spec.embed k)
    (t : Fin cfg1.N) (hf : (cfg1.win 2).flush t = true) :
    (dat V c).flushed 2 t = ((cfg1.win 2).blk t).view.read (Elt Ideal) (lseCol q k) := by
  have hN : cfg1.N = 64 := N_1
  have h7 : t.val % 8 = 7 := (flush1_2 t).mp hf
  obtain ⟨n, hn⟩ := t
  obtain ⟨b, rfl⟩ : ∃ b, n = 8 * b + 7 := ⟨n / 8, by dsimp only at h7; omega⟩
  show (cfg1.win 2).cut (grid1.coords ⟨8 * b + 7, hn⟩) ((dat V c).after 2 ⟨8 * b + 7, hn⟩) = _
  rw [after2]
  funext j
  rw [View.read_apply]
  exact out_at V c q k hq hk b (by omega) hn j

/-- The written-back blocks cover the result column: row i is in the block of row block i / 1024. -/
theorem cover (i : (⟨2, ![8192, 1]⟩ : Shape).Idx) :
    ∃ t : Fin cfg1.N, (cfg1.win 2).flush t = true ∧ i ∈ ((cfg1.win 2).blk t).view.set := by
  have hN : cfg1.N = 64 := N_1
  have hi0 : (i 0).val < 8192 := (i 0).isLt
  have hi1 : (i 1).val < 1 := (i 1).isLt
  have ht : 8 * ((i 0).val / 1024) + 7 < cfg1.N := by omega
  refine ⟨⟨8 * ((i 0).val / 1024) + 7, ht⟩, (flush1_2 _).mpr (by show (8 * ((i 0).val / 1024) + 7) % 8 = 7; omega), ?_⟩
  show i ∈ ((View.whole main_v15).slice (win1_2.rect ⟨8 * ((i 0).val / 1024) + 7, ht⟩)).set
  rw [View.set_slice_whole, Rect.mem_set_unit]
  intro a
  match a with
  | ⟨0, _⟩ =>
    show win1_2.index ⟨8 * ((i 0).val / 1024) + 7, ht⟩ (0 : Fin 2) * 1024 ≤ (i 0).val
      ∧ (i 0).val < win1_2.index ⟨8 * ((i 0).val / 1024) + 7, ht⟩ (0 : Fin 2) * 1024 + 1024
    rw [(idx2 ⟨8 * ((i 0).val / 1024) + 7, ht⟩).1]
    show (8 * ((i 0).val / 1024) + 7) / 8 * 1024 ≤ (i 0).val ∧ (i 0).val < (8 * ((i 0).val / 1024) + 7) / 8 * 1024 + 1024
    omega
  | ⟨1, _⟩ =>
    show win1_2.index ⟨8 * ((i 0).val / 1024) + 7, ht⟩ (1 : Fin 2) * 1 ≤ (i 1).val
      ∧ (i 1).val < win1_2.index ⟨8 * ((i 0).val / 1024) + 7, ht⟩ (1 : Fin 2) * 1 + 1
    rw [(idx2 ⟨8 * ((i 0).val / 1024) + 7, ht⟩).2]
    omega

/-- THE RESULT ARRAY of the region: the column of row log-sum-exps of the score matrix of the two input matrices. -/
theorem arr_value (hq : V c main_v13 = Cert.Spec.embed q) (hk : V c main_v12 = Cert.Spec.embed k) :
    (dat V c).arrAt 2 cfg1.N
      = Cert.Spec.embed (fun (i : Fin 8192) (_ : Fin 1) => Real.log (∑ j : Fin 8192, Real.exp (∑ d : Fin 1024, q i d * k j d))) :=
  (dat V c).arrAt_eq_of_cover 2 (lseCol q k) (flushed_eq V c q k hq hk) cover

end Cert.KernelIdeal.Lse1
end
-- ==== Proof.CombVPieces.lean ====
import proofs.«154747_j1580547971631_2_alg».proof.Proof.Comb2Data
import Idealize.ShloMosaic.Lib.Pipeline.Value
import Idealize.ShloMosaic.Lib.Tactic

set_option maxRecDepth 16384

noncomputable section

namespace Cert.KernelIdeal.Comb2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The combine region 2: what each tile's stores leave, as payloads of the blocks

Every load and store of the body goes through the whole of its buffer, so what a tile leaves in the accumulator is the
accumulate payload of the four blocks it loaded — the accumulator it read being the zero fill at a row block's first
tile and what the tile before left otherwise — and what the last tile leaves in the output block is the epilogue
payload of the normalised-query block and the accumulator that tile has just written. -/

variable {F : FTy → Type} [FloatOps F]
variable {Ix : Type} [DecidableEq Ix] {U : Type} [URA U] {Lvl : Type} [Preorder Lvl]

/-- The offsets of a whole-buffer access are zero on both axes. -/
theorem zero_offsets : (![0, 0] : Fin 2 → Nat) = fun _ => 0 := funext fun a => by fin_cases a <;> rfl

/-- A MIDDLE tile leaves the accumulate payload of its blocks and of the accumulator `s7` it started from. -/
theorem canon_mid (c : Dev nD) (i : grid2.Coords)
    (arg2 : Memref sig .tc .vmem S512x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S512x1024 .f32) (harg6 : arg6.IsWhole) (arg7 : Memref sig .tc .vmem S512x1024 .f32) (harg7 : arg7.IsWhole) (hf : ¬firstT i) (hl : ¬lastT i)
    (x2 : Vec F S512x1024 .bf16) (x3 : Vec F S1024x1024 .bf16) (x4 : Vec F S1x1024 .f32) (x5 : Vec F S512x1024 .f32) (s7 : Vec F S512x1024 .f32) :
    View.canon (runMid (F := F) (Ix := Ix) (U := U) (Lvl := Lvl) c i arg2 harg2 arg3 harg3 arg4 harg4 arg5 harg5 arg6 harg6 arg7 harg7 hf hl x2 x3 x4 x5 s7).1
      = k2_pay2 x2 x3 x4 s7 x3 := by
  unfold runMid
  dsimp only
  rw [View.canon_unit_zero zero_offsets]
  simp only [View.readAt_eq_ld, harg2.read_unread, harg3.read_unread, harg4.read_unread, harg5.read_unread, harg7.read_unread,
    View.ld_unit_zero (S := S512x1024) zero_offsets, View.ld_unit_zero (S := S1024x1024) zero_offsets, View.ld_unit_zero (S := S1x1024) zero_offsets]

/-- A FIRST tile leaves the accumulate payload of its blocks and of the zero fill it has just stored and read back. -/
theorem canon_first (c : Dev nD) (i : grid2.Coords)
    (arg2 : Memref sig .tc .vmem S512x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S512x1024 .f32) (harg6 : arg6.IsWhole) (arg7 : Memref sig .tc .vmem S512x1024 .f32) (harg7 : arg7.IsWhole) (hf : firstT i) (hl : ¬lastT i)
    (x2 : Vec F S512x1024 .bf16) (x3 : Vec F S1024x1024 .bf16) (x4 : Vec F S1x1024 .f32) (x5 : Vec F S512x1024 .f32) :
    View.canon (runFirst (F := F) (Ix := Ix) (U := U) (Lvl := Lvl) c i arg2 harg2 arg3 harg3 arg4 harg4 arg5 harg5 arg6 harg6 arg7 harg7 hf hl x2 x3 x4 x5).1
      = k2_pay2 x2 x3 x4 k2_pay1 x3 := by
  unfold runFirst
  dsimp only
  sl_unfold_words
  rw [View.canon_cons_unit_zero (S := S512x1024) zero_offsets, View.readCov_unit_zero (S := S512x1024) _ zero_offsets]
  simp only [View.readAt_eq_ld, harg2.read_unread, harg3.read_unread, harg4.read_unread, harg5.read_unread, harg7.read_unread,
    View.ld_unit_zero (S := S512x1024) zero_offsets, View.ld_unit_zero (S := S1024x1024) zero_offsets, View.ld_unit_zero (S := S1x1024) zero_offsets]

/-- A LAST tile leaves in the accumulator the accumulate payload, as a middle tile does; -/
theorem canon_last_acc (c : Dev nD) (i : grid2.Coords)
    (arg2 : Memref sig .tc .vmem S512x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S512x1024 .f32) (harg6 : arg6.IsWhole) (arg7 : Memref sig .tc .vmem S512x1024 .f32) (harg7 : arg7.IsWhole) (hf : ¬firstT i) (hl : lastT i)
    (x2 : Vec F S512x1024 .bf16) (x3 : Vec F S1024x1024 .bf16) (x4 : Vec F S1x1024 .f32) (x5 : Vec F S512x1024 .f32) (s7 : Vec F S512x1024 .f32) :
    View.canon (runLast (F := F) (Ix := Ix) (U := U) (Lvl := Lvl) c i arg2 harg2 arg3 harg3 arg4 harg4 arg5 harg5 arg6 harg6 arg7 harg7 hf hl x2 x3 x4 x5 s7).2.1
      = k2_pay2 x2 x3 x4 s7 x3 := by
  unfold runLast
  dsimp only
  sl_unfold_words
  rw [View.canon_unit_zero zero_offsets]
  simp only [View.readAt_eq_ld, harg2.read_unread, harg3.read_unread, harg4.read_unread, harg5.read_unread, harg7.read_unread,
    View.ld_unit_zero (S := S512x1024) zero_offsets, View.ld_unit_zero (S := S1024x1024) zero_offsets, View.ld_unit_zero (S := S1x1024) zero_offsets]

/-- and in the output block the epilogue payload of the normalised-query block and that new accumulator, read back. -/
theorem canon_last_out (c : Dev nD) (i : grid2.Coords)
    (arg2 : Memref sig .tc .vmem S512x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S512x1024 .f32) (harg6 : arg6.IsWhole) (arg7 : Memref sig .tc .vmem S512x1024 .f32) (harg7 : arg7.IsWhole) (hf : ¬firstT i) (hl : lastT i)
    (x2 : Vec F S512x1024 .bf16) (x3 : Vec F S1024x1024 .bf16) (x4 : Vec F S1x1024 .f32) (x5 : Vec F S512x1024 .f32) (s7 : Vec F S512x1024 .f32) :
    View.canon (runLast (F := F) (Ix := Ix) (U := U) (Lvl := Lvl) c i arg2 harg2 arg3 harg3 arg4 harg4 arg5 harg5 arg6 harg6 arg7 harg7 hf hl x2 x3 x4 x5 s7).1
      = k2_pay3 x5 (k2_pay2 x2 x3 x4 s7 x3) := by
  unfold runLast
  dsimp only
  sl_unfold_words
  rw [View.canon_unit_zero zero_offsets, View.readCov_unit_zero (S := S512x1024) _ zero_offsets]
  simp only [View.readAt_eq_ld, harg2.read_unread, harg3.read_unread, harg4.read_unread, harg5.read_unread, harg7.read_unread,
    View.ld_unit_zero (S := S512x1024) zero_offsets, View.ld_unit_zero (S := S1024x1024) zero_offsets, View.ld_unit_zero (S := S1x1024) zero_offsets]

/-! ## At a point of the grid -/

variable (V : (c : Dev nD) → (b : Ref sig .tc) → Buf (Elt F) ((c : Thread nD τ).loc b))

/-- Writes read back over anything are the pieces' own contents. -/
theorem rd7_eq_canon (L : List (View.Piece (Elt F) S512x1024 .f32)) : rd7 (F := F) L = View.canon L :=
  View.read_writes_junk_eq_canon VS7 L
theorem rdO_eq_canon (L : List (View.Piece (Elt F) S512x1024 .f32)) : rdO (F := F) L = View.canon L :=
  View.read_writes_junk_eq_canon VO L

theorem rd7_first (c : Dev nD) (t : Fin cfg2.N) (hf : t.val % 8 = 0) (hl : ¬t.val % 8 = 7) :
    rd7 (firstAt V c t hf hl).1 = k2_pay2 (iblk V c 0 t) (iblk V c 1 t) (iblk V c 2 t) k2_pay1 (iblk V c 1 t) :=
  (rd7_eq_canon _).trans
    (canon_first (F := F) (Ix := Unit) (U := UR sig nD τ) (Lvl := ℕ) c (grid2.coords t) (ms0 t) (hs0 t) (ms1 t) (hs1 t) (ms2 t) (hs2 t) (ms3 t) (hs3 t) (ms4 t) (hs4 t) scM7 (Memref.isWhole_whole _)
      ((hfirstT t).mpr hf) (fun h => hl ((hlastT t).mp h)) (iblk V c 0 t) (iblk V c 1 t) (iblk V c 2 t) (iblk V c 3 t))

theorem rd7_mid (c : Dev nD) (t : Fin cfg2.N) (hf : ¬t.val % 8 = 0) (hl : ¬t.val % 8 = 7) (s7 : Vec F S512x1024 .f32) :
    rd7 (midAt V c t hf hl s7).1 = k2_pay2 (iblk V c 0 t) (iblk V c 1 t) (iblk V c 2 t) s7 (iblk V c 1 t) :=
  (rd7_eq_canon _).trans
    (canon_mid (F := F) (Ix := Unit) (U := UR sig nD τ) (Lvl := ℕ) c (grid2.coords t) (ms0 t) (hs0 t) (ms1 t) (hs1 t) (ms2 t) (hs2 t) (ms3 t) (hs3 t) (ms4 t) (hs4 t) scM7 (Memref.isWhole_whole _)
      (fun h => hf ((hfirstT t).mp h)) (fun h => hl ((hlastT t).mp h)) (iblk V c 0 t) (iblk V c 1 t) (iblk V c 2 t) (iblk V c 3 t) s7)

theorem rd7_last (c : Dev nD) (t : Fin cfg2.N) (hf : ¬t.val % 8 = 0) (hl : t.val % 8 = 7) (s7 : Vec F S512x1024 .f32) :
    rd7 (lastAt V c t hf hl s7).2.1 = k2_pay2 (iblk V c 0 t) (iblk V c 1 t) (iblk V c 2 t) s7 (iblk V c 1 t) :=
  (rd7_eq_canon _).trans
    (canon_last_acc (F := F) (Ix := Unit) (U := UR sig nD τ) (Lvl := ℕ) c (grid2.coords t) (ms0 t) (hs0 t) (ms1 t) (hs1 t) (ms2 t) (hs2 t) (ms3 t) (hs3 t) (ms4 t) (hs4 t) scM7 (Memref.isWhole_whole _)
      (fun h => hf ((hfirstT t).mp h)) ((hlastT t).mpr hl) (iblk V c 0 t) (iblk V c 1 t) (iblk V c 2 t) (iblk V c 3 t) s7)

theorem rdO_last (c : Dev nD) (t : Fin cfg2.N) (hf : ¬t.val % 8 = 0) (hl : t.val % 8 = 7) (s7 : Vec F S512x1024 .f32) :
    rdO (lastAt V c t hf hl s7).1
      = k2_pay3 (iblk V c 3 t) (k2_pay2 (iblk V c 0 t) (iblk V c 1 t) (iblk V c 2 t) s7 (iblk V c 1 t)) :=
  (rdO_eq_canon _).trans
    (canon_last_out (F := F) (Ix := Unit) (U := UR sig nD τ) (Lvl := ℕ) c (grid2.coords t) (ms0 t) (hs0 t) (ms1 t) (hs1 t) (ms2 t) (hs2 t) (ms3 t) (hs3 t) (ms4 t) (hs4 t) scM7 (Memref.isWhole_whole _)
      (fun h => hf ((hfirstT t).mp h)) ((hlastT t).mpr hl) (iblk V c 0 t) (iblk V c 1 t) (iblk V c 2 t) (iblk V c 3 t) s7)

end Cert.KernelIdeal.Comb2

end
-- ==== Proof.CombVDot.lean ====
import proofs.«154747_j1580547971631_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.CombV

open Cert.KernelIdeal Cert.KernelIdeal.Gen
open Idealize.ShloMosaic Idealize.ShloMosaic.ValueIdx

/-! # The combine kernels' two contractions and their row broadcast, read at coordinates

Both combine kernels multiply a [512,1024] block by a [1024,1024] block twice. The first product contracts the two
blocks' SECOND axes (row `r` of the left block against row `s` of the right block: a score); the second contracts the
left block's second axis with the right block's FIRST axis (row `r` of the weights against column `d` of the keys). At
the ideal values, into a zero accumulator, each is the exact sum over the 1024 contracted positions. -/

/-- The score product at `(r, s)`: the sum over the shared last axis. -/
theorem matmul_scores_apply (A : FVec Ideal S512x1024 .bf16) (B : FVec Ideal S1024x1024 .bf16) (r : Fin 512) (s : Fin 1024) :
    matmul dot_S512x1024_S1024x1024_S512x1024_1_1_0_0_n_n none A B (constant (F := Ideal) S512x1024 .f32 0x00000000#32) (ix2 r s)
      = ∑ e : Fin 1024, A (ix2 r e) * B (ix2 s e) := by
  show FloatOps.matmul _ none A B (constant (F := Ideal) S512x1024 .f32 0x00000000#32) (ix2 r s) = _
  rw [Ideal.matmul_constant_zero_apply,
    ← Equiv.sum_comp (contrEquiv1 dot_S512x1024_S1024x1024_S512x1024_1_1_0_0_n_n 1024 rfl rfl).symm]
  refine Finset.sum_congr rfl fun e _ => ?_
  have ce := contrEquiv1_symm_val dot_S512x1024_S1024x1024_S512x1024_1_1_0_0_n_n 1024 rfl rfl e
  have hl : dot_S512x1024_S1024x1024_S512x1024_1_1_0_0_n_n.lhsIdx (ix2 r s) ((contrEquiv1 _ 1024 rfl rfl).symm e) = ix2 r e := by
    funext ax; apply Fin.ext
    match ax with
    | ⟨0, _⟩ => rfl
    | ⟨1, _⟩ => exact (DotDims.lhsIdx_val_of_single _ (cl := 1) rfl _ _).trans ce
  have hr : dot_S512x1024_S1024x1024_S512x1024_1_1_0_0_n_n.rhsIdx (ix2 r s) ((contrEquiv1 _ 1024 rfl rfl).symm e) = ix2 s e := by
    funext ax; apply Fin.ext
    match ax with
    | ⟨0, _⟩ => rfl
    | ⟨1, _⟩ => exact (DotDims.rhsIdx_val_of_single _ (cr := 1) rfl _ _).trans ce
  rw [hl, hr]

/-- The weighted sum of key rows at `(r, d)`: the sum over the key position. -/
theorem matmul_values_apply (W : FVec Ideal S512x1024 .bf16) (K : FVec Ideal S1024x1024 .bf16) (r : Fin 512) (d : Fin 1024) :
    matmul dot_S512x1024_S1024x1024_S512x1024_1_0_0_1_n_n none W K (constant (F := Ideal) S512x1024 .f32 0x00000000#32) (ix2 r d)
      = ∑ s : Fin 1024, W (ix2 r s) * K (ix2 s d) := by
  show FloatOps.matmul _ none W K (constant (F := Ideal) S512x1024 .f32 0x00000000#32) (ix2 r d) = _
  rw [Ideal.matmul_constant_zero_apply,
    ← Equiv.sum_comp (contrEquiv1 dot_S512x1024_S1024x1024_S512x1024_1_0_0_1_n_n 1024 rfl rfl).symm]
  refine Finset.sum_congr rfl fun s _ => ?_
  have cs := contrEquiv1_symm_val dot_S512x1024_S1024x1024_S512x1024_1_0_0_1_n_n 1024 rfl rfl s
  have hl : dot_S512x1024_S1024x1024_S512x1024_1_0_0_1_n_n.lhsIdx (ix2 r d) ((contrEquiv1 _ 1024 rfl rfl).symm s) = ix2 r s := by
    funext ax; apply Fin.ext
    match ax with
    | ⟨0, _⟩ => rfl
    | ⟨1, _⟩ => exact (DotDims.lhsIdx_val_of_single _ (cl := 1) rfl _ _).trans cs
  have hr : dot_S512x1024_S1024x1024_S512x1024_1_0_0_1_n_n.rhsIdx (ix2 r d) ((contrEquiv1 _ 1024 rfl rfl).symm s) = ix2 s d := by
    funext ax; apply Fin.ext
    match ax with
    | ⟨0, _⟩ => exact (DotDims.rhsIdx_val_of_single _ (cr := 0) rfl _ _).trans cs
    | ⟨1, _⟩ => rfl
  rw [hl, hr]

/-- The keys' log-sum-exp row broadcast over the query rows reads, at `(r, s)`, the row's entry `s`. -/
theorem lse_row_apply (x4 : FVec Ideal S1x1024 .f32) (h : S1x1024.Broadcasts S512x1024) (r : Fin 512) (s : Fin 1024) :
    broadcastTo S512x1024 x4 h (ix2 r s) = x4 (ix2 (0 : Fin 1) s) :=
  broadcastTo_1b_ab_apply x4 h r s

end Cert.KernelIdeal.CombV

end
-- ==== Proof.CombVPay2.lean ====
import proofs.«154747_j1580547971631_2_alg».proof.Proof.CombVDot

set_option maxRecDepth 16384

noncomputable section

namespace Cert.KernelIdeal.Comb2

open Cert.KernelIdeal Cert.KernelIdeal.Gen
open Idealize.ShloMosaic Idealize.ShloMosaic.ValueIdx

/-! # The combine kernel (region 2): its three payloads read at an entry, at the ideal values

The zero fill is `0` everywhere. The accumulate payload at row `r`, column `d` is the accumulator's entry plus, over the
tile's 1024 keys `s`, the exponential of (the score of query row `r` against key `s`, minus the key's log-sum-exp) times
entry `d` of key `s`; the change of float format between the two products is the identity at the ideal values. The epilogue
is the normalised-query entry minus the accumulator's. -/

/-- The zero fill. -/
theorem pay1_apply (j : S512x1024.Idx) : k2_pay1 (F := Ideal) j = 0 := by
  unfold k2_pay1
  rw [shapeCast_self]
  exact Ideal.ofBits_zero_f32

/-- The accumulate payload at `(r, d)`. -/
theorem pay2_apply (x2 : FVec Ideal S512x1024 .bf16) (x3 : FVec Ideal S1024x1024 .bf16) (x4 : FVec Ideal S1x1024 .f32)
    (s7 : FVec Ideal S512x1024 .f32) (x3' : FVec Ideal S1024x1024 .bf16) (r : Fin 512) (d : Fin 1024) :
    k2_pay2 (F := Ideal) x2 x3 x4 s7 x3' (ix2 r d)
      = s7 (ix2 r d) + ∑ s : Fin 1024,
          Ideal.exp ((∑ e : Fin 1024, x2 (ix2 r e) * x3 (ix2 s e)) - x4 (ix2 (0 : Fin 1) s)) * x3' (ix2 s d) := by
  unfold k2_pay2
  simp only [shapeCast_self]
  refine (addf_apply _ _ _).trans ?_
  refine congrArg (s7 (ix2 r d) + ·) ?_
  refine (CombV.matmul_values_apply _ x3' r d).trans ?_
  refine Finset.sum_congr rfl fun s _ => ?_
  refine congrArg (· * x3' (ix2 s d)) ?_
  show Ideal.exp (matmul dot_S512x1024_S1024x1024_S512x1024_1_1_0_0_n_n none x2 x3 (constant (F := Ideal) S512x1024 .f32 0x00000000#32) (ix2 r s)
      - broadcastTo S512x1024 x4 broadcasts_S1x1024_S512x1024 (ix2 r s)) = _
  rw [CombV.matmul_scores_apply, CombV.lse_row_apply]

/-- The epilogue payload. -/
theorem pay3_apply (x5 a : FVec Ideal S512x1024 .f32) (j : S512x1024.Idx) : k2_pay3 (F := Ideal) x5 a j = x5 j - a j := by
  unfold k2_pay3
  rw [shapeCast_self]
  rfl

end Cert.KernelIdeal.Comb2

end
-- ==== Proof.CombVReal.lean ====
import proofs.«154747_j1580547971631_2_alg».proof.Proof.LibSumReindex
import Idealize.ShloMosaic.PureOps.Ideal
import Mathlib.Analysis.SpecialFunctions.Exp

noncomputable section

open scoped BigOperators

namespace Cert.KernelIdeal.CombV

open Idealize.ShloMosaic

/-! # The combine kernels' arithmetic over the reals

A combine kernel visits the 8192 keys in 8 tiles of 1024. For one query row and one output column the accumulator after
tile `m` holds the sum, over the keys of tiles `0 … m`, of a per-key term; after the eighth tile that is the sum over all
8192 keys. With real inputs one tile's contribution, computed on the extended reals, is the coercion of the real sum. -/

/-- One tile's contribution with real inputs: the exponential of (score minus the key's log-sum-exp) times the key's
    entry, summed over the tile, is the coercion of the same expression over the reals. -/
theorem tile_sum_coe {ι κ : Type*} [Fintype ι] [Fintype κ] (a : κ → ℝ) (b : ι → κ → ℝ) (c v : ι → ℝ) :
    (∑ s : ι, Ideal.exp ((∑ e : κ, (a e : EReal) * (b s e : EReal)) - (c s : EReal)) * (v s : EReal))
      = ((∑ s : ι, Real.exp ((∑ e : κ, a e * b s e) - c s) * v s : ℝ) : EReal) := by
  rw [← Cert.Lib.SumReindex.coe_sum]
  refine Finset.sum_congr rfl fun s _ => ?_
  rw [Cert.Lib.SumReindex.coe_sum_mul, ← EReal.coe_sub, Ideal.exp_coe, ← EReal.coe_mul]

/-- Key `s` of tile `m` among the 8192 keys (the tile number taken modulo the number of keys, so that it is a key for
    every natural `m`; for `m < 8` it is `1024 m + s`). -/
def keyAt (m : ℕ) (s : Fin 1024) : Fin 8192 := ⟨(1024 * m + s.val) % 8192, Nat.mod_lt _ (by norm_num)⟩

theorem keyAt_val (m : ℕ) (hm : m < 8) (s : Fin 1024) : (keyAt m s).val = 1024 * m + s.val := by
  have := s.isLt
  show (1024 * m + s.val) % 8192 = _
  exact Nat.mod_eq_of_lt (by omega)

/-- Row `r` of row block `b` among the 8192 query rows (likewise total in `b`; for `b < 16` it is `512 b + r`). -/
def rowAt (b : ℕ) (r : Fin 512) : Fin 8192 := ⟨(512 * b + r.val) % 8192, Nat.mod_lt _ (by norm_num)⟩

theorem rowAt_val (b : ℕ) (hb : b < 16) (r : Fin 512) : (rowAt b r).val = 512 * b + r.val := by
  have := r.isLt
  show (512 * b + r.val) % 8192 = _
  exact Nat.mod_eq_of_lt (by omega)

/-- The sum of `f` over the keys of tiles `0 … m`. -/
def tilesSum (f : Fin 8192 → ℝ) : ℕ → ℝ
  | 0 => ∑ s : Fin 1024, f (keyAt 0 s)
  | m + 1 => tilesSum f m + ∑ s : Fin 1024, f (keyAt (m + 1) s)

theorem tilesSum_zero (f : Fin 8192 → ℝ) : tilesSum f 0 = ∑ s : Fin 1024, f (keyAt 0 s) := rfl
theorem tilesSum_succ (f : Fin 8192 → ℝ) (m : ℕ) :
    tilesSum f (m + 1) = tilesSum f m + ∑ s : Fin 1024, f (keyAt (m + 1) s) := rfl

theorem tilesSum_eq_range (f : Fin 8192 → ℝ) (m : ℕ) :
    tilesSum f m = ∑ k ∈ Finset.range (m + 1), ∑ s : Fin 1024, f (keyAt k s) := by
  induction m with
  | zero => rw [tilesSum_zero, Finset.sum_range_one]
  | succ m ih => rw [tilesSum_succ, ih, Finset.sum_range_succ _ (m + 1)]

/-- After the eighth tile: the sum over all the keys. -/
theorem tilesSum_seven (f : Fin 8192 → ℝ) : tilesSum f 7 = ∑ j : Fin 8192, f j := by
  rw [tilesSum_eq_range, Finset.sum_range (fun k => ∑ s : Fin 1024, f (keyAt k s))]
  rw [← Cert.Lib.SumReindex.sum_fin_sum_fin (K := 8) (n := 1024) f]
  refine Finset.sum_congr rfl fun k _ => Finset.sum_congr rfl fun s _ => congrArg f (Fin.ext ?_)
  rw [keyAt_val k.val k.isLt s, Cert.Lib.SumReindex.finProdFinEquiv_val]
  omega

end Cert.KernelIdeal.CombV

end
-- ==== Proof.CombVBlk2.lean ====
import proofs.«154747_j1580547971631_2_alg».proof.Proof.Comb2Data
import proofs.«154747_j1580547971631_2_alg».proof.Proof.SpecEmbed
import proofs.«154747_j1580547971631_2_alg».proof.Proof.CombVReal
import Idealize.ShloMosaic.Lib.Pipeline.Value
import Idealize.ShloMosaic.Lib.ValueIdx

set_option maxRecDepth 16384

noncomputable section

namespace Cert.KernelIdeal.Comb2

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.CombV

/-! # The combine region 2: its windows' blocks as parts of the arrays

Point `t` of the grid is tile `t % 8` of row block `t / 8`. The query-row window, the normalised-query window and the
output window sit on rows `512 (t / 8) …` of their arrays; the key window on rows `1024 (t % 8) …` of the keys; the
log-sum-exp window on columns `1024 (t % 8) …` of the one-row array. An entry of a block is the array's entry at block
index times block size plus the entry's own coordinate, axis by axis. -/

/-- The windows' block indices at a point, decided once over the 128 points. -/
theorem index0 : ∀ t : Fin cfg2.N, win2_0.index t 0 = t.val / 8 ∧ win2_0.index t 1 = 0 :=
  (by decide +kernel : ∀ t : Fin grid2.N, win2_0.index t 0 = t.val / 8 ∧ win2_0.index t 1 = 0)
theorem index1 : ∀ t : Fin cfg2.N, win2_1.index t 0 = t.val % 8 ∧ win2_1.index t 1 = 0 :=
  (by decide +kernel : ∀ t : Fin grid2.N, win2_1.index t 0 = t.val % 8 ∧ win2_1.index t 1 = 0)
theorem index2 : ∀ t : Fin cfg2.N, win2_2.index t 0 = 0 ∧ win2_2.index t 1 = t.val % 8 :=
  (by decide +kernel : ∀ t : Fin grid2.N, win2_2.index t 0 = 0 ∧ win2_2.index t 1 = t.val % 8)
theorem index3 : ∀ t : Fin cfg2.N, win2_3.index t 0 = t.val / 8 ∧ win2_3.index t 1 = 0 :=
  (by decide +kernel : ∀ t : Fin grid2.N, win2_3.index t 0 = t.val / 8 ∧ win2_3.index t 1 = 0)
theorem index4 : ∀ t : Fin cfg2.N, win2_4.index t 0 = t.val / 8 ∧ win2_4.index t 1 = 0 :=
  (by decide +kernel : ∀ t : Fin grid2.N, win2_4.index t 0 = t.val / 8 ∧ win2_4.index t 1 = 0)

section AnyInstance
variable {F : FTy → Type} [FloatOps F]
variable (V : (c : Dev nD) → (b : Ref sig .tc) → Buf (Elt F) ((c : Thread nD τ).loc b))

/-- The query-row block's entry `x` is the array's entry on row `512 (t / 8) + x₀`. -/
theorem iblk0_apply (c : Dev nD) (t : Fin cfg2.N) (x : S512x1024.Idx) (k : S8192x1024.Idx)
    (hk0 : (k 0).val = 512 * (t.val / 8) + (x 0).val) (hk1 : (k 1).val = (x 1).val) :
    (iblk V c 0 t : Vec F S512x1024 .bf16) x = (V c main_v12 : S8192x1024.Idx → Elt F .bf16) k := by
  have hi := index0 t
  unfold iblk
  rw [View.read_apply]
  show V c main_v12 _ = V c main_v12 _
  refine congrArg (V c main_v12) (funext fun a => Fin.ext ?_)
  match a with
  | ⟨0, _⟩ => show win2_0.index t 0 * 512 + 1 * (x 0).val = (k 0).val; rw [hi.1, hk0]; omega
  | ⟨1, _⟩ => show win2_0.index t 1 * 1024 + 1 * (x 1).val = (k 1).val; rw [hi.2, hk1]; omega

/-- The key block's entry `x` is the keys' entry on row `1024 (t % 8) + x₀`. -/
theorem iblk1_apply (c : Dev nD) (t : Fin cfg2.N) (x : S1024x1024.Idx) (k : S8192x1024.Idx)
    (hk0 : (k 0).val = 1024 * (t.val % 8) + (x 0).val) (hk1 : (k 1).val = (x 1).val) :
    (iblk V c 1 t : Vec F S1024x1024 .bf16) x = (V c main_v13 : S8192x1024.Idx → Elt F .bf16) k := by
  have hi := index1 t
  unfold iblk
  rw [View.read_apply]
  show V c main_v13 _ = V c main_v13 _
  refine congrArg (V c main_v13) (funext fun a => Fin.ext ?_)
  match a with
  | ⟨0, _⟩ => show win2_1.index t 0 * 1024 + 1 * (x 0).val = (k 0).val; rw [hi.1, hk0]; omega
  | ⟨1, _⟩ => show win2_1.index t 1 * 1024 + 1 * (x 1).val = (k 1).val; rw [hi.2, hk1]; omega

/-- The log-sum-exp block's entry `x` is the one-row array's entry in column `1024 (t % 8) + x₁`. -/
theorem iblk2_apply (c : Dev nD) (t : Fin cfg2.N) (x : S1x1024.Idx) (k : S1x8192.Idx)
    (hk0 : (k 0).val = (x 0).val) (hk1 : (k 1).val = 1024 * (t.val % 8) + (x 1).val) :
    (iblk V c 2 t : Vec F S1x1024 .f32) x = (V c main_v17 : S1x8192.Idx → Elt F .f32) k := by
  have hi := index2 t
  unfold iblk
  rw [View.read_apply]
  show V c main_v17 _ = V c main_v17 _
  refine congrArg (V c main_v17) (funext fun a => Fin.ext ?_)
  match a with
  | ⟨0, _⟩ => show win2_2.index t 0 * 1 + 1 * (x 0).val = (k 0).val; rw [hi.1, hk0]; omega
  | ⟨1, _⟩ => show win2_2.index t 1 * 1024 + 1 * (x 1).val = (k 1).val; rw [hi.2, hk1]; omega

/-- The normalised-query block's entry `x` is the array's entry on row `512 (t / 8) + x₀`. -/
theorem iblk3_apply (c : Dev nD) (t : Fin cfg2.N) (x : S512x1024.Idx) (k : S8192x1024.Idx)
    (hk0 : (k 0).val = 512 * (t.val / 8) + (x 0).val) (hk1 : (k 1).val = (x 1).val) :
    (iblk V c 3 t : Vec F S512x1024 .f32) x = (V c main_v9 : S8192x1024.Idx → Elt F .f32) k := by
  have hi := index3 t
  unfold iblk
  rw [View.read_apply]
  show V c main_v9 _ = V c main_v9 _
  refine congrArg (V c main_v9) (funext fun a => Fin.ext ?_)
  match a with
  | ⟨0, _⟩ => show win2_3.index t 0 * 512 + 1 * (x 0).val = (k 0).val; rw [hi.1, hk0]; omega
  | ⟨1, _⟩ => show win2_3.index t 1 * 1024 + 1 * (x 1).val = (k 1).val; rw [hi.2, hk1]; omega

end AnyInstance

/-! ## With real arrays, at the ideal values -/

variable (V : (c : Dev nD) → (b : Ref sig .tc) → Buf (Elt Ideal) ((c : Thread nD τ).loc b))

theorem lt_128 (t : Fin cfg2.N) : t.val < 128 := lt_of_lt_of_eq t.isLt (show cfg2.N = 128 from N_2)

theorem q_blk (c : Dev nD) (q : Fin 8192 → Fin 1024 → ℝ) (hq : V c main_v12 = Cert.Spec.embed q)
    (t : Fin cfg2.N) (r : Fin 512) (e : Fin 1024) :
    (iblk V c 0 t : FVec Ideal S512x1024 .bf16) (ix2 r e) = ((q (rowAt (t.val / 8) r) e : ℝ) : EReal) := by
  have ht := lt_128 t
  rw [iblk0_apply V c t (ix2 r e) (ix2 (rowAt (t.val / 8) r) e) (rowAt_val _ (by omega) r) rfl, hq]
  rfl

theorem k_blk (c : Dev nD) (k : Fin 8192 → Fin 1024 → ℝ) (hk : V c main_v13 = Cert.Spec.embed k)
    (t : Fin cfg2.N) (s : Fin 1024) (e : Fin 1024) :
    (iblk V c 1 t : FVec Ideal S1024x1024 .bf16) (ix2 s e) = ((k (keyAt (t.val % 8) s) e : ℝ) : EReal) := by
  rw [iblk1_apply V c t (ix2 s e) (ix2 (keyAt (t.val % 8) s) e) (keyAt_val _ (Nat.mod_lt _ (by norm_num)) s) rfl, hk]
  rfl

theorem l_blk (c : Dev nD) (l : Fin 8192 → ℝ) (hl : V c main_v17 = Cert.Spec.embed (fun (_ : Fin 1) (j : Fin 8192) => l j))
    (t : Fin cfg2.N) (s : Fin 1024) :
    (iblk V c 2 t : FVec Ideal S1x1024 .f32) (ix2 (0 : Fin 1) s) = ((l (keyAt (t.val % 8) s) : ℝ) : EReal) := by
  rw [iblk2_apply V c t (ix2 (0 : Fin 1) s) (ix2 (0 : Fin 1) (keyAt (t.val % 8) s)) rfl (keyAt_val _ (Nat.mod_lt _ (by norm_num)) s), hl]
  rfl

theorem qn_blk (c : Dev nD) (qn : Fin 8192 → Fin 1024 → ℝ) (hqn : V c main_v9 = Cert.Spec.embed qn)
    (t : Fin cfg2.N) (r : Fin 512) (d : Fin 1024) :
    (iblk V c 3 t : FVec Ideal S512x1024 .f32) (ix2 r d) = ((qn (rowAt (t.val / 8) r) d : ℝ) : EReal) := by
  have ht := lt_128 t
  rw [iblk3_apply V c t (ix2 r d) (ix2 (rowAt (t.val / 8) r) d) (rowAt_val _ (by omega) r) rfl, hqn]
  rfl

end Cert.KernelIdeal.Comb2

end
-- ==== Proof.CombVInv2.lean ====
import proofs.«154747_j1580547971631_2_alg».proof.Proof.CombVPieces
import proofs.«154747_j1580547971631_2_alg».proof.Proof.CombVPay2
import proofs.«154747_j1580547971631_2_alg».proof.Proof.CombVBlk2

set_option maxRecDepth 16384

noncomputable section

namespace Cert.KernelIdeal.Comb2

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.CombV

/-! # The combine region 2: the accumulator after each tile, and the output block after the last

With real arrays, after tile `m` of a row block the accumulator's entry `(r, d)` is the sum, over the keys `j` of tiles
`0 … m`, of `exp (⟨q_i, k_j⟩ - l_j) · k_j d` for the block's query row `i`: the first tile starts from the zero fill, every
later one adds its 1024 keys to what the tile before left. At the last tile that is the sum over all 8192 keys, and the
output block's entry is the normalised query's entry minus it. -/

/-- What key `j` contributes to entry `d` of query row `i`. -/
def term (q k : Fin 8192 → Fin 1024 → ℝ) (l : Fin 8192 → ℝ) (i : Fin 8192) (d : Fin 1024) (j : Fin 8192) : ℝ :=
  Real.exp ((∑ e : Fin 1024, q i e * k j e) - l j) * k j d

variable (V : (c : Dev nD) → (b : Ref sig .tc) → Buf (Elt Ideal) ((c : Thread nD τ).loc b))

/-- One tile: the accumulate payload of the point's blocks adds the tile's 1024 terms to the accumulator it read. -/
theorem tile_step (c : Dev nD) (q k : Fin 8192 → Fin 1024 → ℝ) (l : Fin 8192 → ℝ)
    (hq : V c main_v12 = Cert.Spec.embed q) (hk : V c main_v13 = Cert.Spec.embed k)
    (hl : V c main_v17 = Cert.Spec.embed (fun (_ : Fin 1) (j : Fin 8192) => l j))
    (t : Fin cfg2.N) (b m : ℕ) (hb : t.val / 8 = b) (hm : t.val % 8 = m)
    (s7 : FVec Ideal S512x1024 .f32) (r : Fin 512) (d : Fin 1024) :
    k2_pay2 (F := Ideal) (iblk V c 0 t) (iblk V c 1 t) (iblk V c 2 t) s7 (iblk V c 1 t) (ix2 r d)
      = s7 (ix2 r d) + ((∑ s : Fin 1024, term q k l (rowAt b r) d (keyAt m s) : ℝ) : EReal) := by
  subst hb hm
  refine (pay2_apply (iblk V c 0 t) (iblk V c 1 t) (iblk V c 2 t) s7 (iblk V c 1 t) r d).trans ?_
  refine congrArg (s7 (ix2 r d) + ·) ?_
  refine Eq.trans (Finset.sum_congr rfl fun s _ => ?_)
    (tile_sum_coe (fun e => q (rowAt (t.val / 8) r) e) (fun s e => k (keyAt (t.val % 8) s) e)
      (fun s => l (keyAt (t.val % 8) s)) (fun s => k (keyAt (t.val % 8) s) d))
  rw [l_blk V c l hl t s, k_blk V c k hk t s d]
  refine congrArg (fun z => Ideal.exp (z - ((l (keyAt (t.val % 8) s) : ℝ) : EReal)) * ((k (keyAt (t.val % 8) s) d : ℝ) : EReal)) ?_
  exact Finset.sum_congr rfl fun e _ => by rw [q_blk V c q hq t r e, k_blk V c k hk t s e]

/-- A row block's FIRST tile leaves the terms of tile 0. -/
theorem acc_first (c : Dev nD) (q k : Fin 8192 → Fin 1024 → ℝ) (l : Fin 8192 → ℝ)
    (hq : V c main_v12 = Cert.Spec.embed q) (hk : V c main_v13 = Cert.Spec.embed k)
    (hl : V c main_v17 = Cert.Spec.embed (fun (_ : Fin 1) (j : Fin 8192) => l j))
    (t : Fin cfg2.N) (h0 : t.val % 8 = 0) (r : Fin 512) (d : Fin 1024) :
    ((outsAt V c t.val t.isLt).2 : FVec Ideal S512x1024 .f32) (ix2 r d)
      = ((tilesSum (term q k l (rowAt (t.val / 8) r) d) 0 : ℝ) : EReal) := by
  have h7 : ¬t.val % 8 = 7 := by omega
  rw [outsAt_first V c t h0 h7]
  dsimp only
  rw [rd7_first V c t h0 h7, tile_step V c q k l hq hk hl t (t.val / 8) 0 rfl h0 k2_pay1 r d, pay1_apply, zero_add,
    tilesSum_zero]

/-- A LATER tile adds its terms to what the tile before left. -/
theorem acc_next (c : Dev nD) (q k : Fin 8192 → Fin 1024 → ℝ) (l : Fin 8192 → ℝ)
    (hq : V c main_v12 = Cert.Spec.embed q) (hk : V c main_v13 = Cert.Spec.embed k)
    (hl : V c main_v17 = Cert.Spec.embed (fun (_ : Fin 1) (j : Fin 8192) => l j))
    (t : Fin cfg2.N) (h0 : ¬t.val % 8 = 0) (m : ℕ) (hm : t.val % 8 = m + 1) (r : Fin 512) (d : Fin 1024)
    (ih : ((prev V c t).2 : FVec Ideal S512x1024 .f32) (ix2 r d)
      = ((tilesSum (term q k l (rowAt (t.val / 8) r) d) m : ℝ) : EReal)) :
    ((outsAt V c t.val t.isLt).2 : FVec Ideal S512x1024 .f32) (ix2 r d)
      = ((tilesSum (term q k l (rowAt (t.val / 8) r) d) (m + 1) : ℝ) : EReal) := by
  have step : (k2_pay2 (F := Ideal) (iblk V c 0 t) (iblk V c 1 t) (iblk V c 2 t) (prev V c t).2 (iblk V c 1 t)) (ix2 r d)
      = ((tilesSum (term q k l (rowAt (t.val / 8) r) d) (m + 1) : ℝ) : EReal) := by
    rw [tile_step V c q k l hq hk hl t (t.val / 8) (m + 1) rfl hm (prev V c t).2 r d, ih, tilesSum_succ, EReal.coe_add]
  by_cases h7 : t.val % 8 = 7
  · rw [outsAt_last V c t h0 h7]
    dsimp only
    rw [rd7_last V c t h0 h7 (prev V c t).2]
    exact step
  · rw [outsAt_mid V c t h0 h7]
    dsimp only
    rw [rd7_mid V c t h0 h7 (prev V c t).2]
    exact step

/-- The accumulator after position `n`: the terms of the keys of tiles `0 … n % 8`, for row block `n / 8`. -/
theorem acc_eq (c : Dev nD) (q k : Fin 8192 → Fin 1024 → ℝ) (l : Fin 8192 → ℝ)
    (hq : V c main_v12 = Cert.Spec.embed q) (hk : V c main_v13 = Cert.Spec.embed k)
    (hl : V c main_v17 = Cert.Spec.embed (fun (_ : Fin 1) (j : Fin 8192) => l j)) :
    ∀ (n : ℕ) (hn : n < cfg2.N) (r : Fin 512) (d : Fin 1024),
      ((outsAt V c n hn).2 : FVec Ideal S512x1024 .f32) (ix2 r d)
        = ((tilesSum (term q k l (rowAt (n / 8) r) d) (n % 8) : ℝ) : EReal) := by
  intro n
  induction n with
  | zero =>
    intro hn r d
    exact acc_first V c q k l hq hk hl ⟨0, hn⟩ (Nat.zero_mod 8) r d
  | succ n ih =>
    intro hn r d
    by_cases h0 : (n + 1) % 8 = 0
    · have e := acc_first V c q k l hq hk hl ⟨n + 1, hn⟩ h0 r d
      rw [h0]
      exact e
    · have hb : (n + 1) / 8 = n / 8 := by omega
      have hm : (n + 1) % 8 = n % 8 + 1 := by omega
      have e := acc_next V c q k l hq hk hl ⟨n + 1, hn⟩ h0 (n % 8) hm r d
        (by rw [show (⟨n + 1, hn⟩ : Fin cfg2.N).val / 8 = n / 8 from hb]
            exact ih (Nat.lt_of_succ_lt hn) r d)
      rw [hm]
      exact e

/-- The output block after a row block's last tile: the normalised query's entry minus the sum over all the keys. -/
theorem out_eq (c : Dev nD) (q k qn : Fin 8192 → Fin 1024 → ℝ) (l : Fin 8192 → ℝ)
    (hq : V c main_v12 = Cert.Spec.embed q) (hk : V c main_v13 = Cert.Spec.embed k)
    (hl : V c main_v17 = Cert.Spec.embed (fun (_ : Fin 1) (j : Fin 8192) => l j)) (hqn : V c main_v9 = Cert.Spec.embed qn)
    (t : Fin cfg2.N) (h7 : t.val % 8 = 7) (r : Fin 512) (d : Fin 1024) :
    ((outsAt V c t.val t.isLt).1 : FVec Ideal S512x1024 .f32) (ix2 r d)
      = ((qn (rowAt (t.val / 8) r) d - ∑ j : Fin 8192, term q k l (rowAt (t.val / 8) r) d j : ℝ) : EReal) := by
  have h0 : ¬t.val % 8 = 0 := by omega
  have hacc := acc_eq V c q k l hq hk hl t.val t.isLt r d
  rw [h7, tilesSum_seven, outsAt_last V c t h0 h7] at hacc
  dsimp only at hacc
  rw [outsAt_last V c t h0 h7]
  dsimp only
  rw [rdO_last V c t h0 h7 (prev V c t).2, pay3_apply, qn_blk V c qn hqn t r d,
    ← rd7_last V c t h0 h7 (prev V c t).2, hacc, ← EReal.coe_sub]

end Cert.KernelIdeal.Comb2

end
-- ==== Proof.CombVArr2.lean ====
import proofs.«154747_j1580547971631_2_alg».proof.Proof.CombVInv2

set_option maxRecDepth 16384

noncomputable section

namespace Cert.KernelIdeal.Comb2

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.CombV

/-! # The combine region 2: its output array

The output window is written back at each row block's last tile, its block rows `512 (t / 8) …` of the array; the sixteen
written blocks tile the 8192 rows. What each write-back writes is the block of ONE function of the arrays — entry
`(i, d)` the normalised query's entry minus the sum over all the keys `j` of `exp (⟨q_i, k_j⟩ - l_j) · k_j d` — so the array
ends holding that function. -/

/-- The output window's block has the full block's extents at every point (no edge block is cut). -/
theorem xsize4 : ∀ t : Fin cfg2.N, win2_4.xsize (grid2.coords t) 0 = 512 ∧ win2_4.xsize (grid2.coords t) 1 = 1024 :=
  (by decide +kernel : ∀ t : Fin grid2.N, win2_4.xsize (grid2.coords t) 0 = 512 ∧ win2_4.xsize (grid2.coords t) 1 = 1024)

section AnyInstance
variable {F : FTy → Type} [FloatOps F]

/-- A function of the output array's index read through the output window's block at `t`: entry `x` is the function at
    row `512 (t / 8) + x₀`. -/
theorem oblk_apply (c : Dev nD) (t : Fin cfg2.N) (G : S8192x1024.Idx → Elt F .f32) (x : S512x1024.Idx) (k : S8192x1024.Idx)
    (hk0 : (k 0).val = 512 * (t.val / 8) + (x 0).val) (hk1 : (k 1).val = (x 1).val) :
    (((cfg2.win 4).blk t).view.read (Elt F) G : Vec F S512x1024 .f32) x = G k := by
  have hi := index4 t
  rw [View.read_apply]
  show G _ = G _
  refine congrArg G (funext fun a => Fin.ext ?_)
  match a with
  | ⟨0, _⟩ => show win2_4.index t 0 * 512 + 1 * (x 0).val = (k 0).val; rw [hi.1, hk0]; omega
  | ⟨1, _⟩ => show win2_4.index t 1 * 1024 + 1 * (x 1).val = (k 1).val; rw [hi.2, hk1]; omega

end AnyInstance

variable (V : (c : Dev nD) → (b : Ref sig .tc) → Buf (Elt Ideal) ((c : Thread nD τ).loc b))

/-- The region's result as a function of the four real arrays. -/
def outFn (q k qn : Fin 8192 → Fin 1024 → ℝ) (l : Fin 8192 → ℝ) (i : Fin 8192) (d : Fin 1024) : ℝ :=
  qn i d - ∑ j : Fin 8192, Real.exp ((∑ e : Fin 1024, q i e * k j e) - l j) * k j d

/-- Each write-back writes the block of that function. -/
theorem flushed_eq (c : Dev nD) (q k qn : Fin 8192 → Fin 1024 → ℝ) (l : Fin 8192 → ℝ)
    (hq : V c main_v12 = Cert.Spec.embed q) (hk : V c main_v13 = Cert.Spec.embed k)
    (hl : V c main_v17 = Cert.Spec.embed (fun (_ : Fin 1) (j : Fin 8192) => l j)) (hqn : V c main_v9 = Cert.Spec.embed qn)
    (t : Fin cfg2.N) (hf : (cfg2.win 4).flush t = true) :
    (dat V c).flushed 4 t = ((cfg2.win 4).blk t).view.read (Elt Ideal) (Cert.Spec.embed (outFn q k qn l)) := by
  have h7 : t.val % 8 = 7 := (flush2_4 t).mp hf
  have ht := lt_128 t
  funext y
  obtain ⟨r, d, rfl⟩ : ∃ (r : Fin 512) (d : Fin 1024), y = ix2 r d := ⟨y 0, y 1, eq_ix2 y⟩
  refine Eq.trans ?_ (oblk_apply (F := Ideal) c t (Cert.Spec.embed (outFn q k qn l)) (ix2 r d)
    (ix2 (rowAt (t.val / 8) r) d) (rowAt_val _ (by omega) r) rfl).symm
  show ((dat V c).after 4 t : FVec Ideal S512x1024 .f32) (ix2 r d) = _
  rw [after4 V c t, out_eq V c q k qn l hq hk hl hqn t h7 r d]
  rfl

/-- So the output array ends holding it. -/
theorem arr_value (c : Dev nD) (q k qn : Fin 8192 → Fin 1024 → ℝ) (l : Fin 8192 → ℝ)
    (hq : V c main_v12 = Cert.Spec.embed q) (hk : V c main_v13 = Cert.Spec.embed k)
    (hl : V c main_v17 = Cert.Spec.embed (fun (_ : Fin 1) (j : Fin 8192) => l j)) (hqn : V c main_v9 = Cert.Spec.embed qn) :
    (dat V c).arrAt 4 cfg2.N
      = Cert.Spec.embed (fun i d => qn i d - ∑ j : Fin 8192, Real.exp ((∑ e : Fin 1024, q i e * k j e) - l j) * k j d) :=
  (dat V c).arrAt_eq_of_cover 4 (Cert.Spec.embed (outFn q k qn l)) (flushed_eq V c q k qn l hq hk hl hqn) fun i => by
    have h0 : (i 0 : ℕ) < 8192 := (i 0).isLt
    have h1 : (i 1 : ℕ) < 1024 := (i 1).isLt
    have hN : cfg2.N = 128 := N_2
    have hlt : 8 * ((i 0 : ℕ) / 512) + 7 < cfg2.N := by rw [hN]; omega
    refine ⟨⟨8 * ((i 0 : ℕ) / 512) + 7, hlt⟩, (flush2_4 ⟨8 * ((i 0 : ℕ) / 512) + 7, hlt⟩).mpr (by show (8 * ((i 0 : ℕ) / 512) + 7) % 8 = 7; omega), ?_⟩
    show i ∈ ((View.whole main_v18).slice (win2_4.rect ⟨8 * ((i 0 : ℕ) / 512) + 7, hlt⟩)).set
    rw [View.set_slice_whole, Rect.mem_set_unit]
    intro a
    have hi := index4 ⟨8 * ((i 0 : ℕ) / 512) + 7, hlt⟩
    have hx := xsize4 ⟨8 * ((i 0 : ℕ) / 512) + 7, hlt⟩
    match a with
    | ⟨0, _⟩ =>
      show win2_4.index ⟨8 * ((i 0 : ℕ) / 512) + 7, hlt⟩ 0 * 512 ≤ (i 0 : ℕ)
        ∧ (i 0 : ℕ) < win2_4.index ⟨8 * ((i 0 : ℕ) / 512) + 7, hlt⟩ 0 * 512 + win2_4.xsize (grid2.coords ⟨8 * ((i 0 : ℕ) / 512) + 7, hlt⟩) 0
      rw [hi.1, hx.1]
      show (8 * ((i 0 : ℕ) / 512) + 7) / 8 * 512 ≤ (i 0 : ℕ) ∧ (i 0 : ℕ) < (8 * ((i 0 : ℕ) / 512) + 7) / 8 * 512 + 512
      omega
    | ⟨1, _⟩ =>
      show win2_4.index ⟨8 * ((i 0 : ℕ) / 512) + 7, hlt⟩ 1 * 1024 ≤ (i 1 : ℕ)
        ∧ (i 1 : ℕ) < win2_4.index ⟨8 * ((i 0 : ℕ) / 512) + 7, hlt⟩ 1 * 1024 + win2_4.xsize (grid2.coords ⟨8 * ((i 0 : ℕ) / 512) + 7, hlt⟩) 1
      rw [hi.2, hx.2]
      omega

end Cert.KernelIdeal.Comb2

end
-- ==== Proof.CombVPieces3.lean ====
import proofs.«154747_j1580547971631_2_alg».proof.Proof.Comb3Data
import Idealize.ShloMosaic.Lib.Pipeline.Value
import Idealize.ShloMosaic.Lib.Tactic

set_option maxRecDepth 16384

noncomputable section

namespace Cert.KernelIdeal.Comb3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The combine region 3: what each tile's stores leave, as payloads of the blocks

Every load and store of the body goes through the whole of its buffer, so what a tile leaves in the accumulator is the
accumulate payload of the four blocks it loaded — the accumulator it read being the zero fill at a row block's first
tile and what the tile before left otherwise — and what the last tile leaves in the output block is the epilogue
payload of the normalised-query block and the accumulator that tile has just written. -/

variable {F : FTy → Type} [FloatOps F]
variable {Ix : Type} [DecidableEq Ix] {U : Type} [URA U] {Lvl : Type} [Preorder Lvl]

/-- The offsets of a whole-buffer access are zero on both axes. -/
theorem zero_offsets : (![0, 0] : Fin 2 → Nat) = fun _ => 0 := funext fun a => by fin_cases a <;> rfl

/-- A MIDDLE tile leaves the accumulate payload of its blocks and of the accumulator `s7` it started from. -/
theorem canon_mid (c : Dev nD) (i : grid3.Coords)
    (arg2 : Memref sig .tc .vmem S512x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S512x1024 .f32) (harg6 : arg6.IsWhole) (arg7 : Memref sig .tc .vmem S512x1024 .f32) (harg7 : arg7.IsWhole) (hf : ¬firstT i) (hl : ¬lastT i)
    (x2 : Vec F S512x1024 .bf16) (x3 : Vec F S1024x1024 .bf16) (x4 : Vec F S1x1024 .f32) (x5 : Vec F S512x1024 .f32) (s7 : Vec F S512x1024 .f32) :
    View.canon (runMid (F := F) (Ix := Ix) (U := U) (Lvl := Lvl) c i arg2 harg2 arg3 harg3 arg4 harg4 arg5 harg5 arg6 harg6 arg7 harg7 hf hl x2 x3 x4 x5 s7).1
      = k3_pay2 x2 x3 x4 s7 x3 := by
  unfold runMid
  dsimp only
  rw [View.canon_unit_zero zero_offsets]
  simp only [View.readAt_eq_ld, harg2.read_unread, harg3.read_unread, harg4.read_unread, harg5.read_unread, harg7.read_unread,
    View.ld_unit_zero (S := S512x1024) zero_offsets, View.ld_unit_zero (S := S1024x1024) zero_offsets, View.ld_unit_zero (S := S1x1024) zero_offsets]

/-- A FIRST tile leaves the accumulate payload of its blocks and of the zero fill it has just stored and read back. -/
theorem canon_first (c : Dev nD) (i : grid3.Coords)
    (arg2 : Memref sig .tc .vmem S512x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S512x1024 .f32) (harg6 : arg6.IsWhole) (arg7 : Memref sig .tc .vmem S512x1024 .f32) (harg7 : arg7.IsWhole) (hf : firstT i) (hl : ¬lastT i)
    (x2 : Vec F S512x1024 .bf16) (x3 : Vec F S1024x1024 .bf16) (x4 : Vec F S1x1024 .f32) (x5 : Vec F S512x1024 .f32) :
    View.canon (runFirst (F := F) (Ix := Ix) (U := U) (Lvl := Lvl) c i arg2 harg2 arg3 harg3 arg4 harg4 arg5 harg5 arg6 harg6 arg7 harg7 hf hl x2 x3 x4 x5).1
      = k3_pay2 x2 x3 x4 k3_pay1 x3 := by
  unfold runFirst
  dsimp only
  sl_unfold_words
  rw [View.canon_cons_unit_zero (S := S512x1024) zero_offsets, View.readCov_unit_zero (S := S512x1024) _ zero_offsets]
  simp only [View.readAt_eq_ld, harg2.read_unread, harg3.read_unread, harg4.read_unread, harg5.read_unread, harg7.read_unread,
    View.ld_unit_zero (S := S512x1024) zero_offsets, View.ld_unit_zero (S := S1024x1024) zero_offsets, View.ld_unit_zero (S := S1x1024) zero_offsets]

/-- A LAST tile leaves in the accumulator the accumulate payload, as a middle tile does; -/
theorem canon_last_acc (c : Dev nD) (i : grid3.Coords)
    (arg2 : Memref sig .tc .vmem S512x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S512x1024 .f32) (harg6 : arg6.IsWhole) (arg7 : Memref sig .tc .vmem S512x1024 .f32) (harg7 : arg7.IsWhole) (hf : ¬firstT i) (hl : lastT i)
    (x2 : Vec F S512x1024 .bf16) (x3 : Vec F S1024x1024 .bf16) (x4 : Vec F S1x1024 .f32) (x5 : Vec F S512x1024 .f32) (s7 : Vec F S512x1024 .f32) :
    View.canon (runLast (F := F) (Ix := Ix) (U := U) (Lvl := Lvl) c i arg2 harg2 arg3 harg3 arg4 harg4 arg5 harg5 arg6 harg6 arg7 harg7 hf hl x2 x3 x4 x5 s7).2.1
      = k3_pay2 x2 x3 x4 s7 x3 := by
  unfold runLast
  dsimp only
  sl_unfold_words
  rw [View.canon_unit_zero zero_offsets]
  simp only [View.readAt_eq_ld, harg2.read_unread, harg3.read_unread, harg4.read_unread, harg5.read_unread, harg7.read_unread,
    View.ld_unit_zero (S := S512x1024) zero_offsets, View.ld_unit_zero (S := S1024x1024) zero_offsets, View.ld_unit_zero (S := S1x1024) zero_offsets]

/-- and in the output block the epilogue payload of the normalised-query block and that new accumulator, read back. -/
theorem canon_last_out (c : Dev nD) (i : grid3.Coords)
    (arg2 : Memref sig .tc .vmem S512x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S512x1024 .f32) (harg6 : arg6.IsWhole) (arg7 : Memref sig .tc .vmem S512x1024 .f32) (harg7 : arg7.IsWhole) (hf : ¬firstT i) (hl : lastT i)
    (x2 : Vec F S512x1024 .bf16) (x3 : Vec F S1024x1024 .bf16) (x4 : Vec F S1x1024 .f32) (x5 : Vec F S512x1024 .f32) (s7 : Vec F S512x1024 .f32) :
    View.canon (runLast (F := F) (Ix := Ix) (U := U) (Lvl := Lvl) c i arg2 harg2 arg3 harg3 arg4 harg4 arg5 harg5 arg6 harg6 arg7 harg7 hf hl x2 x3 x4 x5 s7).1
      = k3_pay3 x5 (k3_pay2 x2 x3 x4 s7 x3) := by
  unfold runLast
  dsimp only
  sl_unfold_words
  rw [View.canon_unit_zero zero_offsets, View.readCov_unit_zero (S := S512x1024) _ zero_offsets]
  simp only [View.readAt_eq_ld, harg2.read_unread, harg3.read_unread, harg4.read_unread, harg5.read_unread, harg7.read_unread,
    View.ld_unit_zero (S := S512x1024) zero_offsets, View.ld_unit_zero (S := S1024x1024) zero_offsets, View.ld_unit_zero (S := S1x1024) zero_offsets]

/-! ## At a point of the grid -/

variable (V : (c : Dev nD) → (b : Ref sig .tc) → Buf (Elt F) ((c : Thread nD τ).loc b))

/-- Writes read back over anything are the pieces' own contents. -/
theorem rd7_eq_canon (L : List (View.Piece (Elt F) S512x1024 .f32)) : rd7 (F := F) L = View.canon L :=
  View.read_writes_junk_eq_canon VS7 L
theorem rdO_eq_canon (L : List (View.Piece (Elt F) S512x1024 .f32)) : rdO (F := F) L = View.canon L :=
  View.read_writes_junk_eq_canon VO L

theorem rd7_first (c : Dev nD) (t : Fin cfg3.N) (hf : t.val % 8 = 0) (hl : ¬t.val % 8 = 7) :
    rd7 (firstAt V c t hf hl).1 = k3_pay2 (iblk V c 0 t) (iblk V c 1 t) (iblk V c 2 t) k3_pay1 (iblk V c 1 t) :=
  (rd7_eq_canon _).trans
    (canon_first (F := F) (Ix := Unit) (U := UR sig nD τ) (Lvl := ℕ) c (grid3.coords t) (ms0 t) (hs0 t) (ms1 t) (hs1 t) (ms2 t) (hs2 t) (ms3 t) (hs3 t) (ms4 t) (hs4 t) scM7 (Memref.isWhole_whole _)
      ((hfirstT t).mpr hf) (fun h => hl ((hlastT t).mp h)) (iblk V c 0 t) (iblk V c 1 t) (iblk V c 2 t) (iblk V c 3 t))

theorem rd7_mid (c : Dev nD) (t : Fin cfg3.N) (hf : ¬t.val % 8 = 0) (hl : ¬t.val % 8 = 7) (s7 : Vec F S512x1024 .f32) :
    rd7 (midAt V c t hf hl s7).1 = k3_pay2 (iblk V c 0 t) (iblk V c 1 t) (iblk V c 2 t) s7 (iblk V c 1 t) :=
  (rd7_eq_canon _).trans
    (canon_mid (F := F) (Ix := Unit) (U := UR sig nD τ) (Lvl := ℕ) c (grid3.coords t) (ms0 t) (hs0 t) (ms1 t) (hs1 t) (ms2 t) (hs2 t) (ms3 t) (hs3 t) (ms4 t) (hs4 t) scM7 (Memref.isWhole_whole _)
      (fun h => hf ((hfirstT t).mp h)) (fun h => hl ((hlastT t).mp h)) (iblk V c 0 t) (iblk V c 1 t) (iblk V c 2 t) (iblk V c 3 t) s7)

theorem rd7_last (c : Dev nD) (t : Fin cfg3.N) (hf : ¬t.val % 8 = 0) (hl : t.val % 8 = 7) (s7 : Vec F S512x1024 .f32) :
    rd7 (lastAt V c t hf hl s7).2.1 = k3_pay2 (iblk V c 0 t) (iblk V c 1 t) (iblk V c 2 t) s7 (iblk V c 1 t) :=
  (rd7_eq_canon _).trans
    (canon_last_acc (F := F) (Ix := Unit) (U := UR sig nD τ) (Lvl := ℕ) c (grid3.coords t) (ms0 t) (hs0 t) (ms1 t) (hs1 t) (ms2 t) (hs2 t) (ms3 t) (hs3 t) (ms4 t) (hs4 t) scM7 (Memref.isWhole_whole _)
      (fun h => hf ((hfirstT t).mp h)) ((hlastT t).mpr hl) (iblk V c 0 t) (iblk V c 1 t) (iblk V c 2 t) (iblk V c 3 t) s7)

theorem rdO_last (c : Dev nD) (t : Fin cfg3.N) (hf : ¬t.val % 8 = 0) (hl : t.val % 8 = 7) (s7 : Vec F S512x1024 .f32) :
    rdO (lastAt V c t hf hl s7).1
      = k3_pay3 (iblk V c 3 t) (k3_pay2 (iblk V c 0 t) (iblk V c 1 t) (iblk V c 2 t) s7 (iblk V c 1 t)) :=
  (rdO_eq_canon _).trans
    (canon_last_out (F := F) (Ix := Unit) (U := UR sig nD τ) (Lvl := ℕ) c (grid3.coords t) (ms0 t) (hs0 t) (ms1 t) (hs1 t) (ms2 t) (hs2 t) (ms3 t) (hs3 t) (ms4 t) (hs4 t) scM7 (Memref.isWhole_whole _)
      (fun h => hf ((hfirstT t).mp h)) ((hlastT t).mpr hl) (iblk V c 0 t) (iblk V c 1 t) (iblk V c 2 t) (iblk V c 3 t) s7)

end Cert.KernelIdeal.Comb3

end
-- ==== Proof.CombVPay3.lean ====
import proofs.«154747_j1580547971631_2_alg».proof.Proof.CombVDot

set_option maxRecDepth 16384

noncomputable section

namespace Cert.KernelIdeal.Comb3

open Cert.KernelIdeal Cert.KernelIdeal.Gen
open Idealize.ShloMosaic Idealize.ShloMosaic.ValueIdx

/-! # The combine kernel (region 3): its three payloads read at an entry, at the ideal values

The zero fill is `0` everywhere. The accumulate payload at row `r`, column `d` is the accumulator's entry plus, over the
tile's 1024 keys `s`, the exponential of (the score of query row `r` against key `s`, minus the key's log-sum-exp) times
entry `d` of key `s`; the change of float format between the two products is the identity at the ideal values. The epilogue
is the normalised-query entry minus the accumulator's. -/

/-- The zero fill. -/
theorem pay1_apply (j : S512x1024.Idx) : k3_pay1 (F := Ideal) j = 0 := by
  unfold k3_pay1
  rw [shapeCast_self]
  exact Ideal.ofBits_zero_f32

/-- The accumulate payload at `(r, d)`. -/
theorem pay2_apply (x2 : FVec Ideal S512x1024 .bf16) (x3 : FVec Ideal S1024x1024 .bf16) (x4 : FVec Ideal S1x1024 .f32)
    (s7 : FVec Ideal S512x1024 .f32) (x3' : FVec Ideal S1024x1024 .bf16) (r : Fin 512) (d : Fin 1024) :
    k3_pay2 (F := Ideal) x2 x3 x4 s7 x3' (ix2 r d)
      = s7 (ix2 r d) + ∑ s : Fin 1024,
          Ideal.exp ((∑ e : Fin 1024, x2 (ix2 r e) * x3 (ix2 s e)) - x4 (ix2 (0 : Fin 1) s)) * x3' (ix2 s d) := by
  unfold k3_pay2
  simp only [shapeCast_self]
  refine (addf_apply _ _ _).trans ?_
  refine congrArg (s7 (ix2 r d) + ·) ?_
  refine (CombV.matmul_values_apply _ x3' r d).trans ?_
  refine Finset.sum_congr rfl fun s _ => ?_
  refine congrArg (· * x3' (ix2 s d)) ?_
  show Ideal.exp (matmul dot_S512x1024_S1024x1024_S512x1024_1_1_0_0_n_n none x2 x3 (constant (F := Ideal) S512x1024 .f32 0x00000000#32) (ix2 r s)
      - broadcastTo S512x1024 x4 broadcasts_S1x1024_S512x1024 (ix2 r s)) = _
  rw [CombV.matmul_scores_apply, CombV.lse_row_apply]

/-- The epilogue payload. -/
theorem pay3_apply (x5 a : FVec Ideal S512x1024 .f32) (j : S512x1024.Idx) : k3_pay3 (F := Ideal) x5 a j = x5 j - a j := by
  unfold k3_pay3
  rw [shapeCast_self]
  rfl

end Cert.KernelIdeal.Comb3

end
-- ==== Proof.CombVBlk3.lean ====
import proofs.«154747_j1580547971631_2_alg».proof.Proof.Comb3Data
import proofs.«154747_j1580547971631_2_alg».proof.Proof.SpecEmbed
import proofs.«154747_j1580547971631_2_alg».proof.Proof.CombVReal
import Idealize.ShloMosaic.Lib.Pipeline.Value
import Idealize.ShloMosaic.Lib.ValueIdx

set_option maxRecDepth 16384

noncomputable section

namespace Cert.KernelIdeal.Comb3

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.CombV

/-! # The combine region 3: its windows' blocks as parts of the arrays

Point `t` of the grid is tile `t % 8` of row block `t / 8`. The query-row window, the normalised-query window and the
output window sit on rows `512 (t / 8) …` of their arrays; the key window on rows `1024 (t % 8) …` of the keys; the
log-sum-exp window on columns `1024 (t % 8) …` of the one-row array. An entry of a block is the array's entry at block
index times block size plus the entry's own coordinate, axis by axis. -/

/-- The windows' block indices at a point, decided once over the 128 points. -/
theorem index0 : ∀ t : Fin cfg3.N, win3_0.index t 0 = t.val / 8 ∧ win3_0.index t 1 = 0 :=
  (by decide +kernel : ∀ t : Fin grid3.N, win3_0.index t 0 = t.val / 8 ∧ win3_0.index t 1 = 0)
theorem index1 : ∀ t : Fin cfg3.N, win3_1.index t 0 = t.val % 8 ∧ win3_1.index t 1 = 0 :=
  (by decide +kernel : ∀ t : Fin grid3.N, win3_1.index t 0 = t.val % 8 ∧ win3_1.index t 1 = 0)
theorem index2 : ∀ t : Fin cfg3.N, win3_2.index t 0 = 0 ∧ win3_2.index t 1 = t.val % 8 :=
  (by decide +kernel : ∀ t : Fin grid3.N, win3_2.index t 0 = 0 ∧ win3_2.index t 1 = t.val % 8)
theorem index3 : ∀ t : Fin cfg3.N, win3_3.index t 0 = t.val / 8 ∧ win3_3.index t 1 = 0 :=
  (by decide +kernel : ∀ t : Fin grid3.N, win3_3.index t 0 = t.val / 8 ∧ win3_3.index t 1 = 0)
theorem index4 : ∀ t : Fin cfg3.N, win3_4.index t 0 = t.val / 8 ∧ win3_4.index t 1 = 0 :=
  (by decide +kernel : ∀ t : Fin grid3.N, win3_4.index t 0 = t.val / 8 ∧ win3_4.index t 1 = 0)

section AnyInstance
variable {F : FTy → Type} [FloatOps F]
variable (V : (c : Dev nD) → (b : Ref sig .tc) → Buf (Elt F) ((c : Thread nD τ).loc b))

/-- The query-row block's entry `x` is the array's entry on row `512 (t / 8) + x₀`. -/
theorem iblk0_apply (c : Dev nD) (t : Fin cfg3.N) (x : S512x1024.Idx) (k : S8192x1024.Idx)
    (hk0 : (k 0).val = 512 * (t.val / 8) + (x 0).val) (hk1 : (k 1).val = (x 1).val) :
    (iblk V c 0 t : Vec F S512x1024 .bf16) x = (V c main_v13 : S8192x1024.Idx → Elt F .bf16) k := by
  have hi := index0 t
  unfold iblk
  rw [View.read_apply]
  show V c main_v13 _ = V c main_v13 _
  refine congrArg (V c main_v13) (funext fun a => Fin.ext ?_)
  match a with
  | ⟨0, _⟩ => show win3_0.index t 0 * 512 + 1 * (x 0).val = (k 0).val; rw [hi.1, hk0]; omega
  | ⟨1, _⟩ => show win3_0.index t 1 * 1024 + 1 * (x 1).val = (k 1).val; rw [hi.2, hk1]; omega

/-- The key block's entry `x` is the keys' entry on row `1024 (t % 8) + x₀`. -/
theorem iblk1_apply (c : Dev nD) (t : Fin cfg3.N) (x : S1024x1024.Idx) (k : S8192x1024.Idx)
    (hk0 : (k 0).val = 1024 * (t.val % 8) + (x 0).val) (hk1 : (k 1).val = (x 1).val) :
    (iblk V c 1 t : Vec F S1024x1024 .bf16) x = (V c main_v12 : S8192x1024.Idx → Elt F .bf16) k := by
  have hi := index1 t
  unfold iblk
  rw [View.read_apply]
  show V c main_v12 _ = V c main_v12 _
  refine congrArg (V c main_v12) (funext fun a => Fin.ext ?_)
  match a with
  | ⟨0, _⟩ => show win3_1.index t 0 * 1024 + 1 * (x 0).val = (k 0).val; rw [hi.1, hk0]; omega
  | ⟨1, _⟩ => show win3_1.index t 1 * 1024 + 1 * (x 1).val = (k 1).val; rw [hi.2, hk1]; omega

/-- The log-sum-exp block's entry `x` is the one-row array's entry in column `1024 (t % 8) + x₁`. -/
theorem iblk2_apply (c : Dev nD) (t : Fin cfg3.N) (x : S1x1024.Idx) (k : S1x8192.Idx)
    (hk0 : (k 0).val = (x 0).val) (hk1 : (k 1).val = 1024 * (t.val % 8) + (x 1).val) :
    (iblk V c 2 t : Vec F S1x1024 .f32) x = (V c main_v16 : S1x8192.Idx → Elt F .f32) k := by
  have hi := index2 t
  unfold iblk
  rw [View.read_apply]
  show V c main_v16 _ = V c main_v16 _
  refine congrArg (V c main_v16) (funext fun a => Fin.ext ?_)
  match a with
  | ⟨0, _⟩ => show win3_2.index t 0 * 1 + 1 * (x 0).val = (k 0).val; rw [hi.1, hk0]; omega
  | ⟨1, _⟩ => show win3_2.index t 1 * 1024 + 1 * (x 1).val = (k 1).val; rw [hi.2, hk1]; omega

/-- The normalised-query block's entry `x` is the array's entry on row `512 (t / 8) + x₀`. -/
theorem iblk3_apply (c : Dev nD) (t : Fin cfg3.N) (x : S512x1024.Idx) (k : S8192x1024.Idx)
    (hk0 : (k 0).val = 512 * (t.val / 8) + (x 0).val) (hk1 : (k 1).val = (x 1).val) :
    (iblk V c 3 t : Vec F S512x1024 .f32) x = (V c main_v11 : S8192x1024.Idx → Elt F .f32) k := by
  have hi := index3 t
  unfold iblk
  rw [View.read_apply]
  show V c main_v11 _ = V c main_v11 _
  refine congrArg (V c main_v11) (funext fun a => Fin.ext ?_)
  match a with
  | ⟨0, _⟩ => show win3_3.index t 0 * 512 + 1 * (x 0).val = (k 0).val; rw [hi.1, hk0]; omega
  | ⟨1, _⟩ => show win3_3.index t 1 * 1024 + 1 * (x 1).val = (k 1).val; rw [hi.2, hk1]; omega

end AnyInstance

/-! ## With real arrays, at the ideal values -/

variable (V : (c : Dev nD) → (b : Ref sig .tc) → Buf (Elt Ideal) ((c : Thread nD τ).loc b))

theorem lt_128 (t : Fin cfg3.N) : t.val < 128 := lt_of_lt_of_eq t.isLt (show cfg3.N = 128 from N_3)

theorem q_blk (c : Dev nD) (q : Fin 8192 → Fin 1024 → ℝ) (hq : V c main_v13 = Cert.Spec.embed q)
    (t : Fin cfg3.N) (r : Fin 512) (e : Fin 1024) :
    (iblk V c 0 t : FVec Ideal S512x1024 .bf16) (ix2 r e) = ((q (rowAt (t.val / 8) r) e : ℝ) : EReal) := by
  have ht := lt_128 t
  rw [iblk0_apply V c t (ix2 r e) (ix2 (rowAt (t.val / 8) r) e) (rowAt_val _ (by omega) r) rfl, hq]
  rfl

theorem k_blk (c : Dev nD) (k : Fin 8192 → Fin 1024 → ℝ) (hk : V c main_v12 = Cert.Spec.embed k)
    (t : Fin cfg3.N) (s : Fin 1024) (e : Fin 1024) :
    (iblk V c 1 t : FVec Ideal S1024x1024 .bf16) (ix2 s e) = ((k (keyAt (t.val % 8) s) e : ℝ) : EReal) := by
  rw [iblk1_apply V c t (ix2 s e) (ix2 (keyAt (t.val % 8) s) e) (keyAt_val _ (Nat.mod_lt _ (by norm_num)) s) rfl, hk]
  rfl

theorem l_blk (c : Dev nD) (l : Fin 8192 → ℝ) (hl : V c main_v16 = Cert.Spec.embed (fun (_ : Fin 1) (j : Fin 8192) => l j))
    (t : Fin cfg3.N) (s : Fin 1024) :
    (iblk V c 2 t : FVec Ideal S1x1024 .f32) (ix2 (0 : Fin 1) s) = ((l (keyAt (t.val % 8) s) : ℝ) : EReal) := by
  rw [iblk2_apply V c t (ix2 (0 : Fin 1) s) (ix2 (0 : Fin 1) (keyAt (t.val % 8) s)) rfl (keyAt_val _ (Nat.mod_lt _ (by norm_num)) s), hl]
  rfl

theorem qn_blk (c : Dev nD) (qn : Fin 8192 → Fin 1024 → ℝ) (hqn : V c main_v11 = Cert.Spec.embed qn)
    (t : Fin cfg3.N) (r : Fin 512) (d : Fin 1024) :
    (iblk V c 3 t : FVec Ideal S512x1024 .f32) (ix2 r d) = ((qn (rowAt (t.val / 8) r) d : ℝ) : EReal) := by
  have ht := lt_128 t
  rw [iblk3_apply V c t (ix2 r d) (ix2 (rowAt (t.val / 8) r) d) (rowAt_val _ (by omega) r) rfl, hqn]
  rfl

end Cert.KernelIdeal.Comb3

end
-- ==== Proof.CombVInv3.lean ====
import proofs.«154747_j1580547971631_2_alg».proof.Proof.CombVPieces3
import proofs.«154747_j1580547971631_2_alg».proof.Proof.CombVPay3
import proofs.«154747_j1580547971631_2_alg».proof.Proof.CombVBlk3

set_option maxRecDepth 16384

noncomputable section

namespace Cert.KernelIdeal.Comb3

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.CombV

/-! # The combine region 3: the accumulator after each tile, and the output block after the last

With real arrays, after tile `m` of a row block the accumulator's entry `(r, d)` is the sum, over the keys `j` of tiles
`0 … m`, of `exp (⟨q_i, k_j⟩ - l_j) · k_j d` for the block's query row `i`: the first tile starts from the zero fill, every
later one adds its 1024 keys to what the tile before left. At the last tile that is the sum over all 8192 keys, and the
output block's entry is the normalised query's entry minus it. -/

/-- What key `j` contributes to entry `d` of query row `i`. -/
def term (q k : Fin 8192 → Fin 1024 → ℝ) (l : Fin 8192 → ℝ) (i : Fin 8192) (d : Fin 1024) (j : Fin 8192) : ℝ :=
  Real.exp ((∑ e : Fin 1024, q i e * k j e) - l j) * k j d

variable (V : (c : Dev nD) → (b : Ref sig .tc) → Buf (Elt Ideal) ((c : Thread nD τ).loc b))

/-- One tile: the accumulate payload of the point's blocks adds the tile's 1024 terms to the accumulator it read. -/
theorem tile_step (c : Dev nD) (q k : Fin 8192 → Fin 1024 → ℝ) (l : Fin 8192 → ℝ)
    (hq : V c main_v13 = Cert.Spec.embed q) (hk : V c main_v12 = Cert.Spec.embed k)
    (hl : V c main_v16 = Cert.Spec.embed (fun (_ : Fin 1) (j : Fin 8192) => l j))
    (t : Fin cfg3.N) (b m : ℕ) (hb : t.val / 8 = b) (hm : t.val % 8 = m)
    (s7 : FVec Ideal S512x1024 .f32) (r : Fin 512) (d : Fin 1024) :
    k3_pay2 (F := Ideal) (iblk V c 0 t) (iblk V c 1 t) (iblk V c 2 t) s7 (iblk V c 1 t) (ix2 r d)
      = s7 (ix2 r d) + ((∑ s : Fin 1024, term q k l (rowAt b r) d (keyAt m s) : ℝ) : EReal) := by
  subst hb hm
  refine (pay2_apply (iblk V c 0 t) (iblk V c 1 t) (iblk V c 2 t) s7 (iblk V c 1 t) r d).trans ?_
  refine congrArg (s7 (ix2 r d) + ·) ?_
  refine Eq.trans (Finset.sum_congr rfl fun s _ => ?_)
    (tile_sum_coe (fun e => q (rowAt (t.val / 8) r) e) (fun s e => k (keyAt (t.val % 8) s) e)
      (fun s => l (keyAt (t.val % 8) s)) (fun s => k (keyAt (t.val % 8) s) d))
  rw [l_blk V c l hl t s, k_blk V c k hk t s d]
  refine congrArg (fun z => Ideal.exp (z - ((l (keyAt (t.val % 8) s) : ℝ) : EReal)) * ((k (keyAt (t.val % 8) s) d : ℝ) : EReal)) ?_
  exact Finset.sum_congr rfl fun e _ => by rw [q_blk V c q hq t r e, k_blk V c k hk t s e]

/-- A row block's FIRST tile leaves the terms of tile 0. -/
theorem acc_first (c : Dev nD) (q k : Fin 8192 → Fin 1024 → ℝ) (l : Fin 8192 → ℝ)
    (hq : V c main_v13 = Cert.Spec.embed q) (hk : V c main_v12 = Cert.Spec.embed k)
    (hl : V c main_v16 = Cert.Spec.embed (fun (_ : Fin 1) (j : Fin 8192) => l j))
    (t : Fin cfg3.N) (h0 : t.val % 8 = 0) (r : Fin 512) (d : Fin 1024) :
    ((outsAt V c t.val t.isLt).2 : FVec Ideal S512x1024 .f32) (ix2 r d)
      = ((tilesSum (term q k l (rowAt (t.val / 8) r) d) 0 : ℝ) : EReal) := by
  have h7 : ¬t.val % 8 = 7 := by omega
  rw [outsAt_first V c t h0 h7]
  dsimp only
  rw [rd7_first V c t h0 h7, tile_step V c q k l hq hk hl t (t.val / 8) 0 rfl h0 k3_pay1 r d, pay1_apply, zero_add,
    tilesSum_zero]

/-- A LATER tile adds its terms to what the tile before left. -/
theorem acc_next (c : Dev nD) (q k : Fin 8192 → Fin 1024 → ℝ) (l : Fin 8192 → ℝ)
    (hq : V c main_v13 = Cert.Spec.embed q) (hk : V c main_v12 = Cert.Spec.embed k)
    (hl : V c main_v16 = Cert.Spec.embed (fun (_ : Fin 1) (j : Fin 8192) => l j))
    (t : Fin cfg3.N) (h0 : ¬t.val % 8 = 0) (m : ℕ) (hm : t.val % 8 = m + 1) (r : Fin 512) (d : Fin 1024)
    (ih : ((prev V c t).2 : FVec Ideal S512x1024 .f32) (ix2 r d)
      = ((tilesSum (term q k l (rowAt (t.val / 8) r) d) m : ℝ) : EReal)) :
    ((outsAt V c t.val t.isLt).2 : FVec Ideal S512x1024 .f32) (ix2 r d)
      = ((tilesSum (term q k l (rowAt (t.val / 8) r) d) (m + 1) : ℝ) : EReal) := by
  have step : (k3_pay2 (F := Ideal) (iblk V c 0 t) (iblk V c 1 t) (iblk V c 2 t) (prev V c t).2 (iblk V c 1 t)) (ix2 r d)
      = ((tilesSum (term q k l (rowAt (t.val / 8) r) d) (m + 1) : ℝ) : EReal) := by
    rw [tile_step V c q k l hq hk hl t (t.val / 8) (m + 1) rfl hm (prev V c t).2 r d, ih, tilesSum_succ, EReal.coe_add]
  by_cases h7 : t.val % 8 = 7
  · rw [outsAt_last V c t h0 h7]
    dsimp only
    rw [rd7_last V c t h0 h7 (prev V c t).2]
    exact step
  · rw [outsAt_mid V c t h0 h7]
    dsimp only
    rw [rd7_mid V c t h0 h7 (prev V c t).2]
    exact step

/-- The accumulator after position `n`: the terms of the keys of tiles `0 … n % 8`, for row block `n / 8`. -/
theorem acc_eq (c : Dev nD) (q k : Fin 8192 → Fin 1024 → ℝ) (l : Fin 8192 → ℝ)
    (hq : V c main_v13 = Cert.Spec.embed q) (hk : V c main_v12 = Cert.Spec.embed k)
    (hl : V c main_v16 = Cert.Spec.embed (fun (_ : Fin 1) (j : Fin 8192) => l j)) :
    ∀ (n : ℕ) (hn : n < cfg3.N) (r : Fin 512) (d : Fin 1024),
      ((outsAt V c n hn).2 : FVec Ideal S512x1024 .f32) (ix2 r d)
        = ((tilesSum (term q k l (rowAt (n / 8) r) d) (n % 8) : ℝ) : EReal) := by
  intro n
  induction n with
  | zero =>
    intro hn r d
    exact acc_first V c q k l hq hk hl ⟨0, hn⟩ (Nat.zero_mod 8) r d
  | succ n ih =>
    intro hn r d
    by_cases h0 : (n + 1) % 8 = 0
    · have e := acc_first V c q k l hq hk hl ⟨n + 1, hn⟩ h0 r d
      rw [h0]
      exact e
    · have hb : (n + 1) / 8 = n / 8 := by omega
      have hm : (n + 1) % 8 = n % 8 + 1 := by omega
      have e := acc_next V c q k l hq hk hl ⟨n + 1, hn⟩ h0 (n % 8) hm r d
        (by rw [show (⟨n + 1, hn⟩ : Fin cfg3.N).val / 8 = n / 8 from hb]
            exact ih (Nat.lt_of_succ_lt hn) r d)
      rw [hm]
      exact e

/-- The output block after a row block's last tile: the normalised query's entry minus the sum over all the keys. -/
theorem out_eq (c : Dev nD) (q k qn : Fin 8192 → Fin 1024 → ℝ) (l : Fin 8192 → ℝ)
    (hq : V c main_v13 = Cert.Spec.embed q) (hk : V c main_v12 = Cert.Spec.embed k)
    (hl : V c main_v16 = Cert.Spec.embed (fun (_ : Fin 1) (j : Fin 8192) => l j)) (hqn : V c main_v11 = Cert.Spec.embed qn)
    (t : Fin cfg3.N) (h7 : t.val % 8 = 7) (r : Fin 512) (d : Fin 1024) :
    ((outsAt V c t.val t.isLt).1 : FVec Ideal S512x1024 .f32) (ix2 r d)
      = ((qn (rowAt (t.val / 8) r) d - ∑ j : Fin 8192, term q k l (rowAt (t.val / 8) r) d j : ℝ) : EReal) := by
  have h0 : ¬t.val % 8 = 0 := by omega
  have hacc := acc_eq V c q k l hq hk hl t.val t.isLt r d
  rw [h7, tilesSum_seven, outsAt_last V c t h0 h7] at hacc
  dsimp only at hacc
  rw [outsAt_last V c t h0 h7]
  dsimp only
  rw [rdO_last V c t h0 h7 (prev V c t).2, pay3_apply, qn_blk V c qn hqn t r d,
    ← rd7_last V c t h0 h7 (prev V c t).2, hacc, ← EReal.coe_sub]

end Cert.KernelIdeal.Comb3

end
-- ==== Proof.CombVArr3.lean ====
import proofs.«154747_j1580547971631_2_alg».proof.Proof.CombVInv3

set_option maxRecDepth 16384

noncomputable section

namespace Cert.KernelIdeal.Comb3

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.CombV

/-! # The combine region 3: its output array

The output window is written back at each row block's last tile, its block rows `512 (t / 8) …` of the array; the sixteen
written blocks tile the 8192 rows. What each write-back writes is the block of ONE function of the arrays — entry
`(i, d)` the normalised query's entry minus the sum over all the keys `j` of `exp (⟨q_i, k_j⟩ - l_j) · k_j d` — so the array
ends holding that function. -/

/-- The output window's block has the full block's extents at every point (no edge block is cut). -/
theorem xsize4 : ∀ t : Fin cfg3.N, win3_4.xsize (grid3.coords t) 0 = 512 ∧ win3_4.xsize (grid3.coords t) 1 = 1024 :=
  (by decide +kernel : ∀ t : Fin grid3.N, win3_4.xsize (grid3.coords t) 0 = 512 ∧ win3_4.xsize (grid3.coords t) 1 = 1024)

section AnyInstance
variable {F : FTy → Type} [FloatOps F]

/-- A function of the output array's index read through the output window's block at `t`: entry `x` is the function at
    row `512 (t / 8) + x₀`. -/
theorem oblk_apply (c : Dev nD) (t : Fin cfg3.N) (G : S8192x1024.Idx → Elt F .f32) (x : S512x1024.Idx) (k : S8192x1024.Idx)
    (hk0 : (k 0).val = 512 * (t.val / 8) + (x 0).val) (hk1 : (k 1).val = (x 1).val) :
    (((cfg3.win 4).blk t).view.read (Elt F) G : Vec F S512x1024 .f32) x = G k := by
  have hi := index4 t
  rw [View.read_apply]
  show G _ = G _
  refine congrArg G (funext fun a => Fin.ext ?_)
  match a with
  | ⟨0, _⟩ => show win3_4.index t 0 * 512 + 1 * (x 0).val = (k 0).val; rw [hi.1, hk0]; omega
  | ⟨1, _⟩ => show win3_4.index t 1 * 1024 + 1 * (x 1).val = (k 1).val; rw [hi.2, hk1]; omega

end AnyInstance

variable (V : (c : Dev nD) → (b : Ref sig .tc) → Buf (Elt Ideal) ((c : Thread nD τ).loc b))

/-- The region's result as a function of the four real arrays. -/
def outFn (q k qn : Fin 8192 → Fin 1024 → ℝ) (l : Fin 8192 → ℝ) (i : Fin 8192) (d : Fin 1024) : ℝ :=
  qn i d - ∑ j : Fin 8192, Real.exp ((∑ e : Fin 1024, q i e * k j e) - l j) * k j d

/-- Each write-back writes the block of that function. -/
theorem flushed_eq (c : Dev nD) (q k qn : Fin 8192 → Fin 1024 → ℝ) (l : Fin 8192 → ℝ)
    (hq : V c main_v13 = Cert.Spec.embed q) (hk : V c main_v12 = Cert.Spec.embed k)
    (hl : V c main_v16 = Cert.Spec.embed (fun (_ : Fin 1) (j : Fin 8192) => l j)) (hqn : V c main_v11 = Cert.Spec.embed qn)
    (t : Fin cfg3.N) (hf : (cfg3.win 4).flush t = true) :
    (dat V c).flushed 4 t = ((cfg3.win 4).blk t).view.read (Elt Ideal) (Cert.Spec.embed (outFn q k qn l)) := by
  have h7 : t.val % 8 = 7 := (flush3_4 t).mp hf
  have ht := lt_128 t
  funext y
  obtain ⟨r, d, rfl⟩ : ∃ (r : Fin 512) (d : Fin 1024), y = ix2 r d := ⟨y 0, y 1, eq_ix2 y⟩
  refine Eq.trans ?_ (oblk_apply (F := Ideal) c t (Cert.Spec.embed (outFn q k qn l)) (ix2 r d)
    (ix2 (rowAt (t.val / 8) r) d) (rowAt_val _ (by omega) r) rfl).symm
  show ((dat V c).after 4 t : FVec Ideal S512x1024 .f32) (ix2 r d) = _
  rw [after4 V c t, out_eq V c q k qn l hq hk hl hqn t h7 r d]
  rfl

/-- So the output array ends holding it. -/
theorem arr_value (c : Dev nD) (q k qn : Fin 8192 → Fin 1024 → ℝ) (l : Fin 8192 → ℝ)
    (hq : V c main_v13 = Cert.Spec.embed q) (hk : V c main_v12 = Cert.Spec.embed k)
    (hl : V c main_v16 = Cert.Spec.embed (fun (_ : Fin 1) (j : Fin 8192) => l j)) (hqn : V c main_v11 = Cert.Spec.embed qn) :
    (dat V c).arrAt 4 cfg3.N
      = Cert.Spec.embed (fun i d => qn i d - ∑ j : Fin 8192, Real.exp ((∑ e : Fin 1024, q i e * k j e) - l j) * k j d) :=
  (dat V c).arrAt_eq_of_cover 4 (Cert.Spec.embed (outFn q k qn l)) (flushed_eq V c q k qn l hq hk hl hqn) fun i => by
    have h0 : (i 0 : ℕ) < 8192 := (i 0).isLt
    have h1 : (i 1 : ℕ) < 1024 := (i 1).isLt
    have hN : cfg3.N = 128 := N_3
    have hlt : 8 * ((i 0 : ℕ) / 512) + 7 < cfg3.N := by rw [hN]; omega
    refine ⟨⟨8 * ((i 0 : ℕ) / 512) + 7, hlt⟩, (flush3_4 ⟨8 * ((i 0 : ℕ) / 512) + 7, hlt⟩).mpr (by show (8 * ((i 0 : ℕ) / 512) + 7) % 8 = 7; omega), ?_⟩
    show i ∈ ((View.whole main_v19).slice (win3_4.rect ⟨8 * ((i 0 : ℕ) / 512) + 7, hlt⟩)).set
    rw [View.set_slice_whole, Rect.mem_set_unit]
    intro a
    have hi := index4 ⟨8 * ((i 0 : ℕ) / 512) + 7, hlt⟩
    have hx := xsize4 ⟨8 * ((i 0 : ℕ) / 512) + 7, hlt⟩
    match a with
    | ⟨0, _⟩ =>
      show win3_4.index ⟨8 * ((i 0 : ℕ) / 512) + 7, hlt⟩ 0 * 512 ≤ (i 0 : ℕ)
        ∧ (i 0 : ℕ) < win3_4.index ⟨8 * ((i 0 : ℕ) / 512) + 7, hlt⟩ 0 * 512 + win3_4.xsize (grid3.coords ⟨8 * ((i 0 : ℕ) / 512) + 7, hlt⟩) 0
      rw [hi.1, hx.1]
      show (8 * ((i 0 : ℕ) / 512) + 7) / 8 * 512 ≤ (i 0 : ℕ) ∧ (i 0 : ℕ) < (8 * ((i 0 : ℕ) / 512) + 7) / 8 * 512 + 512
      omega
    | ⟨1, _⟩ =>
      show win3_4.index ⟨8 * ((i 0 : ℕ) / 512) + 7, hlt⟩ 1 * 1024 ≤ (i 1 : ℕ)
        ∧ (i 1 : ℕ) < win3_4.index ⟨8 * ((i 0 : ℕ) / 512) + 7, hlt⟩ 1 * 1024 + win3_4.xsize (grid3.coords ⟨8 * ((i 0 : ℕ) / 512) + 7, hlt⟩) 1
      rw [hi.2, hx.2]
      omega

end Cert.KernelIdeal.Comb3

end
-- ==== Proof.RefRead.lean ====
/-
  The reference's arrays as functions of its two arguments, and its two results read off the line of operations.

  Each array the reference computes after the two normalisations is named as a function of the arrays it is computed
  from: a row's norm, the quotient by it, the scores (a product with a transpose), a row's / a column's maximum
  taken from -∞, the exponential less that maximum, the soft-max along a row / along a column, and the two results.
  After the line of operations the first result's buffer holds `rOut0`, and the second's `rOut1`, of the two
  normalised arguments (`after_v21`, `after_v34`): each operation's result at its own buffer is its function of its
  operands' buffers, and every other buffer keeps what it held.
-/
import proofs.«154747_j1580547971631_2_alg».proof.Proof.RefRun

noncomputable section

namespace Cert.RefSide

open Cert.ReferenceIdeal Cert.ReferenceIdeal.Gen Cert.ReferenceIdeal.RawRun Idealize.ShloMosaic Idealize.ShloMosaic.TcCoe
  Idealize.SL.Sem Idealize.ShloMosaic.StableHlo

variable {F : FTy → Type} [FloatOps F]

/-! ## The reference's arrays as functions of its two arguments -/

/-- The norm of each row of `X`, as an [8192, 1] array: the square root of the row's sum of squares. -/
def rNorm (X : (⟨S8192x1024, .f32⟩ : BufTy).Contents (Elt F)) : (⟨S8192x1, .f32⟩ : BufTy).Contents (Elt F) :=
  Host.sqrt (broadcastInDim S8192x1 ![0] bcast_S8192_S8192x1_0
    (Host.reduceAdd (mulf X X) (constant S_ .f32 0x00000000#32) reducesTo_S8192x1024_S8192_d1 h_S_))

/-- `X` with each row divided by its norm. -/
def rQuot (X : (⟨S8192x1024, .f32⟩ : BufTy).Contents (Elt F)) : (⟨S8192x1024, .f32⟩ : BufTy).Contents (Elt F) :=
  Host.divf X (broadcastInDim S8192x1024 ![0, 1] bcast_S8192x1_S8192x1024_0_1 (rNorm X))

/-- The scores: the product of `P` with the transpose of `Q`. -/
def rScore (P Q : (⟨S8192x1024, .f32⟩ : BufTy).Contents (Elt F)) : (⟨S8192x8192, .f32⟩ : BufTy).Contents (Elt F) :=
  Host.dotGeneral dot_S8192x1024_S1024x8192_S8192x8192_1_0_0_1_n_n none P
    (transpose S1024x8192 [1, 0] Q transposes_S8192x1024_S1024x8192_1_0)

/-- The maximum of each row of `S`, taken from `-∞` and once more against `-∞`. -/
def rRowMax (S : (⟨S8192x8192, .f32⟩ : BufTy).Contents (Elt F)) : (⟨S8192, .f32⟩ : BufTy).Contents (Elt F) :=
  maximumf (broadcastInDim S8192 ![] bcast_S_S8192 (constant S_ .f32 0xFF800000#32))
    (Host.reduce FloatOps.maximumf S (constant S_ .f32 0xFF800000#32) reducesTo_S8192x8192_S8192_d1 h_S_)

/-- The exponential of `S` less its row's maximum. -/
def rRowExp (S : (⟨S8192x8192, .f32⟩ : BufTy).Contents (Elt F)) : (⟨S8192x8192, .f32⟩ : BufTy).Contents (Elt F) :=
  Host.exp (subf S (broadcastInDim S8192x8192 ![0, 1] bcast_S8192x1_S8192x8192_0_1
    (broadcastInDim S8192x1 ![0] bcast_S8192_S8192x1_0 (rRowMax S))))

/-- The soft-max of `S` along each row. -/
def rRowSm (S : (⟨S8192x8192, .f32⟩ : BufTy).Contents (Elt F)) : (⟨S8192x8192, .f32⟩ : BufTy).Contents (Elt F) :=
  Host.divf (rRowExp S) (broadcastInDim S8192x8192 ![0, 1] bcast_S8192x1_S8192x8192_0_1
    (broadcastInDim S8192x1 ![0] bcast_S8192_S8192x1_0
      (Host.reduceAdd (rRowExp S) (constant S_ .f32 0x00000000#32) reducesTo_S8192x8192_S8192_d1 h_S_)))

/-- The maximum of each column of `S`, taken from `-∞` and once more against `-∞`. -/
def rColMax (S : (⟨S8192x8192, .f32⟩ : BufTy).Contents (Elt F)) : (⟨S8192, .f32⟩ : BufTy).Contents (Elt F) :=
  maximumf (broadcastInDim S8192 ![] bcast_S_S8192 (constant S_ .f32 0xFF800000#32))
    (Host.reduce FloatOps.maximumf S (constant S_ .f32 0xFF800000#32) reducesTo_S8192x8192_S8192_d0 h_S_)

/-- The exponential of `S` less its column's maximum. -/
def rColExp (S : (⟨S8192x8192, .f32⟩ : BufTy).Contents (Elt F)) : (⟨S8192x8192, .f32⟩ : BufTy).Contents (Elt F) :=
  Host.exp (subf S (broadcastInDim S8192x8192 ![0, 1] bcast_S1x8192_S8192x8192_0_1
    (broadcastInDim S1x8192 ![1] bcast_S8192_S1x8192_1 (rColMax S))))

/-- The soft-max of `S` along each column. -/
def rColSm (S : (⟨S8192x8192, .f32⟩ : BufTy).Contents (Elt F)) : (⟨S8192x8192, .f32⟩ : BufTy).Contents (Elt F) :=
  Host.divf (rColExp S) (broadcastInDim S8192x8192 ![0, 1] bcast_S1x8192_S8192x8192_0_1
    (broadcastInDim S1x8192 ![1] bcast_S8192_S1x8192_1
      (Host.reduceAdd (rColExp S) (constant S_ .f32 0x00000000#32) reducesTo_S8192x8192_S8192_d0 h_S_)))

/-- The first result: `Q` less the product of the transposed row soft-max of the scores with `P`. -/
def rOut0 (P Q : (⟨S8192x1024, .f32⟩ : BufTy).Contents (Elt F)) : (⟨S8192x1024, .f32⟩ : BufTy).Contents (Elt F) :=
  subf Q (Host.dotGeneral dot_S8192x8192_S8192x1024_S8192x1024_1_0_0_1_n_n none
    (transpose S8192x8192 [1, 0] (rRowSm (rScore P Q)) transposes_S8192x8192_S8192x8192_1_0) P)

/-- The second result: `P` less the product of the column soft-max of the scores with `Q`. -/
def rOut1 (P Q : (⟨S8192x1024, .f32⟩ : BufTy).Contents (Elt F)) : (⟨S8192x1024, .f32⟩ : BufTy).Contents (Elt F) :=
  subf P (Host.dotGeneral dot_S8192x8192_S8192x1024_S8192x1024_1_0_0_1_n_n none (rColSm (rScore P Q)) Q)

/-! ## The two results read off the line of operations -/

/-- After the line, the first result's buffer holds `rOut0` of the two normalised arguments. -/
theorem after_v21 (V : Valuation τ sig (Elt F)) :
    after ops V (Proc.devRef .tc main_v21)
      = rOut0 (rQuot (V (Proc.devRef .tc main_arg0))) (rQuot (V (Proc.devRef .tc main_arg1))) := by
  after_results_simp
  rfl

/-- After the line, the second result's buffer holds `rOut1` of the two normalised arguments. -/
theorem after_v34 (V : Valuation τ sig (Elt F)) :
    after ops V (Proc.devRef .tc main_v34)
      = rOut1 (rQuot (V (Proc.devRef .tc main_arg0))) (rQuot (V (Proc.devRef .tc main_arg1))) := by
  after_results_simp
  rfl

end Cert.RefSide

end
-- ==== Proof.RefValue.lean ====
/-
  The reference's two results, at the extended reals, are the specification's.

  From two argument arrays that hold real matrices `x`, `y` with no zero row: the quotient of each by its rows' norms is
  the array of the matrix with each row divided by its Euclidean norm (`rQuot_embed`: the sum of squares of coerced
  reals is the coercion of the real sum, and for a positive sum the quotient by the square root is the real quotient);
  the product of the first with the transpose of the second is the array of the inner products of the normalised rows
  (`rScore_embed`); the max-shifted soft-max along each row, and along each column, of the array of a real matrix is the
  array of its soft-max there (`rRowSm_embed`, `rColSm_embed`: the maximum taken from -∞ is the coercion of the real
  maximum, the exponentials and their sum are coercions of the real ones, the sum is positive, and the soft-max does not
  depend on the shift); and each result, a normalised matrix less a product with a soft-max matrix, is the array of the
  specification's function (`rOut0_nrm`, `rOut1_nrm`). Every equation between arrays is proved index by index.
  `run_value` puts these behind the run of the line of operations.
-/
import proofs.«154747_j1580547971631_2_alg».proof.Proof.RefRead
import proofs.«154747_j1580547971631_2_alg».proof.Proof.LibHostRows
import proofs.«154747_j1580547971631_2_alg».proof.Proof.SpecEmbed
import proofs.«154747_j1580547971631_2_alg».proof.Proof.LibNormalise
import proofs.«154747_j1580547971631_2_alg».proof.Proof.LibLogSumExp
import proofs.«154747_j1580547971631_2_alg».proof.Proof.LibSumReindex

set_option Elab.async false

noncomputable section

namespace Cert.RefSide

open Cert.ReferenceIdeal Cert.ReferenceIdeal.Gen Idealize.ShloMosaic Idealize.ShloMosaic.ValueIdx Cert.Spec Cert.Lib.HostRows
open scoped BigOperators

/-! ## Scalars -/

/-- The pattern of f32's negative infinity denotes `⊥`. -/
theorem ofBits_neg_inf : Ideal.ofBits .f32 0xFF800000#32 = ⊥ := by simp [Ideal.ofBits, Ideal.ieee]

/-- The quotient of two coerced reals by a nonzero one is the coercion of the real quotient. -/
theorem div_coe_coe (e : ℝ) {S : ℝ} (hS : S ≠ 0) : Ideal.div (e : EReal) (S : EReal) = ((e / S : ℝ) : EReal) := by
  rw [Ideal.div_coe hS, ← EReal.coe_mul, mul_one_div]

/-- The fold of the maximum from `⊥` is the supremum. -/
theorem fold_max_bot {ι : Type*} (s : Finset ι) (f : ι → EReal) : s.fold max ⊥ f = s.sup f := by
  classical
  induction s using Finset.induction_on with
  | empty => simp
  | insert a s ha ih => rw [Finset.fold_insert ha, Finset.sup_insert, ih]

/-! ## The normalisation -/

/-- The sum of squares of row `a` of the array of a real matrix. -/
theorem sumSq_rows (x : Fin 8192 → Fin 1024 → ℝ) (a : Fin 8192) :
    Host.reduceAdd (F := Ideal) (mulf (embed x) (embed x)) (constant S_ .f32 0x00000000#32) reducesTo_S8192x1024_S8192_d1 h_S_ (ix1 a)
      = ((∑ k, x a k * x a k : ℝ) : EReal) :=
  (hostReduceAdd_rows_apply reducesTo_S8192x1024_S8192_d1 h_S_ _ _ a).trans
    (by rw [constant_zero_apply, zero_add]; exact Cert.Lib.Normalise.sum_sq_coe (x a))

/-- The norm array of a real matrix at row `a`. -/
theorem rNorm_embed (x : Fin 8192 → Fin 1024 → ℝ) (a : Fin 8192) :
    rNorm (F := Ideal) (embed x) (ix2 a 0) = Ideal.sqrt ((∑ k, x a k * x a k : ℝ) : EReal) :=
  congrArg Ideal.sqrt ((bcast_vec_col bcast_S8192_S8192x1_0 _ a 0).trans (sumSq_rows x a))

/-- NORMALISATION: the quotient of the array of a real matrix with no zero row by its rows' norms is the array of the
    matrix with each row divided by its Euclidean norm. -/
theorem rQuot_embed (x : Fin 8192 → Fin 1024 → ℝ) (hpos : ∀ i, 0 < ∑ k, x i k * x i k) :
    rQuot (F := Ideal) (embed x) = embed (nrm x) := by
  funext j
  obtain ⟨a, b, rfl⟩ : ∃ a b, j = ix2 a b := ⟨j 0, j 1, eq_ix2 j⟩
  show Ideal.div (embed x (ix2 a b))
    (broadcastInDim S8192x1024 ![0, 1] bcast_S8192x1_S8192x1024_0_1 (rNorm (F := Ideal) (embed x)) (ix2 a b)) = _
  refine (congrArg (Ideal.div _) ((bcast_col bcast_S8192x1_S8192x1024_0_1 _ a b).trans (rNorm_embed x a))).trans ?_
  exact Cert.Lib.Normalise.div_sqrt_eq_coe _ (hpos a)

/-! ## The scores -/

/-- The contraction index of the first product, by its one coordinate. -/
abbrev e1 := contrEquiv1 dot_S8192x1024_S1024x8192_S8192x8192_1_0_0_1_n_n 1024 rfl rfl
/-- The contraction index of the second product, by its one coordinate. -/
abbrev e2 := contrEquiv1 dot_S8192x8192_S8192x1024_S8192x1024_1_0_0_1_n_n 8192 rfl rfl

theorem d1_lhs (a b : Fin 8192) (k : Fin 1024) :
    dot_S8192x1024_S1024x8192_S8192x8192_1_0_0_1_n_n.lhsIdx (ix2 a b) (e1.symm k) = ix2 a k := by
  funext c; refine Fin.ext ?_; fin_cases c <;> rfl
theorem d1_rhs (a b : Fin 8192) (k : Fin 1024) :
    dot_S8192x1024_S1024x8192_S8192x8192_1_0_0_1_n_n.rhsIdx (ix2 a b) (e1.symm k) = ix2 k b := by
  funext c; refine Fin.ext ?_; fin_cases c <;> rfl
theorem d2_lhs (a : Fin 8192) (b : Fin 1024) (k : Fin 8192) :
    dot_S8192x8192_S8192x1024_S8192x1024_1_0_0_1_n_n.lhsIdx (ix2 a b) (e2.symm k) = ix2 a k := by
  funext c; refine Fin.ext ?_; fin_cases c <;> rfl
theorem d2_rhs (a : Fin 8192) (b : Fin 1024) (k : Fin 8192) :
    dot_S8192x8192_S8192x1024_S8192x1024_1_0_0_1_n_n.rhsIdx (ix2 a b) (e2.symm k) = ix2 k b := by
  funext c; refine Fin.ext ?_; fin_cases c <;> rfl

/-- THE SCORES: the product of the array of `p` with the transposed array of `q` is the array of the inner products
    of the rows of `p` with the rows of `q`. -/
theorem rScore_embed (p q : Fin 8192 → Fin 1024 → ℝ) :
    rScore (F := Ideal) (embed p) (embed q) = embed (fun i j => ∑ k, p i k * q j k) := by
  funext j
  obtain ⟨a, b, rfl⟩ : ∃ a b, j = ix2 a b := ⟨j 0, j 1, eq_ix2 j⟩
  refine (dotGeneral_read dot_S8192x1024_S1024x8192_S8192x8192_1_0_0_1_n_n 1024 rfl rfl (embed p) _ (ix2 a b)
    (fun k => ((p a k : ℝ) : EReal)) (fun k => ((q b k : ℝ) : EReal)) (fun k => ?_) (fun k => ?_)).trans ?_
  · exact congrArg (embed p) (d1_lhs a b k)
  · exact (congrArg _ (d1_rhs a b k)).trans (transpose_swap transposes_S8192x1024_S1024x8192_1_0 (embed q) b k)
  · exact Cert.Lib.SumReindex.coe_sum_mul _ _

/-! ## The elementwise host operations at an index -/

theorem hostExp_apply {s : Shape} (x : FVec Ideal s .f32) (i : s.Idx) : Host.exp (F := Ideal) x i = Ideal.exp (x i) := rfl
theorem hostDivf_apply {s : Shape} (x y : FVec Ideal s .f32) (i : s.Idx) :
    Host.divf (F := Ideal) x y i = Ideal.div (x i) (y i) := rfl

/-! ## The soft-max along rows -/

open Cert.Lib.LogSumExp (tileMax sup_coe_eq exp_coe_sub_coe exp_sub_div_sum_exp_sub)

-- the host's general reduce is a fold over the list of ALL the operand's positions: it is read through
-- `hostReduceMax_rows` / `_cols` only, never unfolded
attribute [local irreducible] Host.reduce

/-- The broadcast `-∞` is `⊥` at every index. -/
theorem negInf_vec (a : Fin 8192) :
    broadcastInDim S8192 ![] bcast_S_S8192 (constant (F := Ideal) S_ .f32 0xFF800000#32) (ix1 a) = ⊥ :=
  (bcast_scalar bcast_S_S8192 _ a).trans ofBits_neg_inf

theorem red_rows : S8192x8192.Reduces [1] S8192 := by decide
theorem red_cols : S8192x8192.Reduces [0] S8192 := by decide

/-- The fold of the maximum from the `-∞` constant over a family of coerced reals is the coercion of their maximum. -/
theorem fold_max_coe (f : Fin 8192 → ℝ) :
    (Finset.univ : Finset (Fin 8192)).fold max ((constant (F := Ideal) S_ .f32 0xFF800000#32) (Shape.Idx.first h_S_)) (fun k => ((f k : ℝ) : EReal))
      = ((tileMax f : ℝ) : EReal) := by
  show (Finset.univ : Finset (Fin 8192)).fold max (Ideal.ofBits .f32 0xFF800000#32) (fun k => ((f k : ℝ) : EReal)) = _
  rw [ofBits_neg_inf, fold_max_bot, sup_coe_eq]

/-- The host's maximum along row `a` of the array of a real matrix. -/
theorem rowMaxRed (s : Fin 8192 → Fin 8192 → ℝ) (a : Fin 8192) :
    Host.reduce (FloatOps.maximumf (F := Ideal) (φ := .f32)) (embed s) (constant (F := Ideal) S_ .f32 0xFF800000#32) reducesTo_S8192x8192_S8192_d1 h_S_ (ix1 a)
      = ((tileMax (s a) : ℝ) : EReal) :=
  (hostReduceMax_rows reducesTo_S8192x8192_S8192_d1 red_rows h_S_ (embed s) (constant (F := Ideal) S_ .f32 0xFF800000#32) a).trans (fold_max_coe (s a))

/-- The maximum of row `a` of the array of a real matrix, as the reference takes it. -/
theorem rRowMax_embed (s : Fin 8192 → Fin 8192 → ℝ) (a : Fin 8192) :
    rRowMax (F := Ideal) (embed s) (ix1 a) = ((tileMax (s a) : ℝ) : EReal) := by
  unfold rRowMax
  rw [maximumf_apply, rowMaxRed, negInf_vec]
  exact max_bot_left _

/-- The exponential of an entry less its row's maximum. -/
theorem rRowExp_embed (s : Fin 8192 → Fin 8192 → ℝ) (a b : Fin 8192) :
    rRowExp (F := Ideal) (embed s) (ix2 a b) = ((Real.exp (s a b - tileMax (s a)) : ℝ) : EReal) := by
  have hm : broadcastInDim S8192x8192 ![0, 1] bcast_S8192x1_S8192x8192_0_1 (broadcastInDim S8192x1 ![0] bcast_S8192_S8192x1_0 (rRowMax (F := Ideal) (embed s))) (ix2 a b)
      = ((tileMax (s a) : ℝ) : EReal) :=
    (bcast_col bcast_S8192x1_S8192x8192_0_1 _ a b).trans
      ((bcast_vec_col bcast_S8192_S8192x1_0 _ a 0).trans (rRowMax_embed s a))
  unfold rRowExp
  rw [hostExp_apply, subf_apply, hm]
  exact exp_coe_sub_coe _ _

/-- The sum along row `a` of those exponentials. -/
theorem rRowSum_embed (s : Fin 8192 → Fin 8192 → ℝ) (a : Fin 8192) :
    Host.reduceAdd (F := Ideal) (rRowExp (F := Ideal) (embed s)) (constant (F := Ideal) S_ .f32 0x00000000#32) reducesTo_S8192x8192_S8192_d1 h_S_ (ix1 a)
      = ((∑ k, Real.exp (s a k - tileMax (s a)) : ℝ) : EReal) :=
  (hostReduceAdd_rows_apply reducesTo_S8192x8192_S8192_d1 h_S_ _ _ a).trans
    (by
      rw [constant_zero_apply, zero_add, ← Cert.Lib.SumReindex.coe_sum]
      exact Finset.sum_congr rfl fun k _ => rRowExp_embed s a k)

/-- THE ROW SOFT-MAX: the reference's max-shifted soft-max along each row of the array of a real matrix is the array of
    the matrix's soft-max along each row. -/
theorem rRowSm_embed (s : Fin 8192 → Fin 8192 → ℝ) :
    rRowSm (F := Ideal) (embed s) = embed (fun a b => Real.exp (s a b) / ∑ b', Real.exp (s a b')) := by
  funext j
  obtain ⟨a, b, rfl⟩ : ∃ a b, j = ix2 a b := ⟨j 0, j 1, eq_ix2 j⟩
  have hpos : 0 < ∑ k, Real.exp (s a k - tileMax (s a)) :=
    Finset.sum_pos (fun _ _ => Real.exp_pos _) Finset.univ_nonempty
  have hd : broadcastInDim S8192x8192 ![0, 1] bcast_S8192x1_S8192x8192_0_1 (broadcastInDim S8192x1 ![0] bcast_S8192_S8192x1_0 (Host.reduceAdd (F := Ideal) (rRowExp (F := Ideal) (embed s)) (constant (F := Ideal) S_ .f32 0x00000000#32) reducesTo_S8192x8192_S8192_d1 h_S_)) (ix2 a b)
      = ((∑ k, Real.exp (s a k - tileMax (s a)) : ℝ) : EReal) :=
    (bcast_col bcast_S8192x1_S8192x8192_0_1 _ a b).trans
      ((bcast_vec_col bcast_S8192_S8192x1_0 _ a 0).trans (rRowSum_embed s a))
  unfold rRowSm
  rw [hostDivf_apply, rRowExp_embed, hd, div_coe_coe _ hpos.ne', exp_sub_div_sum_exp_sub]
  rfl

/-! ## The soft-max along columns -/

/-- The host's maximum along column `b` of the array of a real matrix. -/
theorem colMaxRed (s : Fin 8192 → Fin 8192 → ℝ) (b : Fin 8192) :
    Host.reduce (FloatOps.maximumf (F := Ideal) (φ := .f32)) (embed s) (constant (F := Ideal) S_ .f32 0xFF800000#32) reducesTo_S8192x8192_S8192_d0 h_S_ (ix1 b)
      = ((tileMax (fun i => s i b) : ℝ) : EReal) :=
  (hostReduceMax_cols reducesTo_S8192x8192_S8192_d0 red_cols h_S_ (embed s) (constant (F := Ideal) S_ .f32 0xFF800000#32) b).trans (fold_max_coe fun i => s i b)

/-- The maximum of column `b` of the array of a real matrix, as the reference takes it. -/
theorem rColMax_embed (s : Fin 8192 → Fin 8192 → ℝ) (b : Fin 8192) :
    rColMax (F := Ideal) (embed s) (ix1 b) = ((tileMax (fun i => s i b) : ℝ) : EReal) := by
  unfold rColMax
  rw [maximumf_apply, colMaxRed, negInf_vec]
  exact max_bot_left _

/-- The exponential of an entry less its column's maximum. -/
theorem rColExp_embed (s : Fin 8192 → Fin 8192 → ℝ) (a b : Fin 8192) :
    rColExp (F := Ideal) (embed s) (ix2 a b) = ((Real.exp (s a b - tileMax (fun i => s i b)) : ℝ) : EReal) := by
  have hm : broadcastInDim S8192x8192 ![0, 1] bcast_S1x8192_S8192x8192_0_1 (broadcastInDim S1x8192 ![1] bcast_S8192_S1x8192_1 (rColMax (F := Ideal) (embed s))) (ix2 a b)
      = ((tileMax (fun i => s i b) : ℝ) : EReal) :=
    (bcast_row bcast_S1x8192_S8192x8192_0_1 _ a b).trans
      ((bcast_vec_row bcast_S8192_S1x8192_1 _ 0 b).trans (rColMax_embed s b))
  unfold rColExp
  rw [hostExp_apply, subf_apply, hm]
  exact exp_coe_sub_coe _ _

/-- The sum along column `b` of those exponentials. -/
theorem rColSum_embed (s : Fin 8192 → Fin 8192 → ℝ) (b : Fin 8192) :
    Host.reduceAdd (F := Ideal) (rColExp (F := Ideal) (embed s)) (constant (F := Ideal) S_ .f32 0x00000000#32) reducesTo_S8192x8192_S8192_d0 h_S_ (ix1 b)
      = ((∑ k, Real.exp (s k b - tileMax (fun i => s i b)) : ℝ) : EReal) :=
  (hostReduceAdd_cols_apply reducesTo_S8192x8192_S8192_d0 h_S_ _ _ b).trans
    (by
      rw [constant_zero_apply, zero_add, ← Cert.Lib.SumReindex.coe_sum]
      exact Finset.sum_congr rfl fun k _ => rColExp_embed s k b)

/-- THE COLUMN SOFT-MAX: the reference's max-shifted soft-max along each column of the array of a real matrix is the
    array of the matrix's soft-max along each column. -/
theorem rColSm_embed (s : Fin 8192 → Fin 8192 → ℝ) :
    rColSm (F := Ideal) (embed s) = embed (fun a b => Real.exp (s a b) / ∑ a', Real.exp (s a' b)) := by
  funext j
  obtain ⟨a, b, rfl⟩ : ∃ a b, j = ix2 a b := ⟨j 0, j 1, eq_ix2 j⟩
  have hpos : 0 < ∑ k, Real.exp (s k b - tileMax (fun i => s i b)) :=
    Finset.sum_pos (fun _ _ => Real.exp_pos _) Finset.univ_nonempty
  have hd : broadcastInDim S8192x8192 ![0, 1] bcast_S1x8192_S8192x8192_0_1 (broadcastInDim S1x8192 ![1] bcast_S8192_S1x8192_1 (Host.reduceAdd (F := Ideal) (rColExp (F := Ideal) (embed s)) (constant (F := Ideal) S_ .f32 0x00000000#32) reducesTo_S8192x8192_S8192_d0 h_S_)) (ix2 a b)
      = ((∑ k, Real.exp (s k b - tileMax (fun i => s i b)) : ℝ) : EReal) :=
    (bcast_row bcast_S1x8192_S8192x8192_0_1 _ a b).trans
      ((bcast_vec_row bcast_S8192_S1x8192_1 _ 0 b).trans (rColSum_embed s b))
  unfold rColSm
  rw [hostDivf_apply, rColExp_embed, hd, div_coe_coe _ hpos.ne', exp_sub_div_sum_exp_sub (fun i => s i b)]
  rfl

/-! ## The two results -/

/-- The row soft-max of the scores of the two normalised matrices. -/
theorem rowSm_scores (x y : Fin 8192 → Fin 1024 → ℝ) :
    rRowSm (F := Ideal) (rScore (F := Ideal) (embed (nrm x)) (embed (nrm y))) = embed (smRow x y) := by
  rw [rScore_embed, rRowSm_embed]
  rfl

/-- The column soft-max of the scores of the two normalised matrices. -/
theorem colSm_scores (x y : Fin 8192 → Fin 1024 → ℝ) :
    rColSm (F := Ideal) (rScore (F := Ideal) (embed (nrm x)) (embed (nrm y))) = embed (smCol x y) := by
  rw [rScore_embed, rColSm_embed]
  rfl

/-- The first result's product at an index. -/
theorem dot0_read (x y : Fin 8192 → Fin 1024 → ℝ) (j : Fin 8192) (k : Fin 1024) :
    Host.dotGeneral (F := Ideal) (φ₁ := .f32) (φ₂ := .f32) dot_S8192x8192_S8192x1024_S8192x1024_1_0_0_1_n_n none
      (transpose S8192x8192 [1, 0] (rRowSm (F := Ideal) (rScore (F := Ideal) (embed (nrm x)) (embed (nrm y))))
        transposes_S8192x8192_S8192x8192_1_0) (embed (nrm x)) (ix2 j k)
      = ((∑ i, smRow x y i j * nrm x i k : ℝ) : EReal) := by
  refine (dotGeneral_read dot_S8192x8192_S8192x1024_S8192x1024_1_0_0_1_n_n 8192 rfl rfl _ (embed (nrm x)) (ix2 j k)
    (fun i => ((smRow x y i j : ℝ) : EReal)) (fun i => ((nrm x i k : ℝ) : EReal)) (fun i => ?_) (fun i => ?_)).trans
    (Cert.Lib.SumReindex.coe_sum_mul _ _)
  · exact (congrArg _ (d2_lhs j k i)).trans
      ((transpose_swap transposes_S8192x8192_S8192x8192_1_0 _ i j).trans (congrFun (rowSm_scores x y) (ix2 i j)))
  · exact congrArg (embed (nrm x)) (d2_rhs j k i)

/-- The second result's product at an index. -/
theorem dot1_read (x y : Fin 8192 → Fin 1024 → ℝ) (i : Fin 8192) (k : Fin 1024) :
    Host.dotGeneral (F := Ideal) (φ₁ := .f32) (φ₂ := .f32) dot_S8192x8192_S8192x1024_S8192x1024_1_0_0_1_n_n none
      (rColSm (F := Ideal) (rScore (F := Ideal) (embed (nrm x)) (embed (nrm y)))) (embed (nrm y)) (ix2 i k)
      = ((∑ j, smCol x y i j * nrm y j k : ℝ) : EReal) := by
  refine (dotGeneral_read dot_S8192x8192_S8192x1024_S8192x1024_1_0_0_1_n_n 8192 rfl rfl _ (embed (nrm y)) (ix2 i k)
    (fun j => ((smCol x y i j : ℝ) : EReal)) (fun j => ((nrm y j k : ℝ) : EReal)) (fun j => ?_) (fun j => ?_)).trans
    (Cert.Lib.SumReindex.coe_sum_mul _ _)
  · exact (congrArg _ (d2_lhs i k j)).trans (congrFun (colSm_scores x y) (ix2 i j))
  · exact congrArg (embed (nrm y)) (d2_rhs i k j)

/-- THE FIRST RESULT: over the arrays of the two normalised matrices it is the array of the specification's first
    result. -/
theorem rOut0_nrm (x y : Fin 8192 → Fin 1024 → ℝ) :
    rOut0 (F := Ideal) (embed (nrm x)) (embed (nrm y)) = embed (outLR x y) := by
  funext idx
  obtain ⟨j, k, rfl⟩ : ∃ j k, idx = ix2 j k := ⟨idx 0, idx 1, eq_ix2 idx⟩
  unfold rOut0
  rw [subf_apply, dot0_read]
  exact (EReal.coe_sub (nrm y j k) (∑ i, smRow x y i j * nrm x i k)).symm

/-- THE SECOND RESULT likewise. -/
theorem rOut1_nrm (x y : Fin 8192 → Fin 1024 → ℝ) :
    rOut1 (F := Ideal) (embed (nrm x)) (embed (nrm y)) = embed (outRL x y) := by
  funext idx
  obtain ⟨i, k, rfl⟩ : ∃ i k, idx = ix2 i k := ⟨idx 0, idx 1, eq_ix2 idx⟩
  unfold rOut1
  rw [subf_apply, dot1_read]
  exact (EReal.coe_sub (nrm x i k) (∑ j, smCol x y i j * nrm y j k)).symm

/-! ## The run -/

open Idealize.ShloMosaic.TcCoe Idealize.SL.Sem Idealize.ShloMosaic.StableHlo

/-- Both results over the arrays of two real matrices with no zero row. -/
theorem rOut0_spec (x y : Fin 8192 → Fin 1024 → ℝ) (hxpos : ∀ i, 0 < ∑ k, x i k * x i k) (hypos : ∀ j, 0 < ∑ k, y j k * y j k) :
    rOut0 (F := Ideal) (rQuot (F := Ideal) (embed x)) (rQuot (F := Ideal) (embed y)) = embed (outLR x y) := by
  rw [rQuot_embed x hxpos, rQuot_embed y hypos]
  exact rOut0_nrm x y
theorem rOut1_spec (x y : Fin 8192 → Fin 1024 → ℝ) (hxpos : ∀ i, 0 < ∑ k, x i k * x i k) (hypos : ∀ j, 0 < ∑ k, y j k * y j k) :
    rOut1 (F := Ideal) (rQuot (F := Ideal) (embed x)) (rQuot (F := Ideal) (embed y)) = embed (outRL x y) := by
  rw [rQuot_embed x hxpos, rQuot_embed y hypos]
  exact rOut1_nrm x y

/-- THE REFERENCE'S VALUE: from a memory with zero counters whose two argument arrays hold real matrices `x`, `y` with
    no zero row, every weakly fair execution of the reference at the extended reals terminates with the two result
    arrays holding the specification's two results of `x`, `y`, and the arguments unchanged. -/
theorem run_value (m : (ℓ : Loc nD τ sig) → Buf (Elt Ideal) ℓ) (g : Dev nD → PrngReg) (x y : Fin 8192 → Fin 1024 → ℝ)
    (hx : ∀ c : Dev nD, m ((c.tc : Thread nD τ).loc main_arg0) = embed x) (hy : ∀ c : Dev nD, m ((c.tc : Thread nD τ).loc main_arg1) = embed y)
    (hxpos : ∀ i, 0 < ∑ k, x i k * x i k) (hypos : ∀ j, 0 < ∑ k, y j k * y j k) :
    θ_run (defs (F := Ideal)) (onTc (τ := τ) (main (F := Ideal))) ⟨m, fun _ => 0, g⟩ (fun r => ∀ c : Dev nD,
      r.2.mem ((c.tc : Thread nD τ).loc main_v21) = embed (outLR x y)
      ∧ r.2.mem ((c.tc : Thread nD τ).loc main_v34) = embed (outRL x y)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun _ h c =>
    ⟨(h c main_v21).trans ((after_v21 _).trans
        ((congrArg₂ (fun X Y => rOut0 (F := Ideal) (rQuot (F := Ideal) X) (rQuot (F := Ideal) Y)) (hx c) (hy c)).trans
          (rOut0_spec x y hxpos hypos))),
     (h c main_v34).trans ((after_v34 _).trans
        ((congrArg₂ (fun X Y => rOut1 (F := Ideal) (rQuot (F := Ideal) X) (rQuot (F := Ideal) Y)) (hx c) (hy c)).trans
          (rOut1_spec x y hxpos hypos))),
     (h c main_arg0).trans (Cert.ReferenceIdeal.RawRun.after_arg0 _),
     (h c main_arg1).trans (Cert.ReferenceIdeal.RawRun.after_arg1 _)⟩)
    (Cert.ReferenceIdeal.RawRun.run_all m g)

end Cert.RefSide

end
-- ==== Proof.lean ====
/-
  The certificate's five claims.

  Both kernel programs run four pipelined regions between two stretches of host operations; their frames come from the
  four regions' records chained through the thread states. The reference is a straight line of host operations; its frame
  is its run with the results dropped. No operation was rewritten by the idealization, so it preserves the program
  trivially. The value claim composes, on each side, what every stage holds as a function of the two input matrices — on
  inputs the precondition makes real matrices with nonzero rows — and the two sides meet in the specification's two
  functions: each normalised row corrected by the soft-max-weighted average of the other matrix's normalised rows.
-/
import proofs.«154747_j1580547971631_2_alg».proof.Defs
import proofs.«154747_j1580547971631_2_alg».proof.Proof.Gen.Kernel
import proofs.«154747_j1580547971631_2_alg».proof.Proof.Gen.KernelIdeal
import proofs.«154747_j1580547971631_2_alg».proof.Proof.Gen.ReferenceIdeal
import proofs.«154747_j1580547971631_2_alg».proof.Proof.Gen.Pre_finite_inputs
import proofs.«154747_j1580547971631_2_alg».proof.Proof.KiRun
import proofs.«154747_j1580547971631_2_alg».proof.Proof.KbKiRun
import proofs.«154747_j1580547971631_2_alg».proof.Proof.RefRun
import proofs.«154747_j1580547971631_2_alg».proof.Proof.Algebraic
import proofs.«154747_j1580547971631_2_alg».proof.Proof.LseV5Array
import proofs.«154747_j1580547971631_2_alg».proof.Proof.LseV5ArrayR1
import proofs.«154747_j1580547971631_2_alg».proof.Proof.CombVArr2
import proofs.«154747_j1580547971631_2_alg».proof.Proof.CombVArr3
import proofs.«154747_j1580547971631_2_alg».proof.Proof.RefValue
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame m ρ
theorem frame_ki : @Cert.frame_KernelIdeal Cert.KernelIdeal.Gen.facts Cert.Pre_finite_inputs.Gen.facts :=
  fun m ρ _ => Cert.KernelIdeal.Hand.frame m ρ
theorem frame_ri : @Cert.frame_ReferenceIdeal Cert.ReferenceIdeal.Gen.facts Cert.Pre_finite_inputs.Gen.facts :=
  fun m ρ _ => Cert.RefSide.run_frame m ρ
theorem preserves : Cert.preserves_Kernel_KernelIdeal := trivial

/-- What each of the four regions leaves in its output array. -/
theorem regionValues : Cert.KernelIdeal.Hand.RegionValues where
  lse0 := Cert.KernelIdeal.Lse0.arr_value
  lse1 := Cert.KernelIdeal.Lse1.arr_value
  comb2 := Cert.KernelIdeal.Comb2.arr_value
  comb3 := Cert.KernelIdeal.Comb3.arr_value

theorem algebraic : @Cert.algebraic_KernelIdeal_ReferenceIdeal Cert.KernelIdeal.Gen.facts Cert.ReferenceIdeal.Gen.facts Cert.Pre_finite_inputs.Gen.facts :=
  algebraic_of regionValues (fun m' g' x y hx hy hxpos hypos => Cert.RefSide.run_value m' g' x y hx hy hxpos hypos)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
